-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)) →
    ∃ (v0 : (c : Dev Cert.KernelIdeal.nD) → Buf (Elt Ideal) ((c.tc : Thread Cert.KernelIdeal.nD Cert.KernelIdeal.τ).loc Cert.KernelIdeal.main_v212)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v212) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v223) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x2048 : Shape := ⟨2, ![10000, 2048]⟩
abbrev S10000x1024 : Shape := ⟨2, ![10000, 1024]⟩
abbrev S320000 : Shape := ⟨1, ![320000]⟩
abbrev S64x2048 : Shape := ⟨2, ![64, 2048]⟩
abbrev S64x1024 : Shape := ⟨2, ![64, 1024]⟩
abbrev S32x32 : Shape := ⟨2, ![32, 32]⟩
abbrev S32x64 : Shape := ⟨2, ![32, 64]⟩
abbrev S32 : Shape := ⟨1, ![32]⟩
abbrev S_ : Shape := ⟨0, ![]⟩

class Facts : Prop where
  bcast_S_S10000x2048 : S_.BroadcastsInDim S10000x2048 (![] : Fin 0 → Fin S10000x2048.rank)
  reducesTo_S10000x2048_S_d0_1 : S10000x2048.ReducesTo [0, 1] S_
  h_S_ : 0 < S_.numel
  bcast_S_S10000x1024 : S_.BroadcastsInDim S10000x1024 (![] : Fin 0 → Fin S10000x1024.rank)
  reducesTo_S10000x1024_S_d0_1 : S10000x1024.ReducesTo [0, 1] S_
  bcast_S_S64x2048 : S_.BroadcastsInDim S64x2048 (![] : Fin 0 → Fin S64x2048.rank)
  reducesTo_S64x2048_S_d0_1 : S64x2048.ReducesTo [0, 1] S_
  bcast_S_S64x1024 : S_.BroadcastsInDim S64x1024 (![] : Fin 0 → Fin S64x1024.rank)
  reducesTo_S64x1024_S_d0_1 : S64x1024.ReducesTo [0, 1] S_
  bcast_S_S32x32 : S_.BroadcastsInDim S32x32 (![] : Fin 0 → Fin S32x32.rank)
  reducesTo_S32x32_S_d0_1 : S32x32.ReducesTo [0, 1] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_

variable [Facts]

def fn_part6 {F : FTy → Type} [FloatOps F] (main_v98 : IVec S_ 1) (main_v101 : IVec S32 1) (main_c_39 : IVec S_ 1) : IVec S_ 1 :=
  let main_v102 : IVec S_ 1 := (fun x v => Host.reduce IntOp.andi x v reducesTo_S32_S_d0 h_S_) main_v101 main_c_39
  let main_v103 : IVec S_ 1 := andi main_v98 main_v102
  main_v103

def fn_part5 {F : FTy → Type} [FloatOps F] (main_arg26 : FVec F S32 .f32) (main_arg27 : FVec F S32x32 .f32) (main_arg28 : FVec F S32 .f32) (main_v83 : IVec S_ 1) (main_v84 : FVec F S32x32 .f32) (main_cst_32 : FVec F S_ .f32) : IVec S_ 1 :=
  let main_v85 : FVec F S32x32 .f32 := broadcastInDim S32x32 ![] bcast_S_S32x32 main_cst_32
  let main_v86 : IVec S32x32 1 := cmpf .olt main_v84 main_v85
  let main_c_33 : IVec S_ 1 := constantI S_ 1 1#1
  let main_v87 : IVec S_ 1 := (fun x v => Host.reduce IntOp.andi x v reducesTo_S32x32_S_d0_1 h_S_) main_v86 main_c_33
  let main_v88 : IVec S_ 1 := andi main_v83 main_v87
  let main_v89 : FVec F S32 .f32 := Host.absf main_arg26
  let main_cst_34 : FVec F S_ .f32 := constant S_ .f32 0x7F800000#32
  let main_v90 : FVec F S32 .f32 := broadcastInDim S32 ![] bcast_S_S32 main_cst_34
  let main_v91 : IVec S32 1 := cmpf .olt main_v89 main_v90
  let main_c_35 : IVec S_ 1 := constantI S_ 1 1#1
  let main_v92 : IVec S_ 1 := (fun x v => Host.reduce IntOp.andi x v reducesTo_S32_S_d0 h_S_) main_v91 main_c_35
  let main_v93 : IVec S_ 1 := andi main_v88 main_v92
  let main_v94 : FVec F S32x32 .f32 := Host.absf main_arg27
  let main_cst_36 : FVec F S_ .f32 := constant S_ .f32 0x7F800000#32
  let main_v95 : FVec F S32x32 .f32 := broadcastInDim S32x32 ![] bcast_S_S32x32 main_cst_36
  let main_v96 : IVec S32x32 1 := cmpf .olt main_v94 main_v95
  let main_c_37 : IVec S_ 1 := constantI S_ 1 1#1
  let main_v97 : IVec S_ 1 := (fun x v => Host.reduce IntOp.andi x v reducesTo_S32x32_S_d0_1 h_S_) main_v96 main_c_37
  let main_v98 : IVec S_ 1 := andi main_v93 main_v97
  let main_v99 : FVec F S32 .f32 := Host.absf main_arg28
  let main_cst_38 : FVec F S_ .f32 := constant S_ .f32 0x7F800000#32
  let main_v100 : FVec F S32 .f32 := broadcastInDim S32 ![] bcast_S_S32 main_cst_38
  let main_v101 : IVec S32 1 := cmpf .olt main_v99 main_v100
  let main_c_39 : IVec S_ 1 := constantI S_ 1 1#1
  fn_part6 (F := F) main_v98 main_v101 main_c_39

def fn_part4 {F : FTy → Type} [FloatOps F] (main_arg22 : FVec F S32 .f32) (main_arg23 : FVec F S32x32 .f32) (main_arg24 : FVec F S32 .f32) (main_arg25 : FVec F S32x32 .f32) (main_arg26 : FVec F S32 .f32) (main_arg27 : FVec F S32x32 .f32) (main_arg28 : FVec F S32 .f32) (main_v63 : IVec S_ 1) (main_v67 : IVec S_ 1) : IVec S_ 1 :=
  let main_v68 : IVec S_ 1 := andi main_v63 main_v67
  let main_v69 : FVec F S32 .f32 := Host.absf main_arg22
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  let main_v74 : FVec F S32x32 .f32 := Host.absf main_arg23
  let main_cst_28 : FVec F S_ .f32 := constant S_ .f32 0x7F800000#32
  let main_v75 : FVec F S32x32 .f32 := broadcastInDim S32x32 ![] bcast_S_S32x32 main_cst_28
  let main_v76 : IVec S32x32 1 := cmpf .olt main_v74 main_v75
  let main_c_29 : IVec S_ 1 := constantI S_ 1 1#1
  let main_v77 : IVec S_ 1 := (fun x v => Host.reduce IntOp.andi x v reducesTo_S32x32_S_d0_1 h_S_) main_v76 main_c_29
  let main_v78 : IVec S_ 1 := andi main_v73 main_v77
  let main_v79 : FVec F S32 .f32 := Host.absf main_arg24
  let main_cst_30 : FVec F S_ .f32 := constant S_ .f32 0x7F800000#32
  let main_v80 : FVec F S32 .f32 := broadcastInDim S32 ![] bcast_S_S32 main_cst_30
  let main_v81 : IVec S32 1 := cmpf .olt main_v79 main_v80
  let main_c_31 : IVec S_ 1 := constantI S_ 1 1#1
  let main_v82 : IVec S_ 1 := (fun x v => Host.reduce IntOp.andi x v reducesTo_S32_S_d0 h_S_) main_v81 main_c_31
  let main_v83 : IVec S_ 1 := andi main_v78 main_v82
  let main_v84 : FVec F S32x32 .f32 := Host.absf main_arg25
  let main_cst_32 : FVec F S_ .f32 := constant S_ .f32 0x7F800000#32
  fn_part5 (F := F) main_arg26 main_arg27 main_arg28 main_v83 main_v84 main_cst_32

def fn_part3 {F : FTy → Type} [FloatOps F] (main_arg19 : FVec F S32x64 .f32) (main_arg20 : FVec F S32 .f32) (main_arg21 : FVec F S32x32 .f32) (main_arg22 : FVec F S32 .f32) (main_arg23 : FVec F S32x32 .f32) (main_arg24 : FVec F S32 .f32) (main_arg25 : FVec F S32x32 .f32) (main_arg26 : FVec F S32 .f32) (main_arg27 : FVec F S32x32 .f32) (main_arg28 : FVec F S32 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32x64 .f32 := Host.absf main_arg19
  let main_cst_20 : FVec F S_ .f32 := constant S_ .f32 0x7F800000#32
  let main_v55 : FVec F S32x64 .f32 := broadcastInDim S32x64 ![] bcast_S_S32x64 main_cst_20
  let main_v56 : IVec S32x64 1 := cmpf .olt main_v54 main_v55
  let main_c_21 : IVec S_ 1 := constantI S_ 1 1#1
  let main_v57 : IVec S_ 1 := (fun x v => Host.reduce IntOp.andi x v reducesTo_S32x64_S_d0_1 h_S_) main_v56 main_c_21
  let main_v58 : IVec S_ 1 := andi main_v53 main_v57
  let main_v59 : FVec F S32 .f32 := Host.absf main_arg20
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S32x32 .f32 := Host.absf main_arg21
  let main_cst_24 : FVec F S_ .f32 := constant S_ .f32 0x7F800000#32
  let main_v65 : FVec F S32x32 .f32 := broadcastInDim S32x32 ![] bcast_S_S32x32 main_cst_24
  let main_v66 : IVec S32x32 1 := cmpf .olt main_v64 main_v65
  let main_c_25 : IVec S_ 1 := constantI S_ 1 1#1
  let main_v67 : IVec S_ 1 := (fun x v => Host.reduce IntOp.andi x v reducesTo_S32x32_S_d0_1 h_S_) main_v66 main_c_25
  fn_part4 (F := F) main_arg22 main_arg23 main_arg24 main_arg25 main_arg26 main_arg27 main_arg28 main_v63 main_v67

def fn_part2 {F : FTy → Type} [FloatOps F] (main_arg15 : FVec F S32x64 .f32) (main_arg16 : FVec F S32 .f32) (main_arg17 : FVec F S32x64 .f32) (main_arg18 : FVec F S32 .f32) (main_arg19 : FVec F S32x64 .f32) (main_arg20 : FVec F S32 .f32) (main_arg21 : FVec F S32x32 .f32) (main_arg22 : FVec F S32 .f32) (main_arg23 : FVec F S32x32 .f32) (main_arg24 : FVec F S32 .f32) (main_arg25 : FVec F S32x32 .f32) (main_arg26 : FVec F S32 .f32) (main_arg27 : FVec F S32x32 .f32) (main_arg28 : FVec F S32 .f32) (main_v33 : IVec S_ 1) : IVec S_ 1 :=
  let main_v34 : FVec F S32x64 .f32 := Host.absf main_arg15
  let main_cst_12 : FVec F S_ .f32 := constant S_ .f32 0x7F800000#32
  let main_v35 : FVec F S32x64 .f32 := broadcastInDim S32x64 ![] bcast_S_S32x64 main_cst_12
  let main_v36 : IVec S32x64 1 := cmpf .olt main_v34 main_v35
  let main_c_13 : IVec S_ 1 := constantI S_ 1 1#1
  let main_v37 : IVec S_ 1 := (fun x v => Host.reduce IntOp.andi x v reducesTo_S32x64_S_d0_1 h_S_) main_v36 main_c_13
  let main_v38 : IVec S_ 1 := andi main_v33 main_v37
  let main_v39 : FVec F S32 .f32 := Host.absf main_arg16
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x64 .f32 := Host.absf main_arg17
  let main_cst_16 : FVec F S_ .f32 := constant S_ .f32 0x7F800000#32
  let main_v45 : FVec F S32x64 .f32 := broadcastInDim S32x64 ![] bcast_S_S32x64 main_cst_16
  let main_v46 : IVec S32x64 1 := cmpf .olt main_v44 main_v45
  let main_c_17 : IVec S_ 1 := constantI S_ 1 1#1
  let main_v47 : IVec S_ 1 := (fun x v => Host.reduce IntOp.andi x v reducesTo_S32x64_S_d0_1 h_S_) main_v46 main_c_17
  let main_v48 : IVec S_ 1 := andi main_v43 main_v47
  let main_v49 : FVec F S32 .f32 := Host.absf main_arg18
  let main_cst_18 : FVec F S_ .f32 := constant S_ .f32 0x7F800000#32
  let main_v50 : FVec F S32 .f32 := broadcastInDim S32 ![] bcast_S_S32 main_cst_18
  fn_part3 (F := F) main_arg19 main_arg20 main_arg21 main_arg22 main_arg23 main_arg24 main_arg25 main_arg26 main_arg27 main_arg28 main_v48 main_v49 main_v50

def fn_part1 {F : FTy → Type} [FloatOps F] (main_arg12 : FVec F S32x32 .f32) (main_arg13 : FVec F S32x64 .f32) (main_arg14 : FVec F S32 .f32) (main_arg15 : FVec F S32x64 .f32) (main_arg16 : FVec F S32 .f32) (main_arg17 : FVec F S32x64 .f32) (main_arg18 : FVec F S32 .f32) (main_arg19 : FVec F S32x64 .f32) (main_arg20 : FVec F S32 .f32) (main_arg21 : FVec F S32x32 .f32) (main_arg22 : FVec F S32 .f32) (main_arg23 : FVec F S32x32 .f32) (main_arg24 : FVec F S32 .f32) (main_arg25 : FVec F S32x32 .f32) (main_arg26 : FVec F S32 .f32) (main_arg27 : FVec F S32x32 .f32) (main_arg28 : FVec F S32 .f32) (main_v13 : IVec S_ 1) (main_v16 : IVec S64x1024 1) : IVec S_ 1 :=
  let main_c_5 : IVec S_ 1 := constantI S_ 1 1#1
  let main_v17 : IVec S_ 1 := (fun x v => Host.reduce IntOp.andi x v reducesTo_S64x1024_S_d0_1 h_S_) main_v16 main_c_5
  let main_v18 : IVec S_ 1 := andi main_v13 main_v17
  let main_v19 : FVec F S32x32 .f32 := Host.absf main_arg12
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32x64 .f32 := Host.absf main_arg13
  let main_cst_8 : FVec F S_ .f32 := constant S_ .f32 0x7F800000#32
  let main_v25 : FVec F S32x64 .f32 := broadcastInDim S32x64 ![] bcast_S_S32x64 main_cst_8
  let main_v26 : IVec S32x64 1 := cmpf .olt main_v24 main_v25
  let main_c_9 : IVec S_ 1 := constantI S_ 1 1#1
  let main_v27 : IVec S_ 1 := (fun x v => Host.reduce IntOp.andi x v reducesTo_S32x64_S_d0_1 h_S_) main_v26 main_c_9
  let main_v28 : IVec S_ 1 := andi main_v23 main_v27
  let main_v29 : FVec F S32 .f32 := Host.absf main_arg14
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg15 main_arg16 main_arg17 main_arg18 main_arg19 main_arg20 main_arg21 main_arg22 main_arg23 main_arg24 main_arg25 main_arg26 main_arg27 main_arg28 main_v33

def fn {F : FTy → Type} [FloatOps F] (main_arg0 : FVec F S10000x2048 .f32) (main_arg1 : FVec F S10000x1024 .f32) (main_arg2 : IVec S320000 32) (main_arg3 : IVec S320000 32) (main_arg4 : IVec S320000 32) (main_arg5 : IVec S320000 32) (main_arg6 : IVec S320000 32) (main_arg7 : IVec S320000 32) (main_arg8 : IVec S320000 32) (main_arg9 : IVec S320000 32) (main_arg10 : FVec F S64x2048 .f32) (main_arg11 : FVec F S64x1024 .f32) (main_arg12 : FVec F S32x32 .f32) (main_arg13 : FVec F S32x64 .f32) (main_arg14 : FVec F S32 .f32) (main_arg15 : FVec F S32x64 .f32) (main_arg16 : FVec F S32 .f32) (main_arg17 : FVec F S32x64 .f32) (main_arg18 : FVec F S32 .f32) (main_arg19 : FVec F S32x64 .f32) (main_arg20 : FVec F S32 .f32) (main_arg21 : FVec F S32x32 .f32) (main_arg22 : FVec F S32 .f32) (main_arg23 : FVec F S32x32 .f32) (main_arg24 : FVec F S32 .f32) (main_arg25 : FVec F S32x32 .f32) (main_arg26 : FVec F S32 .f32) (main_arg27 : FVec F S32x32 .f32) (main_arg28 : FVec F S32 .f32) : IVec S_ 1 :=
  let main_v0 : FVec F S10000x2048 .f32 := Host.absf main_arg0
  let main_cst : FVec F S_ .f32 := constant S_ .f32 0x7F800000#32
  let main_v1 : FVec F S10000x2048 .f32 := broadcastInDim S10000x2048 ![] bcast_S_S10000x2048 main_cst
  let main_v2 : IVec S10000x2048 1 := cmpf .olt main_v0 main_v1
  let main_c : IVec S_ 1 := constantI S_ 1 1#1
  let main_v3 : IVec S_ 1 := (fun x v => Host.reduce IntOp.andi x v reducesTo_S10000x2048_S_d0_1 h_S_) main_v2 main_c
  let main_v4 : FVec F S10000x1024 .f32 := Host.absf main_arg1
  let main_cst_0 : FVec F S_ .f32 := constant S_ .f32 0x7F800000#32
  let main_v5 : FVec F S10000x1024 .f32 := broadcastInDim S10000x1024 ![] bcast_S_S10000x1024 main_cst_0
  let main_v6 : IVec S10000x1024 1 := cmpf .olt main_v4 main_v5
  let main_c_1 : IVec S_ 1 := constantI S_ 1 1#1
  let main_v7 : IVec S_ 1 := (fun x v => Host.reduce IntOp.andi x v reducesTo_S10000x1024_S_d0_1 h_S_) main_v6 main_c_1
  let main_v8 : IVec S_ 1 := andi main_v3 main_v7
  let main_v9 : FVec F S64x2048 .f32 := Host.absf main_arg10
  let main_cst_2 : FVec F S_ .f32 := constant S_ .f32 0x7F800000#32
  let main_v10 : FVec F S64x2048 .f32 := broadcastInDim S64x2048 ![] bcast_S_S64x2048 main_cst_2
  let main_v11 : IVec S64x2048 1 := cmpf .olt main_v9 main_v10
  let main_c_3 : IVec S_ 1 := constantI S_ 1 1#1
  let main_v12 : IVec S_ 1 := (fun x v => Host.reduce IntOp.andi x v reducesTo_S64x2048_S_d0_1 h_S_) main_v11 main_c_3
  let main_v13 : IVec S_ 1 := andi main_v8 main_v12
  let main_v14 : FVec F S64x1024 .f32 := Host.absf main_arg11
  let main_cst_4 : FVec F S_ .f32 := constant S_ .f32 0x7F800000#32
  let main_v15 : FVec F S64x1024 .f32 := broadcastInDim S64x1024 ![] bcast_S_S64x1024 main_cst_4
  let main_v16 : IVec S64x1024 1 := cmpf .olt main_v14 main_v15
  fn_part1 (F := F) main_arg12 main_arg13 main_arg14 main_arg15 main_arg16 main_arg17 main_arg18 main_arg19 main_arg20 main_arg21 main_arg22 main_arg23 main_arg24 main_arg25 main_arg26 main_arg27 main_arg28 main_v13 main_v16
-- ==== Kernel.lean ====
abbrev S10000x2048 : Shape := ⟨2, ![10000, 2048]⟩
abbrev S10000x1024 : Shape := ⟨2, ![10000, 1024]⟩
abbrev S320000 : Shape := ⟨1, ![320000]⟩
abbrev S64x2048 : Shape := ⟨2, ![64, 2048]⟩
abbrev S64x1024 : Shape := ⟨2, ![64, 1024]⟩
abbrev S32x32 : Shape := ⟨2, ![32, 32]⟩
abbrev S32x64 : Shape := ⟨2, ![32, 64]⟩
abbrev S32 : Shape := ⟨1, ![32]⟩
abbrev S2048x64 : Shape := ⟨2, ![2048, 64]⟩
abbrev S_ : Shape := ⟨0, ![]⟩
abbrev S64 : Shape := ⟨1, ![64]⟩
abbrev S1x64 : Shape := ⟨2, ![1, 64]⟩
abbrev S10000x64 : Shape := ⟨2, ![10000, 64]⟩
abbrev S1000x2048 : Shape := ⟨2, ![1000, 2048]⟩
abbrev S1000x64 : Shape := ⟨2, ![1000, 64]⟩
abbrev S1024x64 : Shape := ⟨2, ![1024, 64]⟩
abbrev S1000x1024 : Shape := ⟨2, ![1000, 1024]⟩
abbrev S64x32 : Shape := ⟨2, ![64, 32]⟩
abbrev S1x32 : Shape := ⟨2, ![1, 32]⟩
abbrev S10000x32 : Shape := ⟨2, ![10000, 32]⟩
abbrev S1000x32 : Shape := ⟨2, ![1000, 32]⟩
abbrev S320000x1 : Shape := ⟨2, ![320000, 1]⟩
abbrev S320000x32 : Shape := ⟨2, ![320000, 32]⟩
abbrev S10000x1 : Shape := ⟨2, ![10000, 1]⟩
abbrev S10000x10000 : Shape := ⟨2, ![10000, 10000]⟩
abbrev S400x32 : Shape := ⟨2, ![400, 32]⟩
abbrev S400x10000 : Shape := ⟨2, ![400, 10000]⟩
abbrev S32x10000 : Shape := ⟨2, ![32, 10000]⟩

abbrev nBuf : Space → Nat
  | .hbm => 341
  | .vmem => 71
  | .smem => 0
  | _ => 0

abbrev hbmTy0_0 (i : Nat) : BufTy := match i % 128 with
  | 0 => ⟨S10000x2048, .f32⟩
  | 1 => ⟨S10000x1024, .f32⟩
  | 2 => ⟨S320000, .i32⟩
  | 3 => ⟨S320000, .i32⟩
  | 4 => ⟨S320000, .i32⟩
  | 5 => ⟨S320000, .i32⟩
  | 6 => ⟨S320000, .i32⟩
  | 7 => ⟨S320000, .i32⟩
  | 8 => ⟨S320000, .i32⟩
  | 9 => ⟨S320000, .i32⟩
  | 10 => ⟨S64x2048, .f32⟩
  | 11 => ⟨S64x1024, .f32⟩
  | 12 => ⟨S32x32, .f32⟩
  | 13 => ⟨S32x64, .f32⟩
  | 14 => ⟨S32, .f32⟩
  | 15 => ⟨S32x64, .f32⟩
  | 16 => ⟨S32, .f32⟩
  | 17 => ⟨S32x64, .f32⟩
  | 18 => ⟨S32, .f32⟩
  | 19 => ⟨S32x64, .f32⟩
  | 20 => ⟨S32, .f32⟩
  | 21 => ⟨S32x32, .f32⟩
  | 22 => ⟨S32, .f32⟩
  | 23 => ⟨S32x32, .f32⟩
  | 24 => ⟨S32, .f32⟩
  | 25 => ⟨S32x32, .f32⟩
  | 26 => ⟨S32, .f32⟩
  | 27 => ⟨S32x32, .f32⟩
  | 28 => ⟨S32, .f32⟩
  | 29 => ⟨S2048x64, .f32⟩
  | 30 => ⟨S_, .f32⟩
  | 31 => ⟨S64, .f32⟩
  | 32 => ⟨S1x64, .f32⟩
  | 33 => ⟨S10000x64, .f32⟩
  | 34 => ⟨S1024x64, .f32⟩
  | 35 => ⟨S_, .f32⟩
  | 36 => ⟨S64, .f32⟩
  | 37 => ⟨S1x64, .f32⟩
  | 38 => ⟨S10000x64, .f32⟩
  | 39 => ⟨S64x32, .f32⟩
  | 40 => ⟨S1x32, .f32⟩
  | 41 => ⟨S10000x32, .f32⟩
  | 42 => ⟨S64x32, .f32⟩
  | 43 => ⟨S1x32, .f32⟩
  | 44 => ⟨S10000x32, .f32⟩
  | 45 => ⟨S64x32, .f32⟩
  | 46 => ⟨S1x32, .f32⟩
  | 47 => ⟨S10000x32, .f32⟩
  | 48 => ⟨S64x32, .f32⟩
  | 49 => ⟨S1x32, .f32⟩
  | 50 => ⟨S10000x32, .f32⟩
  | 51 => ⟨S_, .i32⟩
  | 52 => ⟨S320000, .i32⟩
  | 53 => ⟨S320000, .i1⟩
  | 54 => ⟨S_, .i32⟩
  | 55 => ⟨S320000, .i32⟩
  | 56 => ⟨S320000, .i32⟩
  | 57 => ⟨S320000, .i32⟩
  | 58 => ⟨S320000x1, .i32⟩
  | 59 => ⟨S320000x32, .f32⟩
  | 60 => ⟨S_, .f32⟩
  | 61 => ⟨S10000x32, .f32⟩
  | 62 => ⟨S320000x1, .i32⟩
  | 63 => ⟨S10000x32, .f32⟩
  | 64 => ⟨S_, .f32⟩
  | 65 => ⟨S320000x1, .f32⟩
  | 66 => ⟨S_, .f32⟩
  | 67 => ⟨S10000x1, .f32⟩
  | 68 => ⟨S320000x1, .i32⟩
  | 69 => ⟨S10000x1, .f32⟩
  | 70 => ⟨S_, .f32⟩
  | 71 => ⟨S10000x1, .f32⟩
  | 72 => ⟨S10000x1, .i1⟩
  | 73 => ⟨S_, .f32⟩
  | 74 => ⟨S10000x1, .f32⟩
  | 75 => ⟨S10000x1, .f32⟩
  | 76 => ⟨S10000x32, .f32⟩
  | 77 => ⟨S10000x32, .f32⟩
  | 78 => ⟨S_, .f32⟩
  | 79 => ⟨S_, .f32⟩
  | 80 => ⟨S10000x32, .i1⟩
  | 81 => ⟨S10000x32, .f32⟩
  | 82 => ⟨S10000x32, .f32⟩
  | 83 => ⟨S_, .i32⟩
  | 84 => ⟨S320000, .i32⟩
  | 85 => ⟨S320000, .i1⟩
  | 86 => ⟨S_, .i32⟩
  | 87 => ⟨S320000, .i32⟩
  | 88 => ⟨S320000, .i32⟩
  | 89 => ⟨S320000, .i32⟩
  | 90 => ⟨S320000x1, .i32⟩
  | 91 => ⟨S320000x32, .f32⟩
  | 92 => ⟨S_, .f32⟩
  | 93 => ⟨S10000x32, .f32⟩
  | 94 => ⟨S320000x1, .i32⟩
  | 95 => ⟨S10000x32, .f32⟩
  | 96 => ⟨S_, .f32⟩
  | 97 => ⟨S320000x1, .f32⟩
  | 98 => ⟨S_, .f32⟩
  | 99 => ⟨S10000x1, .f32⟩
  | 100 => ⟨S320000x1, .i32⟩
  | 101 => ⟨S10000x1, .f32⟩
  | 102 => ⟨S_, .f32⟩
  | 103 => ⟨S10000x1, .f32⟩
  | 104 => ⟨S10000x1, .i1⟩
  | 105 => ⟨S_, .f32⟩
  | 106 => ⟨S10000x1, .f32⟩
  | 107 => ⟨S10000x1, .f32⟩
  | 108 => ⟨S10000x32, .f32⟩
  | 109 => ⟨S10000x32, .f32⟩
  | 110 => ⟨S_, .f32⟩
  | 111 => ⟨S_, .f32⟩
  | 112 => ⟨S10000x32, .i1⟩
  | 113 => ⟨S10000x32, .f32⟩
  | 114 => ⟨S10000x32, .f32⟩
  | 115 => ⟨S10000x32, .f32⟩
  | 116 => ⟨S_, .i32⟩
  | 117 => ⟨S320000, .i32⟩
  | 118 => ⟨S320000, .i1⟩
  | 119 => ⟨S_, .i32⟩
  | 120 => ⟨S320000, .i32⟩
  | 121 => ⟨S320000, .i32⟩
  | 122 => ⟨S320000, .i32⟩
  | 123 => ⟨S320000x1, .i32⟩
  | 124 => ⟨S320000x32, .f32⟩
  | 125 => ⟨S_, .f32⟩
  | 126 => ⟨S10000x32, .f32⟩
  | 127 => ⟨S320000x1, .i32⟩
  | _ => ⟨S10000x2048, .f32⟩

abbrev hbmTy0_1 (i : Nat) : BufTy := match i % 128 with
  | 0 => ⟨S10000x32, .f32⟩
  | 1 => ⟨S_, .f32⟩
  | 2 => ⟨S320000x1, .f32⟩
  | 3 => ⟨S_, .f32⟩
  | 4 => ⟨S10000x1, .f32⟩
  | 5 => ⟨S320000x1, .i32⟩
  | 6 => ⟨S10000x1, .f32⟩
  | 7 => ⟨S_, .f32⟩
  | 8 => ⟨S10000x1, .f32⟩
  | 9 => ⟨S10000x1, .i1⟩
  | 10 => ⟨S_, .f32⟩
  | 11 => ⟨S10000x1, .f32⟩
  | 12 => ⟨S10000x1, .f32⟩
  | 13 => ⟨S10000x32, .f32⟩
  | 14 => ⟨S10000x32, .f32⟩
  | 15 => ⟨S_, .f32⟩
  | 16 => ⟨S_, .f32⟩
  | 17 => ⟨S10000x32, .i1⟩
  | 18 => ⟨S10000x32, .f32⟩
  | 19 => ⟨S10000x32, .f32⟩
  | 20 => ⟨S_, .i32⟩
  | 21 => ⟨S320000, .i32⟩
  | 22 => ⟨S320000, .i1⟩
  | 23 => ⟨S_, .i32⟩
  | 24 => ⟨S320000, .i32⟩
  | 25 => ⟨S320000, .i32⟩
  | 26 => ⟨S320000, .i32⟩
  | 27 => ⟨S320000x1, .i32⟩
  | 28 => ⟨S320000x32, .f32⟩
  | 29 => ⟨S_, .f32⟩
  | 30 => ⟨S10000x32, .f32⟩
  | 31 => ⟨S320000x1, .i32⟩
  | 32 => ⟨S10000x32, .f32⟩
  | 33 => ⟨S_, .f32⟩
  | 34 => ⟨S320000x1, .f32⟩
  | 35 => ⟨S_, .f32⟩
  | 36 => ⟨S10000x1, .f32⟩
  | 37 => ⟨S320000x1, .i32⟩
  | 38 => ⟨S10000x1, .f32⟩
  | 39 => ⟨S_, .f32⟩
  | 40 => ⟨S10000x1, .f32⟩
  | 41 => ⟨S10000x1, .i1⟩
  | 42 => ⟨S_, .f32⟩
  | 43 => ⟨S10000x1, .f32⟩
  | 44 => ⟨S10000x1, .f32⟩
  | 45 => ⟨S10000x32, .f32⟩
  | 46 => ⟨S10000x32, .f32⟩
  | 47 => ⟨S_, .f32⟩
  | 48 => ⟨S_, .f32⟩
  | 49 => ⟨S10000x32, .i1⟩
  | 50 => ⟨S10000x32, .f32⟩
  | 51 => ⟨S10000x32, .f32⟩
  | 52 => ⟨S10000x32, .f32⟩
  | 53 => ⟨S_, .f32⟩
  | 54 => ⟨S10000x32, .f32⟩
  | 55 => ⟨S10000x32, .f32⟩
  | 56 => ⟨S_, .f32⟩
  | 57 => ⟨S10000x32, .f32⟩
  | 58 => ⟨S10000x32, .f32⟩
  | 59 => ⟨S32x32, .f32⟩
  | 60 => ⟨S1x32, .f32⟩
  | 61 => ⟨S10000x32, .f32⟩
  | 62 => ⟨S32x32, .f32⟩
  | 63 => ⟨S1x32, .f32⟩
  | 64 => ⟨S10000x32, .f32⟩
  | 65 => ⟨S32x32, .f32⟩
  | 66 => ⟨S1x32, .f32⟩
  | 67 => ⟨S10000x32, .f32⟩
  | 68 => ⟨S32x32, .f32⟩
  | 69 => ⟨S1x32, .f32⟩
  | 70 => ⟨S10000x32, .f32⟩
  | 71 => ⟨S_, .i32⟩
  | 72 => ⟨S320000, .i32⟩
  | 73 => ⟨S320000, .i1⟩
  | 74 => ⟨S_, .i32⟩
  | 75 => ⟨S320000, .i32⟩
  | 76 => ⟨S320000, .i32⟩
  | 77 => ⟨S320000, .i32⟩
  | 78 => ⟨S320000x1, .i32⟩
  | 79 => ⟨S320000x32, .f32⟩
  | 80 => ⟨S_, .f32⟩
  | 81 => ⟨S10000x32, .f32⟩
  | 82 => ⟨S320000x1, .i32⟩
  | 83 => ⟨S10000x32, .f32⟩
  | 84 => ⟨S_, .f32⟩
  | 85 => ⟨S320000x1, .f32⟩
  | 86 => ⟨S_, .f32⟩
  | 87 => ⟨S10000x1, .f32⟩
  | 88 => ⟨S320000x1, .i32⟩
  | 89 => ⟨S10000x1, .f32⟩
  | 90 => ⟨S_, .f32⟩
  | 91 => ⟨S10000x1, .f32⟩
  | 92 => ⟨S10000x1, .i1⟩
  | 93 => ⟨S_, .f32⟩
  | 94 => ⟨S10000x1, .f32⟩
  | 95 => ⟨S10000x1, .f32⟩
  | 96 => ⟨S10000x32, .f32⟩
  | 97 => ⟨S10000x32, .f32⟩
  | 98 => ⟨S_, .f32⟩
  | 99 => ⟨S_, .f32⟩
  | 100 => ⟨S10000x32, .i1⟩
  | 101 => ⟨S10000x32, .f32⟩
  | 102 => ⟨S10000x32, .f32⟩
  | 103 => ⟨S_, .i32⟩
  | 104 => ⟨S320000, .i32⟩
  | 105 => ⟨S320000, .i1⟩
  | 106 => ⟨S_, .i32⟩
  | 107 => ⟨S320000, .i32⟩
  | 108 => ⟨S320000, .i32⟩
  | 109 => ⟨S320000, .i32⟩
  | 110 => ⟨S320000x1, .i32⟩
  | 111 => ⟨S320000x32, .f32⟩
  | 112 => ⟨S_, .f32⟩
  | 113 => ⟨S10000x32, .f32⟩
  | 114 => ⟨S320000x1, .i32⟩
  | 115 => ⟨S10000x32, .f32⟩
  | 116 => ⟨S_, .f32⟩
  | 117 => ⟨S320000x1, .f32⟩
  | 118 => ⟨S_, .f32⟩
  | 119 => ⟨S10000x1, .f32⟩
  | 120 => ⟨S320000x1, .i32⟩
  | 121 => ⟨S10000x1, .f32⟩
  | 122 => ⟨S_, .f32⟩
  | 123 => ⟨S10000x1, .f32⟩
  | 124 => ⟨S10000x1, .i1⟩
  | 125 => ⟨S_, .f32⟩
  | 126 => ⟨S10000x1, .f32⟩
  | 127 => ⟨S10000x1, .f32⟩
  | _ => ⟨S10000x2048, .f32⟩

abbrev hbmTy0_2 (i : Nat) : BufTy := match i % 128 with
  | 0 => ⟨S10000x32, .f32⟩
  | 1 => ⟨S10000x32, .f32⟩
  | 2 => ⟨S_, .f32⟩
  | 3 => ⟨S_, .f32⟩
  | 4 => ⟨S10000x32, .i1⟩
  | 5 => ⟨S10000x32, .f32⟩
  | 6 => ⟨S10000x32, .f32⟩
  | 7 => ⟨S10000x32, .f32⟩
  | 8 => ⟨S_, .i32⟩
  | 9 => ⟨S320000, .i32⟩
  | 10 => ⟨S320000, .i1⟩
  | 11 => ⟨S_, .i32⟩
  | 12 => ⟨S320000, .i32⟩
  | 13 => ⟨S320000, .i32⟩
  | 14 => ⟨S320000, .i32⟩
  | 15 => ⟨S320000x1, .i32⟩
  | 16 => ⟨S320000x32, .f32⟩
  | 17 => ⟨S_, .f32⟩
  | 18 => ⟨S10000x32, .f32⟩
  | 19 => ⟨S320000x1, .i32⟩
  | 20 => ⟨S10000x32, .f32⟩
  | 21 => ⟨S_, .f32⟩
  | 22 => ⟨S320000x1, .f32⟩
  | 23 => ⟨S_, .f32⟩
  | 24 => ⟨S10000x1, .f32⟩
  | 25 => ⟨S320000x1, .i32⟩
  | 26 => ⟨S10000x1, .f32⟩
  | 27 => ⟨S_, .f32⟩
  | 28 => ⟨S10000x1, .f32⟩
  | 29 => ⟨S10000x1, .i1⟩
  | 30 => ⟨S_, .f32⟩
  | 31 => ⟨S10000x1, .f32⟩
  | 32 => ⟨S10000x1, .f32⟩
  | 33 => ⟨S10000x32, .f32⟩
  | 34 => ⟨S10000x32, .f32⟩
  | 35 => ⟨S_, .f32⟩
  | 36 => ⟨S_, .f32⟩
  | 37 => ⟨S10000x32, .i1⟩
  | 38 => ⟨S10000x32, .f32⟩
  | 39 => ⟨S10000x32, .f32⟩
  | 40 => ⟨S_, .i32⟩
  | 41 => ⟨S320000, .i32⟩
  | 42 => ⟨S320000, .i1⟩
  | 43 => ⟨S_, .i32⟩
  | 44 => ⟨S320000, .i32⟩
  | 45 => ⟨S320000, .i32⟩
  | 46 => ⟨S320000, .i32⟩
  | 47 => ⟨S320000x1, .i32⟩
  | 48 => ⟨S320000x32, .f32⟩
  | 49 => ⟨S_, .f32⟩
  | 50 => ⟨S10000x32, .f32⟩
  | 51 => ⟨S320000x1, .i32⟩
  | 52 => ⟨S10000x32, .f32⟩
  | 53 => ⟨S_, .f32⟩
  | 54 => ⟨S320000x1, .f32⟩
  | 55 => ⟨S_, .f32⟩
  | 56 => ⟨S10000x1, .f32⟩
  | 57 => ⟨S320000x1, .i32⟩
  | 58 => ⟨S10000x1, .f32⟩
  | 59 => ⟨S_, .f32⟩
  | 60 => ⟨S10000x1, .f32⟩
  | 61 => ⟨S10000x1, .i1⟩
  | 62 => ⟨S_, .f32⟩
  | 63 => ⟨S10000x1, .f32⟩
  | 64 => ⟨S10000x1, .f32⟩
  | 65 => ⟨S10000x32, .f32⟩
  | 66 => ⟨S10000x32, .f32⟩
  | 67 => ⟨S_, .f32⟩
  | 68 => ⟨S_, .f32⟩
  | 69 => ⟨S10000x32, .i1⟩
  | 70 => ⟨S10000x32, .f32⟩
  | 71 => ⟨S10000x32, .f32⟩
  | 72 => ⟨S10000x32, .f32⟩
  | 73 => ⟨S_, .f32⟩
  | 74 => ⟨S10000x32, .f32⟩
  | 75 => ⟨S10000x32, .f32⟩
  | 76 => ⟨S_, .f32⟩
  | 77 => ⟨S10000x32, .f32⟩
  | 78 => ⟨S10000x32, .f32⟩
  | 79 => ⟨S32x32, .f32⟩
  | 80 => ⟨S_, .f32⟩
  | 81 => ⟨S32, .f32⟩
  | 82 => ⟨S1x32, .f32⟩
  | 83 => ⟨S10000x32, .f32⟩
  | 84 => ⟨S10000x10000, .f32⟩
  | _ => ⟨S10000x2048, .f32⟩

abbrev hbmTy (i : Nat) : BufTy := match i / 128 with
  | 0 => hbmTy0_0 i
  | 1 => hbmTy0_1 i
  | 2 => hbmTy0_2 i
  | _ => ⟨S10000x2048, .f32⟩

abbrev bufTy : (tb : Table) → Fin (tcTables nBuf tb) → BufTy
  | .hbm, ⟨i, _⟩ => hbmTy i
  | .local _ .vmem, ⟨0, _⟩ => ⟨S1000x2048, .f32⟩
  | .local _ .vmem, ⟨1, _⟩ => ⟨S1000x2048, .f32⟩
  | .local _ .vmem, ⟨2, _⟩ => ⟨S2048x64, .f32⟩
  | .local _ .vmem, ⟨3, _⟩ => ⟨S1x64, .f32⟩
  | .local _ .vmem, ⟨4, _⟩ => ⟨S1000x64, .f32⟩
  | .local _ .vmem, ⟨5, _⟩ => ⟨S1000x64, .f32⟩
  | .local _ .vmem, ⟨6, _⟩ => ⟨S1000x1024, .f32⟩
  | .local _ .vmem, ⟨7, _⟩ => ⟨S1000x1024, .f32⟩
  | .local _ .vmem, ⟨8, _⟩ => ⟨S1024x64, .f32⟩
  | .local _ .vmem, ⟨9, _⟩ => ⟨S1x64, .f32⟩
  | .local _ .vmem, ⟨10, _⟩ => ⟨S1000x64, .f32⟩
  | .local _ .vmem, ⟨11, _⟩ => ⟨S1000x64, .f32⟩
  | .local _ .vmem, ⟨12, _⟩ => ⟨S1000x64, .f32⟩
  | .local _ .vmem, ⟨13, _⟩ => ⟨S1000x64, .f32⟩
  | .local _ .vmem, ⟨14, _⟩ => ⟨S64x32, .f32⟩
  | .local _ .vmem, ⟨15, _⟩ => ⟨S1x32, .f32⟩
  | .local _ .vmem, ⟨16, _⟩ => ⟨S1000x32, .f32⟩
  | .local _ .vmem, ⟨17, _⟩ => ⟨S1000x32, .f32⟩
  | .local _ .vmem, ⟨18, _⟩ => ⟨S1000x64, .f32⟩
  | .local _ .vmem, ⟨19, _⟩ => ⟨S1000x64, .f32⟩
  | .local _ .vmem, ⟨20, _⟩ => ⟨S64x32, .f32⟩
  | .local _ .vmem, ⟨21, _⟩ => ⟨S1x32, .f32⟩
  | .local _ .vmem, ⟨22, _⟩ => ⟨S1000x32, .f32⟩
  | .local _ .vmem, ⟨23, _⟩ => ⟨S1000x32, .f32⟩
  | .local _ .vmem, ⟨24, _⟩ => ⟨S1000x64, .f32⟩
  | .local _ .vmem, ⟨25, _⟩ => ⟨S1000x64, .f32⟩
  | .local _ .vmem, ⟨26, _⟩ => ⟨S64x32, .f32⟩
  | .local _ .vmem, ⟨27, _⟩ => ⟨S1x32, .f32⟩
  | .local _ .vmem, ⟨28, _⟩ => ⟨S1000x32, .f32⟩
  | .local _ .vmem, ⟨29, _⟩ => ⟨S1000x32, .f32⟩
  | .local _ .vmem, ⟨30, _⟩ => ⟨S1000x64, .f32⟩
  | .local _ .vmem, ⟨31, _⟩ => ⟨S1000x64, .f32⟩
  | .local _ .vmem, ⟨32, _⟩ => ⟨S64x32, .f32⟩
  | .local _ .vmem, ⟨33, _⟩ => ⟨S1x32, .f32⟩
  | .local _ .vmem, ⟨34, _⟩ => ⟨S1000x32, .f32⟩
  | .local _ .vmem, ⟨35, _⟩ => ⟨S1000x32, .f32⟩
  | .local _ .vmem, ⟨36, _⟩ => ⟨S1000x32, .f32⟩
  | .local _ .vmem, ⟨37, _⟩ => ⟨S1000x32, .f32⟩
  | .local _ .vmem, ⟨38, _⟩ => ⟨S32x32, .f32⟩
  | .local _ .vmem, ⟨39, _⟩ => ⟨S1x32, .f32⟩
  | .local _ .vmem, ⟨40, _⟩ => ⟨S1000x32, .f32⟩
  | .local _ .vmem, ⟨41, _⟩ => ⟨S1000x32, .f32⟩
  | .local _ .vmem, ⟨42, _⟩ => ⟨S1000x32, .f32⟩
  | .local _ .vmem, ⟨43, _⟩ => ⟨S1000x32, .f32⟩
  | .local _ .vmem, ⟨44, _⟩ => ⟨S32x32, .f32⟩
  | .local _ .vmem, ⟨45, _⟩ => ⟨S1x32, .f32⟩
  | .local _ .vmem, ⟨46, _⟩ => ⟨S1000x32, .f32⟩
  | .local _ .vmem, ⟨47, _⟩ => ⟨S1000x32, .f32⟩
  | .local _ .vmem, ⟨48, _⟩ => ⟨S1000x32, .f32⟩
  | .local _ .vmem, ⟨49, _⟩ => ⟨S1000x32, .f32⟩
  | .local _ .vmem, ⟨50, _⟩ => ⟨S32x32, .f32⟩
  | .local _ .vmem, ⟨51, _⟩ => ⟨S1x32, .f32⟩
  | .local _ .vmem, ⟨52, _⟩ => ⟨S1000x32, .f32⟩
  | .local _ .vmem, ⟨53, _⟩ => ⟨S1000x32, .f32⟩
  | .local _ .vmem, ⟨54, _⟩ => ⟨S1000x32, .f32⟩
  | .local _ .vmem, ⟨55, _⟩ => ⟨S1000x32, .f32⟩
  | .local _ .vmem, ⟨56, _⟩ => ⟨S32x32, .f32⟩
  | .local _ .vmem, ⟨57, _⟩ => ⟨S1x32, .f32⟩
  | .local _ .vmem, ⟨58, _⟩ => ⟨S1000x32, .f32⟩
  | .local _ .vmem, ⟨59, _⟩ => ⟨S1000x32, .f32⟩
  | .local _ .vmem, ⟨60, _⟩ => ⟨S1000x32, .f32⟩
  | .local _ .vmem, ⟨61, _⟩ => ⟨S1000x32, .f32⟩
  | .local _ .vmem, ⟨62, _⟩ => ⟨S32x32, .f32⟩
  | .local _ .vmem, ⟨63, _⟩ => ⟨S1x32, .f32⟩
  | .local _ .vmem, ⟨64, _⟩ => ⟨S1000x32, .f32⟩
  | .local _ .vmem, ⟨65, _⟩ => ⟨S1000x32, .f32⟩
  | .local _ .vmem, ⟨66, _⟩ => ⟨S400x32, .f32⟩
  | .local _ .vmem, ⟨67, _⟩ => ⟨S400x32, .f32⟩
  | .local _ .vmem, ⟨68, _⟩ => ⟨S10000x32, .f32⟩
  | .local _ .vmem, ⟨69, _⟩ => ⟨S400x10000, .f32⟩
  | .local _ .vmem, ⟨70, _⟩ => ⟨S400x10000, .f32⟩
  | _, _ => ⟨S10000x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | _, _ => false

abbrev semScoped : Fin 0 → Bool
  | ⟨_, h⟩ => absurd h (Nat.not_lt_zero _)

abbrev dmaSemScoped : Fin 71 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | _ => false

abbrev sig : RefSig :=
  ofTc nBuf bufTy 0 71 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_cst : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_cst_0 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_c : Ref sig .tc := ⟨.hbm, 51, rfl⟩
abbrev main_v20 : Ref sig .tc := ⟨.hbm, 52, rfl⟩
abbrev main_v21 : Ref sig .tc := ⟨.hbm, 53, rfl⟩
abbrev main_c_1 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_cst_2 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_cst_3 : Ref sig .tc := ⟨.hbm, 64, rfl⟩
abbrev main_v30 : Ref sig .tc := ⟨.hbm, 65, rfl⟩
abbrev main_cst_4 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_cst_5 : Ref sig .tc := ⟨.hbm, 70, rfl⟩
abbrev main_v34 : Ref sig .tc := ⟨.hbm, 71, rfl⟩
abbrev main_v35 : Ref sig .tc := ⟨.hbm, 72, rfl⟩
abbrev main_cst_6 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_cst_7 : Ref sig .tc := ⟨.hbm, 78, rfl⟩
abbrev main_call0_v0 : Ref sig .tc := ⟨.hbm, 79, rfl⟩
abbrev main_call0_v1 : Ref sig .tc := ⟨.hbm, 80, rfl⟩
abbrev main_call0_v2 : Ref sig .tc := ⟨.hbm, 81, rfl⟩
abbrev main_v40 : Ref sig .tc := ⟨.hbm, 82, rfl⟩
abbrev main_c_8 : Ref sig .tc := ⟨.hbm, 83, rfl⟩
abbrev main_v41 : Ref sig .tc := ⟨.hbm, 84, rfl⟩
abbrev main_v42 : Ref sig .tc := ⟨.hbm, 85, rfl⟩
abbrev main_c_9 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_cst_10 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_cst_11 : Ref sig .tc := ⟨.hbm, 96, rfl⟩
abbrev main_v51 : Ref sig .tc := ⟨.hbm, 97, rfl⟩
abbrev main_cst_12 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_cst_13 : Ref sig .tc := ⟨.hbm, 102, rfl⟩
abbrev main_v55 : Ref sig .tc := ⟨.hbm, 103, rfl⟩
abbrev main_v56 : Ref sig .tc := ⟨.hbm, 104, rfl⟩
abbrev main_cst_14 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_cst_15 : Ref sig .tc := ⟨.hbm, 110, rfl⟩
abbrev main_call1_v0 : Ref sig .tc := ⟨.hbm, 111, rfl⟩
abbrev main_call1_v1 : Ref sig .tc := ⟨.hbm, 112, rfl⟩
abbrev main_call1_v2 : Ref sig .tc := ⟨.hbm, 113, rfl⟩
abbrev main_v61 : Ref sig .tc := ⟨.hbm, 114, rfl⟩
abbrev main_v62 : Ref sig .tc := ⟨.hbm, 115, rfl⟩
abbrev main_c_16 : Ref sig .tc := ⟨.hbm, 116, rfl⟩
abbrev main_v63 : Ref sig .tc := ⟨.hbm, 117, rfl⟩
abbrev main_v64 : Ref sig .tc := ⟨.hbm, 118, rfl⟩
abbrev main_c_17 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_cst_18 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_cst_19 : Ref sig .tc := ⟨.hbm, 129, rfl⟩
abbrev main_v73 : Ref sig .tc := ⟨.hbm, 130, rfl⟩
abbrev main_cst_20 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_cst_21 : Ref sig .tc := ⟨.hbm, 135, rfl⟩
abbrev main_v77 : Ref sig .tc := ⟨.hbm, 136, rfl⟩
abbrev main_v78 : Ref sig .tc := ⟨.hbm, 137, rfl⟩
abbrev main_cst_22 : Ref sig .tc := ⟨.hbm, 138, rfl⟩
abbrev main_v79 : Ref sig .tc := ⟨.hbm, 139, rfl⟩
abbrev main_v80 : Ref sig .tc := ⟨.hbm, 140, rfl⟩
abbrev main_v81 : Ref sig .tc := ⟨.hbm, 141, rfl⟩
abbrev main_v82 : Ref sig .tc := ⟨.hbm, 142, rfl⟩
abbrev main_cst_23 : Ref sig .tc := ⟨.hbm, 143, rfl⟩
abbrev main_call2_v0 : Ref sig .tc := ⟨.hbm, 144, rfl⟩
abbrev main_call2_v1 : Ref sig .tc := ⟨.hbm, 145, rfl⟩
abbrev main_call2_v2 : Ref sig .tc := ⟨.hbm, 146, rfl⟩
abbrev main_v83 : Ref sig .tc := ⟨.hbm, 147, rfl⟩
abbrev main_c_24 : Ref sig .tc := ⟨.hbm, 148, rfl⟩
abbrev main_v84 : Ref sig .tc := ⟨.hbm, 149, rfl⟩
abbrev main_v85 : Ref sig .tc := ⟨.hbm, 150, rfl⟩
abbrev main_c_25 : Ref sig .tc := ⟨.hbm, 151, rfl⟩
abbrev main_v86 : Ref sig .tc := ⟨.hbm, 152, rfl⟩
abbrev main_v87 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_cst_26 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_cst_27 : Ref sig .tc := ⟨.hbm, 161, rfl⟩
abbrev main_v94 : Ref sig .tc := ⟨.hbm, 162, rfl⟩
abbrev main_cst_28 : Ref sig .tc := ⟨.hbm, 163, rfl⟩
abbrev main_v95 : Ref sig .tc := ⟨.hbm, 164, rfl⟩
abbrev main_v96 : Ref sig .tc := ⟨.hbm, 165, rfl⟩
abbrev main_v97 : Ref sig .tc := ⟨.hbm, 166, rfl⟩
abbrev main_cst_29 : Ref sig .tc := ⟨.hbm, 167, rfl⟩
abbrev main_v98 : Ref sig .tc := ⟨.hbm, 168, rfl⟩
abbrev main_v99 : Ref sig .tc := ⟨.hbm, 169, rfl⟩
abbrev main_cst_30 : Ref sig .tc := ⟨.hbm, 170, rfl⟩
abbrev main_v100 : Ref sig .tc := ⟨.hbm, 171, rfl⟩
abbrev main_v101 : Ref sig .tc := ⟨.hbm, 172, rfl⟩
abbrev main_v102 : Ref sig .tc := ⟨.hbm, 173, rfl⟩
abbrev main_v103 : Ref sig .tc := ⟨.hbm, 174, rfl⟩
abbrev main_cst_31 : Ref sig .tc := ⟨.hbm, 175, rfl⟩
abbrev main_call3_v0 : Ref sig .tc := ⟨.hbm, 176, rfl⟩
abbrev main_call3_v1 : Ref sig .tc := ⟨.hbm, 177, rfl⟩
abbrev main_call3_v2 : Ref sig .tc := ⟨.hbm, 178, rfl⟩
abbrev main_v104 : Ref sig .tc := ⟨.hbm, 179, rfl⟩
abbrev main_v105 : Ref sig .tc := ⟨.hbm, 180, rfl⟩
abbrev main_call4_cst : Ref sig .tc := ⟨.hbm, 181, rfl⟩
abbrev main_call4_v0 : Ref sig .tc := ⟨.hbm, 182, rfl⟩
abbrev main_v106 : Ref sig .tc := ⟨.hbm, 183, rfl⟩
abbrev main_call5_cst : Ref sig .tc := ⟨.hbm, 184, rfl⟩
abbrev main_call5_v0 : Ref sig .tc := ⟨.hbm, 185, rfl⟩
abbrev main_v107 : Ref sig .tc := ⟨.hbm, 186, rfl⟩
abbrev main_v108 : Ref sig .tc := ⟨.hbm, 187, rfl⟩
abbrev main_v109 : Ref sig .tc := ⟨.hbm, 188, rfl⟩
abbrev main_v110 : Ref sig .tc := ⟨.hbm, 189, rfl⟩
abbrev main_v111 : Ref sig .tc := ⟨.hbm, 190, rfl⟩
abbrev main_v112 : Ref sig .tc := ⟨.hbm, 191, rfl⟩
abbrev main_v113 : Ref sig .tc := ⟨.hbm, 192, rfl⟩
abbrev main_v114 : Ref sig .tc := ⟨.hbm, 193, rfl⟩
abbrev main_v115 : Ref sig .tc := ⟨.hbm, 194, rfl⟩
abbrev main_v116 : Ref sig .tc := ⟨.hbm, 195, rfl⟩
abbrev main_v117 : Ref sig .tc := ⟨.hbm, 196, rfl⟩
abbrev main_v118 : Ref sig .tc := ⟨.hbm, 197, rfl⟩
abbrev main_v119 : Ref sig .tc := ⟨.hbm, 198, rfl⟩
abbrev main_c_32 : Ref sig .tc := ⟨.hbm, 199, rfl⟩
abbrev main_v120 : Ref sig .tc := ⟨.hbm, 200, rfl⟩
abbrev main_v121 : Ref sig .tc := ⟨.hbm, 201, rfl⟩
abbrev main_c_33 : Ref sig .tc := ⟨.hbm, 202, rfl⟩
abbrev main_v122 : Ref sig .tc := ⟨.hbm, 203, rfl⟩
abbrev main_v123 : Ref sig .tc := ⟨.hbm, 204, rfl⟩
abbrev main_v124 : Ref sig .tc := ⟨.hbm, 205, rfl⟩
abbrev main_v125 : Ref sig .tc := ⟨.hbm, 206, rfl⟩
abbrev main_v126 : Ref sig .tc := ⟨.hbm, 207, rfl⟩
abbrev main_cst_34 : Ref sig .tc := ⟨.hbm, 208, rfl⟩
abbrev main_v127 : Ref sig .tc := ⟨.hbm, 209, rfl⟩
abbrev main_v128 : Ref sig .tc := ⟨.hbm, 210, rfl⟩
abbrev main_v129 : Ref sig .tc := ⟨.hbm, 211, rfl⟩
abbrev main_cst_35 : Ref sig .tc := ⟨.hbm, 212, rfl⟩
abbrev main_v130 : Ref sig .tc := ⟨.hbm, 213, rfl⟩
abbrev main_cst_36 : Ref sig .tc := ⟨.hbm, 214, rfl⟩
abbrev main_v131 : Ref sig .tc := ⟨.hbm, 215, rfl⟩
abbrev main_v132 : Ref sig .tc := ⟨.hbm, 216, rfl⟩
abbrev main_v133 : Ref sig .tc := ⟨.hbm, 217, rfl⟩
abbrev main_cst_37 : Ref sig .tc := ⟨.hbm, 218, rfl⟩
abbrev main_v134 : Ref sig .tc := ⟨.hbm, 219, rfl⟩
abbrev main_v135 : Ref sig .tc := ⟨.hbm, 220, rfl⟩
abbrev main_cst_38 : Ref sig .tc := ⟨.hbm, 221, rfl⟩
abbrev main_v136 : Ref sig .tc := ⟨.hbm, 222, rfl⟩
abbrev main_v137 : Ref sig .tc := ⟨.hbm, 223, rfl⟩
abbrev main_v138 : Ref sig .tc := ⟨.hbm, 224, rfl⟩
abbrev main_v139 : Ref sig .tc := ⟨.hbm, 225, rfl⟩
abbrev main_cst_39 : Ref sig .tc := ⟨.hbm, 226, rfl⟩
abbrev main_call6_v0 : Ref sig .tc := ⟨.hbm, 227, rfl⟩
abbrev main_call6_v1 : Ref sig .tc := ⟨.hbm, 228, rfl⟩
abbrev main_call6_v2 : Ref sig .tc := ⟨.hbm, 229, rfl⟩
abbrev main_v140 : Ref sig .tc := ⟨.hbm, 230, rfl⟩
abbrev main_c_40 : Ref sig .tc := ⟨.hbm, 231, rfl⟩
abbrev main_v141 : Ref sig .tc := ⟨.hbm, 232, rfl⟩
abbrev main_v142 : Ref sig .tc := ⟨.hbm, 233, rfl⟩
abbrev main_c_41 : Ref sig .tc := ⟨.hbm, 234, rfl⟩
abbrev main_v143 : Ref sig .tc := ⟨.hbm, 235, rfl⟩
abbrev main_v144 : Ref sig .tc := ⟨.hbm, 236, rfl⟩
abbrev main_v145 : Ref sig .tc := ⟨.hbm, 237, rfl⟩
abbrev main_v146 : Ref sig .tc := ⟨.hbm, 238, rfl⟩
abbrev main_v147 : Ref sig .tc := ⟨.hbm, 239, rfl⟩
abbrev main_cst_42 : Ref sig .tc := ⟨.hbm, 240, rfl⟩
abbrev main_v148 : Ref sig .tc := ⟨.hbm, 241, rfl⟩
abbrev main_v149 : Ref sig .tc := ⟨.hbm, 242, rfl⟩
abbrev main_v150 : Ref sig .tc := ⟨.hbm, 243, rfl⟩
abbrev main_cst_43 : Ref sig .tc := ⟨.hbm, 244, rfl⟩
abbrev main_v151 : Ref sig .tc := ⟨.hbm, 245, rfl⟩
abbrev main_cst_44 : Ref sig .tc := ⟨.hbm, 246, rfl⟩
abbrev main_v152 : Ref sig .tc := ⟨.hbm, 247, rfl⟩
abbrev main_v153 : Ref sig .tc := ⟨.hbm, 248, rfl⟩
abbrev main_v154 : Ref sig .tc := ⟨.hbm, 249, rfl⟩
abbrev main_cst_45 : Ref sig .tc := ⟨.hbm, 250, rfl⟩
abbrev main_v155 : Ref sig .tc := ⟨.hbm, 251, rfl⟩
abbrev main_v156 : Ref sig .tc := ⟨.hbm, 252, rfl⟩
abbrev main_cst_46 : Ref sig .tc := ⟨.hbm, 253, rfl⟩
abbrev main_v157 : Ref sig .tc := ⟨.hbm, 254, rfl⟩
abbrev main_v158 : Ref sig .tc := ⟨.hbm, 255, rfl⟩
abbrev main_v159 : Ref sig .tc := ⟨.hbm, 256, rfl⟩
abbrev main_v160 : Ref sig .tc := ⟨.hbm, 257, rfl⟩
abbrev main_cst_47 : Ref sig .tc := ⟨.hbm, 258, rfl⟩
abbrev main_call7_v0 : Ref sig .tc := ⟨.hbm, 259, rfl⟩
abbrev main_call7_v1 : Ref sig .tc := ⟨.hbm, 260, rfl⟩
abbrev main_call7_v2 : Ref sig .tc := ⟨.hbm, 261, rfl⟩
abbrev main_v161 : Ref sig .tc := ⟨.hbm, 262, rfl⟩
abbrev main_v162 : Ref sig .tc := ⟨.hbm, 263, rfl⟩
abbrev main_c_48 : Ref sig .tc := ⟨.hbm, 264, rfl⟩
abbrev main_v163 : Ref sig .tc := ⟨.hbm, 265, rfl⟩
abbrev main_v164 : Ref sig .tc := ⟨.hbm, 266, rfl⟩
abbrev main_c_49 : Ref sig .tc := ⟨.hbm, 267, rfl⟩
abbrev main_v165 : Ref sig .tc := ⟨.hbm, 268, rfl⟩
abbrev main_v166 : Ref sig .tc := ⟨.hbm, 269, rfl⟩
abbrev main_v167 : Ref sig .tc := ⟨.hbm, 270, rfl⟩
abbrev main_v168 : Ref sig .tc := ⟨.hbm, 271, rfl⟩
abbrev main_v169 : Ref sig .tc := ⟨.hbm, 272, rfl⟩
abbrev main_cst_50 : Ref sig .tc := ⟨.hbm, 273, rfl⟩
abbrev main_v170 : Ref sig .tc := ⟨.hbm, 274, rfl⟩
abbrev main_v171 : Ref sig .tc := ⟨.hbm, 275, rfl⟩
abbrev main_v172 : Ref sig .tc := ⟨.hbm, 276, rfl⟩
abbrev main_cst_51 : Ref sig .tc := ⟨.hbm, 277, rfl⟩
abbrev main_v173 : Ref sig .tc := ⟨.hbm, 278, rfl⟩
abbrev main_cst_52 : Ref sig .tc := ⟨.hbm, 279, rfl⟩
abbrev main_v174 : Ref sig .tc := ⟨.hbm, 280, rfl⟩
abbrev main_v175 : Ref sig .tc := ⟨.hbm, 281, rfl⟩
abbrev main_v176 : Ref sig .tc := ⟨.hbm, 282, rfl⟩
abbrev main_cst_53 : Ref sig .tc := ⟨.hbm, 283, rfl⟩
abbrev main_v177 : Ref sig .tc := ⟨.hbm, 284, rfl⟩
abbrev main_v178 : Ref sig .tc := ⟨.hbm, 285, rfl⟩
abbrev main_cst_54 : Ref sig .tc := ⟨.hbm, 286, rfl⟩
abbrev main_v179 : Ref sig .tc := ⟨.hbm, 287, rfl⟩
abbrev main_v180 : Ref sig .tc := ⟨.hbm, 288, rfl⟩
abbrev main_v181 : Ref sig .tc := ⟨.hbm, 289, rfl⟩
abbrev main_v182 : Ref sig .tc := ⟨.hbm, 290, rfl⟩
abbrev main_cst_55 : Ref sig .tc := ⟨.hbm, 291, rfl⟩
abbrev main_call8_v0 : Ref sig .tc := ⟨.hbm, 292, rfl⟩
abbrev main_call8_v1 : Ref sig .tc := ⟨.hbm, 293, rfl⟩
abbrev main_call8_v2 : Ref sig .tc := ⟨.hbm, 294, rfl⟩
abbrev main_v183 : Ref sig .tc := ⟨.hbm, 295, rfl⟩
abbrev main_c_56 : Ref sig .tc := ⟨.hbm, 296, rfl⟩
abbrev main_v184 : Ref sig .tc := ⟨.hbm, 297, rfl⟩
abbrev main_v185 : Ref sig .tc := ⟨.hbm, 298, rfl⟩
abbrev main_c_57 : Ref sig .tc := ⟨.hbm, 299, rfl⟩
abbrev main_v186 : Ref sig .tc := ⟨.hbm, 300, rfl⟩
abbrev main_v187 : Ref sig .tc := ⟨.hbm, 301, rfl⟩
abbrev main_v188 : Ref sig .tc := ⟨.hbm, 302, rfl⟩
abbrev main_v189 : Ref sig .tc := ⟨.hbm, 303, rfl⟩
abbrev main_v190 : Ref sig .tc := ⟨.hbm, 304, rfl⟩
abbrev main_cst_58 : Ref sig .tc := ⟨.hbm, 305, rfl⟩
abbrev main_v191 : Ref sig .tc := ⟨.hbm, 306, rfl⟩
abbrev main_v192 : Ref sig .tc := ⟨.hbm, 307, rfl⟩
abbrev main_v193 : Ref sig .tc := ⟨.hbm, 308, rfl⟩
abbrev main_cst_59 : Ref sig .tc := ⟨.hbm, 309, rfl⟩
abbrev main_v194 : Ref sig .tc := ⟨.hbm, 310, rfl⟩
abbrev main_cst_60 : Ref sig .tc := ⟨.hbm, 311, rfl⟩
abbrev main_v195 : Ref sig .tc := ⟨.hbm, 312, rfl⟩
abbrev main_v196 : Ref sig .tc := ⟨.hbm, 313, rfl⟩
abbrev main_v197 : Ref sig .tc := ⟨.hbm, 314, rfl⟩
abbrev main_cst_61 : Ref sig .tc := ⟨.hbm, 315, rfl⟩
abbrev main_v198 : Ref sig .tc := ⟨.hbm, 316, rfl⟩
abbrev main_v199 : Ref sig .tc := ⟨.hbm, 317, rfl⟩
abbrev main_cst_62 : Ref sig .tc := ⟨.hbm, 318, rfl⟩
abbrev main_v200 : Ref sig .tc := ⟨.hbm, 319, rfl⟩
abbrev main_v201 : Ref sig .tc := ⟨.hbm, 320, rfl⟩
abbrev main_v202 : Ref sig .tc := ⟨.hbm, 321, rfl⟩
abbrev main_v203 : Ref sig .tc := ⟨.hbm, 322, rfl⟩
abbrev main_cst_63 : Ref sig .tc := ⟨.hbm, 323, rfl⟩
abbrev main_call9_v0 : Ref sig .tc := ⟨.hbm, 324, rfl⟩
abbrev main_call9_v1 : Ref sig .tc := ⟨.hbm, 325, rfl⟩
abbrev main_call9_v2 : Ref sig .tc := ⟨.hbm, 326, rfl⟩
abbrev main_v204 : Ref sig .tc := ⟨.hbm, 327, rfl⟩
abbrev main_v205 : Ref sig .tc := ⟨.hbm, 328, rfl⟩
abbrev main_call10_cst : Ref sig .tc := ⟨.hbm, 329, rfl⟩
abbrev main_call10_v0 : Ref sig .tc := ⟨.hbm, 330, rfl⟩
abbrev main_v206 : Ref sig .tc := ⟨.hbm, 331, rfl⟩
abbrev main_call11_cst : Ref sig .tc := ⟨.hbm, 332, rfl⟩
abbrev main_call11_v0 : Ref sig .tc := ⟨.hbm, 333, rfl⟩
abbrev main_v207 : Ref sig .tc := ⟨.hbm, 334, rfl⟩
abbrev main_v208 : Ref sig .tc := ⟨.hbm, 335, rfl⟩
abbrev main_cst_64 : Ref sig .tc := ⟨.hbm, 336, rfl⟩
abbrev main_v209 : Ref sig .tc := ⟨.hbm, 337, rfl⟩
abbrev main_v210 : Ref sig .tc := ⟨.hbm, 338, rfl⟩
abbrev main_v211 : Ref sig .tc := ⟨.hbm, 339, rfl⟩
abbrev main_v212 : Ref sig .tc := ⟨.hbm, 340, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg3_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg2_0 : Ref sig .tc := ⟨.vmem, 39, rfl⟩
abbrev cc6_stg3_0 : Ref sig .tc := ⟨.vmem, 40, rfl⟩
abbrev cc6_stg3_1 : Ref sig .tc := ⟨.vmem, 41, rfl⟩
abbrev cc7_stg0_0 : Ref sig .tc := ⟨.vmem, 42, rfl⟩
abbrev cc7_stg0_1 : Ref sig .tc := ⟨.vmem, 43, rfl⟩
abbrev cc7_stg1_0 : Ref sig .tc := ⟨.vmem, 44, rfl⟩
abbrev cc7_stg2_0 : Ref sig .tc := ⟨.vmem, 45, rfl⟩
abbrev cc7_stg3_0 : Ref sig .tc := ⟨.vmem, 46, rfl⟩
abbrev cc7_stg3_1 : Ref sig .tc := ⟨.vmem, 47, rfl⟩
abbrev cc8_stg0_0 : Ref sig .tc := ⟨.vmem, 48, rfl⟩
abbrev cc8_stg0_1 : Ref sig .tc := ⟨.vmem, 49, rfl⟩
abbrev cc8_stg1_0 : Ref sig .tc := ⟨.vmem, 50, rfl⟩
abbrev cc8_stg2_0 : Ref sig .tc := ⟨.vmem, 51, rfl⟩
abbrev cc8_stg3_0 : Ref sig .tc := ⟨.vmem, 52, rfl⟩
abbrev cc8_stg3_1 : Ref sig .tc := ⟨.vmem, 53, rfl⟩
abbrev cc9_stg0_0 : Ref sig .tc := ⟨.vmem, 54, rfl⟩
abbrev cc9_stg0_1 : Ref sig .tc := ⟨.vmem, 55, rfl⟩
abbrev cc9_stg1_0 : Ref sig .tc := ⟨.vmem, 56, rfl⟩
abbrev cc9_stg2_0 : Ref sig .tc := ⟨.vmem, 57, rfl⟩
abbrev cc9_stg3_0 : Ref sig .tc := ⟨.vmem, 58, rfl⟩
abbrev cc9_stg3_1 : Ref sig .tc := ⟨.vmem, 59, rfl⟩
abbrev cc10_stg0_0 : Ref sig .tc := ⟨.vmem, 60, rfl⟩
abbrev cc10_stg0_1 : Ref sig .tc := ⟨.vmem, 61, rfl⟩
abbrev cc10_stg1_0 : Ref sig .tc := ⟨.vmem, 62, rfl⟩
abbrev cc10_stg2_0 : Ref sig .tc := ⟨.vmem, 63, rfl⟩
abbrev cc10_stg3_0 : Ref sig .tc := ⟨.vmem, 64, rfl⟩
abbrev cc10_stg3_1 : Ref sig .tc := ⟨.vmem, 65, rfl⟩
abbrev cc11_stg0_0 : Ref sig .tc := ⟨.vmem, 66, rfl⟩
abbrev cc11_stg0_1 : Ref sig .tc := ⟨.vmem, 67, rfl⟩
abbrev cc11_stg1_0 : Ref sig .tc := ⟨.vmem, 68, rfl⟩
abbrev cc11_stg2_0 : Ref sig .tc := ⟨.vmem, 69, rfl⟩
abbrev cc11_stg2_1 : Ref sig .tc := ⟨.vmem, 70, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29
abbrev cc5_sem0_0 : DmaSem sig := 30
abbrev cc5_sem0_1 : DmaSem sig := 31
abbrev cc5_sem1_0 : DmaSem sig := 32
abbrev cc5_sem2_0 : DmaSem sig := 33
abbrev cc5_sem3_0 : DmaSem sig := 34
abbrev cc5_sem3_1 : DmaSem sig := 35
abbrev cc6_sem0_0 : DmaSem sig := 36
abbrev cc6_sem0_1 : DmaSem sig := 37
abbrev cc6_sem1_0 : DmaSem sig := 38
abbrev cc6_sem2_0 : DmaSem sig := 39
abbrev cc6_sem3_0 : DmaSem sig := 40
abbrev cc6_sem3_1 : DmaSem sig := 41
abbrev cc7_sem0_0 : DmaSem sig := 42
abbrev cc7_sem0_1 : DmaSem sig := 43
abbrev cc7_sem1_0 : DmaSem sig := 44
abbrev cc7_sem2_0 : DmaSem sig := 45
abbrev cc7_sem3_0 : DmaSem sig := 46
abbrev cc7_sem3_1 : DmaSem sig := 47
abbrev cc8_sem0_0 : DmaSem sig := 48
abbrev cc8_sem0_1 : DmaSem sig := 49
abbrev cc8_sem1_0 : DmaSem sig := 50
abbrev cc8_sem2_0 : DmaSem sig := 51
abbrev cc8_sem3_0 : DmaSem sig := 52
abbrev cc8_sem3_1 : DmaSem sig := 53
abbrev cc9_sem0_0 : DmaSem sig := 54
abbrev cc9_sem0_1 : DmaSem sig := 55
abbrev cc9_sem1_0 : DmaSem sig := 56
abbrev cc9_sem2_0 : DmaSem sig := 57
abbrev cc9_sem3_0 : DmaSem sig := 58
abbrev cc9_sem3_1 : DmaSem sig := 59
abbrev cc10_sem0_0 : DmaSem sig := 60
abbrev cc10_sem0_1 : DmaSem sig := 61
abbrev cc10_sem1_0 : DmaSem sig := 62
abbrev cc10_sem2_0 : DmaSem sig := 63
abbrev cc10_sem3_0 : DmaSem sig := 64
abbrev cc10_sem3_1 : DmaSem sig := 65
abbrev cc11_sem0_0 : DmaSem sig := 66
abbrev cc11_sem0_1 : DmaSem sig := 67
abbrev cc11_sem1_0 : DmaSem sig := 68
abbrev cc11_sem2_0 : DmaSem sig := 69
abbrev cc11_sem2_1 : DmaSem sig := 70

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1000x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1000x32 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1000x32 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x32 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x32 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S1000x32 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1000x32 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S32x32 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x32 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S1000x32 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S1000x32 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S32x32 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x32 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S1000x32 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S1000x32 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S32x32 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x32 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S1000x32 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S1000x32 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S32x32 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x32 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S1000x32 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S1000x32 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S32x32 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x32 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 2 → Memref sig .tc .vmem S1000x32 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev grid11 : Pipeline.Grid := ⟨1, ![25], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S400x32 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S10000x32 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 2 → Memref sig .tc .vmem S400x10000 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

class Facts₀ : Prop where
  transposes_S64x2048_S2048x64_1_0 : S64x2048.Transposes [1, 0] S2048x64
  bcast_S_S64 : S_.BroadcastsInDim S64 (![] : Fin 0 → Fin S64.rank)
  shapeCasts_S64_S1x64 : S64.ShapeCasts S1x64
  inb_S1000x2048_S1000x2048_0_0 : ∀ a, (![0, 0] : Fin 2 → Nat) a + S1000x2048.size a ≤ S1000x2048.size a
  h_S1000x2048 : 0 < S1000x2048.numel
  bitsLt_bf16_f32 : FTy.bits .bf16 < FTy.bits .f32
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1000x64 : S1x64.Broadcasts S1000x64
  inb_S1000x64_S1000x64_0_0 : ∀ a, (![0, 0] : Fin 2 → Nat) a + S1000x64.size a ≤ S1000x64.size a
  h_S1000x64 : 0 < S1000x64.numel
  transposes_S64x1024_S1024x64_1_0 : S64x1024.Transposes [1, 0] S1024x64
  inb_S1000x1024_S1000x1024_0_0 : ∀ a, (![0, 0] : Fin 2 → Nat) a + S1000x1024.size a ≤ S1000x1024.size a
  h_S1000x1024 : 0 < S1000x1024.numel
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  transposes_S32x64_S64x32_1_0 : S32x64.Transposes [1, 0] S64x32
  shapeCasts_S32_S1x32 : S32.ShapeCasts S1x32
  shapeCasts_S1000x64_S1000x64 : S1000x64.ShapeCasts S1000x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S1000x32 : S1x32.Broadcasts S1000x32
  inb_S1000x32_S1000x32_0_0 : ∀ a, (![0, 0] : Fin 2 → Nat) a + S1000x32.size a ≤ S1000x32.size a
  h_S1000x32 : 0 < S1000x32.numel
  bcast_S_S320000 : S_.BroadcastsInDim S320000 (![] : Fin 0 → Fin S320000.rank)
  bcast_S320000_S320000x1_0 : S320000.BroadcastsInDim S320000x1 (![0] : Fin 1 → Fin S320000x1.rank)
  bcast_S_S10000x32 : S_.BroadcastsInDim S10000x32 (![] : Fin 0 → Fin S10000x32.rank)
  bcast_S_S320000x1 : S_.BroadcastsInDim S320000x1 (![] : Fin 0 → Fin S320000x1.rank)
  bcast_S_S10000x1 : S_.BroadcastsInDim S10000x1 (![] : Fin 0 → Fin S10000x1.rank)
  bcast_S10000x1_S10000x32_0_1 : S10000x1.BroadcastsInDim S10000x32 (![0, 1] : Fin 2 → Fin S10000x32.rank)
  transposes_S32x32_S32x32_1_0 : S32x32.Transposes [1, 0] S32x32
  shapeCasts_S1000x32_S1000x32 : S1000x32.ShapeCasts S1000x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  bcast_S_S32 : S_.BroadcastsInDim S32 (![] : Fin 0 → Fin S32.rank)
  inb_S400x32_S400x32_0_0 : ∀ a, (![0, 0] : Fin 2 → Nat) a + S400x32.size a ≤ S400x32.size a
  h_S400x32 : 0 < S400x32.numel
  shapeCasts_S400x32_S400x32 : S400x32.ShapeCasts S400x32
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  transposes_S10000x32_p1_0_S32x10000 : S10000x32.Transposes [1, 0] S32x10000
  inb_S400x10000_S400x10000_0_0 : ∀ a, (![0, 0] : Fin 2 → Nat) a + S400x10000.size a ≤ S400x10000.size a
  h_S400x10000 : 0 < S400x10000.numel
  dot_S1000x2048_S2048x64_S1000x64_1_0_0_1_n_n_wf : DotDims.WF S1000x2048 S2048x64 S1000x64 [1] [0] [0] [1] [] []
  dot_S1000x1024_S1024x64_S1000x64_1_0_0_1_n_n_wf : DotDims.WF S1000x1024 S1024x64 S1000x64 [1] [0] [0] [1] [] []
  dot_S1000x64_S64x32_S1000x32_1_0_0_1_n_n_wf : DotDims.WF S1000x64 S64x32 S1000x32 [1] [0] [0] [1] [] []
  gather_S10000x32_S320000x1_S320000x32_1_0_n_n_0_1_132_wf : GatherDims.WF S10000x32 S320000x1 S320000x32 [1] [0] [] [0] [] 1 ![1, 32]
  scatter_S10000x32_S320000x1_S320000x32_1_0_0_1_wf : ScatterDims.WF S10000x32 S320000x1 S320000x32 [1] [0] [0] 1
  scatter_S10000x1_S320000x1_S320000x1_1_0_0_1_wf : ScatterDims.WF S10000x1 S320000x1 S320000x1 [1] [0] [0] 1
  dot_S1000x32_S32x32_S1000x32_1_0_0_1_n_n_wf : DotDims.WF S1000x32 S32x32 S1000x32 [1] [0] [0] [1] [] []
  dot_S400x32_S32x10000_S400x10000_1_0_0_1_n_n_wf : DotDims.WF S400x32 S32x10000 S400x10000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x2048.size a ≤ S10000x2048.size a
  hwx0_0 : ∀ i : grid0.Coords, EltTy.bits .f32 = 32 ∨ (Rect.block (s := S10000x2048) S1000x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S2048x64.size a
  hwx0_1 : ∀ i : grid0.Coords, EltTy.bits .f32 = 32 ∨ (Rect.block (s := S2048x64) S2048x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x64.size a ≤ S10000x64.size a
  hwx0_3 : ∀ i : grid0.Coords, EltTy.bits .f32 = 32 ∨ (Rect.block (s := S10000x64) S1000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x1024.size a ≤ S10000x1024.size a
  hwx1_0 : ∀ i : grid1.Coords, EltTy.bits .f32 = 32 ∨ (Rect.block (s := S10000x1024) S1000x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x64.size a ≤ S1024x64.size a
  hwx1_1 : ∀ i : grid1.Coords, EltTy.bits .f32 = 32 ∨ (Rect.block (s := S1024x64) S1024x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x64.size a ≤ S10000x64.size a
  hwx1_3 : ∀ i : grid1.Coords, EltTy.bits .f32 = 32 ∨ (Rect.block (s := S10000x64) S1000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x64.size a ≤ S10000x64.size a
  hwx2_0 : ∀ i : grid2.Coords, EltTy.bits .f32 = 32 ∨ (Rect.block (s := S10000x64) S1000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x32.size a ≤ S64x32.size a
  hwx2_1 : ∀ i : grid2.Coords, EltTy.bits .f32 = 32 ∨ (Rect.block (s := S64x32) S64x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1000x32.size a ≤ S10000x32.size a
  hwx2_3 : ∀ i : grid2.Coords, EltTy.bits .f32 = 32 ∨ (Rect.block (s := S10000x32) S1000x32.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x64.size a ≤ S10000x64.size a
  hwx3_0 : ∀ i : grid3.Coords, EltTy.bits .f32 = 32 ∨ (Rect.block (s := S10000x64) S1000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x32.size a ≤ S64x32.size a
  hwx3_1 : ∀ i : grid3.Coords, EltTy.bits .f32 = 32 ∨ (Rect.block (s := S64x32) S64x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x32.size a ≤ S1x32.size a
  hwx3_2 : ∀ i : grid3.Coords, EltTy.bits .f32 = 32 ∨ (Rect.block (s := S1x32) S1x32.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1000x32.size a ≤ S10000x32.size a
  hwx3_3 : ∀ i : grid3.Coords, EltTy.bits .f32 = 32 ∨ (Rect.block (s := S10000x32) S1000x32.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x64.size a ≤ S10000x64.size a
  hwx4_0 : ∀ i : grid4.Coords, EltTy.bits .f32 = 32 ∨ (Rect.block (s := S10000x64) S1000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x32.size a ≤ S64x32.size a
  hwx4_1 : ∀ i : grid4.Coords, EltTy.bits .f32 = 32 ∨ (Rect.block (s := S64x32) S64x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x32.size a ≤ S1x32.size a
  hwx4_2 : ∀ i : grid4.Coords, EltTy.bits .f32 = 32 ∨ (Rect.block (s := S1x32) S1x32.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1000x32.size a ≤ S10000x32.size a
  hwx4_3 : ∀ i : grid4.Coords, EltTy.bits .f32 = 32 ∨ (Rect.block (s := S10000x32) S1000x32.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1000x64.size a ≤ S10000x64.size a
  hwx5_0 : ∀ i : grid5.Coords, EltTy.bits .f32 = 32 ∨ (Rect.block (s := S10000x64) S1000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x32.size a ≤ S64x32.size a
  hwx5_1 : ∀ i : grid5.Coords, EltTy.bits .f32 = 32 ∨ (Rect.block (s := S64x32) S64x32.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x32.size a ≤ S1x32.size a
  hwx5_2 : ∀ i : grid5.Coords, EltTy.bits .f32 = 32 ∨ (Rect.block (s := S1x32) S1x32.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1000x32.size a ≤ S10000x32.size a
  hwx5_3 : ∀ i : grid5.Coords, EltTy.bits .f32 = 32 ∨ (Rect.block (s := S10000x32) S1000x32.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1000x32.size a ≤ S10000x32.size a
  hwx6_0 : ∀ i : grid6.Coords, EltTy.bits .f32 = 32 ∨ (Rect.block (s := S10000x32) S1000x32.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S32x32.size a ≤ S32x32.size a
  hwx6_1 : ∀ i : grid6.Coords, EltTy.bits .f32 = 32 ∨ (Rect.block (s := S32x32) S32x32.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x32.size a ≤ S1x32.size a
  hwx6_2 : ∀ i : grid6.Coords, EltTy.bits .f32 = 32 ∨ (Rect.block (s := S1x32) S1x32.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S1000x32.size a ≤ S10000x32.size a
  hwx6_3 : ∀ i : grid6.Coords, EltTy.bits .f32 = 32 ∨ (Rect.block (s := S10000x32) S1000x32.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1000x32.size a ≤ S10000x32.size a
  hwx7_0 : ∀ i : grid7.Coords, EltTy.bits .f32 = 32 ∨ (Rect.block (s := S10000x32) S1000x32.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S32x32.size a ≤ S32x32.size a
  hwx7_1 : ∀ i : grid7.Coords, EltTy.bits .f32 = 32 ∨ (Rect.block (s := S32x32) S32x32.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x32.size a ≤ S1x32.size a
  hwx7_2 : ∀ i : grid7.Coords, EltTy.bits .f32 = 32 ∨ (Rect.block (s := S1x32) S1x32.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S1000x32.size a ≤ S10000x32.size a
  hwx7_3 : ∀ i : grid7.Coords, EltTy.bits .f32 = 32 ∨ (Rect.block (s := S10000x32) S1000x32.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1000x32.size a ≤ S10000x32.size a
  hwx8_0 : ∀ i : grid8.Coords, EltTy.bits .f32 = 32 ∨ (Rect.block (s := S10000x32) S1000x32.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S32x32.size a ≤ S32x32.size a
  hwx8_1 : ∀ i : grid8.Coords, EltTy.bits .f32 = 32 ∨ (Rect.block (s := S32x32) S32x32.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x32.size a ≤ S1x32.size a
  hwx8_2 : ∀ i : grid8.Coords, EltTy.bits .f32 = 32 ∨ (Rect.block (s := S1x32) S1x32.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S1000x32.size a ≤ S10000x32.size a
  hwx8_3 : ∀ i : grid8.Coords, EltTy.bits .f32 = 32 ∨ (Rect.block (s := S10000x32) S1000x32.size (cc8_transform_3 i) (hinb8_3 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S1000x32.size a ≤ S10000x32.size a
  hwx9_0 : ∀ i : grid9.Coords, EltTy.bits .f32 = 32 ∨ (Rect.block (s := S10000x32) S1000x32.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S32x32.size a ≤ S32x32.size a
  hwx9_1 : ∀ i : grid9.Coords, EltTy.bits .f32 = 32 ∨ (Rect.block (s := S32x32) S32x32.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x32.size a ≤ S1x32.size a
  hwx9_2 : ∀ i : grid9.Coords, EltTy.bits .f32 = 32 ∨ (Rect.block (s := S1x32) S1x32.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S1000x32.size a ≤ S10000x32.size a
  hwx9_3 : ∀ i : grid9.Coords, EltTy.bits .f32 = 32 ∨ (Rect.block (s := S10000x32) S1000x32.size (cc9_transform_3 i) (hinb9_3 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S1000x32.size a ≤ S10000x32.size a
  hwx10_0 : ∀ i : grid10.Coords, EltTy.bits .f32 = 32 ∨ (Rect.block (s := S10000x32) S1000x32.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S32x32.size a ≤ S32x32.size a
  hwx10_1 : ∀ i : grid10.Coords, EltTy.bits .f32 = 32 ∨ (Rect.block (s := S32x32) S32x32.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x32.size a ≤ S1x32.size a
  hwx10_2 : ∀ i : grid10.Coords, EltTy.bits .f32 = 32 ∨ (Rect.block (s := S1x32) S1x32.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S1000x32.size a ≤ S10000x32.size a
  hwx10_3 : ∀ i : grid10.Coords, EltTy.bits .f32 = 32 ∨ (Rect.block (s := S10000x32) S1000x32.size (cc10_transform_3 i) (hinb10_3 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S400x32.size a ≤ S10000x32.size a
  hwx11_0 : ∀ i : grid11.Coords, EltTy.bits .f32 = 32 ∨ (Rect.block (s := S10000x32) S400x32.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S10000x32.size a ≤ S10000x32.size a
  hwx11_1 : ∀ i : grid11.Coords, EltTy.bits .f32 = 32 ∨ (Rect.block (s := S10000x32) S10000x32.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S400x10000.size a ≤ S10000x10000.size a
  hwx11_2 : ∀ i : grid11.Coords, EltTy.bits .f32 = 32 ∨ (Rect.block (s := S10000x10000) S400x10000.size (cc11_transform_2 i) (hinb11_2 i)).WholeWords (EltTy.packing .f32)

variable [Facts₀]

def dot_S1000x2048_S2048x64_S1000x64_1_0_0_1_n_n : DotDims S1000x2048 S2048x64 S1000x64 where
  lhsContracting := [1]
  rhsContracting := [0]
  lhsNonContracting := [0]
  rhsNonContracting := [1]
  lhsBatch := []
  rhsBatch := []
  wf := dot_S1000x2048_S2048x64_S1000x64_1_0_0_1_n_n_wf
def dot_S1000x1024_S1024x64_S1000x64_1_0_0_1_n_n : DotDims S1000x1024 S1024x64 S1000x64 where
  lhsContracting := [1]
  rhsContracting := [0]
  lhsNonContracting := [0]
  rhsNonContracting := [1]
  lhsBatch := []
  rhsBatch := []
  wf := dot_S1000x1024_S1024x64_S1000x64_1_0_0_1_n_n_wf
def dot_S1000x64_S64x32_S1000x32_1_0_0_1_n_n : DotDims S1000x64 S64x32 S1000x32 where
  lhsContracting := [1]
  rhsContracting := [0]
  lhsNonContracting := [0]
  rhsNonContracting := [1]
  lhsBatch := []
  rhsBatch := []
  wf := dot_S1000x64_S64x32_S1000x32_1_0_0_1_n_n_wf
def gather_S10000x32_S320000x1_S320000x32_1_0_n_n_0_1_132 : GatherDims S10000x32 S320000x1 S320000x32 where
  offsetDims := [1]
  collapsedSliceDims := [0]
  operandBatchingDims := []
  startIndicesBatchingDims := []
  startIndexMap := [0]
  indexVectorDim := 1
  sliceSizes := ![1, 32]
  wf := gather_S10000x32_S320000x1_S320000x32_1_0_n_n_0_1_132_wf
def scatter_S10000x32_S320000x1_S320000x32_1_0_0_1 : ScatterDims S10000x32 S320000x1 S320000x32 where
  updateWindowDims := [1]
  insertedWindowDims := [0]
  scatterDimsToOperandDims := [0]
  indexVectorDim := 1
  wf := scatter_S10000x32_S320000x1_S320000x32_1_0_0_1_wf
def scatter_S10000x1_S320000x1_S320000x1_1_0_0_1 : ScatterDims S10000x1 S320000x1 S320000x1 where
  updateWindowDims := [1]
  insertedWindowDims := [0]
  scatterDimsToOperandDims := [0]
  indexVectorDim := 1
  wf := scatter_S10000x1_S320000x1_S320000x1_1_0_0_1_wf
def dot_S1000x32_S32x32_S1000x32_1_0_0_1_n_n : DotDims S1000x32 S32x32 S1000x32 where
  lhsContracting := [1]
  rhsContracting := [0]
  lhsNonContracting := [0]
  rhsNonContracting := [1]
  lhsBatch := []
  rhsBatch := []
  wf := dot_S1000x32_S32x32_S1000x32_1_0_0_1_n_n_wf
def dot_S400x32_S32x10000_S400x10000_1_0_0_1_n_n : DotDims S400x32 S32x10000 S400x10000 where
  lhsContracting := [1]
  rhsContracting := [0]
  lhsNonContracting := [0]
  rhsNonContracting := [1]
  lhsBatch := []
  rhsBatch := []
  wf := dot_S400x32_S32x10000_S400x10000_1_0_0_1_n_n_wf

abbrev win0_0 : Pipeline.Window sig grid0 :=
  Pipeline.Window.ofSpec (Memref.whole main_arg0) S1000x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S1000x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1024x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v3) S1000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S64x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v9) S1x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v10) S1000x32.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v3) S1000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v11) S64x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v12) S1x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v13) S1000x32.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v7) S1000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v14) S64x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v15) S1x32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v16) S1000x32.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v7) S1000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v17) S64x32.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v18) S1x32.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v19) S1000x32.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v106) S1000x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v108) S32x32.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v109) S1x32.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v110) S1000x32.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v106) S1000x32.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v111) S32x32.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v112) S1x32.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v113) S1000x32.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v107) S1000x32.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v114) S32x32.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v115) S1x32.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v116) S1000x32.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v107) S1000x32.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v117) S32x32.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v118) S1x32.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v119) S1000x32.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_v206) S1000x32.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v208) S32x32.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v210) S1x32.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v211) S1000x32.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

abbrev win11_0 : Pipeline.Window sig grid11 :=
  Pipeline.Window.ofSpec (Memref.whole main_v211) S400x32.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v207) S10000x32.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v212) S400x10000.size cc11_transform_2 reads11_2 true false 2 stage11_2 sem11_2
    hrank11 hreads11_2 hinb11_2 nbuf11_2 (Memref.isWhole_whole _) hwx11_2 hstage11_2

abbrev win11 : Fin 3 → Pipeline.Window sig grid11 := fun | 0 => win11_0 | 1 => win11_1 | 2 => win11_2 | ⟨_ + 3, h⟩ => absurd h (Nat.not_lt.2 (Nat.le_add_left _ _))
abbrev spec11 : Fin 3 → Pipeline.WinSpec sig grid11.rank := fun w => (win11 w).toWinSpec

class Facts : Prop extends Facts₀ where

variable [Facts]
-- ==== ReferenceIdeal.lean ====
abbrev S10000x2048 : Shape := ⟨2, ![10000, 2048]⟩
abbrev S10000x1024 : Shape := ⟨2, ![10000, 1024]⟩
abbrev S320000 : Shape := ⟨1, ![320000]⟩
abbrev S64x2048 : Shape := ⟨2, ![64, 2048]⟩
abbrev S64x1024 : Shape := ⟨2, ![64, 1024]⟩
abbrev S32x32 : Shape := ⟨2, ![32, 32]⟩
abbrev S32x64 : Shape := ⟨2, ![32, 64]⟩
abbrev S32 : Shape := ⟨1, ![32]⟩
abbrev S2048x64 : Shape := ⟨2, ![2048, 64]⟩
abbrev S10000x64 : Shape := ⟨2, ![10000, 64]⟩
abbrev S1024x64 : Shape := ⟨2, ![1024, 64]⟩
abbrev S64x32 : Shape := ⟨2, ![64, 32]⟩
abbrev S10000x32 : Shape := ⟨2, ![10000, 32]⟩
abbrev S1x32 : Shape := ⟨2, ![1, 32]⟩
abbrev S_ : Shape := ⟨0, ![]⟩
abbrev S320000x1 : Shape := ⟨2, ![320000, 1]⟩
abbrev S320000x32 : Shape := ⟨2, ![320000, 32]⟩
abbrev S10000x1 : Shape := ⟨2, ![10000, 1]⟩
abbrev S32x10000 : Shape := ⟨2, ![32, 10000]⟩
abbrev S10000x10000 : Shape := ⟨2, ![10000, 10000]⟩

abbrev nBuf : Space → Nat
  | .hbm => 349
  | .vmem => 0
  | .smem => 0
  | _ => 0

abbrev hbmTy0_0 (i : Nat) : BufTy := match i % 128 with
  | 0 => ⟨S10000x2048, .f32⟩
  | 1 => ⟨S10000x1024, .f32⟩
  | 2 => ⟨S320000, .i32⟩
  | 3 => ⟨S320000, .i32⟩
  | 4 => ⟨S320000, .i32⟩
  | 5 => ⟨S320000, .i32⟩
  | 6 => ⟨S320000, .i32⟩
  | 7 => ⟨S320000, .i32⟩
  | 8 => ⟨S320000, .i32⟩
  | 9 => ⟨S320000, .i32⟩
  | 10 => ⟨S64x2048, .f32⟩
  | 11 => ⟨S64x1024, .f32⟩
  | 12 => ⟨S32x32, .f32⟩
  | 13 => ⟨S32x64, .f32⟩
  | 14 => ⟨S32, .f32⟩
  | 15 => ⟨S32x64, .f32⟩
  | 16 => ⟨S32, .f32⟩
  | 17 => ⟨S32x64, .f32⟩
  | 18 => ⟨S32, .f32⟩
  | 19 => ⟨S32x64, .f32⟩
  | 20 => ⟨S32, .f32⟩
  | 21 => ⟨S32x32, .f32⟩
  | 22 => ⟨S32, .f32⟩
  | 23 => ⟨S32x32, .f32⟩
  | 24 => ⟨S32, .f32⟩
  | 25 => ⟨S32x32, .f32⟩
  | 26 => ⟨S32, .f32⟩
  | 27 => ⟨S32x32, .f32⟩
  | 28 => ⟨S32, .f32⟩
  | 29 => ⟨S2048x64, .f32⟩
  | 30 => ⟨S10000x64, .f32⟩
  | 31 => ⟨S1024x64, .f32⟩
  | 32 => ⟨S10000x64, .f32⟩
  | 33 => ⟨S64x32, .f32⟩
  | 34 => ⟨S10000x32, .f32⟩
  | 35 => ⟨S1x32, .f32⟩
  | 36 => ⟨S10000x32, .f32⟩
  | 37 => ⟨S10000x32, .f32⟩
  | 38 => ⟨S64x32, .f32⟩
  | 39 => ⟨S10000x32, .f32⟩
  | 40 => ⟨S1x32, .f32⟩
  | 41 => ⟨S10000x32, .f32⟩
  | 42 => ⟨S10000x32, .f32⟩
  | 43 => ⟨S64x32, .f32⟩
  | 44 => ⟨S10000x32, .f32⟩
  | 45 => ⟨S1x32, .f32⟩
  | 46 => ⟨S10000x32, .f32⟩
  | 47 => ⟨S10000x32, .f32⟩
  | 48 => ⟨S64x32, .f32⟩
  | 49 => ⟨S10000x32, .f32⟩
  | 50 => ⟨S1x32, .f32⟩
  | 51 => ⟨S10000x32, .f32⟩
  | 52 => ⟨S10000x32, .f32⟩
  | 53 => ⟨S_, .i32⟩
  | 54 => ⟨S320000, .i32⟩
  | 55 => ⟨S320000, .i1⟩
  | 56 => ⟨S_, .i32⟩
  | 57 => ⟨S320000, .i32⟩
  | 58 => ⟨S320000, .i32⟩
  | 59 => ⟨S320000, .i32⟩
  | 60 => ⟨S320000x1, .i32⟩
  | 61 => ⟨S320000x32, .f32⟩
  | 62 => ⟨S_, .f32⟩
  | 63 => ⟨S10000x32, .f32⟩
  | 64 => ⟨S320000x1, .i32⟩
  | 65 => ⟨S10000x32, .f32⟩
  | 66 => ⟨S_, .f32⟩
  | 67 => ⟨S320000x1, .f32⟩
  | 68 => ⟨S_, .f32⟩
  | 69 => ⟨S10000x1, .f32⟩
  | 70 => ⟨S320000x1, .i32⟩
  | 71 => ⟨S10000x1, .f32⟩
  | 72 => ⟨S_, .f32⟩
  | 73 => ⟨S10000x1, .f32⟩
  | 74 => ⟨S10000x1, .i1⟩
  | 75 => ⟨S_, .f32⟩
  | 76 => ⟨S10000x1, .f32⟩
  | 77 => ⟨S10000x1, .f32⟩
  | 78 => ⟨S10000x32, .f32⟩
  | 79 => ⟨S10000x32, .f32⟩
  | 80 => ⟨S_, .f32⟩
  | 81 => ⟨S_, .f32⟩
  | 82 => ⟨S10000x32, .i1⟩
  | 83 => ⟨S10000x32, .f32⟩
  | 84 => ⟨S10000x32, .f32⟩
  | 85 => ⟨S_, .i32⟩
  | 86 => ⟨S320000, .i32⟩
  | 87 => ⟨S320000, .i1⟩
  | 88 => ⟨S_, .i32⟩
  | 89 => ⟨S320000, .i32⟩
  | 90 => ⟨S320000, .i32⟩
  | 91 => ⟨S320000, .i32⟩
  | 92 => ⟨S320000x1, .i32⟩
  | 93 => ⟨S320000x32, .f32⟩
  | 94 => ⟨S_, .f32⟩
  | 95 => ⟨S10000x32, .f32⟩
  | 96 => ⟨S320000x1, .i32⟩
  | 97 => ⟨S10000x32, .f32⟩
  | 98 => ⟨S_, .f32⟩
  | 99 => ⟨S320000x1, .f32⟩
  | 100 => ⟨S_, .f32⟩
  | 101 => ⟨S10000x1, .f32⟩
  | 102 => ⟨S320000x1, .i32⟩
  | 103 => ⟨S10000x1, .f32⟩
  | 104 => ⟨S_, .f32⟩
  | 105 => ⟨S10000x1, .f32⟩
  | 106 => ⟨S10000x1, .i1⟩
  | 107 => ⟨S_, .f32⟩
  | 108 => ⟨S10000x1, .f32⟩
  | 109 => ⟨S10000x1, .f32⟩
  | 110 => ⟨S10000x32, .f32⟩
  | 111 => ⟨S10000x32, .f32⟩
  | 112 => ⟨S_, .f32⟩
  | 113 => ⟨S_, .f32⟩
  | 114 => ⟨S10000x32, .i1⟩
  | 115 => ⟨S10000x32, .f32⟩
  | 116 => ⟨S10000x32, .f32⟩
  | 117 => ⟨S10000x32, .f32⟩
  | 118 => ⟨S_, .i32⟩
  | 119 => ⟨S320000, .i32⟩
  | 120 => ⟨S320000, .i1⟩
  | 121 => ⟨S_, .i32⟩
  | 122 => ⟨S320000, .i32⟩
  | 123 => ⟨S320000, .i32⟩
  | 124 => ⟨S320000, .i32⟩
  | 125 => ⟨S320000x1, .i32⟩
  | 126 => ⟨S320000x32, .f32⟩
  | 127 => ⟨S_, .f32⟩
  | _ => ⟨S10000x2048, .f32⟩

abbrev hbmTy0_1 (i : Nat) : BufTy := match i % 128 with
  | 0 => ⟨S10000x32, .f32⟩
  | 1 => ⟨S320000x1, .i32⟩
  | 2 => ⟨S10000x32, .f32⟩
  | 3 => ⟨S_, .f32⟩
  | 4 => ⟨S320000x1, .f32⟩
  | 5 => ⟨S_, .f32⟩
  | 6 => ⟨S10000x1, .f32⟩
  | 7 => ⟨S320000x1, .i32⟩
  | 8 => ⟨S10000x1, .f32⟩
  | 9 => ⟨S_, .f32⟩
  | 10 => ⟨S10000x1, .f32⟩
  | 11 => ⟨S10000x1, .i1⟩
  | 12 => ⟨S_, .f32⟩
  | 13 => ⟨S10000x1, .f32⟩
  | 14 => ⟨S10000x1, .f32⟩
  | 15 => ⟨S10000x32, .f32⟩
  | 16 => ⟨S10000x32, .f32⟩
  | 17 => ⟨S_, .f32⟩
  | 18 => ⟨S_, .f32⟩
  | 19 => ⟨S10000x32, .i1⟩
  | 20 => ⟨S10000x32, .f32⟩
  | 21 => ⟨S10000x32, .f32⟩
  | 22 => ⟨S_, .i32⟩
  | 23 => ⟨S320000, .i32⟩
  | 24 => ⟨S320000, .i1⟩
  | 25 => ⟨S_, .i32⟩
  | 26 => ⟨S320000, .i32⟩
  | 27 => ⟨S320000, .i32⟩
  | 28 => ⟨S320000, .i32⟩
  | 29 => ⟨S320000x1, .i32⟩
  | 30 => ⟨S320000x32, .f32⟩
  | 31 => ⟨S_, .f32⟩
  | 32 => ⟨S10000x32, .f32⟩
  | 33 => ⟨S320000x1, .i32⟩
  | 34 => ⟨S10000x32, .f32⟩
  | 35 => ⟨S_, .f32⟩
  | 36 => ⟨S320000x1, .f32⟩
  | 37 => ⟨S_, .f32⟩
  | 38 => ⟨S10000x1, .f32⟩
  | 39 => ⟨S320000x1, .i32⟩
  | 40 => ⟨S10000x1, .f32⟩
  | 41 => ⟨S_, .f32⟩
  | 42 => ⟨S10000x1, .f32⟩
  | 43 => ⟨S10000x1, .i1⟩
  | 44 => ⟨S_, .f32⟩
  | 45 => ⟨S10000x1, .f32⟩
  | 46 => ⟨S10000x1, .f32⟩
  | 47 => ⟨S10000x32, .f32⟩
  | 48 => ⟨S10000x32, .f32⟩
  | 49 => ⟨S_, .f32⟩
  | 50 => ⟨S_, .f32⟩
  | 51 => ⟨S10000x32, .i1⟩
  | 52 => ⟨S10000x32, .f32⟩
  | 53 => ⟨S10000x32, .f32⟩
  | 54 => ⟨S10000x32, .f32⟩
  | 55 => ⟨S_, .f32⟩
  | 56 => ⟨S10000x32, .f32⟩
  | 57 => ⟨S10000x32, .f32⟩
  | 58 => ⟨S_, .f32⟩
  | 59 => ⟨S10000x32, .f32⟩
  | 60 => ⟨S10000x32, .f32⟩
  | 61 => ⟨S32x32, .f32⟩
  | 62 => ⟨S10000x32, .f32⟩
  | 63 => ⟨S1x32, .f32⟩
  | 64 => ⟨S10000x32, .f32⟩
  | 65 => ⟨S10000x32, .f32⟩
  | 66 => ⟨S32x32, .f32⟩
  | 67 => ⟨S10000x32, .f32⟩
  | 68 => ⟨S1x32, .f32⟩
  | 69 => ⟨S10000x32, .f32⟩
  | 70 => ⟨S10000x32, .f32⟩
  | 71 => ⟨S32x32, .f32⟩
  | 72 => ⟨S10000x32, .f32⟩
  | 73 => ⟨S1x32, .f32⟩
  | 74 => ⟨S10000x32, .f32⟩
  | 75 => ⟨S10000x32, .f32⟩
  | 76 => ⟨S32x32, .f32⟩
  | 77 => ⟨S10000x32, .f32⟩
  | 78 => ⟨S1x32, .f32⟩
  | 79 => ⟨S10000x32, .f32⟩
  | 80 => ⟨S10000x32, .f32⟩
  | 81 => ⟨S_, .i32⟩
  | 82 => ⟨S320000, .i32⟩
  | 83 => ⟨S320000, .i1⟩
  | 84 => ⟨S_, .i32⟩
  | 85 => ⟨S320000, .i32⟩
  | 86 => ⟨S320000, .i32⟩
  | 87 => ⟨S320000, .i32⟩
  | 88 => ⟨S320000x1, .i32⟩
  | 89 => ⟨S320000x32, .f32⟩
  | 90 => ⟨S_, .f32⟩
  | 91 => ⟨S10000x32, .f32⟩
  | 92 => ⟨S320000x1, .i32⟩
  | 93 => ⟨S10000x32, .f32⟩
  | 94 => ⟨S_, .f32⟩
  | 95 => ⟨S320000x1, .f32⟩
  | 96 => ⟨S_, .f32⟩
  | 97 => ⟨S10000x1, .f32⟩
  | 98 => ⟨S320000x1, .i32⟩
  | 99 => ⟨S10000x1, .f32⟩
  | 100 => ⟨S_, .f32⟩
  | 101 => ⟨S10000x1, .f32⟩
  | 102 => ⟨S10000x1, .i1⟩
  | 103 => ⟨S_, .f32⟩
  | 104 => ⟨S10000x1, .f32⟩
  | 105 => ⟨S10000x1, .f32⟩
  | 106 => ⟨S10000x32, .f32⟩
  | 107 => ⟨S10000x32, .f32⟩
  | 108 => ⟨S_, .f32⟩
  | 109 => ⟨S_, .f32⟩
  | 110 => ⟨S10000x32, .i1⟩
  | 111 => ⟨S10000x32, .f32⟩
  | 112 => ⟨S10000x32, .f32⟩
  | 113 => ⟨S_, .i32⟩
  | 114 => ⟨S320000, .i32⟩
  | 115 => ⟨S320000, .i1⟩
  | 116 => ⟨S_, .i32⟩
  | 117 => ⟨S320000, .i32⟩
  | 118 => ⟨S320000, .i32⟩
  | 119 => ⟨S320000, .i32⟩
  | 120 => ⟨S320000x1, .i32⟩
  | 121 => ⟨S320000x32, .f32⟩
  | 122 => ⟨S_, .f32⟩
  | 123 => ⟨S10000x32, .f32⟩
  | 124 => ⟨S320000x1, .i32⟩
  | 125 => ⟨S10000x32, .f32⟩
  | 126 => ⟨S_, .f32⟩
  | 127 => ⟨S320000x1, .f32⟩
  | _ => ⟨S10000x2048, .f32⟩

abbrev hbmTy0_2 (i : Nat) : BufTy := match i % 128 with
  | 0 => ⟨S_, .f32⟩
  | 1 => ⟨S10000x1, .f32⟩
  | 2 => ⟨S320000x1, .i32⟩
  | 3 => ⟨S10000x1, .f32⟩
  | 4 => ⟨S_, .f32⟩
  | 5 => ⟨S10000x1, .f32⟩
  | 6 => ⟨S10000x1, .i1⟩
  | 7 => ⟨S_, .f32⟩
  | 8 => ⟨S10000x1, .f32⟩
  | 9 => ⟨S10000x1, .f32⟩
  | 10 => ⟨S10000x32, .f32⟩
  | 11 => ⟨S10000x32, .f32⟩
  | 12 => ⟨S_, .f32⟩
  | 13 => ⟨S_, .f32⟩
  | 14 => ⟨S10000x32, .i1⟩
  | 15 => ⟨S10000x32, .f32⟩
  | 16 => ⟨S10000x32, .f32⟩
  | 17 => ⟨S10000x32, .f32⟩
  | 18 => ⟨S_, .i32⟩
  | 19 => ⟨S320000, .i32⟩
  | 20 => ⟨S320000, .i1⟩
  | 21 => ⟨S_, .i32⟩
  | 22 => ⟨S320000, .i32⟩
  | 23 => ⟨S320000, .i32⟩
  | 24 => ⟨S320000, .i32⟩
  | 25 => ⟨S320000x1, .i32⟩
  | 26 => ⟨S320000x32, .f32⟩
  | 27 => ⟨S_, .f32⟩
  | 28 => ⟨S10000x32, .f32⟩
  | 29 => ⟨S320000x1, .i32⟩
  | 30 => ⟨S10000x32, .f32⟩
  | 31 => ⟨S_, .f32⟩
  | 32 => ⟨S320000x1, .f32⟩
  | 33 => ⟨S_, .f32⟩
  | 34 => ⟨S10000x1, .f32⟩
  | 35 => ⟨S320000x1, .i32⟩
  | 36 => ⟨S10000x1, .f32⟩
  | 37 => ⟨S_, .f32⟩
  | 38 => ⟨S10000x1, .f32⟩
  | 39 => ⟨S10000x1, .i1⟩
  | 40 => ⟨S_, .f32⟩
  | 41 => ⟨S10000x1, .f32⟩
  | 42 => ⟨S10000x1, .f32⟩
  | 43 => ⟨S10000x32, .f32⟩
  | 44 => ⟨S10000x32, .f32⟩
  | 45 => ⟨S_, .f32⟩
  | 46 => ⟨S_, .f32⟩
  | 47 => ⟨S10000x32, .i1⟩
  | 48 => ⟨S10000x32, .f32⟩
  | 49 => ⟨S10000x32, .f32⟩
  | 50 => ⟨S_, .i32⟩
  | 51 => ⟨S320000, .i32⟩
  | 52 => ⟨S320000, .i1⟩
  | 53 => ⟨S_, .i32⟩
  | 54 => ⟨S320000, .i32⟩
  | 55 => ⟨S320000, .i32⟩
  | 56 => ⟨S320000, .i32⟩
  | 57 => ⟨S320000x1, .i32⟩
  | 58 => ⟨S320000x32, .f32⟩
  | 59 => ⟨S_, .f32⟩
  | 60 => ⟨S10000x32, .f32⟩
  | 61 => ⟨S320000x1, .i32⟩
  | 62 => ⟨S10000x32, .f32⟩
  | 63 => ⟨S_, .f32⟩
  | 64 => ⟨S320000x1, .f32⟩
  | 65 => ⟨S_, .f32⟩
  | 66 => ⟨S10000x1, .f32⟩
  | 67 => ⟨S320000x1, .i32⟩
  | 68 => ⟨S10000x1, .f32⟩
  | 69 => ⟨S_, .f32⟩
  | 70 => ⟨S10000x1, .f32⟩
  | 71 => ⟨S10000x1, .i1⟩
  | 72 => ⟨S_, .f32⟩
  | 73 => ⟨S10000x1, .f32⟩
  | 74 => ⟨S10000x1, .f32⟩
  | 75 => ⟨S10000x32, .f32⟩
  | 76 => ⟨S10000x32, .f32⟩
  | 77 => ⟨S_, .f32⟩
  | 78 => ⟨S_, .f32⟩
  | 79 => ⟨S10000x32, .i1⟩
  | 80 => ⟨S10000x32, .f32⟩
  | 81 => ⟨S10000x32, .f32⟩
  | 82 => ⟨S10000x32, .f32⟩
  | 83 => ⟨S_, .f32⟩
  | 84 => ⟨S10000x32, .f32⟩
  | 85 => ⟨S10000x32, .f32⟩
  | 86 => ⟨S_, .f32⟩
  | 87 => ⟨S10000x32, .f32⟩
  | 88 => ⟨S10000x32, .f32⟩
  | 89 => ⟨S32x32, .f32⟩
  | 90 => ⟨S10000x32, .f32⟩
  | 91 => ⟨S32x10000, .f32⟩
  | 92 => ⟨S10000x10000, .f32⟩
  | _ => ⟨S10000x2048, .f32⟩

abbrev hbmTy (i : Nat) : BufTy := match i / 128 with
  | 0 => hbmTy0_0 i
  | 1 => hbmTy0_1 i
  | 2 => hbmTy0_2 i
  | _ => ⟨S10000x2048, .f32⟩

abbrev bufTy : (tb : Table) → Fin (tcTables nBuf tb) → BufTy
  | .hbm, ⟨i, _⟩ => hbmTy i
  | _, _ => ⟨S10000x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_c : Ref sig .tc := ⟨.hbm, 53, rfl⟩
abbrev main_v24 : Ref sig .tc := ⟨.hbm, 54, rfl⟩
abbrev main_v25 : Ref sig .tc := ⟨.hbm, 55, rfl⟩
abbrev main_c_0 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_cst : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_cst_1 : Ref sig .tc := ⟨.hbm, 66, rfl⟩
abbrev main_v34 : Ref sig .tc := ⟨.hbm, 67, rfl⟩
abbrev main_cst_2 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_cst_3 : Ref sig .tc := ⟨.hbm, 72, rfl⟩
abbrev main_v38 : Ref sig .tc := ⟨.hbm, 73, rfl⟩
abbrev main_v39 : Ref sig .tc := ⟨.hbm, 74, rfl⟩
abbrev main_cst_4 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_cst_5 : Ref sig .tc := ⟨.hbm, 80, rfl⟩
abbrev main_call0_v0 : Ref sig .tc := ⟨.hbm, 81, rfl⟩
abbrev main_call0_v1 : Ref sig .tc := ⟨.hbm, 82, rfl⟩
abbrev main_call0_v2 : Ref sig .tc := ⟨.hbm, 83, rfl⟩
abbrev main_v44 : Ref sig .tc := ⟨.hbm, 84, rfl⟩
abbrev main_c_6 : Ref sig .tc := ⟨.hbm, 85, rfl⟩
abbrev main_v45 : Ref sig .tc := ⟨.hbm, 86, rfl⟩
abbrev main_v46 : Ref sig .tc := ⟨.hbm, 87, rfl⟩
abbrev main_c_7 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_cst_8 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_cst_9 : Ref sig .tc := ⟨.hbm, 98, rfl⟩
abbrev main_v55 : Ref sig .tc := ⟨.hbm, 99, rfl⟩
abbrev main_cst_10 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_cst_11 : Ref sig .tc := ⟨.hbm, 104, rfl⟩
abbrev main_v59 : Ref sig .tc := ⟨.hbm, 105, rfl⟩
abbrev main_v60 : Ref sig .tc := ⟨.hbm, 106, rfl⟩
abbrev main_cst_12 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_cst_13 : Ref sig .tc := ⟨.hbm, 112, rfl⟩
abbrev main_call1_v0 : Ref sig .tc := ⟨.hbm, 113, rfl⟩
abbrev main_call1_v1 : Ref sig .tc := ⟨.hbm, 114, rfl⟩
abbrev main_call1_v2 : Ref sig .tc := ⟨.hbm, 115, rfl⟩
abbrev main_v65 : Ref sig .tc := ⟨.hbm, 116, rfl⟩
abbrev main_v66 : Ref sig .tc := ⟨.hbm, 117, rfl⟩
abbrev main_c_14 : Ref sig .tc := ⟨.hbm, 118, rfl⟩
abbrev main_v67 : Ref sig .tc := ⟨.hbm, 119, rfl⟩
abbrev main_v68 : Ref sig .tc := ⟨.hbm, 120, rfl⟩
abbrev main_c_15 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_cst_16 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_cst_17 : Ref sig .tc := ⟨.hbm, 131, rfl⟩
abbrev main_v77 : Ref sig .tc := ⟨.hbm, 132, rfl⟩
abbrev main_cst_18 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_cst_19 : Ref sig .tc := ⟨.hbm, 137, rfl⟩
abbrev main_v81 : Ref sig .tc := ⟨.hbm, 138, rfl⟩
abbrev main_v82 : Ref sig .tc := ⟨.hbm, 139, rfl⟩
abbrev main_cst_20 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_cst_21 : Ref sig .tc := ⟨.hbm, 145, rfl⟩
abbrev main_call2_v0 : Ref sig .tc := ⟨.hbm, 146, rfl⟩
abbrev main_call2_v1 : Ref sig .tc := ⟨.hbm, 147, rfl⟩
abbrev main_call2_v2 : Ref sig .tc := ⟨.hbm, 148, rfl⟩
abbrev main_v87 : Ref sig .tc := ⟨.hbm, 149, rfl⟩
abbrev main_c_22 : Ref sig .tc := ⟨.hbm, 150, rfl⟩
abbrev main_v88 : Ref sig .tc := ⟨.hbm, 151, rfl⟩
abbrev main_v89 : Ref sig .tc := ⟨.hbm, 152, rfl⟩
abbrev main_c_23 : Ref sig .tc := ⟨.hbm, 153, rfl⟩
abbrev main_v90 : Ref sig .tc := ⟨.hbm, 154, rfl⟩
abbrev main_v91 : Ref sig .tc := ⟨.hbm, 155, rfl⟩
abbrev main_v92 : Ref sig .tc := ⟨.hbm, 156, rfl⟩
abbrev main_v93 : Ref sig .tc := ⟨.hbm, 157, rfl⟩
abbrev main_v94 : Ref sig .tc := ⟨.hbm, 158, rfl⟩
abbrev main_cst_24 : Ref sig .tc := ⟨.hbm, 159, rfl⟩
abbrev main_v95 : Ref sig .tc := ⟨.hbm, 160, rfl⟩
abbrev main_v96 : Ref sig .tc := ⟨.hbm, 161, rfl⟩
abbrev main_v97 : Ref sig .tc := ⟨.hbm, 162, rfl⟩
abbrev main_cst_25 : Ref sig .tc := ⟨.hbm, 163, rfl⟩
abbrev main_v98 : Ref sig .tc := ⟨.hbm, 164, rfl⟩
abbrev main_cst_26 : Ref sig .tc := ⟨.hbm, 165, rfl⟩
abbrev main_v99 : Ref sig .tc := ⟨.hbm, 166, rfl⟩
abbrev main_v100 : Ref sig .tc := ⟨.hbm, 167, rfl⟩
abbrev main_v101 : Ref sig .tc := ⟨.hbm, 168, rfl⟩
abbrev main_cst_27 : Ref sig .tc := ⟨.hbm, 169, rfl⟩
abbrev main_v102 : Ref sig .tc := ⟨.hbm, 170, rfl⟩
abbrev main_v103 : Ref sig .tc := ⟨.hbm, 171, rfl⟩
abbrev main_cst_28 : Ref sig .tc := ⟨.hbm, 172, rfl⟩
abbrev main_v104 : Ref sig .tc := ⟨.hbm, 173, rfl⟩
abbrev main_v105 : Ref sig .tc := ⟨.hbm, 174, rfl⟩
abbrev main_v106 : Ref sig .tc := ⟨.hbm, 175, rfl⟩
abbrev main_v107 : Ref sig .tc := ⟨.hbm, 176, rfl⟩
abbrev main_cst_29 : Ref sig .tc := ⟨.hbm, 177, rfl⟩
abbrev main_call3_v0 : Ref sig .tc := ⟨.hbm, 178, rfl⟩
abbrev main_call3_v1 : Ref sig .tc := ⟨.hbm, 179, rfl⟩
abbrev main_call3_v2 : Ref sig .tc := ⟨.hbm, 180, rfl⟩
abbrev main_v108 : Ref sig .tc := ⟨.hbm, 181, rfl⟩
abbrev main_v109 : Ref sig .tc := ⟨.hbm, 182, rfl⟩
abbrev main_call4_cst : Ref sig .tc := ⟨.hbm, 183, rfl⟩
abbrev main_call4_v0 : Ref sig .tc := ⟨.hbm, 184, rfl⟩
abbrev main_v110 : Ref sig .tc := ⟨.hbm, 185, rfl⟩
abbrev main_call5_cst : Ref sig .tc := ⟨.hbm, 186, rfl⟩
abbrev main_call5_v0 : Ref sig .tc := ⟨.hbm, 187, rfl⟩
abbrev main_v111 : Ref sig .tc := ⟨.hbm, 188, rfl⟩
abbrev main_v112 : Ref sig .tc := ⟨.hbm, 189, rfl⟩
abbrev main_v113 : Ref sig .tc := ⟨.hbm, 190, rfl⟩
abbrev main_v114 : Ref sig .tc := ⟨.hbm, 191, rfl⟩
abbrev main_v115 : Ref sig .tc := ⟨.hbm, 192, rfl⟩
abbrev main_v116 : Ref sig .tc := ⟨.hbm, 193, rfl⟩
abbrev main_v117 : Ref sig .tc := ⟨.hbm, 194, rfl⟩
abbrev main_v118 : Ref sig .tc := ⟨.hbm, 195, rfl⟩
abbrev main_v119 : Ref sig .tc := ⟨.hbm, 196, rfl⟩
abbrev main_v120 : Ref sig .tc := ⟨.hbm, 197, rfl⟩
abbrev main_v121 : Ref sig .tc := ⟨.hbm, 198, rfl⟩
abbrev main_v122 : Ref sig .tc := ⟨.hbm, 199, rfl⟩
abbrev main_v123 : Ref sig .tc := ⟨.hbm, 200, rfl⟩
abbrev main_v124 : Ref sig .tc := ⟨.hbm, 201, rfl⟩
abbrev main_v125 : Ref sig .tc := ⟨.hbm, 202, rfl⟩
abbrev main_v126 : Ref sig .tc := ⟨.hbm, 203, rfl⟩
abbrev main_v127 : Ref sig .tc := ⟨.hbm, 204, rfl⟩
abbrev main_v128 : Ref sig .tc := ⟨.hbm, 205, rfl⟩
abbrev main_v129 : Ref sig .tc := ⟨.hbm, 206, rfl⟩
abbrev main_v130 : Ref sig .tc := ⟨.hbm, 207, rfl⟩
abbrev main_v131 : Ref sig .tc := ⟨.hbm, 208, rfl⟩
abbrev main_c_30 : Ref sig .tc := ⟨.hbm, 209, rfl⟩
abbrev main_v132 : Ref sig .tc := ⟨.hbm, 210, rfl⟩
abbrev main_v133 : Ref sig .tc := ⟨.hbm, 211, rfl⟩
abbrev main_c_31 : Ref sig .tc := ⟨.hbm, 212, rfl⟩
abbrev main_v134 : Ref sig .tc := ⟨.hbm, 213, rfl⟩
abbrev main_v135 : Ref sig .tc := ⟨.hbm, 214, rfl⟩
abbrev main_v136 : Ref sig .tc := ⟨.hbm, 215, rfl⟩
abbrev main_v137 : Ref sig .tc := ⟨.hbm, 216, rfl⟩
abbrev main_v138 : Ref sig .tc := ⟨.hbm, 217, rfl⟩
abbrev main_cst_32 : Ref sig .tc := ⟨.hbm, 218, rfl⟩
abbrev main_v139 : Ref sig .tc := ⟨.hbm, 219, rfl⟩
abbrev main_v140 : Ref sig .tc := ⟨.hbm, 220, rfl⟩
abbrev main_v141 : Ref sig .tc := ⟨.hbm, 221, rfl⟩
abbrev main_cst_33 : Ref sig .tc := ⟨.hbm, 222, rfl⟩
abbrev main_v142 : Ref sig .tc := ⟨.hbm, 223, rfl⟩
abbrev main_cst_34 : Ref sig .tc := ⟨.hbm, 224, rfl⟩
abbrev main_v143 : Ref sig .tc := ⟨.hbm, 225, rfl⟩
abbrev main_v144 : Ref sig .tc := ⟨.hbm, 226, rfl⟩
abbrev main_v145 : Ref sig .tc := ⟨.hbm, 227, rfl⟩
abbrev main_cst_35 : Ref sig .tc := ⟨.hbm, 228, rfl⟩
abbrev main_v146 : Ref sig .tc := ⟨.hbm, 229, rfl⟩
abbrev main_v147 : Ref sig .tc := ⟨.hbm, 230, rfl⟩
abbrev main_cst_36 : Ref sig .tc := ⟨.hbm, 231, rfl⟩
abbrev main_v148 : Ref sig .tc := ⟨.hbm, 232, rfl⟩
abbrev main_v149 : Ref sig .tc := ⟨.hbm, 233, rfl⟩
abbrev main_v150 : Ref sig .tc := ⟨.hbm, 234, rfl⟩
abbrev main_v151 : Ref sig .tc := ⟨.hbm, 235, rfl⟩
abbrev main_cst_37 : Ref sig .tc := ⟨.hbm, 236, rfl⟩
abbrev main_call6_v0 : Ref sig .tc := ⟨.hbm, 237, rfl⟩
abbrev main_call6_v1 : Ref sig .tc := ⟨.hbm, 238, rfl⟩
abbrev main_call6_v2 : Ref sig .tc := ⟨.hbm, 239, rfl⟩
abbrev main_v152 : Ref sig .tc := ⟨.hbm, 240, rfl⟩
abbrev main_c_38 : Ref sig .tc := ⟨.hbm, 241, rfl⟩
abbrev main_v153 : Ref sig .tc := ⟨.hbm, 242, rfl⟩
abbrev main_v154 : Ref sig .tc := ⟨.hbm, 243, rfl⟩
abbrev main_c_39 : Ref sig .tc := ⟨.hbm, 244, rfl⟩
abbrev main_v155 : Ref sig .tc := ⟨.hbm, 245, rfl⟩
abbrev main_v156 : Ref sig .tc := ⟨.hbm, 246, rfl⟩
abbrev main_v157 : Ref sig .tc := ⟨.hbm, 247, rfl⟩
abbrev main_v158 : Ref sig .tc := ⟨.hbm, 248, rfl⟩
abbrev main_v159 : Ref sig .tc := ⟨.hbm, 249, rfl⟩
abbrev main_cst_40 : Ref sig .tc := ⟨.hbm, 250, rfl⟩
abbrev main_v160 : Ref sig .tc := ⟨.hbm, 251, rfl⟩
abbrev main_v161 : Ref sig .tc := ⟨.hbm, 252, rfl⟩
abbrev main_v162 : Ref sig .tc := ⟨.hbm, 253, rfl⟩
abbrev main_cst_41 : Ref sig .tc := ⟨.hbm, 254, rfl⟩
abbrev main_v163 : Ref sig .tc := ⟨.hbm, 255, rfl⟩
abbrev main_cst_42 : Ref sig .tc := ⟨.hbm, 256, rfl⟩
abbrev main_v164 : Ref sig .tc := ⟨.hbm, 257, rfl⟩
abbrev main_v165 : Ref sig .tc := ⟨.hbm, 258, rfl⟩
abbrev main_v166 : Ref sig .tc := ⟨.hbm, 259, rfl⟩
abbrev main_cst_43 : Ref sig .tc := ⟨.hbm, 260, rfl⟩
abbrev main_v167 : Ref sig .tc := ⟨.hbm, 261, rfl⟩
abbrev main_v168 : Ref sig .tc := ⟨.hbm, 262, rfl⟩
abbrev main_cst_44 : Ref sig .tc := ⟨.hbm, 263, rfl⟩
abbrev main_v169 : Ref sig .tc := ⟨.hbm, 264, rfl⟩
abbrev main_v170 : Ref sig .tc := ⟨.hbm, 265, rfl⟩
abbrev main_v171 : Ref sig .tc := ⟨.hbm, 266, rfl⟩
abbrev main_v172 : Ref sig .tc := ⟨.hbm, 267, rfl⟩
abbrev main_cst_45 : Ref sig .tc := ⟨.hbm, 268, rfl⟩
abbrev main_call7_v0 : Ref sig .tc := ⟨.hbm, 269, rfl⟩
abbrev main_call7_v1 : Ref sig .tc := ⟨.hbm, 270, rfl⟩
abbrev main_call7_v2 : Ref sig .tc := ⟨.hbm, 271, rfl⟩
abbrev main_v173 : Ref sig .tc := ⟨.hbm, 272, rfl⟩
abbrev main_v174 : Ref sig .tc := ⟨.hbm, 273, rfl⟩
abbrev main_c_46 : Ref sig .tc := ⟨.hbm, 274, rfl⟩
abbrev main_v175 : Ref sig .tc := ⟨.hbm, 275, rfl⟩
abbrev main_v176 : Ref sig .tc := ⟨.hbm, 276, rfl⟩
abbrev main_c_47 : Ref sig .tc := ⟨.hbm, 277, rfl⟩
abbrev main_v177 : Ref sig .tc := ⟨.hbm, 278, rfl⟩
abbrev main_v178 : Ref sig .tc := ⟨.hbm, 279, rfl⟩
abbrev main_v179 : Ref sig .tc := ⟨.hbm, 280, rfl⟩
abbrev main_v180 : Ref sig .tc := ⟨.hbm, 281, rfl⟩
abbrev main_v181 : Ref sig .tc := ⟨.hbm, 282, rfl⟩
abbrev main_cst_48 : Ref sig .tc := ⟨.hbm, 283, rfl⟩
abbrev main_v182 : Ref sig .tc := ⟨.hbm, 284, rfl⟩
abbrev main_v183 : Ref sig .tc := ⟨.hbm, 285, rfl⟩
abbrev main_v184 : Ref sig .tc := ⟨.hbm, 286, rfl⟩
abbrev main_cst_49 : Ref sig .tc := ⟨.hbm, 287, rfl⟩
abbrev main_v185 : Ref sig .tc := ⟨.hbm, 288, rfl⟩
abbrev main_cst_50 : Ref sig .tc := ⟨.hbm, 289, rfl⟩
abbrev main_v186 : Ref sig .tc := ⟨.hbm, 290, rfl⟩
abbrev main_v187 : Ref sig .tc := ⟨.hbm, 291, rfl⟩
abbrev main_v188 : Ref sig .tc := ⟨.hbm, 292, rfl⟩
abbrev main_cst_51 : Ref sig .tc := ⟨.hbm, 293, rfl⟩
abbrev main_v189 : Ref sig .tc := ⟨.hbm, 294, rfl⟩
abbrev main_v190 : Ref sig .tc := ⟨.hbm, 295, rfl⟩
abbrev main_cst_52 : Ref sig .tc := ⟨.hbm, 296, rfl⟩
abbrev main_v191 : Ref sig .tc := ⟨.hbm, 297, rfl⟩
abbrev main_v192 : Ref sig .tc := ⟨.hbm, 298, rfl⟩
abbrev main_v193 : Ref sig .tc := ⟨.hbm, 299, rfl⟩
abbrev main_v194 : Ref sig .tc := ⟨.hbm, 300, rfl⟩
abbrev main_cst_53 : Ref sig .tc := ⟨.hbm, 301, rfl⟩
abbrev main_call8_v0 : Ref sig .tc := ⟨.hbm, 302, rfl⟩
abbrev main_call8_v1 : Ref sig .tc := ⟨.hbm, 303, rfl⟩
abbrev main_call8_v2 : Ref sig .tc := ⟨.hbm, 304, rfl⟩
abbrev main_v195 : Ref sig .tc := ⟨.hbm, 305, rfl⟩
abbrev main_c_54 : Ref sig .tc := ⟨.hbm, 306, rfl⟩
abbrev main_v196 : Ref sig .tc := ⟨.hbm, 307, rfl⟩
abbrev main_v197 : Ref sig .tc := ⟨.hbm, 308, rfl⟩
abbrev main_c_55 : Ref sig .tc := ⟨.hbm, 309, rfl⟩
abbrev main_v198 : Ref sig .tc := ⟨.hbm, 310, rfl⟩
abbrev main_v199 : Ref sig .tc := ⟨.hbm, 311, rfl⟩
abbrev main_v200 : Ref sig .tc := ⟨.hbm, 312, rfl⟩
abbrev main_v201 : Ref sig .tc := ⟨.hbm, 313, rfl⟩
abbrev main_v202 : Ref sig .tc := ⟨.hbm, 314, rfl⟩
abbrev main_cst_56 : Ref sig .tc := ⟨.hbm, 315, rfl⟩
abbrev main_v203 : Ref sig .tc := ⟨.hbm, 316, rfl⟩
abbrev main_v204 : Ref sig .tc := ⟨.hbm, 317, rfl⟩
abbrev main_v205 : Ref sig .tc := ⟨.hbm, 318, rfl⟩
abbrev main_cst_57 : Ref sig .tc := ⟨.hbm, 319, rfl⟩
abbrev main_v206 : Ref sig .tc := ⟨.hbm, 320, rfl⟩
abbrev main_cst_58 : Ref sig .tc := ⟨.hbm, 321, rfl⟩
abbrev main_v207 : Ref sig .tc := ⟨.hbm, 322, rfl⟩
abbrev main_v208 : Ref sig .tc := ⟨.hbm, 323, rfl⟩
abbrev main_v209 : Ref sig .tc := ⟨.hbm, 324, rfl⟩
abbrev main_cst_59 : Ref sig .tc := ⟨.hbm, 325, rfl⟩
abbrev main_v210 : Ref sig .tc := ⟨.hbm, 326, rfl⟩
abbrev main_v211 : Ref sig .tc := ⟨.hbm, 327, rfl⟩
abbrev main_cst_60 : Ref sig .tc := ⟨.hbm, 328, rfl⟩
abbrev main_v212 : Ref sig .tc := ⟨.hbm, 329, rfl⟩
abbrev main_v213 : Ref sig .tc := ⟨.hbm, 330, rfl⟩
abbrev main_v214 : Ref sig .tc := ⟨.hbm, 331, rfl⟩
abbrev main_v215 : Ref sig .tc := ⟨.hbm, 332, rfl⟩
abbrev main_cst_61 : Ref sig .tc := ⟨.hbm, 333, rfl⟩
abbrev main_call9_v0 : Ref sig .tc := ⟨.hbm, 334, rfl⟩
abbrev main_call9_v1 : Ref sig .tc := ⟨.hbm, 335, rfl⟩
abbrev main_call9_v2 : Ref sig .tc := ⟨.hbm, 336, rfl⟩
abbrev main_v216 : Ref sig .tc := ⟨.hbm, 337, rfl⟩
abbrev main_v217 : Ref sig .tc := ⟨.hbm, 338, rfl⟩
abbrev main_call10_cst : Ref sig .tc := ⟨.hbm, 339, rfl⟩
abbrev main_call10_v0 : Ref sig .tc := ⟨.hbm, 340, rfl⟩
abbrev main_v218 : Ref sig .tc := ⟨.hbm, 341, rfl⟩
abbrev main_call11_cst : Ref sig .tc := ⟨.hbm, 342, rfl⟩
abbrev main_call11_v0 : Ref sig .tc := ⟨.hbm, 343, rfl⟩
abbrev main_v219 : Ref sig .tc := ⟨.hbm, 344, rfl⟩
abbrev main_v220 : Ref sig .tc := ⟨.hbm, 345, rfl⟩
abbrev main_v221 : Ref sig .tc := ⟨.hbm, 346, rfl⟩
abbrev main_v222 : Ref sig .tc := ⟨.hbm, 347, rfl⟩
abbrev main_v223 : Ref sig .tc := ⟨.hbm, 348, rfl⟩

abbrev nD : Nat := 1
abbrev τ : Topo := Topo.v7x

variable {F : FTy → Type} [FloatOps F]

class Facts₀ : Prop where
  transposes_S64x2048_S2048x64_1_0 : S64x2048.Transposes [1, 0] S2048x64
  transposes_S64x1024_S1024x64_1_0 : S64x1024.Transposes [1, 0] S1024x64
  transposes_S32x64_S64x32_1_0 : S32x64.Transposes [1, 0] S64x32
  bcast_S32_S1x32_1 : S32.BroadcastsInDim S1x32 (![1] : Fin 1 → Fin S1x32.rank)
  bcast_S1x32_S10000x32_0_1 : S1x32.BroadcastsInDim S10000x32 (![0, 1] : Fin 2 → Fin S10000x32.rank)
  bcast_S_S320000 : S_.BroadcastsInDim S320000 (![] : Fin 0 → Fin S320000.rank)
  bcast_S320000_S320000x1_0 : S320000.BroadcastsInDim S320000x1 (![0] : Fin 1 → Fin S320000x1.rank)
  bcast_S_S10000x32 : S_.BroadcastsInDim S10000x32 (![] : Fin 0 → Fin S10000x32.rank)
  bcast_S_S320000x1 : S_.BroadcastsInDim S320000x1 (![] : Fin 0 → Fin S320000x1.rank)
  bcast_S_S10000x1 : S_.BroadcastsInDim S10000x1 (![] : Fin 0 → Fin S10000x1.rank)
  bcast_S10000x1_S10000x32_0_1 : S10000x1.BroadcastsInDim S10000x32 (![0, 1] : Fin 2 → Fin S10000x32.rank)
  transposes_S32x32_S32x32_1_0 : S32x32.Transposes [1, 0] S32x32
  transposes_S10000x32_S32x10000_1_0 : S10000x32.Transposes [1, 0] S32x10000
  dot_S10000x2048_S2048x64_S10000x64_1_0_0_1_n_n_wf : DotDims.WF S10000x2048 S2048x64 S10000x64 [1] [0] [0] [1] [] []
  dot_S10000x1024_S1024x64_S10000x64_1_0_0_1_n_n_wf : DotDims.WF S10000x1024 S1024x64 S10000x64 [1] [0] [0] [1] [] []
  dot_S10000x64_S64x32_S10000x32_1_0_0_1_n_n_wf : DotDims.WF S10000x64 S64x32 S10000x32 [1] [0] [0] [1] [] []
  gather_S10000x32_S320000x1_S320000x32_1_0_n_n_0_1_132_wf : GatherDims.WF S10000x32 S320000x1 S320000x32 [1] [0] [] [0] [] 1 ![1, 32]
  scatter_S10000x32_S320000x1_S320000x32_1_0_0_1_wf : ScatterDims.WF S10000x32 S320000x1 S320000x32 [1] [0] [0] 1
  scatter_S10000x1_S320000x1_S320000x1_1_0_0_1_wf : ScatterDims.WF S10000x1 S320000x1 S320000x1 [1] [0] [0] 1
  dot_S10000x32_S32x32_S10000x32_1_0_0_1_n_n_wf : DotDims.WF S10000x32 S32x32 S10000x32 [1] [0] [0] [1] [] []
  dot_S10000x32_S32x10000_S10000x10000_1_0_0_1_n_n_wf : DotDims.WF S10000x32 S32x10000 S10000x10000 [1] [0] [0] [1] [] []

variable [Facts₀]

def dot_S10000x2048_S2048x64_S10000x64_1_0_0_1_n_n : DotDims S10000x2048 S2048x64 S10000x64 where
  lhsContracting := [1]
  rhsContracting := [0]
  lhsNonContracting := [0]
  rhsNonContracting := [1]
  lhsBatch := []
  rhsBatch := []
  wf := dot_S10000x2048_S2048x64_S10000x64_1_0_0_1_n_n_wf
def dot_S10000x1024_S1024x64_S10000x64_1_0_0_1_n_n : DotDims S10000x1024 S1024x64 S10000x64 where
  lhsContracting := [1]
  rhsContracting := [0]
  lhsNonContracting := [0]
  rhsNonContracting := [1]
  lhsBatch := []
  rhsBatch := []
  wf := dot_S10000x1024_S1024x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S10000x32_S320000x1_S320000x32_1_0_n_n_0_1_132 : GatherDims S10000x32 S320000x1 S320000x32 where
  offsetDims := [1]
  collapsedSliceDims := [0]
  operandBatchingDims := []
  startIndicesBatchingDims := []
  startIndexMap := [0]
  indexVectorDim := 1
  sliceSizes := ![1, 32]
  wf := gather_S10000x32_S320000x1_S320000x32_1_0_n_n_0_1_132_wf
def scatter_S10000x32_S320000x1_S320000x32_1_0_0_1 : ScatterDims S10000x32 S320000x1 S320000x32 where
  updateWindowDims := [1]
  insertedWindowDims := [0]
  scatterDimsToOperandDims := [0]
  indexVectorDim := 1
  wf := scatter_S10000x32_S320000x1_S320000x32_1_0_0_1_wf
def scatter_S10000x1_S320000x1_S320000x1_1_0_0_1 : ScatterDims S10000x1 S320000x1 S320000x1 where
  updateWindowDims := [1]
  insertedWindowDims := [0]
  scatterDimsToOperandDims := [0]
  indexVectorDim := 1
  wf := scatter_S10000x1_S320000x1_S320000x1_1_0_0_1_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf
def dot_S10000x32_S32x10000_S10000x10000_1_0_0_1_n_n : DotDims S10000x32 S32x10000 S10000x10000 where
  lhsContracting := [1]
  rhsContracting := [0]
  lhsNonContracting := [0]
  rhsNonContracting := [1]
  lhsBatch := []
  rhsBatch := []
  wf := dot_S10000x32_S32x10000_S10000x10000_1_0_0_1_n_n_wf

class Facts : Prop extends Facts₀ where

variable [Facts]
-- ==== Proof.RunAll.lean ====
/-
  The whole program's run with every buffer named.  The program is twelve Pallas calls among stretches of host
  operations; the contents of every buffer at each boundary between them are a fold from the launch memory: a
  stretch of host operations leaves each buffer it writes at the operation's result and every other buffer alone,
  and a Pallas call leaves each of its output arrays at what its grid points wrote back and every other buffer
  alone.  `W45` is the last boundary, after the twelfth call.  Every weakly fair execution terminates, faults
  nowhere, and ends with every buffer that is not a call's scratch at its `W45` contents; in particular the result
  buffer and each argument.  What `W45` holds at the result, as a function of the arguments, is read in the
  modules that follow this one.
-/
import proofs.«165804_j39522289058325_1_alg».proof.Proof.Gen.KernelIdeal.Frame

set_option maxRecDepth 16384

noncomputable section

namespace Cert.KernelIdeal.RunAll

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates without a fault, and
    in the final state every buffer outside the calls' scratch holds its contents at the last boundary. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W45 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W45 m ρ c b)
    (hfin := fun c s' => by
      iintro ⟨⟨Hh, -⟩, HSI⟩
      unfold StableHlo.held
      imodintro
      iapply (pointsTo_read_all (Pipeline.ucRefs τ sig) (fun b => (((c : Thread nD τ)).1, b)) (W45 m ρ c) s')
      isplitl [Hh] <;> iassumption)
    (hQ := fun s h c b hb => h c b hb)

/-- The final contents of a named buffer that is no call's scratch. -/
theorem run_at (b : Ref sig .tc) (hb : ¬ (Proc.devRef .tc b : DevRef τ sig).isScoped) :
    θ_run defs (onTc (τ := τ) (main (F := F))) ⟨m, fun _ => 0, ρ⟩ (fun r => ∀ c : Dev nD,
      r.2.mem ((c : Thread nD τ).loc b) = W45 m ρ c (Proc.devRef .tc b)) :=
  (θ_run defs _ _).mono (fun r h c => h c _ (mem_uc b hb)) (run_all m ρ)

end Cert.KernelIdeal.RunAll

end
-- ==== Proof.Keep.lean ====
/-
  Which buffers each piece of the program leaves alone.  The program is 45 pieces in a row: stretches of host
  operations and Pallas calls.  A stretch of host operations changes exactly the buffers its operations write
  (each value of the program is written once, by one operation); a Pallas call changes only its output array — its
  input arrays are read and written back as found, and every other buffer is not touched.  So across piece `k` a
  buffer outside the piece's written list has the same contents on both sides.  Chaining these facts carries the
  contents of a buffer from the boundary where some later piece reads it back to the boundary right after the
  piece that wrote it, or, for an argument of the program, back to the launch memory.
-/
import proofs.«165804_j39522289058325_1_alg».proof.Proof.Gen.KernelIdeal.Frame

set_option maxRecDepth 16384

noncomputable section

namespace Cert.KernelIdeal.Keep

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The buffers piece 0 (a stretch of 4 host operations) writes. -/
abbrev wr0 : List (Ref sig .tc) := [main_v0, main_cst, main_v1, main_v2]
theorem writes0 : (hostOps0 : List (HloOp τ sig (Elt F))).Forall fun op => op.writes ⊆ (wr0.map (Proc.devRef (τ := τ) .tc)).toFinset := by
  simp only [List.Forall]
  simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- Across piece 0 a buffer it does not write keeps its contents. -/
theorem keep0 (c : Dev nD) (r : Ref sig .tc) (h : r ∉ wr0) :
    W1 m ρ c (Proc.devRef .tc r) = W0 m ρ c (Proc.devRef .tc r) :=
  StableHlo.after_of_writes_sub hostOps0 _ writes0 h

/-- Across piece 1 (Pallas call 0) a buffer that is none of the call's arrays keeps its contents. -/
theorem keep1 (c : Dev nD) (r : Ref sig .tc) (h : ∀ w, Pipeline.arrRef spec0 w ≠ r) :
    W2 m ρ c (Proc.devRef .tc r) = W1 m ρ c (Proc.devRef .tc r) :=
  W2_of_ne m ρ c r h
/-- Across Pallas call 0 its input array 0 is written back as found. -/
theorem keepin1_0 (c : Dev nD) : W2 m ρ c (Proc.devRef .tc main_arg0) = W1 m ρ c (Proc.devRef .tc main_arg0) :=
  (W2_arr m ρ c 0).trans (((dat0 (V1 m ρ) c).arrAt_in 0 rfl _).trans (A_eq0 (V1 m ρ) c 0))
/-- Across Pallas call 0 its input array 1 is written back as found. -/
theorem keepin1_1 (c : Dev nD) : W2 m ρ c (Proc.devRef .tc main_v0) = W1 m ρ c (Proc.devRef .tc main_v0) :=
  (W2_arr m ρ c 1).trans (((dat0 (V1 m ρ) c).arrAt_in 1 rfl _).trans (A_eq0 (V1 m ρ) c 1))
/-- Across Pallas call 0 its input array 2 is written back as found. -/
theorem keepin1_2 (c : Dev nD) : W2 m ρ c (Proc.devRef .tc main_v2) = W1 m ρ c (Proc.devRef .tc main_v2) :=
  (W2_arr m ρ c 2).trans (((dat0 (V1 m ρ) c).arrAt_in 2 rfl _).trans (A_eq0 (V1 m ρ) c 2))

/-- The buffers piece 2 (a stretch of 4 host operations) writes. -/
abbrev wr2 : List (Ref sig .tc) := [main_v4, main_cst_0, main_v5, main_v6]
theorem writes2 : (hostOps1 : List (HloOp τ sig (Elt F))).Forall fun op => op.writes ⊆ (wr2.map (Proc.devRef (τ := τ) .tc)).toFinset := by
  simp only [List.Forall]
  simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- Across piece 2 a buffer it does not write keeps its contents. -/
theorem keep2 (c : Dev nD) (r : Ref sig .tc) (h : r ∉ wr2) :
    W3 m ρ c (Proc.devRef .tc r) = W2 m ρ c (Proc.devRef .tc r) :=
  StableHlo.after_of_writes_sub hostOps1 _ writes2 h

/-- Across piece 3 (Pallas call 1) a buffer that is none of the call's arrays keeps its contents. -/
theorem keep3 (c : Dev nD) (r : Ref sig .tc) (h : ∀ w, Pipeline.arrRef spec1 w ≠ r) :
    W4 m ρ c (Proc.devRef .tc r) = W3 m ρ c (Proc.devRef .tc r) :=
  W4_of_ne m ρ c r h
/-- Across Pallas call 1 its input array 0 is written back as found. -/
theorem keepin3_0 (c : Dev nD) : W4 m ρ c (Proc.devRef .tc main_arg1) = W3 m ρ c (Proc.devRef .tc main_arg1) :=
  (W4_arr m ρ c 0).trans (((dat1 (V3 m ρ) c).arrAt_in 0 rfl _).trans (A_eq1 (V3 m ρ) c 0))
/-- Across Pallas call 1 its input array 1 is written back as found. -/
theorem keepin3_1 (c : Dev nD) : W4 m ρ c (Proc.devRef .tc main_v4) = W3 m ρ c (Proc.devRef .tc main_v4) :=
  (W4_arr m ρ c 1).trans (((dat1 (V3 m ρ) c).arrAt_in 1 rfl _).trans (A_eq1 (V3 m ρ) c 1))
/-- Across Pallas call 1 its input array 2 is written back as found. -/
theorem keepin3_2 (c : Dev nD) : W4 m ρ c (Proc.devRef .tc main_v6) = W3 m ρ c (Proc.devRef .tc main_v6) :=
  (W4_arr m ρ c 2).trans (((dat1 (V3 m ρ) c).arrAt_in 2 rfl _).trans (A_eq1 (V3 m ρ) c 2))

/-- The buffers piece 4 (a stretch of 2 host operations) writes. -/
abbrev wr4 : List (Ref sig .tc) := [main_v8, main_v9]
theorem writes4 : (hostOps2 : List (HloOp τ sig (Elt F))).Forall fun op => op.writes ⊆ (wr4.map (Proc.devRef (τ := τ) .tc)).toFinset := by
  simp only [List.Forall]
  simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- Across piece 4 a buffer it does not write keeps its contents. -/
theorem keep4 (c : Dev nD) (r : Ref sig .tc) (h : r ∉ wr4) :
    W5 m ρ c (Proc.devRef .tc r) = W4 m ρ c (Proc.devRef .tc r) :=
  StableHlo.after_of_writes_sub hostOps2 _ writes4 h

/-- Across piece 5 (Pallas call 2) a buffer that is none of the call's arrays keeps its contents. -/
theorem keep5 (c : Dev nD) (r : Ref sig .tc) (h : ∀ w, Pipeline.arrRef spec2 w ≠ r) :
    W6 m ρ c (Proc.devRef .tc r) = W5 m ρ c (Proc.devRef .tc r) :=
  W6_of_ne m ρ c r h
/-- Across Pallas call 2 its input array 0 is written back as found. -/
theorem keepin5_0 (c : Dev nD) : W6 m ρ c (Proc.devRef .tc main_v3) = W5 m ρ c (Proc.devRef .tc main_v3) :=
  (W6_arr m ρ c 0).trans (((dat2 (V5 m ρ) c).arrAt_in 0 rfl _).trans (A_eq2 (V5 m ρ) c 0))
/-- Across Pallas call 2 its input array 1 is written back as found. -/
theorem keepin5_1 (c : Dev nD) : W6 m ρ c (Proc.devRef .tc main_v8) = W5 m ρ c (Proc.devRef .tc main_v8) :=
  (W6_arr m ρ c 1).trans (((dat2 (V5 m ρ) c).arrAt_in 1 rfl _).trans (A_eq2 (V5 m ρ) c 1))
/-- Across Pallas call 2 its input array 2 is written back as found. -/
theorem keepin5_2 (c : Dev nD) : W6 m ρ c (Proc.devRef .tc main_v9) = W5 m ρ c (Proc.devRef .tc main_v9) :=
  (W6_arr m ρ c 2).trans (((dat2 (V5 m ρ) c).arrAt_in 2 rfl _).trans (A_eq2 (V5 m ρ) c 2))

/-- The buffers piece 6 (a stretch of 2 host operations) writes. -/
abbrev wr6 : List (Ref sig .tc) := [main_v11, main_v12]
theorem writes6 : (hostOps3 : List (HloOp τ sig (Elt F))).Forall fun op => op.writes ⊆ (wr6.map (Proc.devRef (τ := τ) .tc)).toFinset := by
  simp only [List.Forall]
  simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- Across piece 6 a buffer it does not write keeps its contents. -/
theorem keep6 (c : Dev nD) (r : Ref sig .tc) (h : r ∉ wr6) :
    W7 m ρ c (Proc.devRef .tc r) = W6 m ρ c (Proc.devRef .tc r) :=
  StableHlo.after_of_writes_sub hostOps3 _ writes6 h

/-- Across piece 7 (Pallas call 3) a buffer that is none of the call's arrays keeps its contents. -/
theorem keep7 (c : Dev nD) (r : Ref sig .tc) (h : ∀ w, Pipeline.arrRef spec3 w ≠ r) :
    W8 m ρ c (Proc.devRef .tc r) = W7 m ρ c (Proc.devRef .tc r) :=
  W8_of_ne m ρ c r h
/-- Across Pallas call 3 its input array 0 is written back as found. -/
theorem keepin7_0 (c : Dev nD) : W8 m ρ c (Proc.devRef .tc main_v3) = W7 m ρ c (Proc.devRef .tc main_v3) :=
  (W8_arr m ρ c 0).trans (((dat3 (V7 m ρ) c).arrAt_in 0 rfl _).trans (A_eq3 (V7 m ρ) c 0))
/-- Across Pallas call 3 its input array 1 is written back as found. -/
theorem keepin7_1 (c : Dev nD) : W8 m ρ c (Proc.devRef .tc main_v11) = W7 m ρ c (Proc.devRef .tc main_v11) :=
  (W8_arr m ρ c 1).trans (((dat3 (V7 m ρ) c).arrAt_in 1 rfl _).trans (A_eq3 (V7 m ρ) c 1))
/-- Across Pallas call 3 its input array 2 is written back as found. -/
theorem keepin7_2 (c : Dev nD) : W8 m ρ c (Proc.devRef .tc main_v12) = W7 m ρ c (Proc.devRef .tc main_v12) :=
  (W8_arr m ρ c 2).trans (((dat3 (V7 m ρ) c).arrAt_in 2 rfl _).trans (A_eq3 (V7 m ρ) c 2))

/-- The buffers piece 8 (a stretch of 2 host operations) writes. -/
abbrev wr8 : List (Ref sig .tc) := [main_v14, main_v15]
theorem writes8 : (hostOps4 : List (HloOp τ sig (Elt F))).Forall fun op => op.writes ⊆ (wr8.map (Proc.devRef (τ := τ) .tc)).toFinset := by
  simp only [List.Forall]
  simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- Across piece 8 a buffer it does not write keeps its contents. -/
theorem keep8 (c : Dev nD) (r : Ref sig .tc) (h : r ∉ wr8) :
    W9 m ρ c (Proc.devRef .tc r) = W8 m ρ c (Proc.devRef .tc r) :=
  StableHlo.after_of_writes_sub hostOps4 _ writes8 h

/-- Across piece 9 (Pallas call 4) a buffer that is none of the call's arrays keeps its contents. -/
theorem keep9 (c : Dev nD) (r : Ref sig .tc) (h : ∀ w, Pipeline.arrRef spec4 w ≠ r) :
    W10 m ρ c (Proc.devRef .tc r) = W9 m ρ c (Proc.devRef .tc r) :=
  W10_of_ne m ρ c r h
/-- Across Pallas call 4 its input array 0 is written back as found. -/
theorem keepin9_0 (c : Dev nD) : W10 m ρ c (Proc.devRef .tc main_v7) = W9 m ρ c (Proc.devRef .tc main_v7) :=
  (W10_arr m ρ c 0).trans (((dat4 (V9 m ρ) c).arrAt_in 0 rfl _).trans (A_eq4 (V9 m ρ) c 0))
/-- Across Pallas call 4 its input array 1 is written back as found. -/
theorem keepin9_1 (c : Dev nD) : W10 m ρ c (Proc.devRef .tc main_v14) = W9 m ρ c (Proc.devRef .tc main_v14) :=
  (W10_arr m ρ c 1).trans (((dat4 (V9 m ρ) c).arrAt_in 1 rfl _).trans (A_eq4 (V9 m ρ) c 1))
/-- Across Pallas call 4 its input array 2 is written back as found. -/
theorem keepin9_2 (c : Dev nD) : W10 m ρ c (Proc.devRef .tc main_v15) = W9 m ρ c (Proc.devRef .tc main_v15) :=
  (W10_arr m ρ c 2).trans (((dat4 (V9 m ρ) c).arrAt_in 2 rfl _).trans (A_eq4 (V9 m ρ) c 2))

/-- The buffers piece 10 (a stretch of 2 host operations) writes. -/
abbrev wr10 : List (Ref sig .tc) := [main_v17, main_v18]
theorem writes10 : (hostOps5 : List (HloOp τ sig (Elt F))).Forall fun op => op.writes ⊆ (wr10.map (Proc.devRef (τ := τ) .tc)).toFinset := by
  simp only [List.Forall]
  simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- Across piece 10 a buffer it does not write keeps its contents. -/
theorem keep10 (c : Dev nD) (r : Ref sig .tc) (h : r ∉ wr10) :
    W11 m ρ c (Proc.devRef .tc r) = W10 m ρ c (Proc.devRef .tc r) :=
  StableHlo.after_of_writes_sub hostOps5 _ writes10 h

/-- Across piece 11 (Pallas call 5) a buffer that is none of the call's arrays keeps its contents. -/
theorem keep11 (c : Dev nD) (r : Ref sig .tc) (h : ∀ w, Pipeline.arrRef spec5 w ≠ r) :
    W12 m ρ c (Proc.devRef .tc r) = W11 m ρ c (Proc.devRef .tc r) :=
  W12_of_ne m ρ c r h
/-- Across Pallas call 5 its input array 0 is written back as found. -/
theorem keepin11_0 (c : Dev nD) : W12 m ρ c (Proc.devRef .tc main_v7) = W11 m ρ c (Proc.devRef .tc main_v7) :=
  (W12_arr m ρ c 0).trans (((dat5 (V11 m ρ) c).arrAt_in 0 rfl _).trans (A_eq5 (V11 m ρ) c 0))
/-- Across Pallas call 5 its input array 1 is written back as found. -/
theorem keepin11_1 (c : Dev nD) : W12 m ρ c (Proc.devRef .tc main_v17) = W11 m ρ c (Proc.devRef .tc main_v17) :=
  (W12_arr m ρ c 1).trans (((dat5 (V11 m ρ) c).arrAt_in 1 rfl _).trans (A_eq5 (V11 m ρ) c 1))
/-- Across Pallas call 5 its input array 2 is written back as found. -/
theorem keepin11_2 (c : Dev nD) : W12 m ρ c (Proc.devRef .tc main_v18) = W11 m ρ c (Proc.devRef .tc main_v18) :=
  (W12_arr m ρ c 2).trans (((dat5 (V11 m ρ) c).arrAt_in 2 rfl _).trans (A_eq5 (V11 m ρ) c 2))

/-- The buffers piece 12 (a stretch of 28 host operations) writes. -/
abbrev wr12 : List (Ref sig .tc) := [main_c, main_v20, main_v21, main_c_1, main_v22, main_v23, main_v24, main_v25, main_v26, main_cst_2, main_v27, main_v28, main_v29, main_cst_3, main_v30, main_cst_4, main_v31, main_v32, main_v33, main_cst_5, main_v34, main_v35, main_cst_6, main_v36, main_v37, main_v38, main_v39, main_cst_7]
theorem writes12 : (hostOps6 : List (HloOp τ sig (Elt F))).Forall fun op => op.writes ⊆ (wr12.map (Proc.devRef (τ := τ) .tc)).toFinset := by
  simp only [List.Forall]
  simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- Across piece 12 a buffer it does not write keeps its contents. -/
theorem keep12 (c : Dev nD) (r : Ref sig .tc) (h : r ∉ wr12) :
    W13 m ρ c (Proc.devRef .tc r) = W12 m ρ c (Proc.devRef .tc r) :=
  StableHlo.after_of_writes_sub hostOps6 _ writes12 h

/-- The buffers piece 13 (a stretch of 4 host operations) writes. -/
abbrev wr13 : List (Ref sig .tc) := [main_call0_v0, main_call0_v1, main_call0_v2, main_v40]
theorem writes13 : (hostOps6_1 : List (HloOp τ sig (Elt F))).Forall fun op => op.writes ⊆ (wr13.map (Proc.devRef (τ := τ) .tc)).toFinset := by
  simp only [List.Forall]
  simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- Across piece 13 a buffer it does not write keeps its contents. -/
theorem keep13 (c : Dev nD) (r : Ref sig .tc) (h : r ∉ wr13) :
    W14 m ρ c (Proc.devRef .tc r) = W13 m ρ c (Proc.devRef .tc r) :=
  StableHlo.after_of_writes_sub hostOps6_1 _ writes13 h

/-- The buffers piece 14 (a stretch of 28 host operations) writes. -/
abbrev wr14 : List (Ref sig .tc) := [main_c_8, main_v41, main_v42, main_c_9, main_v43, main_v44, main_v45, main_v46, main_v47, main_cst_10, main_v48, main_v49, main_v50, main_cst_11, main_v51, main_cst_12, main_v52, main_v53, main_v54, main_cst_13, main_v55, main_v56, main_cst_14, main_v57, main_v58, main_v59, main_v60, main_cst_15]
theorem writes14 : (hostOps6_2 : List (HloOp τ sig (Elt F))).Forall fun op => op.writes ⊆ (wr14.map (Proc.devRef (τ := τ) .tc)).toFinset := by
  simp only [List.Forall]
  simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- Across piece 14 a buffer it does not write keeps its contents. -/
theorem keep14 (c : Dev nD) (r : Ref sig .tc) (h : r ∉ wr14) :
    W15 m ρ c (Proc.devRef .tc r) = W14 m ρ c (Proc.devRef .tc r) :=
  StableHlo.after_of_writes_sub hostOps6_2 _ writes14 h

/-- The buffers piece 15 (a stretch of 4 host operations) writes. -/
abbrev wr15 : List (Ref sig .tc) := [main_call1_v0, main_call1_v1, main_call1_v2, main_v61]
theorem writes15 : (hostOps6_3 : List (HloOp τ sig (Elt F))).Forall fun op => op.writes ⊆ (wr15.map (Proc.devRef (τ := τ) .tc)).toFinset := by
  simp only [List.Forall]
  simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- Across piece 15 a buffer it does not write keeps its contents. -/
theorem keep15 (c : Dev nD) (r : Ref sig .tc) (h : r ∉ wr15) :
    W16 m ρ c (Proc.devRef .tc r) = W15 m ρ c (Proc.devRef .tc r) :=
  StableHlo.after_of_writes_sub hostOps6_3 _ writes15 h

/-- The buffers piece 16 (a stretch of 29 host operations) writes. -/
abbrev wr16 : List (Ref sig .tc) := [main_v62, main_c_16, main_v63, main_v64, main_c_17, main_v65, main_v66, main_v67, main_v68, main_v69, main_cst_18, main_v70, main_v71, main_v72, main_cst_19, main_v73, main_cst_20, main_v74, main_v75, main_v76, main_cst_21, main_v77, main_v78, main_cst_22, main_v79, main_v80, main_v81, main_v82, main_cst_23]
theorem writes16 : (hostOps6_4 : List (HloOp τ sig (Elt F))).Forall fun op => op.writes ⊆ (wr16.map (Proc.devRef (τ := τ) .tc)).toFinset := by
  simp only [List.Forall]
  simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- Across piece 16 a buffer it does not write keeps its contents. -/
theorem keep16 (c : Dev nD) (r : Ref sig .tc) (h : r ∉ wr16) :
    W17 m ρ c (Proc.devRef .tc r) = W16 m ρ c (Proc.devRef .tc r) :=
  StableHlo.after_of_writes_sub hostOps6_4 _ writes16 h

/-- The buffers piece 17 (a stretch of 4 host operations) writes. -/
abbrev wr17 : List (Ref sig .tc) := [main_call2_v0, main_call2_v1, main_call2_v2, main_v83]
theorem writes17 : (hostOps6_5 : List (HloOp τ sig (Elt F))).Forall fun op => op.writes ⊆ (wr17.map (Proc.devRef (τ := τ) .tc)).toFinset := by
  simp only [List.Forall]
  simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- Across piece 17 a buffer it does not write keeps its contents. -/
theorem keep17 (c : Dev nD) (r : Ref sig .tc) (h : r ∉ wr17) :
    W18 m ρ c (Proc.devRef .tc r) = W17 m ρ c (Proc.devRef .tc r) :=
  StableHlo.after_of_writes_sub hostOps6_5 _ writes17 h

/-- The buffers piece 18 (a stretch of 28 host operations) writes. -/
abbrev wr18 : List (Ref sig .tc) := [main_c_24, main_v84, main_v85, main_c_25, main_v86, main_v87, main_v88, main_v89, main_v90, main_cst_26, main_v91, main_v92, main_v93, main_cst_27, main_v94, main_cst_28, main_v95, main_v96, main_v97, main_cst_29, main_v98, main_v99, main_cst_30, main_v100, main_v101, main_v102, main_v103, main_cst_31]
theorem writes18 : (hostOps6_6 : List (HloOp τ sig (Elt F))).Forall fun op => op.writes ⊆ (wr18.map (Proc.devRef (τ := τ) .tc)).toFinset := by
  simp only [List.Forall]
  simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- Across piece 18 a buffer it does not write keeps its contents. -/
theorem keep18 (c : Dev nD) (r : Ref sig .tc) (h : r ∉ wr18) :
    W19 m ρ c (Proc.devRef .tc r) = W18 m ρ c (Proc.devRef .tc r) :=
  StableHlo.after_of_writes_sub hostOps6_6 _ writes18 h

/-- The buffers piece 19 (a stretch of 4 host operations) writes. -/
abbrev wr19 : List (Ref sig .tc) := [main_call3_v0, main_call3_v1, main_call3_v2, main_v104]
theorem writes19 : (hostOps6_7 : List (HloOp τ sig (Elt F))).Forall fun op => op.writes ⊆ (wr19.map (Proc.devRef (τ := τ) .tc)).toFinset := by
  simp only [List.Forall]
  simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- Across piece 19 a buffer it does not write keeps its contents. -/
theorem keep19 (c : Dev nD) (r : Ref sig .tc) (h : r ∉ wr19) :
    W20 m ρ c (Proc.devRef .tc r) = W19 m ρ c (Proc.devRef .tc r) :=
  StableHlo.after_of_writes_sub hostOps6_7 _ writes19 h

/-- The buffers piece 20 (a stretch of 1 host operation) writes. -/
abbrev wr20 : List (Ref sig .tc) := [main_v105]
theorem writes20 : (hostOps6_8 : List (HloOp τ sig (Elt F))).Forall fun op => op.writes ⊆ (wr20.map (Proc.devRef (τ := τ) .tc)).toFinset := by
  simp only [List.Forall]
  simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  exact List.mem_map_of_mem (by decide)
/-- Across piece 20 a buffer it does not write keeps its contents. -/
theorem keep20 (c : Dev nD) (r : Ref sig .tc) (h : r ∉ wr20) :
    W21 m ρ c (Proc.devRef .tc r) = W20 m ρ c (Proc.devRef .tc r) :=
  StableHlo.after_of_writes_sub hostOps6_8 _ writes20 h

/-- The buffers piece 21 (a stretch of 3 host operations) writes. -/
abbrev wr21 : List (Ref sig .tc) := [main_call4_cst, main_call4_v0, main_v106]
theorem writes21 : (hostOps6_9 : List (HloOp τ sig (Elt F))).Forall fun op => op.writes ⊆ (wr21.map (Proc.devRef (τ := τ) .tc)).toFinset := by
  simp only [List.Forall]
  simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- Across piece 21 a buffer it does not write keeps its contents. -/
theorem keep21 (c : Dev nD) (r : Ref sig .tc) (h : r ∉ wr21) :
    W22 m ρ c (Proc.devRef .tc r) = W21 m ρ c (Proc.devRef .tc r) :=
  StableHlo.after_of_writes_sub hostOps6_9 _ writes21 h

/-- The buffers piece 22 (a stretch of 3 host operations) writes. -/
abbrev wr22 : List (Ref sig .tc) := [main_call5_cst, main_call5_v0, main_v107]
theorem writes22 : (hostOps6_10 : List (HloOp τ sig (Elt F))).Forall fun op => op.writes ⊆ (wr22.map (Proc.devRef (τ := τ) .tc)).toFinset := by
  simp only [List.Forall]
  simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- Across piece 22 a buffer it does not write keeps its contents. -/
theorem keep22 (c : Dev nD) (r : Ref sig .tc) (h : r ∉ wr22) :
    W23 m ρ c (Proc.devRef .tc r) = W22 m ρ c (Proc.devRef .tc r) :=
  StableHlo.after_of_writes_sub hostOps6_10 _ writes22 h

/-- The buffers piece 23 (a stretch of 2 host operations) writes. -/
abbrev wr23 : List (Ref sig .tc) := [main_v108, main_v109]
theorem writes23 : (hostOps6_11 : List (HloOp τ sig (Elt F))).Forall fun op => op.writes ⊆ (wr23.map (Proc.devRef (τ := τ) .tc)).toFinset := by
  simp only [List.Forall]
  simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- Across piece 23 a buffer it does not write keeps its contents. -/
theorem keep23 (c : Dev nD) (r : Ref sig .tc) (h : r ∉ wr23) :
    W24 m ρ c (Proc.devRef .tc r) = W23 m ρ c (Proc.devRef .tc r) :=
  StableHlo.after_of_writes_sub hostOps6_11 _ writes23 h

/-- Across piece 24 (Pallas call 6) a buffer that is none of the call's arrays keeps its contents. -/
theorem keep24 (c : Dev nD) (r : Ref sig .tc) (h : ∀ w, Pipeline.arrRef spec6 w ≠ r) :
    W25 m ρ c (Proc.devRef .tc r) = W24 m ρ c (Proc.devRef .tc r) :=
  W25_of_ne m ρ c r h
/-- Across Pallas call 6 its input array 0 is written back as found. -/
theorem keepin24_0 (c : Dev nD) : W25 m ρ c (Proc.devRef .tc main_v106) = W24 m ρ c (Proc.devRef .tc main_v106) :=
  (W25_arr m ρ c 0).trans (((dat6 (V24 m ρ) c).arrAt_in 0 rfl _).trans (A_eq6 (V24 m ρ) c 0))
/-- Across Pallas call 6 its input array 1 is written back as found. -/
theorem keepin24_1 (c : Dev nD) : W25 m ρ c (Proc.devRef .tc main_v108) = W24 m ρ c (Proc.devRef .tc main_v108) :=
  (W25_arr m ρ c 1).trans (((dat6 (V24 m ρ) c).arrAt_in 1 rfl _).trans (A_eq6 (V24 m ρ) c 1))
/-- Across Pallas call 6 its input array 2 is written back as found. -/
theorem keepin24_2 (c : Dev nD) : W25 m ρ c (Proc.devRef .tc main_v109) = W24 m ρ c (Proc.devRef .tc main_v109) :=
  (W25_arr m ρ c 2).trans (((dat6 (V24 m ρ) c).arrAt_in 2 rfl _).trans (A_eq6 (V24 m ρ) c 2))

/-- The buffers piece 25 (a stretch of 2 host operations) writes. -/
abbrev wr25 : List (Ref sig .tc) := [main_v111, main_v112]
theorem writes25 : (hostOps7 : List (HloOp τ sig (Elt F))).Forall fun op => op.writes ⊆ (wr25.map (Proc.devRef (τ := τ) .tc)).toFinset := by
  simp only [List.Forall]
  simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- Across piece 25 a buffer it does not write keeps its contents. -/
theorem keep25 (c : Dev nD) (r : Ref sig .tc) (h : r ∉ wr25) :
    W26 m ρ c (Proc.devRef .tc r) = W25 m ρ c (Proc.devRef .tc r) :=
  StableHlo.after_of_writes_sub hostOps7 _ writes25 h

/-- Across piece 26 (Pallas call 7) a buffer that is none of the call's arrays keeps its contents. -/
theorem keep26 (c : Dev nD) (r : Ref sig .tc) (h : ∀ w, Pipeline.arrRef spec7 w ≠ r) :
    W27 m ρ c (Proc.devRef .tc r) = W26 m ρ c (Proc.devRef .tc r) :=
  W27_of_ne m ρ c r h
/-- Across Pallas call 7 its input array 0 is written back as found. -/
theorem keepin26_0 (c : Dev nD) : W27 m ρ c (Proc.devRef .tc main_v106) = W26 m ρ c (Proc.devRef .tc main_v106) :=
  (W27_arr m ρ c 0).trans (((dat7 (V26 m ρ) c).arrAt_in 0 rfl _).trans (A_eq7 (V26 m ρ) c 0))
/-- Across Pallas call 7 its input array 1 is written back as found. -/
theorem keepin26_1 (c : Dev nD) : W27 m ρ c (Proc.devRef .tc main_v111) = W26 m ρ c (Proc.devRef .tc main_v111) :=
  (W27_arr m ρ c 1).trans (((dat7 (V26 m ρ) c).arrAt_in 1 rfl _).trans (A_eq7 (V26 m ρ) c 1))
/-- Across Pallas call 7 its input array 2 is written back as found. -/
theorem keepin26_2 (c : Dev nD) : W27 m ρ c (Proc.devRef .tc main_v112) = W26 m ρ c (Proc.devRef .tc main_v112) :=
  (W27_arr m ρ c 2).trans (((dat7 (V26 m ρ) c).arrAt_in 2 rfl _).trans (A_eq7 (V26 m ρ) c 2))

/-- The buffers piece 27 (a stretch of 2 host operations) writes. -/
abbrev wr27 : List (Ref sig .tc) := [main_v114, main_v115]
theorem writes27 : (hostOps8 : List (HloOp τ sig (Elt F))).Forall fun op => op.writes ⊆ (wr27.map (Proc.devRef (τ := τ) .tc)).toFinset := by
  simp only [List.Forall]
  simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- Across piece 27 a buffer it does not write keeps its contents. -/
theorem keep27 (c : Dev nD) (r : Ref sig .tc) (h : r ∉ wr27) :
    W28 m ρ c (Proc.devRef .tc r) = W27 m ρ c (Proc.devRef .tc r) :=
  StableHlo.after_of_writes_sub hostOps8 _ writes27 h

/-- Across piece 28 (Pallas call 8) a buffer that is none of the call's arrays keeps its contents. -/
theorem keep28 (c : Dev nD) (r : Ref sig .tc) (h : ∀ w, Pipeline.arrRef spec8 w ≠ r) :
    W29 m ρ c (Proc.devRef .tc r) = W28 m ρ c (Proc.devRef .tc r) :=
  W29_of_ne m ρ c r h
/-- Across Pallas call 8 its input array 0 is written back as found. -/
theorem keepin28_0 (c : Dev nD) : W29 m ρ c (Proc.devRef .tc main_v107) = W28 m ρ c (Proc.devRef .tc main_v107) :=
  (W29_arr m ρ c 0).trans (((dat8 (V28 m ρ) c).arrAt_in 0 rfl _).trans (A_eq8 (V28 m ρ) c 0))
/-- Across Pallas call 8 its input array 1 is written back as found. -/
theorem keepin28_1 (c : Dev nD) : W29 m ρ c (Proc.devRef .tc main_v114) = W28 m ρ c (Proc.devRef .tc main_v114) :=
  (W29_arr m ρ c 1).trans (((dat8 (V28 m ρ) c).arrAt_in 1 rfl _).trans (A_eq8 (V28 m ρ) c 1))
/-- Across Pallas call 8 its input array 2 is written back as found. -/
theorem keepin28_2 (c : Dev nD) : W29 m ρ c (Proc.devRef .tc main_v115) = W28 m ρ c (Proc.devRef .tc main_v115) :=
  (W29_arr m ρ c 2).trans (((dat8 (V28 m ρ) c).arrAt_in 2 rfl _).trans (A_eq8 (V28 m ρ) c 2))

/-- The buffers piece 29 (a stretch of 2 host operations) writes. -/
abbrev wr29 : List (Ref sig .tc) := [main_v117, main_v118]
theorem writes29 : (hostOps9 : List (HloOp τ sig (Elt F))).Forall fun op => op.writes ⊆ (wr29.map (Proc.devRef (τ := τ) .tc)).toFinset := by
  simp only [List.Forall]
  simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- Across piece 29 a buffer it does not write keeps its contents. -/
theorem keep29 (c : Dev nD) (r : Ref sig .tc) (h : r ∉ wr29) :
    W30 m ρ c (Proc.devRef .tc r) = W29 m ρ c (Proc.devRef .tc r) :=
  StableHlo.after_of_writes_sub hostOps9 _ writes29 h

/-- Across piece 30 (Pallas call 9) a buffer that is none of the call's arrays keeps its contents. -/
theorem keep30 (c : Dev nD) (r : Ref sig .tc) (h : ∀ w, Pipeline.arrRef spec9 w ≠ r) :
    W31 m ρ c (Proc.devRef .tc r) = W30 m ρ c (Proc.devRef .tc r) :=
  W31_of_ne m ρ c r h
/-- Across Pallas call 9 its input array 0 is written back as found. -/
theorem keepin30_0 (c : Dev nD) : W31 m ρ c (Proc.devRef .tc main_v107) = W30 m ρ c (Proc.devRef .tc main_v107) :=
  (W31_arr m ρ c 0).trans (((dat9 (V30 m ρ) c).arrAt_in 0 rfl _).trans (A_eq9 (V30 m ρ) c 0))
/-- Across Pallas call 9 its input array 1 is written back as found. -/
theorem keepin30_1 (c : Dev nD) : W31 m ρ c (Proc.devRef .tc main_v117) = W30 m ρ c (Proc.devRef .tc main_v117) :=
  (W31_arr m ρ c 1).trans (((dat9 (V30 m ρ) c).arrAt_in 1 rfl _).trans (A_eq9 (V30 m ρ) c 1))
/-- Across Pallas call 9 its input array 2 is written back as found. -/
theorem keepin30_2 (c : Dev nD) : W31 m ρ c (Proc.devRef .tc main_v118) = W30 m ρ c (Proc.devRef .tc main_v118) :=
  (W31_arr m ρ c 2).trans (((dat9 (V30 m ρ) c).arrAt_in 2 rfl _).trans (A_eq9 (V30 m ρ) c 2))

/-- The buffers piece 31 (a stretch of 28 host operations) writes. -/
abbrev wr31 : List (Ref sig .tc) := [main_c_32, main_v120, main_v121, main_c_33, main_v122, main_v123, main_v124, main_v125, main_v126, main_cst_34, main_v127, main_v128, main_v129, main_cst_35, main_v130, main_cst_36, main_v131, main_v132, main_v133, main_cst_37, main_v134, main_v135, main_cst_38, main_v136, main_v137, main_v138, main_v139, main_cst_39]
theorem writes31 : (hostOps10 : List (HloOp τ sig (Elt F))).Forall fun op => op.writes ⊆ (wr31.map (Proc.devRef (τ := τ) .tc)).toFinset := by
  simp only [List.Forall]
  simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- Across piece 31 a buffer it does not write keeps its contents. -/
theorem keep31 (c : Dev nD) (r : Ref sig .tc) (h : r ∉ wr31) :
    W32 m ρ c (Proc.devRef .tc r) = W31 m ρ c (Proc.devRef .tc r) :=
  StableHlo.after_of_writes_sub hostOps10 _ writes31 h

/-- The buffers piece 32 (a stretch of 4 host operations) writes. -/
abbrev wr32 : List (Ref sig .tc) := [main_call6_v0, main_call6_v1, main_call6_v2, main_v140]
theorem writes32 : (hostOps10_1 : List (HloOp τ sig (Elt F))).Forall fun op => op.writes ⊆ (wr32.map (Proc.devRef (τ := τ) .tc)).toFinset := by
  simp only [List.Forall]
  simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- Across piece 32 a buffer it does not write keeps its contents. -/
theorem keep32 (c : Dev nD) (r : Ref sig .tc) (h : r ∉ wr32) :
    W33 m ρ c (Proc.devRef .tc r) = W32 m ρ c (Proc.devRef .tc r) :=
  StableHlo.after_of_writes_sub hostOps10_1 _ writes32 h

/-- The buffers piece 33 (a stretch of 28 host operations) writes. -/
abbrev wr33 : List (Ref sig .tc) := [main_c_40, main_v141, main_v142, main_c_41, main_v143, main_v144, main_v145, main_v146, main_v147, main_cst_42, main_v148, main_v149, main_v150, main_cst_43, main_v151, main_cst_44, main_v152, main_v153, main_v154, main_cst_45, main_v155, main_v156, main_cst_46, main_v157, main_v158, main_v159, main_v160, main_cst_47]
theorem writes33 : (hostOps10_2 : List (HloOp τ sig (Elt F))).Forall fun op => op.writes ⊆ (wr33.map (Proc.devRef (τ := τ) .tc)).toFinset := by
  simp only [List.Forall]
  simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- Across piece 33 a buffer it does not write keeps its contents. -/
theorem keep33 (c : Dev nD) (r : Ref sig .tc) (h : r ∉ wr33) :
    W34 m ρ c (Proc.devRef .tc r) = W33 m ρ c (Proc.devRef .tc r) :=
  StableHlo.after_of_writes_sub hostOps10_2 _ writes33 h

/-- The buffers piece 34 (a stretch of 4 host operations) writes. -/
abbrev wr34 : List (Ref sig .tc) := [main_call7_v0, main_call7_v1, main_call7_v2, main_v161]
theorem writes34 : (hostOps10_3 : List (HloOp τ sig (Elt F))).Forall fun op => op.writes ⊆ (wr34.map (Proc.devRef (τ := τ) .tc)).toFinset := by
  simp only [List.Forall]
  simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- Across piece 34 a buffer it does not write keeps its contents. -/
theorem keep34 (c : Dev nD) (r : Ref sig .tc) (h : r ∉ wr34) :
    W35 m ρ c (Proc.devRef .tc r) = W34 m ρ c (Proc.devRef .tc r) :=
  StableHlo.after_of_writes_sub hostOps10_3 _ writes34 h

/-- The buffers piece 35 (a stretch of 29 host operations) writes. -/
abbrev wr35 : List (Ref sig .tc) := [main_v162, main_c_48, main_v163, main_v164, main_c_49, main_v165, main_v166, main_v167, main_v168, main_v169, main_cst_50, main_v170, main_v171, main_v172, main_cst_51, main_v173, main_cst_52, main_v174, main_v175, main_v176, main_cst_53, main_v177, main_v178, main_cst_54, main_v179, main_v180, main_v181, main_v182, main_cst_55]
theorem writes35 : (hostOps10_4 : List (HloOp τ sig (Elt F))).Forall fun op => op.writes ⊆ (wr35.map (Proc.devRef (τ := τ) .tc)).toFinset := by
  simp only [List.Forall]
  simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- Across piece 35 a buffer it does not write keeps its contents. -/
theorem keep35 (c : Dev nD) (r : Ref sig .tc) (h : r ∉ wr35) :
    W36 m ρ c (Proc.devRef .tc r) = W35 m ρ c (Proc.devRef .tc r) :=
  StableHlo.after_of_writes_sub hostOps10_4 _ writes35 h

/-- The buffers piece 36 (a stretch of 4 host operations) writes. -/
abbrev wr36 : List (Ref sig .tc) := [main_call8_v0, main_call8_v1, main_call8_v2, main_v183]
theorem writes36 : (hostOps10_5 : List (HloOp τ sig (Elt F))).Forall fun op => op.writes ⊆ (wr36.map (Proc.devRef (τ := τ) .tc)).toFinset := by
  simp only [List.Forall]
  simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- Across piece 36 a buffer it does not write keeps its contents. -/
theorem keep36 (c : Dev nD) (r : Ref sig .tc) (h : r ∉ wr36) :
    W37 m ρ c (Proc.devRef .tc r) = W36 m ρ c (Proc.devRef .tc r) :=
  StableHlo.after_of_writes_sub hostOps10_5 _ writes36 h

/-- The buffers piece 37 (a stretch of 28 host operations) writes. -/
abbrev wr37 : List (Ref sig .tc) := [main_c_56, main_v184, main_v185, main_c_57, main_v186, main_v187, main_v188, main_v189, main_v190, main_cst_58, main_v191, main_v192, main_v193, main_cst_59, main_v194, main_cst_60, main_v195, main_v196, main_v197, main_cst_61, main_v198, main_v199, main_cst_62, main_v200, main_v201, main_v202, main_v203, main_cst_63]
theorem writes37 : (hostOps10_6 : List (HloOp τ sig (Elt F))).Forall fun op => op.writes ⊆ (wr37.map (Proc.devRef (τ := τ) .tc)).toFinset := by
  simp only [List.Forall]
  simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- Across piece 37 a buffer it does not write keeps its contents. -/
theorem keep37 (c : Dev nD) (r : Ref sig .tc) (h : r ∉ wr37) :
    W38 m ρ c (Proc.devRef .tc r) = W37 m ρ c (Proc.devRef .tc r) :=
  StableHlo.after_of_writes_sub hostOps10_6 _ writes37 h

/-- The buffers piece 38 (a stretch of 4 host operations) writes. -/
abbrev wr38 : List (Ref sig .tc) := [main_call9_v0, main_call9_v1, main_call9_v2, main_v204]
theorem writes38 : (hostOps10_7 : List (HloOp τ sig (Elt F))).Forall fun op => op.writes ⊆ (wr38.map (Proc.devRef (τ := τ) .tc)).toFinset := by
  simp only [List.Forall]
  simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- Across piece 38 a buffer it does not write keeps its contents. -/
theorem keep38 (c : Dev nD) (r : Ref sig .tc) (h : r ∉ wr38) :
    W39 m ρ c (Proc.devRef .tc r) = W38 m ρ c (Proc.devRef .tc r) :=
  StableHlo.after_of_writes_sub hostOps10_7 _ writes38 h

/-- The buffers piece 39 (a stretch of 1 host operation) writes. -/
abbrev wr39 : List (Ref sig .tc) := [main_v205]
theorem writes39 : (hostOps10_8 : List (HloOp τ sig (Elt F))).Forall fun op => op.writes ⊆ (wr39.map (Proc.devRef (τ := τ) .tc)).toFinset := by
  simp only [List.Forall]
  simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  exact List.mem_map_of_mem (by decide)
/-- Across piece 39 a buffer it does not write keeps its contents. -/
theorem keep39 (c : Dev nD) (r : Ref sig .tc) (h : r ∉ wr39) :
    W40 m ρ c (Proc.devRef .tc r) = W39 m ρ c (Proc.devRef .tc r) :=
  StableHlo.after_of_writes_sub hostOps10_8 _ writes39 h

/-- The buffers piece 40 (a stretch of 3 host operations) writes. -/
abbrev wr40 : List (Ref sig .tc) := [main_call10_cst, main_call10_v0, main_v206]
theorem writes40 : (hostOps10_9 : List (HloOp τ sig (Elt F))).Forall fun op => op.writes ⊆ (wr40.map (Proc.devRef (τ := τ) .tc)).toFinset := by
  simp only [List.Forall]
  simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- Across piece 40 a buffer it does not write keeps its contents. -/
theorem keep40 (c : Dev nD) (r : Ref sig .tc) (h : r ∉ wr40) :
    W41 m ρ c (Proc.devRef .tc r) = W40 m ρ c (Proc.devRef .tc r) :=
  StableHlo.after_of_writes_sub hostOps10_9 _ writes40 h

/-- The buffers piece 41 (a stretch of 3 host operations) writes. -/
abbrev wr41 : List (Ref sig .tc) := [main_call11_cst, main_call11_v0, main_v207]
theorem writes41 : (hostOps10_10 : List (HloOp τ sig (Elt F))).Forall fun op => op.writes ⊆ (wr41.map (Proc.devRef (τ := τ) .tc)).toFinset := by
  simp only [List.Forall]
  simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- Across piece 41 a buffer it does not write keeps its contents. -/
theorem keep41 (c : Dev nD) (r : Ref sig .tc) (h : r ∉ wr41) :
    W42 m ρ c (Proc.devRef .tc r) = W41 m ρ c (Proc.devRef .tc r) :=
  StableHlo.after_of_writes_sub hostOps10_10 _ writes41 h

/-- The buffers piece 42 (a stretch of 4 host operations) writes. -/
abbrev wr42 : List (Ref sig .tc) := [main_v208, main_cst_64, main_v209, main_v210]
theorem writes42 : (hostOps10_11 : List (HloOp τ sig (Elt F))).Forall fun op => op.writes ⊆ (wr42.map (Proc.devRef (τ := τ) .tc)).toFinset := by
  simp only [List.Forall]
  simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- Across piece 42 a buffer it does not write keeps its contents. -/
theorem keep42 (c : Dev nD) (r : Ref sig .tc) (h : r ∉ wr42) :
    W43 m ρ c (Proc.devRef .tc r) = W42 m ρ c (Proc.devRef .tc r) :=
  StableHlo.after_of_writes_sub hostOps10_11 _ writes42 h

/-- Across piece 43 (Pallas call 10) a buffer that is none of the call's arrays keeps its contents. -/
theorem keep43 (c : Dev nD) (r : Ref sig .tc) (h : ∀ w, Pipeline.arrRef spec10 w ≠ r) :
    W44 m ρ c (Proc.devRef .tc r) = W43 m ρ c (Proc.devRef .tc r) :=
  W44_of_ne m ρ c r h
/-- Across Pallas call 10 its input array 0 is written back as found. -/
theorem keepin43_0 (c : Dev nD) : W44 m ρ c (Proc.devRef .tc main_v206) = W43 m ρ c (Proc.devRef .tc main_v206) :=
  (W44_arr m ρ c 0).trans (((dat10 (V43 m ρ) c).arrAt_in 0 rfl _).trans (A_eq10 (V43 m ρ) c 0))
/-- Across Pallas call 10 its input array 1 is written back as found. -/
theorem keepin43_1 (c : Dev nD) : W44 m ρ c (Proc.devRef .tc main_v208) = W43 m ρ c (Proc.devRef .tc main_v208) :=
  (W44_arr m ρ c 1).trans (((dat10 (V43 m ρ) c).arrAt_in 1 rfl _).trans (A_eq10 (V43 m ρ) c 1))
/-- Across Pallas call 10 its input array 2 is written back as found. -/
theorem keepin43_2 (c : Dev nD) : W44 m ρ c (Proc.devRef .tc main_v210) = W43 m ρ c (Proc.devRef .tc main_v210) :=
  (W44_arr m ρ c 2).trans (((dat10 (V43 m ρ) c).arrAt_in 2 rfl _).trans (A_eq10 (V43 m ρ) c 2))

/-- Across piece 44 (Pallas call 11) a buffer that is none of the call's arrays keeps its contents. -/
theorem keep44 (c : Dev nD) (r : Ref sig .tc) (h : ∀ w, Pipeline.arrRef spec11 w ≠ r) :
    W45 m ρ c (Proc.devRef .tc r) = W44 m ρ c (Proc.devRef .tc r) :=
  W45_of_ne m ρ c r h
/-- Across Pallas call 11 its input array 0 is written back as found. -/
theorem keepin44_0 (c : Dev nD) : W45 m ρ c (Proc.devRef .tc main_v211) = W44 m ρ c (Proc.devRef .tc main_v211) :=
  (W45_arr m ρ c 0).trans (((dat11 (V44 m ρ) c).arrAt_in 0 rfl _).trans (A_eq11 (V44 m ρ) c 0))
/-- Across Pallas call 11 its input array 1 is written back as found. -/
theorem keepin44_1 (c : Dev nD) : W45 m ρ c (Proc.devRef .tc main_v207) = W44 m ρ c (Proc.devRef .tc main_v207) :=
  (W45_arr m ρ c 1).trans (((dat11 (V44 m ρ) c).arrAt_in 1 rfl _).trans (A_eq11 (V44 m ρ) c 1))

/-- Carries every buffer read in the goal back across the pieces that leave it alone, as far as it goes. -/
macro "walk_back" : tactic =>
  `(tactic| repeat (first
      | (rw [keep44]; rotate_left; decide)
      | rw [keepin44_0]
      | rw [keepin44_1]
      | (rw [keep43]; rotate_left; decide)
      | rw [keepin43_0]
      | rw [keepin43_1]
      | rw [keepin43_2]
      | (rw [keep42]; rotate_left; decide)
      | (rw [keep41]; rotate_left; decide)
      | (rw [keep40]; rotate_left; decide)
      | (rw [keep39]; rotate_left; decide)
      | (rw [keep38]; rotate_left; decide)
      | (rw [keep37]; rotate_left; decide)
      | (rw [keep36]; rotate_left; decide)
      | (rw [keep35]; rotate_left; decide)
      | (rw [keep34]; rotate_left; decide)
      | (rw [keep33]; rotate_left; decide)
      | (rw [keep32]; rotate_left; decide)
      | (rw [keep31]; rotate_left; decide)
      | (rw [keep30]; rotate_left; decide)
      | rw [keepin30_0]
      | rw [keepin30_1]
      | rw [keepin30_2]
      | (rw [keep29]; rotate_left; decide)
      | (rw [keep28]; rotate_left; decide)
      | rw [keepin28_0]
      | rw [keepin28_1]
      | rw [keepin28_2]
      | (rw [keep27]; rotate_left; decide)
      | (rw [keep26]; rotate_left; decide)
      | rw [keepin26_0]
      | rw [keepin26_1]
      | rw [keepin26_2]
      | (rw [keep25]; rotate_left; decide)
      | (rw [keep24]; rotate_left; decide)
      | rw [keepin24_0]
      | rw [keepin24_1]
      | rw [keepin24_2]
      | (rw [keep23]; rotate_left; decide)
      | (rw [keep22]; rotate_left; decide)
      | (rw [keep21]; rotate_left; decide)
      | (rw [keep20]; rotate_left; decide)
      | (rw [keep19]; rotate_left; decide)
      | (rw [keep18]; rotate_left; decide)
      | (rw [keep17]; rotate_left; decide)
      | (rw [keep16]; rotate_left; decide)
      | (rw [keep15]; rotate_left; decide)
      | (rw [keep14]; rotate_left; decide)
      | (rw [keep13]; rotate_left; decide)
      | (rw [keep12]; rotate_left; decide)
      | (rw [keep11]; rotate_left; decide)
      | rw [keepin11_0]
      | rw [keepin11_1]
      | rw [keepin11_2]
      | (rw [keep10]; rotate_left; decide)
      | (rw [keep9]; rotate_left; decide)
      | rw [keepin9_0]
      | rw [keepin9_1]
      | rw [keepin9_2]
      | (rw [keep8]; rotate_left; decide)
      | (rw [keep7]; rotate_left; decide)
      | rw [keepin7_0]
      | rw [keepin7_1]
      | rw [keepin7_2]
      | (rw [keep6]; rotate_left; decide)
      | (rw [keep5]; rotate_left; decide)
      | rw [keepin5_0]
      | rw [keepin5_1]
      | rw [keepin5_2]
      | (rw [keep4]; rotate_left; decide)
      | (rw [keep3]; rotate_left; decide)
      | rw [keepin3_0]
      | rw [keepin3_1]
      | rw [keepin3_2]
      | (rw [keep2]; rotate_left; decide)
      | (rw [keep1]; rotate_left; decide)
      | rw [keepin1_0]
      | rw [keepin1_1]
      | rw [keepin1_2]
      | (rw [keep0]; rotate_left; decide)))

end Cert.KernelIdeal.Keep

end
-- ==== Proof.LibDotRows.lean ====
/-
  A plain matrix product read at an index.  For shapes [R, K] · [K, J] → [R, J] whose dimension
  numbers contract the left operand's axis 1 with the right operand's axis 0 (no batch axis), the
  sum over the contraction index that `tpu.matmul` and `dot_general` denote at the ideal values is
  the textbook sum over `k : Fin K` of `lhs (r, k) * rhs (k, c)`.  The four coordinate facts about
  the dimension numbers' operand indices are hypotheses: for a record with literal lists each of
  them holds by `rfl`.
-/
import Idealize.ShloMosaic.PureOps.Ideal.Laws
import Idealize.ShloMosaic.Lib.ValueIdx

noncomputable section

open scoped BigOperators

namespace Idealize.ShloMosaic.ValueIdx

open Idealize.ShloMosaic

/-- The contraction sum of a plain [R, K] · [K, J] product at output index `j` is the sum over
    `k : Fin K` of the left operand at `(j 0, k)` times the right operand at `(k, j 1)`. -/
theorem dot_rows_sum {M : Type*} [AddCommMonoid M] {R K J : Nat}
    (d : DotDims ⟨2, ![R, K]⟩ ⟨2, ![K, J]⟩ ⟨2, ![R, J]⟩)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (g : (⟨2, ![R, K]⟩ : Shape).Idx → (⟨2, ![K, J]⟩ : Shape).Idx → M) (j : (⟨2, ![R, J]⟩ : Shape).Idx) :
    ∑ k : d.contr.Idx, g (d.lhsIdx j k) (d.rhsIdx j k) = ∑ k : Fin K, g (ix2 (j 0) k) (ix2 k (j 1)) := by
  rw [← Equiv.sum_comp (contrEquiv1 d K hr hs).symm]
  refine Finset.sum_congr rfl fun k _ => ?_
  have e1 : d.lhsIdx j ((contrEquiv1 d K hr hs).symm k) = ix2 (j 0) k := by
    funext a
    match a with
    | ⟨0, _⟩ => exact Fin.ext (h1 j _)
    | ⟨1, _⟩ => exact Fin.ext ((h2 j _).trans (contrEquiv1_symm_val d K hr hs k))
  have e2 : d.rhsIdx j ((contrEquiv1 d K hr hs).symm k) = ix2 k (j 1) := by
    funext a
    match a with
    | ⟨0, _⟩ => exact Fin.ext ((h3 j _).trans (contrEquiv1_symm_val d K hr hs k))
    | ⟨1, _⟩ => exact Fin.ext (h4 j _)
  exact congrArg₂ g e1 e2

/-- A `tpu.matmul` into the zero accumulator, at the ideal values, read at `(r, c)`. -/
theorem matmul_zero_rows {R K J : Nat} {φ₁ φ₂ : FTy}
    (d : DotDims ⟨2, ![R, K]⟩ ⟨2, ![K, J]⟩ ⟨2, ![R, J]⟩) (prec : Option ContractPrecision)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) (r : Fin R) (c : Fin J) :
    FloatOps.matmul d prec lhs rhs (constant ⟨2, ![R, J]⟩ .f32 0x00000000#32) (ix2 r c)
      = ∑ k : Fin K, lhs (ix2 r k) * rhs (ix2 k c) := by
  rw [Ideal.matmul_constant_zero_apply]
  exact dot_rows_sum d hr hs h1 h2 h3 h4 (fun a b => lhs a * rhs b) (ix2 r c)

/-- The host's `dot_general`, at the ideal values, read at `(r, c)`. -/
theorem dotGeneral_rows {R K J : Nat} {φ₁ φ₂ : FTy}
    (d : DotDims ⟨2, ![R, K]⟩ ⟨2, ![K, J]⟩ ⟨2, ![R, J]⟩) (prec : Option ContractPrecision) (sched : HostSchedule)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) (r : Fin R) (c : Fin J) :
    FloatOps.dotGeneral d prec sched lhs rhs (ix2 r c) = ∑ k : Fin K, lhs (ix2 r k) * rhs (ix2 k c) := by
  rw [Ideal.dotGeneral_apply]
  exact dot_rows_sum d hr hs h1 h2 h3 h4 (fun a b => lhs a * rhs b) (ix2 r c)

end Idealize.ShloMosaic.ValueIdx

end
-- ==== Proof.LibLayout2.lean ====
/-
  A vector laid out as a row or a column and broadcast to a matrix, read at an index written by coordinates, for any
  element type and any extents.  A vector `[b]` made the row `[1, b]` (the same elements, now one row) and broadcast
  down `a` rows ([1, b] → [a, b]: every row a copy of the one row) reads, at `(i, j)`, the vector at `j`; a vector
  `[a]` made the column `[a, 1]` and broadcast along `b` columns reads, at `(i, j)`, the vector at `i`.  A reshape of
  a tensor keeps the elements in row-major order under the new shape, which is what a shape cast does, so these are
  also the readings of a vector reshaped into a row or a column and then broadcast.  Each is two of the library's
  read-at-an-index lemmas, one after the other.
-/
import Idealize.ShloMosaic.Lib.Pipeline.Value
import Idealize.ShloMosaic.Lib.ValueIdx
import Idealize.ShloMosaic.Lib.ValueLayout

open Idealize.ShloMosaic Idealize.ShloMosaic.ValueIdx

namespace Layout2

variable {α : Type}

/-- A vector `[b]` made a row and broadcast down `a` rows reads, at `(i, j)`, the vector at `j`. -/
theorem broadcastTo_row_of_vector_apply {a b : ℕ} (x : (⟨1, ![b]⟩ : Shape).Idx → α)
    (hc : (⟨1, ![b]⟩ : Shape).ShapeCasts ⟨2, ![1, b]⟩) (hb : (⟨2, ![1, b]⟩ : Shape).Broadcasts ⟨2, ![a, b]⟩)
    (i : Fin a) (j : Fin b) :
    broadcastTo ⟨2, ![a, b]⟩ (shapeCast ⟨2, ![1, b]⟩ x hc) hb (ix2 i j) = x (ix1 j) := by
  rw [broadcastTo_1b_ab_apply, shapeCast_a_1a_apply]

/-- A vector `[a]` cast to the column `[a, 1]` reads, at `(i, u)`, the operand at `i`, whatever the unit
    coordinate `u`. -/
theorem shapeCast_col_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column at row `i`. -/
theorem broadcastTo_col_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A vector `[a]` made a column and broadcast along `b` columns reads, at `(i, j)`, the vector at `i`. -/
theorem broadcastTo_col_of_vector_apply {a b : ℕ} (x : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (i : Fin a) (j : Fin b) :
    broadcastTo ⟨2, ![a, b]⟩ (shapeCast ⟨2, ![a, 1]⟩ x hc) hb (ix2 i j) = x (ix1 i) := by
  rw [broadcastTo_col_apply, shapeCast_col_apply]

end Layout2
-- ==== Proof.Spec.lean ====
/-
  The two dense building blocks of the network, as index-by-index functions on the extended reals.

  A linear layer takes a node table `x` of shape [R, K], a weight matrix `w` of shape [K, J] (the transposed
  parameter) and a bias laid out as the single row [1, J]; its entry at row `r`, column `c` is
  `∑ k, x (r, k) · w (k, c) + b (0, c)`.  The score matrix of two node tables `a` : [R, K] and `b` : [J, K] has, at
  `(r, c)`, the inner product `∑ k, a (r, k) · b (c, k)` of row `r` of `a` with row `c` of `b`.

  A Pallas body computes such an entry from casts to a narrower float format (the identity on the extended
  reals), one matrix product into a zero accumulator, and a broadcast bias row; the host computes it from a
  `dot_general` and a twice-broadcast bias vector.  Both are read here at an index, so that each side of the
  certificate meets the same function.
-/
import Idealize.ShloMosaic.PureOps.Ideal.Laws
import Idealize.ShloMosaic.Lib.ValueIdx
import Idealize.ShloMosaic.Lib.ValueLayout
import Idealize.ShloMosaic.Lib.Pipeline.Value
import proofs.«165804_j39522289058325_1_alg».proof.Proof.LibDotRows
import proofs.«165804_j39522289058325_1_alg».proof.Proof.LibLayout2

noncomputable section

open scoped BigOperators
open Idealize.ShloMosaic Idealize.ShloMosaic.ValueIdx

namespace Hetero

/-- Row `r`, column `c` of `x · w + b`, the bias being one row. -/
def lin {R K J : Nat} (x : (⟨2, ![R, K]⟩ : Shape).Idx → EReal) (w : (⟨2, ![K, J]⟩ : Shape).Idx → EReal)
    (b : (⟨2, ![1, J]⟩ : Shape).Idx → EReal) : (⟨2, ![R, J]⟩ : Shape).Idx → EReal :=
  fun j => (∑ k : Fin K, x (ix2 (j 0) k) * w (ix2 k (j 1))) + b (ix2 (0 : Fin 1) (j 1))

/-- Entry `(r, c)` of `a · bᵀ`: the inner product of row `r` of `a` and row `c` of `b`. -/
def score {R K J : Nat} (a : (⟨2, ![R, K]⟩ : Shape).Idx → EReal) (b : (⟨2, ![J, K]⟩ : Shape).Idx → EReal) :
    (⟨2, ![R, J]⟩ : Shape).Idx → EReal :=
  fun j => ∑ k : Fin K, a (ix2 (j 0) k) * b (ix2 (j 1) k)

theorem lin_apply {R K J : Nat} (x : (⟨2, ![R, K]⟩ : Shape).Idx → EReal) (w : (⟨2, ![K, J]⟩ : Shape).Idx → EReal)
    (b : (⟨2, ![1, J]⟩ : Shape).Idx → EReal) (r : Fin R) (c : Fin J) :
    lin x w b (ix2 r c) = (∑ k : Fin K, x (ix2 r k) * w (ix2 k c)) + b (ix2 (0 : Fin 1) c) := rfl

theorem score_apply {R K J : Nat} (a : (⟨2, ![R, K]⟩ : Shape).Idx → EReal) (b : (⟨2, ![J, K]⟩ : Shape).Idx → EReal)
    (r : Fin R) (c : Fin J) : score a b (ix2 r c) = ∑ k : Fin K, a (ix2 r k) * b (ix2 c k) := rfl

/-- A bias that is zero everywhere drops out of a linear layer: `y + 0 = y` on every extended real. -/
theorem lin_zero_bias {R K J : Nat} (x : (⟨2, ![R, K]⟩ : Shape).Idx → EReal) (w : (⟨2, ![K, J]⟩ : Shape).Idx → EReal)
    (b : (⟨2, ![1, J]⟩ : Shape).Idx → EReal) (hb : ∀ i, b i = 0) (j : (⟨2, ![R, J]⟩ : Shape).Idx) :
    lin x w b j = ∑ k : Fin K, x (ix2 (j 0) k) * w (ix2 k (j 1)) := by
  unfold lin
  rw [hb, add_zero]

end Hetero

end
-- ==== Proof.Lin0.lean ====
/-
  Pallas call 0 of the program is a linear layer over a node table of 10000 rows, taken 1000 rows at a time.
  At grid point `t` the body sees rows `1000·t … 1000·t + 999` of the table (all 2048 columns), the whole
  2048 × 64 weight matrix and the whole 1 × 64 bias row, and stores `block · weight + bias`; the ten output
  blocks tile the 10000 × 64 result.  So after the call the result array is `Hetero.lin` of the three input
  arrays as the call found them: row `r` of the result depends on row `r` of the table only, and the row's block
  is the one numbered `r / 1000`.
-/
import proofs.«165804_j39522289058325_1_alg».proof.Proof.Gen.KernelIdeal.Frame
import proofs.«165804_j39522289058325_1_alg».proof.Proof.Spec

set_option maxRecDepth 16384

noncomputable section

namespace Cert.KernelIdeal.Lin0

open Cert.KernelIdeal Cert.KernelIdeal.Gen Idealize.ShloMosaic Idealize.ShloMosaic.TcCoe Idealize.ShloMosaic.ValueIdx
open Idealize.SL.Sem
open Idealize.ShloMosaic.Pipeline (Dat)

theorem hz : (![0, 0] : Fin 2 → Nat) = fun _ => 0 := funext fun a => by fin_cases a <;> rfl

/-- The body's value at row `r`, column `c` of its block: the casts are the identity on the extended reals, the
    product into the zero accumulator is the sum over the contraction, the bias row is read at its column. -/
theorem pay_apply (x0 : Vec Ideal S1000x2048 .f32) (x1 : Vec Ideal S2048x64 .f32) (x2 : Vec Ideal S1x64 .f32)
    (r : Fin 1000) (c : Fin 64) :
    k0_pay1 (F := Ideal) x0 x1 x2 (ix2 r c)
      = (∑ k : Fin 2048, x0 (ix2 r k) * x1 (ix2 k c)) + x2 (ix2 (0 : Fin 1) c) := by
  unfold k0_pay1
  simp only [shapeCast_self]
  rw [addf_apply, broadcastTo_1b_ab_apply]
  exact congrArg (· + x2 (ix2 (0 : Fin 1) c))
    (matmul_zero_rows dot_S1000x2048_S2048x64_S1000x64_1_0_0_1_n_n none rfl rfl (fun _ _ => rfl) (fun _ _ => rfl) (fun _ _ => rfl) (fun _ _ => rfl)
      (truncf .bf16 x0 bitsLt_bf16_f32) (truncf .bf16 x1 bitsLt_bf16_f32) r c)

/-- A block's value at an entry is the layer's value at the array entry it stands for, once the block's row, the
    weight column and the bias column are the array's. -/
theorem pay_block (X : S10000x2048.Idx → EReal) (W : S2048x64.Idx → EReal) (B : S1x64.Idx → EReal)
    (x0 : Vec Ideal S1000x2048 .f32) (x1 : Vec Ideal S2048x64 .f32) (x2 : Vec Ideal S1x64 .f32)
    (i : S10000x64.Idx) (y : S1000x64.Idx)
    (h0 : ∀ k : Fin 2048, x0 (ix2 (y 0) k) = X (ix2 (i 0) k))
    (h1 : ∀ k : Fin 2048, x1 (ix2 k (y 1)) = W (ix2 k (i 1)))
    (h2 : x2 (ix2 (0 : Fin 1) (y 1)) = B (ix2 (0 : Fin 1) (i 1))) :
    k0_pay1 (F := Ideal) x0 x1 x2 y = Hetero.lin X W B i := by
  have e : k0_pay1 (F := Ideal) x0 x1 x2 y
      = (∑ k : Fin 2048, x0 (ix2 (y 0) k) * x1 (ix2 k (y 1))) + x2 (ix2 (0 : Fin 1) (y 1)) :=
    (congrArg (k0_pay1 (F := Ideal) x0 x1 x2) (eq_ix2 y)).trans (pay_apply x0 x1 x2 (y 0) (y 1))
  rw [e]
  unfold Hetero.lin
  rw [h2]
  exact congrArg (· + B (ix2 (0 : Fin 1) (i 1))) (Finset.sum_congr rfl fun k _ => by rw [h0 k, h1 k])

/-- The printed index maps over the grid: the table's block and the result's block move together down the rows,
    the weight and bias blocks stay put, and no block moves along the columns. -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 :=
  (by decide +kernel : ∀ t : Fin grid0.N, _)

/-- Every one of the ten row blocks of the result is some point's. -/
theorem idx_onto : ∀ q : Fin 10, ∃ t : Fin cfg0.N, win0_3.index t = ![q.val, 0] :=
  (by decide +kernel : ∀ q : Fin 10, ∃ t : Fin grid0.N, win0_3.index t = ![q.val, 0])

section
variable (V : (c : Dev nD) → (b : Ref sig .tc) → Buf (Elt Ideal) ((c : Thread nD τ).loc b))

/-- What point `t` writes back is block `t` of the layer applied to the arrays as the call found them. -/
theorem flushed_eq (c : Dev nD) (t : Fin cfg0.N) :
    (dat0 V c).flushed 3 t = ((cfg0.win 3).blk t).view.read (Elt Ideal)
      (Hetero.lin (V c main_arg0 : S10000x2048.Idx → EReal) (V c main_v0 : S2048x64.Idx → EReal) (V c main_v2 : S1x64.Idx → EReal)) := by
  show (cfg0.win 3).cut (grid0.coords t) ((dat0 V c).after 3 t) = _
  rw [after0_3]
  unfold out0_3
  rw [View.canon_unit_zero hz]
  simp only [View.ld_unit_zero (S := S1000x2048) hz, View.ld_unit_zero (S := S2048x64) hz, View.ld_unit_zero (S := S1x64) hz]
  obtain ⟨e0, e1, e2, e3, e4, e5, e6⟩ := idx_facts t
  funext j
  show k0_pay1 (F := Ideal) (iblk0 V c 0 t) (iblk0 V c 1 t) (iblk0 V c 2 t) j
    = Hetero.lin (V c main_arg0 : S10000x2048.Idx → EReal) (V c main_v0 : S2048x64.Idx → EReal) (V c main_v2 : S1x64.Idx → EReal)
        (((cfg0.win 3).blk t).view.emb j)
  refine pay_block _ _ _ _ _ _ _ j (fun k => ?_) (fun k => ?_) ?_
  · show V c main_arg0 (((cfg0.win 0).blk t).view.emb (ix2 (j 0) k)) = V c main_arg0 (ix2 ((((cfg0.win 3).blk t).view.emb j) 0) k)
    refine congrArg (V c main_arg0) (funext fun a => Fin.ext ?_)
    match a with
    | ⟨0, _⟩ => show win0_0.index t (0 : Fin 2) * 1000 + 1 * (j 0).val = win0_3.index t (0 : Fin 2) * 1000 + 1 * (j 0).val; omega
    | ⟨1, _⟩ => show win0_0.index t (1 : Fin 2) * 2048 + 1 * k.val = k.val; omega
  · show V c main_v0 (((cfg0.win 1).blk t).view.emb (ix2 k (j 1))) = V c main_v0 (ix2 k ((((cfg0.win 3).blk t).view.emb j) 1))
    refine congrArg (V c main_v0) (funext fun a => Fin.ext ?_)
    match a with
    | ⟨0, _⟩ => show win0_1.index t (0 : Fin 2) * 2048 + 1 * k.val = k.val; omega
    | ⟨1, _⟩ => show win0_1.index t (1 : Fin 2) * 64 + 1 * (j 1).val = win0_3.index t (1 : Fin 2) * 64 + 1 * (j 1).val; omega
  · show V c main_v2 (((cfg0.win 2).blk t).view.emb (ix2 (0 : Fin 1) (j 1))) = V c main_v2 (ix2 (0 : Fin 1) ((((cfg0.win 3).blk t).view.emb j) 1))
    refine congrArg (V c main_v2) (funext fun a => Fin.ext ?_)
    match a with
    | ⟨0, _⟩ => show win0_2.index t (0 : Fin 2) * 1 + 1 * 0 = 0; omega
    | ⟨1, _⟩ => show win0_2.index t (1 : Fin 2) * 64 + 1 * (j 1).val = win0_3.index t (1 : Fin 2) * 64 + 1 * (j 1).val; omega

/-- An index of the result is in point `t`'s block iff each coordinate is in the block's range on its axis. -/
theorem mem_blk (t : Fin cfg0.N) (i : S10000x64.Idx) :
    i ∈ ((cfg0.win 3).blk t).view.set ↔ ∀ a : Fin 2, win0_3.index t a * S1000x64.size a ≤ (i a).val
      ∧ (i a).val < win0_3.index t a * S1000x64.size a + S1000x64.size a := by
  show i ∈ ((View.whole main_v3).slice (win0_3.rect t)).set ↔ _
  rw [View.set_slice_whole, Rect.mem_set_unit]
  exact Iff.rfl

/-- Row `r` of the result lies in the block numbered `r / 1000`: the blocks tile the array. -/
theorem cover (i : S10000x64.Idx) :
    ∃ t : Fin cfg0.N, (cfg0.win 3).flush t = true ∧ i ∈ ((cfg0.win 3).blk t).view.set := by
  have hi0 : (i 0).val < 10000 := (i 0).isLt
  have hi1 : (i 1).val < 64 := (i 1).isLt
  obtain ⟨t, ht⟩ := idx_onto ⟨(i 0).val / 1000, by omega⟩
  have q0 : win0_3.index t (0 : Fin 2) = (i 0).val / 1000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 1000 ≤ (i 0).val ∧ (i 0).val < win0_3.index t (0 : Fin 2) * 1000 + 1000; omega
  | ⟨1, _⟩ => show win0_3.index t (1 : Fin 2) * 64 ≤ (i 1).val ∧ (i 1).val < win0_3.index t (1 : Fin 2) * 64 + 64; omega

/-- The result array after the call is the layer of the three input arrays as the call found them. -/
theorem arr_eq (c : Dev nD) :
    (dat0 V c).arrAt 3 cfg0.N
      = Hetero.lin (V c main_arg0 : S10000x2048.Idx → EReal) (V c main_v0 : S2048x64.Idx → EReal) (V c main_v2 : S1x64.Idx → EReal) :=
  (dat0 V c).arrAt_eq_of_cover 3 _ (fun t _ => flushed_eq V c t) cover

end

end Cert.KernelIdeal.Lin0

end
-- ==== Proof.Lin1.lean ====
/-
  Pallas call 1 of the program is a linear layer over a node table of 10000 rows, taken 1000 rows at a time.
  At grid point `t` the body sees rows `1000·t … 1000·t + 999` of the table (all 1024 columns), the whole
  1024 × 64 weight matrix and the whole 1 × 64 bias row, and stores `block · weight + bias`; the ten output
  blocks tile the 10000 × 64 result.  So after the call the result array is `Hetero.lin` of the three input
  arrays as the call found them: row `r` of the result depends on row `r` of the table only, and the row's block
  is the one numbered `r / 1000`.
-/
import proofs.«165804_j39522289058325_1_alg».proof.Proof.Gen.KernelIdeal.Frame
import proofs.«165804_j39522289058325_1_alg».proof.Proof.Spec

set_option maxRecDepth 16384

noncomputable section

namespace Cert.KernelIdeal.Lin1

open Cert.KernelIdeal Cert.KernelIdeal.Gen Idealize.ShloMosaic Idealize.ShloMosaic.TcCoe Idealize.ShloMosaic.ValueIdx
open Idealize.SL.Sem
open Idealize.ShloMosaic.Pipeline (Dat)

theorem hz : (![0, 0] : Fin 2 → Nat) = fun _ => 0 := funext fun a => by fin_cases a <;> rfl

/-- The body's value at row `r`, column `c` of its block: the casts are the identity on the extended reals, the
    product into the zero accumulator is the sum over the contraction, the bias row is read at its column. -/
theorem pay_apply (x0 : Vec Ideal S1000x1024 .f32) (x1 : Vec Ideal S1024x64 .f32) (x2 : Vec Ideal S1x64 .f32)
    (r : Fin 1000) (c : Fin 64) :
    k1_pay1 (F := Ideal) x0 x1 x2 (ix2 r c)
      = (∑ k : Fin 1024, x0 (ix2 r k) * x1 (ix2 k c)) + x2 (ix2 (0 : Fin 1) c) := by
  unfold k1_pay1
  simp only [shapeCast_self]
  rw [addf_apply, broadcastTo_1b_ab_apply]
  exact congrArg (· + x2 (ix2 (0 : Fin 1) c))
    (matmul_zero_rows dot_S1000x1024_S1024x64_S1000x64_1_0_0_1_n_n none rfl rfl (fun _ _ => rfl) (fun _ _ => rfl) (fun _ _ => rfl) (fun _ _ => rfl)
      (truncf .bf16 x0 bitsLt_bf16_f32) (truncf .bf16 x1 bitsLt_bf16_f32) r c)

/-- A block's value at an entry is the layer's value at the array entry it stands for, once the block's row, the
    weight column and the bias column are the array's. -/
theorem pay_block (X : S10000x1024.Idx → EReal) (W : S1024x64.Idx → EReal) (B : S1x64.Idx → EReal)
    (x0 : Vec Ideal S1000x1024 .f32) (x1 : Vec Ideal S1024x64 .f32) (x2 : Vec Ideal S1x64 .f32)
    (i : S10000x64.Idx) (y : S1000x64.Idx)
    (h0 : ∀ k : Fin 1024, x0 (ix2 (y 0) k) = X (ix2 (i 0) k))
    (h1 : ∀ k : Fin 1024, x1 (ix2 k (y 1)) = W (ix2 k (i 1)))
    (h2 : x2 (ix2 (0 : Fin 1) (y 1)) = B (ix2 (0 : Fin 1) (i 1))) :
    k1_pay1 (F := Ideal) x0 x1 x2 y = Hetero.lin X W B i := by
  have e : k1_pay1 (F := Ideal) x0 x1 x2 y
      = (∑ k : Fin 1024, x0 (ix2 (y 0) k) * x1 (ix2 k (y 1))) + x2 (ix2 (0 : Fin 1) (y 1)) :=
    (congrArg (k1_pay1 (F := Ideal) x0 x1 x2) (eq_ix2 y)).trans (pay_apply x0 x1 x2 (y 0) (y 1))
  rw [e]
  unfold Hetero.lin
  rw [h2]
  exact congrArg (· + B (ix2 (0 : Fin 1) (i 1))) (Finset.sum_congr rfl fun k _ => by rw [h0 k, h1 k])

/-- The printed index maps over the grid: the table's block and the result's block move together down the rows,
    the weight and bias blocks stay put, and no block moves along the columns. -/
theorem idx_facts : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 :=
  (by decide +kernel : ∀ t : Fin grid1.N, _)

/-- Every one of the ten row blocks of the result is some point's. -/
theorem idx_onto : ∀ q : Fin 10, ∃ t : Fin cfg1.N, win1_3.index t = ![q.val, 0] :=
  (by decide +kernel : ∀ q : Fin 10, ∃ t : Fin grid1.N, win1_3.index t = ![q.val, 0])

section
variable (V : (c : Dev nD) → (b : Ref sig .tc) → Buf (Elt Ideal) ((c : Thread nD τ).loc b))

/-- What point `t` writes back is block `t` of the layer applied to the arrays as the call found them. -/
theorem flushed_eq (c : Dev nD) (t : Fin cfg1.N) :
    (dat1 V c).flushed 3 t = ((cfg1.win 3).blk t).view.read (Elt Ideal)
      (Hetero.lin (V c main_arg1 : S10000x1024.Idx → EReal) (V c main_v4 : S1024x64.Idx → EReal) (V c main_v6 : S1x64.Idx → EReal)) := by
  show (cfg1.win 3).cut (grid1.coords t) ((dat1 V c).after 3 t) = _
  rw [after1_3]
  unfold out1_3
  rw [View.canon_unit_zero hz]
  simp only [View.ld_unit_zero (S := S1000x1024) hz, View.ld_unit_zero (S := S1024x64) hz, View.ld_unit_zero (S := S1x64) hz]
  obtain ⟨e0, e1, e2, e3, e4, e5, e6⟩ := idx_facts t
  funext j
  show k1_pay1 (F := Ideal) (iblk1 V c 0 t) (iblk1 V c 1 t) (iblk1 V c 2 t) j
    = Hetero.lin (V c main_arg1 : S10000x1024.Idx → EReal) (V c main_v4 : S1024x64.Idx → EReal) (V c main_v6 : S1x64.Idx → EReal)
        (((cfg1.win 3).blk t).view.emb j)
  refine pay_block _ _ _ _ _ _ _ j (fun k => ?_) (fun k => ?_) ?_
  · show V c main_arg1 (((cfg1.win 0).blk t).view.emb (ix2 (j 0) k)) = V c main_arg1 (ix2 ((((cfg1.win 3).blk t).view.emb j) 0) k)
    refine congrArg (V c main_arg1) (funext fun a => Fin.ext ?_)
    match a with
    | ⟨0, _⟩ => show win1_0.index t (0 : Fin 2) * 1000 + 1 * (j 0).val = win1_3.index t (0 : Fin 2) * 1000 + 1 * (j 0).val; omega
    | ⟨1, _⟩ => show win1_0.index t (1 : Fin 2) * 1024 + 1 * k.val = k.val; omega
  · show V c main_v4 (((cfg1.win 1).blk t).view.emb (ix2 k (j 1))) = V c main_v4 (ix2 k ((((cfg1.win 3).blk t).view.emb j) 1))
    refine congrArg (V c main_v4) (funext fun a => Fin.ext ?_)
    match a with
    | ⟨0, _⟩ => show win1_1.index t (0 : Fin 2) * 1024 + 1 * k.val = k.val; omega
    | ⟨1, _⟩ => show win1_1.index t (1 : Fin 2) * 64 + 1 * (j 1).val = win1_3.index t (1 : Fin 2) * 64 + 1 * (j 1).val; omega
  · show V c main_v6 (((cfg1.win 2).blk t).view.emb (ix2 (0 : Fin 1) (j 1))) = V c main_v6 (ix2 (0 : Fin 1) ((((cfg1.win 3).blk t).view.emb j) 1))
    refine congrArg (V c main_v6) (funext fun a => Fin.ext ?_)
    match a with
    | ⟨0, _⟩ => show win1_2.index t (0 : Fin 2) * 1 + 1 * 0 = 0; omega
    | ⟨1, _⟩ => show win1_2.index t (1 : Fin 2) * 64 + 1 * (j 1).val = win1_3.index t (1 : Fin 2) * 64 + 1 * (j 1).val; omega

/-- An index of the result is in point `t`'s block iff each coordinate is in the block's range on its axis. -/
theorem mem_blk (t : Fin cfg1.N) (i : S10000x64.Idx) :
    i ∈ ((cfg1.win 3).blk t).view.set ↔ ∀ a : Fin 2, win1_3.index t a * S1000x64.size a ≤ (i a).val
      ∧ (i a).val < win1_3.index t a * S1000x64.size a + S1000x64.size a := by
  show i ∈ ((View.whole main_v7).slice (win1_3.rect t)).set ↔ _
  rw [View.set_slice_whole, Rect.mem_set_unit]
  exact Iff.rfl

/-- Row `r` of the result lies in the block numbered `r / 1000`: the blocks tile the array. -/
theorem cover (i : S10000x64.Idx) :
    ∃ t : Fin cfg1.N, (cfg1.win 3).flush t = true ∧ i ∈ ((cfg1.win 3).blk t).view.set := by
  have hi0 : (i 0).val < 10000 := (i 0).isLt
  have hi1 : (i 1).val < 64 := (i 1).isLt
  obtain ⟨t, ht⟩ := idx_onto ⟨(i 0).val / 1000, by omega⟩
  have q0 : win1_3.index t (0 : Fin 2) = (i 0).val / 1000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 1000 ≤ (i 0).val ∧ (i 0).val < win1_3.index t (0 : Fin 2) * 1000 + 1000; omega
  | ⟨1, _⟩ => show win1_3.index t (1 : Fin 2) * 64 ≤ (i 1).val ∧ (i 1).val < win1_3.index t (1 : Fin 2) * 64 + 64; omega

/-- The result array after the call is the layer of the three input arrays as the call found them. -/
theorem arr_eq (c : Dev nD) :
    (dat1 V c).arrAt 3 cfg1.N
      = Hetero.lin (V c main_arg1 : S10000x1024.Idx → EReal) (V c main_v4 : S1024x64.Idx → EReal) (V c main_v6 : S1x64.Idx → EReal) :=
  (dat1 V c).arrAt_eq_of_cover 3 _ (fun t _ => flushed_eq V c t) cover

end

end Cert.KernelIdeal.Lin1

end
-- ==== Proof.Lin2.lean ====
/-
  Pallas call 2 of the program is a linear layer over a node table of 10000 rows, taken 1000 rows at a time.
  At grid point `t` the body sees rows `1000·t … 1000·t + 999` of the table (all 64 columns), the whole
  64 × 32 weight matrix and the whole 1 × 32 bias row, and stores `block · weight + bias`; the ten output
  blocks tile the 10000 × 32 result.  So after the call the result array is `Hetero.lin` of the three input
  arrays as the call found them: row `r` of the result depends on row `r` of the table only, and the row's block
  is the one numbered `r / 1000`.
-/
import proofs.«165804_j39522289058325_1_alg».proof.Proof.Gen.KernelIdeal.Frame
import proofs.«165804_j39522289058325_1_alg».proof.Proof.Spec

set_option maxRecDepth 16384

noncomputable section

namespace Cert.KernelIdeal.Lin2

open Cert.KernelIdeal Cert.KernelIdeal.Gen Idealize.ShloMosaic Idealize.ShloMosaic.TcCoe Idealize.ShloMosaic.ValueIdx
open Idealize.SL.Sem
open Idealize.ShloMosaic.Pipeline (Dat)

theorem hz : (![0, 0] : Fin 2 → Nat) = fun _ => 0 := funext fun a => by fin_cases a <;> rfl

/-- The body's value at row `r`, column `c` of its block: the casts are the identity on the extended reals, the
    product into the zero accumulator is the sum over the contraction, the bias row is read at its column. -/
theorem pay_apply (x0 : Vec Ideal S1000x64 .f32) (x1 : Vec Ideal S64x32 .f32) (x2 : Vec Ideal S1x32 .f32)
    (r : Fin 1000) (c : Fin 32) :
    k2_pay1 (F := Ideal) x0 x1 x2 (ix2 r c)
      = (∑ k : Fin 64, x0 (ix2 r k) * x1 (ix2 k c)) + x2 (ix2 (0 : Fin 1) c) := by
  unfold k2_pay1
  simp only [shapeCast_self]
  rw [addf_apply, broadcastTo_1b_ab_apply]
  exact congrArg (· + x2 (ix2 (0 : Fin 1) c))
    (matmul_zero_rows dot_S1000x64_S64x32_S1000x32_1_0_0_1_n_n none rfl rfl (fun _ _ => rfl) (fun _ _ => rfl) (fun _ _ => rfl) (fun _ _ => rfl)
      (truncf .bf16 x0 bitsLt_bf16_f32) (truncf .bf16 x1 bitsLt_bf16_f32) r c)

/-- A block's value at an entry is the layer's value at the array entry it stands for, once the block's row, the
    weight column and the bias column are the array's. -/
theorem pay_block (X : S10000x64.Idx → EReal) (W : S64x32.Idx → EReal) (B : S1x32.Idx → EReal)
    (x0 : Vec Ideal S1000x64 .f32) (x1 : Vec Ideal S64x32 .f32) (x2 : Vec Ideal S1x32 .f32)
    (i : S10000x32.Idx) (y : S1000x32.Idx)
    (h0 : ∀ k : Fin 64, x0 (ix2 (y 0) k) = X (ix2 (i 0) k))
    (h1 : ∀ k : Fin 64, x1 (ix2 k (y 1)) = W (ix2 k (i 1)))
    (h2 : x2 (ix2 (0 : Fin 1) (y 1)) = B (ix2 (0 : Fin 1) (i 1))) :
    k2_pay1 (F := Ideal) x0 x1 x2 y = Hetero.lin X W B i := by
  have e : k2_pay1 (F := Ideal) x0 x1 x2 y
      = (∑ k : Fin 64, x0 (ix2 (y 0) k) * x1 (ix2 k (y 1))) + x2 (ix2 (0 : Fin 1) (y 1)) :=
    (congrArg (k2_pay1 (F := Ideal) x0 x1 x2) (eq_ix2 y)).trans (pay_apply x0 x1 x2 (y 0) (y 1))
  rw [e]
  unfold Hetero.lin
  rw [h2]
  exact congrArg (· + B (ix2 (0 : Fin 1) (i 1))) (Finset.sum_congr rfl fun k _ => by rw [h0 k, h1 k])

/-- The printed index maps over the grid: the table's block and the result's block move together down the rows,
    the weight and bias blocks stay put, and no block moves along the columns. -/
theorem idx_facts : ∀ t : Fin cfg2.N, win2_0.index t (0 : Fin 2) = win2_3.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (1 : Fin 2) = 0 :=
  (by decide +kernel : ∀ t : Fin grid2.N, _)

/-- Every one of the ten row blocks of the result is some point's. -/
theorem idx_onto : ∀ q : Fin 10, ∃ t : Fin cfg2.N, win2_3.index t = ![q.val, 0] :=
  (by decide +kernel : ∀ q : Fin 10, ∃ t : Fin grid2.N, win2_3.index t = ![q.val, 0])

section
variable (V : (c : Dev nD) → (b : Ref sig .tc) → Buf (Elt Ideal) ((c : Thread nD τ).loc b))

/-- What point `t` writes back is block `t` of the layer applied to the arrays as the call found them. -/
theorem flushed_eq (c : Dev nD) (t : Fin cfg2.N) :
    (dat2 V c).flushed 3 t = ((cfg2.win 3).blk t).view.read (Elt Ideal)
      (Hetero.lin (V c main_v3 : S10000x64.Idx → EReal) (V c main_v8 : S64x32.Idx → EReal) (V c main_v9 : S1x32.Idx → EReal)) := by
  show (cfg2.win 3).cut (grid2.coords t) ((dat2 V c).after 3 t) = _
  rw [after2_3]
  unfold out2_3
  rw [View.canon_unit_zero hz]
  simp only [View.ld_unit_zero (S := S1000x64) hz, View.ld_unit_zero (S := S64x32) hz, View.ld_unit_zero (S := S1x32) hz]
  obtain ⟨e0, e1, e2, e3, e4, e5, e6⟩ := idx_facts t
  funext j
  show k2_pay1 (F := Ideal) (iblk2 V c 0 t) (iblk2 V c 1 t) (iblk2 V c 2 t) j
    = Hetero.lin (V c main_v3 : S10000x64.Idx → EReal) (V c main_v8 : S64x32.Idx → EReal) (V c main_v9 : S1x32.Idx → EReal)
        (((cfg2.win 3).blk t).view.emb j)
  refine pay_block _ _ _ _ _ _ _ j (fun k => ?_) (fun k => ?_) ?_
  · show V c main_v3 (((cfg2.win 0).blk t).view.emb (ix2 (j 0) k)) = V c main_v3 (ix2 ((((cfg2.win 3).blk t).view.emb j) 0) k)
    refine congrArg (V c main_v3) (funext fun a => Fin.ext ?_)
    match a with
    | ⟨0, _⟩ => show win2_0.index t (0 : Fin 2) * 1000 + 1 * (j 0).val = win2_3.index t (0 : Fin 2) * 1000 + 1 * (j 0).val; omega
    | ⟨1, _⟩ => show win2_0.index t (1 : Fin 2) * 64 + 1 * k.val = k.val; omega
  · show V c main_v8 (((cfg2.win 1).blk t).view.emb (ix2 k (j 1))) = V c main_v8 (ix2 k ((((cfg2.win 3).blk t).view.emb j) 1))
    refine congrArg (V c main_v8) (funext fun a => Fin.ext ?_)
    match a with
    | ⟨0, _⟩ => show win2_1.index t (0 : Fin 2) * 64 + 1 * k.val = k.val; omega
    | ⟨1, _⟩ => show win2_1.index t (1 : Fin 2) * 32 + 1 * (j 1).val = win2_3.index t (1 : Fin 2) * 32 + 1 * (j 1).val; omega
  · show V c main_v9 (((cfg2.win 2).blk t).view.emb (ix2 (0 : Fin 1) (j 1))) = V c main_v9 (ix2 (0 : Fin 1) ((((cfg2.win 3).blk t).view.emb j) 1))
    refine congrArg (V c main_v9) (funext fun a => Fin.ext ?_)
    match a with
    | ⟨0, _⟩ => show win2_2.index t (0 : Fin 2) * 1 + 1 * 0 = 0; omega
    | ⟨1, _⟩ => show win2_2.index t (1 : Fin 2) * 32 + 1 * (j 1).val = win2_3.index t (1 : Fin 2) * 32 + 1 * (j 1).val; omega

/-- An index of the result is in point `t`'s block iff each coordinate is in the block's range on its axis. -/
theorem mem_blk (t : Fin cfg2.N) (i : S10000x32.Idx) :
    i ∈ ((cfg2.win 3).blk t).view.set ↔ ∀ a : Fin 2, win2_3.index t a * S1000x32.size a ≤ (i a).val
      ∧ (i a).val < win2_3.index t a * S1000x32.size a + S1000x32.size a := by
  show i ∈ ((View.whole main_v10).slice (win2_3.rect t)).set ↔ _
  rw [View.set_slice_whole, Rect.mem_set_unit]
  exact Iff.rfl

/-- Row `r` of the result lies in the block numbered `r / 1000`: the blocks tile the array. -/
theorem cover (i : S10000x32.Idx) :
    ∃ t : Fin cfg2.N, (cfg2.win 3).flush t = true ∧ i ∈ ((cfg2.win 3).blk t).view.set := by
  have hi0 : (i 0).val < 10000 := (i 0).isLt
  have hi1 : (i 1).val < 32 := (i 1).isLt
  obtain ⟨t, ht⟩ := idx_onto ⟨(i 0).val / 1000, by omega⟩
  have q0 : win2_3.index t (0 : Fin 2) = (i 0).val / 1000 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 1000 ≤ (i 0).val ∧ (i 0).val < win2_3.index t (0 : Fin 2) * 1000 + 1000; omega
  | ⟨1, _⟩ => show win2_3.index t (1 : Fin 2) * 32 ≤ (i 1).val ∧ (i 1).val < win2_3.index t (1 : Fin 2) * 32 + 32; omega

/-- The result array after the call is the layer of the three input arrays as the call found them. -/
theorem arr_eq (c : Dev nD) :
    (dat2 V c).arrAt 3 cfg2.N
      = Hetero.lin (V c main_v3 : S10000x64.Idx → EReal) (V c main_v8 : S64x32.Idx → EReal) (V c main_v9 : S1x32.Idx → EReal) :=
  (dat2 V c).arrAt_eq_of_cover 3 _ (fun t _ => flushed_eq V c t) cover

end

end Cert.KernelIdeal.Lin2

end
-- ==== Proof.Lin3.lean ====
/-
  Pallas call 3 of the program is a linear layer over a node table of 10000 rows, taken 1000 rows at a time.
  At grid point `t` the body sees rows `1000·t … 1000·t + 999` of the table (all 64 columns), the whole
  64 × 32 weight matrix and the whole 1 × 32 bias row, and stores `block · weight + bias`; the ten output
  blocks tile the 10000 × 32 result.  So after the call the result array is `Hetero.lin` of the three input
  arrays as the call found them: row `r` of the result depends on row `r` of the table only, and the row's block
  is the one numbered `r / 1000`.
-/
import proofs.«165804_j39522289058325_1_alg».proof.Proof.Gen.KernelIdeal.Frame
import proofs.«165804_j39522289058325_1_alg».proof.Proof.Spec

set_option maxRecDepth 16384

noncomputable section

namespace Cert.KernelIdeal.Lin3

open Cert.KernelIdeal Cert.KernelIdeal.Gen Idealize.ShloMosaic Idealize.ShloMosaic.TcCoe Idealize.ShloMosaic.ValueIdx
open Idealize.SL.Sem
open Idealize.ShloMosaic.Pipeline (Dat)

theorem hz : (![0, 0] : Fin 2 → Nat) = fun _ => 0 := funext fun a => by fin_cases a <;> rfl

/-- The body's value at row `r`, column `c` of its block: the casts are the identity on the extended reals, the
    product into the zero accumulator is the sum over the contraction, the bias row is read at its column. -/
theorem pay_apply (x0 : Vec Ideal S1000x64 .f32) (x1 : Vec Ideal S64x32 .f32) (x2 : Vec Ideal S1x32 .f32)
    (r : Fin 1000) (c : Fin 32) :
    k3_pay1 (F := Ideal) x0 x1 x2 (ix2 r c)
      = (∑ k : Fin 64, x0 (ix2 r k) * x1 (ix2 k c)) + x2 (ix2 (0 : Fin 1) c) := by
  unfold k3_pay1
  simp only [shapeCast_self]
  rw [addf_apply, broadcastTo_1b_ab_apply]
  exact congrArg (· + x2 (ix2 (0 : Fin 1) c))
    (matmul_zero_rows dot_S1000x64_S64x32_S1000x32_1_0_0_1_n_n none rfl rfl (fun _ _ => rfl) (fun _ _ => rfl) (fun _ _ => rfl) (fun _ _ => rfl)
      (truncf .bf16 x0 bitsLt_bf16_f32) (truncf .bf16 x1 bitsLt_bf16_f32) r c)

/-- A block's value at an entry is the layer's value at the array entry it stands for, once the block's row, the
    weight column and the bias column are the array's. -/
theorem pay_block (X : S10000x64.Idx → EReal) (W : S64x32.Idx → EReal) (B : S1x32.Idx → EReal)
    (x0 : Vec Ideal S1000x64 .f32) (x1 : Vec Ideal S64x32 .f32) (x2 : Vec Ideal S1x32 .f32)
    (i : S10000x32.Idx) (y : S1000x32.Idx)
    (h0 : ∀ k : Fin 64, x0 (ix2 (y 0) k) = X (ix2 (i 0) k))
    (h1 : ∀ k : Fin 64, x1 (ix2 k (y 1)) = W (ix2 k (i 1)))
    (h2 : x2 (ix2 (0 : Fin 1) (y 1)) = B (ix2 (0 : Fin 1) (i 1))) :
    k3_pay1 (F := Ideal) x0 x1 x2 y = Hetero.lin X W B i := by
  have e : k3_pay1 (F := Ideal) x0 x1 x2 y
      = (∑ k : Fin 64, x0 (ix2 (y 0) k) * x1 (ix2 k (y 1))) + x2 (ix2 (0 : Fin 1) (y 1)) :=
    (congrArg (k3_pay1 (F := Ideal) x0 x1 x2) (eq_ix2 y)).trans (pay_apply x0 x1 x2 (y 0) (y 1))
  rw [e]
  unfold Hetero.lin
  rw [h2]
  exact congrArg (· + B (ix2 (0 : Fin 1) (i 1))) (Finset.sum_congr rfl fun k _ => by rw [h0 k, h1 k])

/-- The printed index maps over the grid: the table's block and the result's block move together down the rows,
    the weight and bias blocks stay put, and no block moves along the columns. -/
theorem idx_facts : ∀ t : Fin cfg3.N, win3_0.index t (0 : Fin 2) = win3_3.index t (0 : Fin 2)
    ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (1 : Fin 2) = 0 :=
  (by decide +kernel : ∀ t : Fin grid3.N, _)

/-- Every one of the ten row blocks of the result is some point's. -/
theorem idx_onto : ∀ q : Fin 10, ∃ t : Fin cfg3.N, win3_3.index t = ![q.val, 0] :=
  (by decide +kernel : ∀ q : Fin 10, ∃ t : Fin grid3.N, win3_3.index t = ![q.val, 0])

section
variable (V : (c : Dev nD) → (b : Ref sig .tc) → Buf (Elt Ideal) ((c : Thread nD τ).loc b))

/-- What point `t` writes back is block `t` of the layer applied to the arrays as the call found them. -/
theorem flushed_eq (c : Dev nD) (t : Fin cfg3.N) :
    (dat3 V c).flushed 3 t = ((cfg3.win 3).blk t).view.read (Elt Ideal)
      (Hetero.lin (V c main_v3 : S10000x64.Idx → EReal) (V c main_v11 : S64x32.Idx → EReal) (V c main_v12 : S1x32.Idx → EReal)) := by
  show (cfg3.win 3).cut (grid3.coords t) ((dat3 V c).after 3 t) = _
  rw [after3_3]
  unfold out3_3
  rw [View.canon_unit_zero hz]
  simp only [View.ld_unit_zero (S := S1000x64) hz, View.ld_unit_zero (S := S64x32) hz, View.ld_unit_zero (S := S1x32) hz]
  obtain ⟨e0, e1, e2, e3, e4, e5, e6⟩ := idx_facts t
  funext j
  show k3_pay1 (F := Ideal) (iblk3 V c 0 t) (iblk3 V c 1 t) (iblk3 V c 2 t) j
    = Hetero.lin (V c main_v3 : S10000x64.Idx → EReal) (V c main_v11 : S64x32.Idx → EReal) (V c main_v12 : S1x32.Idx → EReal)
        (((cfg3.win 3).blk t).view.emb j)
  refine pay_block _ _ _ _ _ _ _ j (fun k => ?_) (fun k => ?_) ?_
  · show V c main_v3 (((cfg3.win 0).blk t).view.emb (ix2 (j 0) k)) = V c main_v3 (ix2 ((((cfg3.win 3).blk t).view.emb j) 0) k)
    refine congrArg (V c main_v3) (funext fun a => Fin.ext ?_)
    match a with
    | ⟨0, _⟩ => show win3_0.index t (0 : Fin 2) * 1000 + 1 * (j 0).val = win3_3.index t (0 : Fin 2) * 1000 + 1 * (j 0).val; omega
    | ⟨1, _⟩ => show win3_0.index t (1 : Fin 2) * 64 + 1 * k.val = k.val; omega
  · show V c main_v11 (((cfg3.win 1).blk t).view.emb (ix2 k (j 1))) = V c main_v11 (ix2 k ((((cfg3.win 3).blk t).view.emb j) 1))
    refine congrArg (V c main_v11) (funext fun a => Fin.ext ?_)
    match a with
    | ⟨0, _⟩ => show win3_1.index t (0 : Fin 2) * 64 + 1 * k.val = k.val; omega
    | ⟨1, _⟩ => show win3_1.index t (1 : Fin 2) * 32 + 1 * (j 1).val = win3_3.index t (1 : Fin 2) * 32 + 1 * (j 1).val; omega
  · show V c main_v12 (((cfg3.win 2).blk t).view.emb (ix2 (0 : Fin 1) (j 1))) = V c main_v12 (ix2 (0 : Fin 1) ((((cfg3.win 3).blk t).view.emb j) 1))
    refine congrArg (V c main_v12) (funext fun a => Fin.ext ?_)
    match a with
    | ⟨0, _⟩ => show win3_2.index t (0 : Fin 2) * 1 + 1 * 0 = 0; omega
    | ⟨1, _⟩ => show win3_2.index t (1 : Fin 2) * 32 + 1 * (j 1).val = win3_3.index t (1 : Fin 2) * 32 + 1 * (j 1).val; omega

/-- An index of the result is in point `t`'s block iff each coordinate is in the block's range on its axis. -/
theorem mem_blk (t : Fin cfg3.N) (i : S10000x32.Idx) :
    i ∈ ((cfg3.win 3).blk t).view.set ↔ ∀ a : Fin 2, win3_3.index t a * S1000x32.size a ≤ (i a).val
      ∧ (i a).val < win3_3.index t a * S1000x32.size a + S1000x32.size a := by
  show i ∈ ((View.whole main_v13).slice (win3_3.rect t)).set ↔ _
  rw [View.set_slice_whole, Rect.mem_set_unit]
  exact Iff.rfl

/-- Row `r` of the result lies in the block numbered `r / 1000`: the blocks tile the array. -/
theorem cover (i : S10000x32.Idx) :
    ∃ t : Fin cfg3.N, (cfg3.win 3).flush t = true ∧ i ∈ ((cfg3.win 3).blk t).view.set := by
  have hi0 : (i 0).val < 10000 := (i 0).isLt
  have hi1 : (i 1).val < 32 := (i 1).isLt
  obtain ⟨t, ht⟩ := idx_onto ⟨(i 0).val / 1000, by omega⟩
  have q0 : win3_3.index t (0 : Fin 2) = (i 0).val / 1000 := congrFun ht 0
  have q1 : win3_3.index t (1 : Fin 2) = 0 := congrFun ht 1
  refine ⟨t, flush3_3 t, ?_⟩
  rw [mem_blk]
  intro a
  match a with
  | ⟨0, _⟩ => show win3_3.index t (0 : Fin 2) * 1000 ≤ (i 0).val ∧ (i 0).val < win3_3.index t (0 : Fin 2) * 1000 + 1000; omega
  | ⟨1, _⟩ => show win3_3.index t (1 : Fin 2) * 32 ≤ (i 1).val ∧ (i 1).val < win3_3.index t (1 : Fin 2) * 32 + 32; omega

/-- The result array after the call is the layer of the three input arrays as the call found them. -/
theorem arr_eq (c : Dev nD) :
    (dat3 V c).arrAt 3 cfg3.N
      = Hetero.lin (V c main_v3 : S10000x64.Idx → EReal) (V c main_v11 : S64x32.Idx → EReal) (V c main_v12 : S1x32.Idx → EReal) :=
  (dat3 V c).arrAt_eq_of_cover 3 _ (fun t _ => flushed_eq V c t) cover

end

end Cert.KernelIdeal.Lin3

end
-- ==== Proof.Lin4.lean ====
/-
  Pallas call 4 of the program is a linear layer over a node table of 10000 rows, taken 1000 rows at a time.
  At grid point `t` the body sees rows `1000·t … 1000·t + 999` of the table (all 64 columns), the whole
  64 × 32 weight matrix and the whole 1 × 32 bias row, and stores `block · weight + bias`; the ten output
  blocks tile the 10000 × 32 result.  So after the call the result array is `Hetero.lin` of the three input
  arrays as the call found them: row `r` of the result depends on row `r` of the table only, and the row's block
  is the one numbered `r / 1000`.
-/
import proofs.«165804_j39522289058325_1_alg».proof.Proof.Gen.KernelIdeal.Frame
import proofs.«165804_j39522289058325_1_alg».proof.Proof.Spec

set_option maxRecDepth 16384

noncomputable section

namespace Cert.KernelIdeal.Lin4

open Cert.KernelIdeal Cert.KernelIdeal.Gen Idealize.ShloMosaic Idealize.ShloMosaic.TcCoe Idealize.ShloMosaic.ValueIdx
open Idealize.SL.Sem
open Idealize.ShloMosaic.Pipeline (Dat)

theorem hz : (![0, 0] : Fin 2 → Nat) = fun _ => 0 := funext fun a => by fin_cases a <;> rfl

/-- The body's value at row `r`, column `c` of its block: the casts are the identity on the extended reals, the
    product into the zero accumulator is the sum over the contraction, the bias row is read at its column. -/
theorem pay_apply (x0 : Vec Ideal S1000x64 .f32) (x1 : Vec Ideal S64x32 .f32) (x2 : Vec Ideal S1x32 .f32)
    (r : Fin 1000) (c : Fin 32) :
    k4_pay1 (F := Ideal) x0 x1 x2 (ix2 r c)
      = (∑ k : Fin 64, x0 (ix2 r k) * x1 (ix2 k c)) + x2 (ix2 (0 : Fin 1) c) := by
  unfold k4_pay1
  simp only [shapeCast_self]
  rw [addf_apply, broadcastTo_1b_ab_apply]
  exact congrArg (· + x2 (ix2 (0 : Fin 1) c))
    (matmul_zero_rows dot_S1000x64_S64x32_S1000x32_1_0_0_1_n_n none rfl rfl (fun _ _ => rfl) (fun _ _ => rfl) (fun _ _ => rfl) (fun _ _ => rfl)
      (truncf .bf16 x0 bitsLt_bf16_f32) (truncf .bf16 x1 bitsLt_bf16_f32) r c)

/-- A block's value at an entry is the layer's value at the array entry it stands for, once the block's row, the
    weight column and the bias column are the array's. -/
theorem pay_block (X : S10000x64.Idx → EReal) (W : S64x32.Idx → EReal) (B : S1x32.Idx → EReal)
    (x0 : Vec Ideal S1000x64 .f32) (x1 : Vec Ideal S64x32 .f32) (x2 : Vec Ideal S1x32 .f32)
    (i : S10000x32.Idx) (y : S1000x32.Idx)
    (h0 : ∀ k : Fin 64, x0 (ix2 (y 0) k) = X (ix2 (i 0) k))
    (h1 : ∀ k : Fin 64, x1 (ix2 k (y 1)) = W (ix2 k (i 1)))
    (h2 : x2 (ix2 (0 : Fin 1) (y 1)) = B (ix2 (0 : Fin 1) (i 1))) :
    k4_pay1 (F := Ideal) x0 x1 x2 y = Hetero.lin X W B i := by
  have e : k4_pay1 (F := Ideal) x0 x1 x2 y
      = (∑ k : Fin 64, x0 (ix2 (y 0) k) * x1 (ix2 k (y 1))) + x2 (ix2 (0 : Fin 1) (y 1)) :=
    (congrArg (k4_pay1 (F := Ideal) x0 x1 x2) (eq_ix2 y)).trans (pay_apply x0 x1 x2 (y 0) (y 1))
  rw [e]
  unfold Hetero.lin
  rw [h2]
  exact congrArg (· + B (ix2 (0 : Fin 1) (i 1))) (Finset.sum_congr rfl fun k _ => by rw [h0 k, h1 k])

/-- The printed index maps over the grid: the table's block and the result's block move together down the rows,
    the weight and bias blocks stay put, and no block moves along the columns. -/
theorem idx_facts : ∀ t : Fin cfg4.N, win4_0.index t (0 : Fin 2) = win4_3.index t (0 : Fin 2)
    ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (1 : Fin 2) = 0 :=
  (by decide +kernel : ∀ t : Fin grid4.N, _)

/-- Every one of the ten row blocks of the result is some point's. -/
theorem idx_onto : ∀ q : Fin 10, ∃ t : Fin cfg4.N, win4_3.index t = ![q.val, 0] :=
  (by decide +kernel : ∀ q : Fin 10, ∃ t : Fin grid4.N, win4_3.index t = ![q.val, 0])

section
variable (V : (c : Dev nD) → (b : Ref sig .tc) → Buf (Elt Ideal) ((c : Thread nD τ).loc b))

/-- What point `t` writes back is block `t` of the layer applied to the arrays as the call found them. -/
theorem flushed_eq (c : Dev nD) (t : Fin cfg4.N) :
    (dat4 V c).flushed 3 t = ((cfg4.win 3).blk t).view.read (Elt Ideal)
      (Hetero.lin (V c main_v7 : S10000x64.Idx → EReal) (V c main_v14 : S64x32.Idx → EReal) (V c main_v15 : S1x32.Idx → EReal)) := by
  show (cfg4.win 3).cut (grid4.coords t) ((dat4 V c).after 3 t) = _
  rw [after4_3]
  unfold out4_3
  rw [View.canon_unit_zero hz]
  simp only [View.ld_unit_zero (S := S1000x64) hz, View.ld_unit_zero (S := S64x32) hz, View.ld_unit_zero (S := S1x32) hz]
  obtain ⟨e0, e1, e2, e3, e4, e5, e6⟩ := idx_facts t
  funext j
  show k4_pay1 (F := Ideal) (iblk4 V c 0 t) (iblk4 V c 1 t) (iblk4 V c 2 t) j
    = Hetero.lin (V c main_v7 : S10000x64.Idx → EReal) (V c main_v14 : S64x32.Idx → EReal) (V c main_v15 : S1x32.Idx → EReal)
        (((cfg4.win 3).blk t).view.emb j)
  refine pay_block _ _ _ _ _ _ _ j (fun k => ?_) (fun k => ?_) ?_
  · show V c main_v7 (((cfg4.win 0).blk t).view.emb (ix2 (j 0) k)) = V c main_v7 (ix2 ((((cfg4.win 3).blk t).view.emb j) 0) k)
    refine congrArg (V c main_v7) (funext fun a => Fin.ext ?_)
    match a with
    | ⟨0, _⟩ => show win4_0.index t (0 : Fin 2) * 1000 + 1 * (j 0).val = win4_3.index t (0 : Fin 2) * 1000 + 1 * (j 0).val; omega
    | ⟨1, _⟩ => show win4_0.index t (1 : Fin 2) * 64 + 1 * k.val = k.val; omega
  · show V c main_v14 (((cfg4.win 1).blk t).view.emb (ix2 k (j 1))) = V c main_v14 (ix2 k ((((cfg4.win 3).blk t).view.emb j) 1))
    refine congrArg (V c main_v14) (funext fun a => Fin.ext ?_)
    match a with
    | ⟨0, _⟩ => show win4_1.index t (0 : Fin 2) * 64 + 1 * k.val = k.val; omega
    | ⟨1, _⟩ => show win4_1.index t (1 : Fin 2) * 32 + 1 * (j 1).val = win4_3.index t (1 : Fin 2) * 32 + 1 * (j 1).val; omega
  · show V c main_v15 (((cfg4.win 2).blk t).view.emb (ix2 (0 : Fin 1) (j 1))) = V c main_v15 (ix2 (0 : Fin 1) ((((cfg4.win 3).blk t).view.emb j) 1))
    refine congrArg (V c main_v15) (funext fun a => Fin.ext ?_)
    match a with
    | ⟨0, _⟩ => show win4_2.index t (0 : Fin 2) * 1 + 1 * 0 = 0; omega
    | ⟨1, _⟩ => show win4_2.index t (1 : Fin 2) * 32 + 1 * (j 1).val = win4_3.index t (1 : Fin 2) * 32 + 1 * (j 1).val; omega

/-- An index of the result is in point `t`'s block iff each coordinate is in the block's range on its axis. -/
theorem mem_blk (t : Fin cfg4.N) (i : S10000x32.Idx) :
    i ∈ ((cfg4.win 3).blk t).view.set ↔ ∀ a : Fin 2, win4_3.index t a * S1000x32.size a ≤ (i a).val
      ∧ (i a).val < win4_3.index t a * S1000x32.size a + S1000x32.size a := by
  show i ∈ ((View.whole main_v16).slice (win4_3.rect t)).set ↔ _
  rw [View.set_slice_whole, Rect.mem_set_unit]
  exact Iff.rfl

/-- Row `r` of the result lies in the block numbered `r / 1000`: the blocks tile the array. -/
theorem cover (i : S10000x32.Idx) :
    ∃ t : Fin cfg4.N, (cfg4.win 3).flush t = true ∧ i ∈ ((cfg4.win 3).blk t).view.set := by
  have hi0 : (i 0).val < 10000 := (i 0).isLt
  have hi1 : (i 1).val < 32 := (i 1).isLt
  obtain ⟨t, ht⟩ := idx_onto ⟨(i 0).val / 1000, by omega⟩
  have q0 : win4_3.index t (0 : Fin 2) = (i 0).val / 1000 := congrFun ht 0
  have q1 : win4_3.index t (1 : Fin 2) = 0 := congrFun ht 1
  refine ⟨t, flush4_3 t, ?_⟩
  rw [mem_blk]
  intro a
  match a with
  | ⟨0, _⟩ => show win4_3.index t (0 : Fin 2) * 1000 ≤ (i 0).val ∧ (i 0).val < win4_3.index t (0 : Fin 2) * 1000 + 1000; omega
  | ⟨1, _⟩ => show win4_3.index t (1 : Fin 2) * 32 ≤ (i 1).val ∧ (i 1).val < win4_3.index t (1 : Fin 2) * 32 + 32; omega

/-- The result array after the call is the layer of the three input arrays as the call found them. -/
theorem arr_eq (c : Dev nD) :
    (dat4 V c).arrAt 3 cfg4.N
      = Hetero.lin (V c main_v7 : S10000x64.Idx → EReal) (V c main_v14 : S64x32.Idx → EReal) (V c main_v15 : S1x32.Idx → EReal) :=
  (dat4 V c).arrAt_eq_of_cover 3 _ (fun t _ => flushed_eq V c t) cover

end

end Cert.KernelIdeal.Lin4

end
-- ==== Proof.Lin5.lean ====
/-
  Pallas call 5 of the program is a linear layer over a node table of 10000 rows, taken 1000 rows at a time.
  At grid point `t` the body sees rows `1000·t … 1000·t + 999` of the table (all 64 columns), the whole
  64 × 32 weight matrix and the whole 1 × 32 bias row, and stores `block · weight + bias`; the ten output
  blocks tile the 10000 × 32 result.  So after the call the result array is `Hetero.lin` of the three input
  arrays as the call found them: row `r` of the result depends on row `r` of the table only, and the row's block
  is the one numbered `r / 1000`.
-/
import proofs.«165804_j39522289058325_1_alg».proof.Proof.Gen.KernelIdeal.Frame
import proofs.«165804_j39522289058325_1_alg».proof.Proof.Spec

set_option maxRecDepth 16384

noncomputable section

namespace Cert.KernelIdeal.Lin5

open Cert.KernelIdeal Cert.KernelIdeal.Gen Idealize.ShloMosaic Idealize.ShloMosaic.TcCoe Idealize.ShloMosaic.ValueIdx
open Idealize.SL.Sem
open Idealize.ShloMosaic.Pipeline (Dat)

theorem hz : (![0, 0] : Fin 2 → Nat) = fun _ => 0 := funext fun a => by fin_cases a <;> rfl

/-- The body's value at row `r`, column `c` of its block: the casts are the identity on the extended reals, the
    product into the zero accumulator is the sum over the contraction, the bias row is read at its column. -/
theorem pay_apply (x0 : Vec Ideal S1000x64 .f32) (x1 : Vec Ideal S64x32 .f32) (x2 : Vec Ideal S1x32 .f32)
    (r : Fin 1000) (c : Fin 32) :
    k5_pay1 (F := Ideal) x0 x1 x2 (ix2 r c)
      = (∑ k : Fin 64, x0 (ix2 r k) * x1 (ix2 k c)) + x2 (ix2 (0 : Fin 1) c) := by
  unfold k5_pay1
  simp only [shapeCast_self]
  rw [addf_apply, broadcastTo_1b_ab_apply]
  exact congrArg (· + x2 (ix2 (0 : Fin 1) c))
    (matmul_zero_rows dot_S1000x64_S64x32_S1000x32_1_0_0_1_n_n none rfl rfl (fun _ _ => rfl) (fun _ _ => rfl) (fun _ _ => rfl) (fun _ _ => rfl)
      (truncf .bf16 x0 bitsLt_bf16_f32) (truncf .bf16 x1 bitsLt_bf16_f32) r c)

/-- A block's value at an entry is the layer's value at the array entry it stands for, once the block's row, the
    weight column and the bias column are the array's. -/
theorem pay_block (X : S10000x64.Idx → EReal) (W : S64x32.Idx → EReal) (B : S1x32.Idx → EReal)
    (x0 : Vec Ideal S1000x64 .f32) (x1 : Vec Ideal S64x32 .f32) (x2 : Vec Ideal S1x32 .f32)
    (i : S10000x32.Idx) (y : S1000x32.Idx)
    (h0 : ∀ k : Fin 64, x0 (ix2 (y 0) k) = X (ix2 (i 0) k))
    (h1 : ∀ k : Fin 64, x1 (ix2 k (y 1)) = W (ix2 k (i 1)))
    (h2 : x2 (ix2 (0 : Fin 1) (y 1)) = B (ix2 (0 : Fin 1) (i 1))) :
    k5_pay1 (F := Ideal) x0 x1 x2 y = Hetero.lin X W B i := by
  have e : k5_pay1 (F := Ideal) x0 x1 x2 y
      = (∑ k : Fin 64, x0 (ix2 (y 0) k) * x1 (ix2 k (y 1))) + x2 (ix2 (0 : Fin 1) (y 1)) :=
    (congrArg (k5_pay1 (F := Ideal) x0 x1 x2) (eq_ix2 y)).trans (pay_apply x0 x1 x2 (y 0) (y 1))
  rw [e]
  unfold Hetero.lin
  rw [h2]
  exact congrArg (· + B (ix2 (0 : Fin 1) (i 1))) (Finset.sum_congr rfl fun k _ => by rw [h0 k, h1 k])

/-- The printed index maps over the grid: the table's block and the result's block move together down the rows,
    the weight and bias blocks stay put, and no block moves along the columns. -/
theorem idx_facts : ∀ t : Fin cfg5.N, win5_0.index t (0 : Fin 2) = win5_3.index t (0 : Fin 2)
    ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (1 : Fin 2) = 0 :=
  (by decide +kernel : ∀ t : Fin grid5.N, _)

/-- Every one of the ten row blocks of the result is some point's. -/
theorem idx_onto : ∀ q : Fin 10, ∃ t : Fin cfg5.N, win5_3.index t = ![q.val, 0] :=
  (by decide +kernel : ∀ q : Fin 10, ∃ t : Fin grid5.N, win5_3.index t = ![q.val, 0])

section
variable (V : (c : Dev nD) → (b : Ref sig .tc) → Buf (Elt Ideal) ((c : Thread nD τ).loc b))

/-- What point `t` writes back is block `t` of the layer applied to the arrays as the call found them. -/
theorem flushed_eq (c : Dev nD) (t : Fin cfg5.N) :
    (dat5 V c).flushed 3 t = ((cfg5.win 3).blk t).view.read (Elt Ideal)
      (Hetero.lin (V c main_v7 : S10000x64.Idx → EReal) (V c main_v17 : S64x32.Idx → EReal) (V c main_v18 : S1x32.Idx → EReal)) := by
  show (cfg5.win 3).cut (grid5.coords t) ((dat5 V c).after 3 t) = _
  rw [after5_3]
  unfold out5_3
  rw [View.canon_unit_zero hz]
  simp only [View.ld_unit_zero (S := S1000x64) hz, View.ld_unit_zero (S := S64x32) hz, View.ld_unit_zero (S := S1x32) hz]
  obtain ⟨e0, e1, e2, e3, e4, e5, e6⟩ := idx_facts t
  funext j
  show k5_pay1 (F := Ideal) (iblk5 V c 0 t) (iblk5 V c 1 t) (iblk5 V c 2 t) j
    = Hetero.lin (V c main_v7 : S10000x64.Idx → EReal) (V c main_v17 : S64x32.Idx → EReal) (V c main_v18 : S1x32.Idx → EReal)
        (((cfg5.win 3).blk t).view.emb j)
  refine pay_block _ _ _ _ _ _ _ j (fun k => ?_) (fun k => ?_) ?_
  · show V c main_v7 (((cfg5.win 0).blk t).view.emb (ix2 (j 0) k)) = V c main_v7 (ix2 ((((cfg5.win 3).blk t).view.emb j) 0) k)
    refine congrArg (V c main_v7) (funext fun a => Fin.ext ?_)
    match a with
    | ⟨0, _⟩ => show win5_0.index t (0 : Fin 2) * 1000 + 1 * (j 0).val = win5_3.index t (0 : Fin 2) * 1000 + 1 * (j 0).val; omega
    | ⟨1, _⟩ => show win5_0.index t (1 : Fin 2) * 64 + 1 * k.val = k.val; omega
  · show V c main_v17 (((cfg5.win 1).blk t).view.emb (ix2 k (j 1))) = V c main_v17 (ix2 k ((((cfg5.win 3).blk t).view.emb j) 1))
    refine congrArg (V c main_v17) (funext fun a => Fin.ext ?_)
    match a with
    | ⟨0, _⟩ => show win5_1.index t (0 : Fin 2) * 64 + 1 * k.val = k.val; omega
    | ⟨1, _⟩ => show win5_1.index t (1 : Fin 2) * 32 + 1 * (j 1).val = win5_3.index t (1 : Fin 2) * 32 + 1 * (j 1).val; omega
  · show V c main_v18 (((cfg5.win 2).blk t).view.emb (ix2 (0 : Fin 1) (j 1))) = V c main_v18 (ix2 (0 : Fin 1) ((((cfg5.win 3).blk t).view.emb j) 1))
    refine congrArg (V c main_v18) (funext fun a => Fin.ext ?_)
    match a with
    | ⟨0, _⟩ => show win5_2.index t (0 : Fin 2) * 1 + 1 * 0 = 0; omega
    | ⟨1, _⟩ => show win5_2.index t (1 : Fin 2) * 32 + 1 * (j 1).val = win5_3.index t (1 : Fin 2) * 32 + 1 * (j 1).val; omega

/-- An index of the result is in point `t`'s block iff each coordinate is in the block's range on its axis. -/
theorem mem_blk (t : Fin cfg5.N) (i : S10000x32.Idx) :
    i ∈ ((cfg5.win 3).blk t).view.set ↔ ∀ a : Fin 2, win5_3.index t a * S1000x32.size a ≤ (i a).val
      ∧ (i a).val < win5_3.index t a * S1000x32.size a + S1000x32.size a := by
  show i ∈ ((View.whole main_v19).slice (win5_3.rect t)).set ↔ _
  rw [View.set_slice_whole, Rect.mem_set_unit]
  exact Iff.rfl

/-- Row `r` of the result lies in the block numbered `r / 1000`: the blocks tile the array. -/
theorem cover (i : S10000x32.Idx) :
    ∃ t : Fin cfg5.N, (cfg5.win 3).flush t = true ∧ i ∈ ((cfg5.win 3).blk t).view.set := by
  have hi0 : (i 0).val < 10000 := (i 0).isLt
  have hi1 : (i 1).val < 32 := (i 1).isLt
  obtain ⟨t, ht⟩ := idx_onto ⟨(i 0).val / 1000, by omega⟩
  have q0 : win5_3.index t (0 : Fin 2) = (i 0).val / 1000 := congrFun ht 0
  have q1 : win5_3.index t (1 : Fin 2) = 0 := congrFun ht 1
  refine ⟨t, flush5_3 t, ?_⟩
  rw [mem_blk]
  intro a
  match a with
  | ⟨0, _⟩ => show win5_3.index t (0 : Fin 2) * 1000 ≤ (i 0).val ∧ (i 0).val < win5_3.index t (0 : Fin 2) * 1000 + 1000; omega
  | ⟨1, _⟩ => show win5_3.index t (1 : Fin 2) * 32 ≤ (i 1).val ∧ (i 1).val < win5_3.index t (1 : Fin 2) * 32 + 32; omega

/-- The result array after the call is the layer of the three input arrays as the call found them. -/
theorem arr_eq (c : Dev nD) :
    (dat5 V c).arrAt 3 cfg5.N
      = Hetero.lin (V c main_v7 : S10000x64.Idx → EReal) (V c main_v17 : S64x32.Idx → EReal) (V c main_v18 : S1x32.Idx → EReal) :=
  (dat5 V c).arrAt_eq_of_cover 3 _ (fun t _ => flushed_eq V c t) cover

end

end Cert.KernelIdeal.Lin5

end
-- ==== Proof.LinHost.lean ====
/-
  The host's spelling of the network's dense blocks is the same function as the index-by-index one.

  On the host a linear layer is a `dot_general` of the node table with the weight matrix, plus the bias vector made
  a row (a `broadcast_in_dim` naming axis 1) and then copied down every row (a second `broadcast_in_dim`).  Read at
  `(r, c)` the product is `∑ k, x (r, k) · w (k, c)` and the twice-broadcast bias is the vector at `c`; a vector
  reshaped into the row [1, J] reads the same at `(0, c)`.  So the host's value is `Hetero.lin` of the table, the
  matrix and the reshaped bias.  A bias row that is zero everywhere adds nothing, since `y + 0 = y` for every
  extended real `y`, infinite ones included.  The score matrix is a `dot_general` with the second table
  transposed: the transposed table at `(k, c)` is the table at `(c, k)`.
-/
import proofs.«165804_j39522289058325_1_alg».proof.Proof.Spec
import Idealize.ShloMosaic.Lib.KernelVsHost
import Idealize.ShloMosaic.Lib.IdealHost

noncomputable section

open scoped BigOperators
open Idealize.ShloMosaic Idealize.ShloMosaic.ValueIdx

namespace Hetero

/-- A vector made a one-row matrix by a `broadcast_in_dim` that names axis 1 reads, at `(0, c)`, the vector at `c`. -/
theorem row_of_vector_apply {α : Type} {J : Nat} (h : (⟨1, ![J]⟩ : Shape).BroadcastsInDim ⟨2, ![1, J]⟩ ![1])
    (b : (⟨1, ![J]⟩ : Shape).Idx → α) (u : Fin 1) (c : Fin J) :
    broadcastInDim ⟨2, ![1, J]⟩ ![1] h b (ix2 u c) = b (ix1 c) := by
  refine broadcastInDim_apply ![1] h b (ix2 u c) (ix1 c) ?_
  intro a
  match a with
  | ⟨0, _⟩ =>
    show c.val = if J = 1 then 0 else c.val
    split
    · have := c.isLt; omega
    · rfl

/-- The host's linear layer — product plus the twice-broadcast bias vector — is `lin` with the bias reshaped
    into a row. -/
theorem lin_eq_host {R K J : Nat} (d : DotDims ⟨2, ![R, K]⟩ ⟨2, ![K, J]⟩ ⟨2, ![R, J]⟩)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (x : FVec Ideal ⟨2, ![R, K]⟩ .f32) (w : FVec Ideal ⟨2, ![K, J]⟩ .f32) (b : FVec Ideal ⟨1, ![J]⟩ .f32)
    (hc : (⟨1, ![J]⟩ : Shape).ShapeCasts ⟨2, ![1, J]⟩)
    (hb1 : (⟨1, ![J]⟩ : Shape).BroadcastsInDim ⟨2, ![1, J]⟩ ![1])
    (hb2 : (⟨2, ![1, J]⟩ : Shape).BroadcastsInDim ⟨2, ![R, J]⟩ ![0, 1]) :
    lin x w (shapeCast ⟨2, ![1, J]⟩ b hc)
      = addf (Host.dotGeneral d none x w)
          (broadcastInDim ⟨2, ![R, J]⟩ ![0, 1] hb2 (broadcastInDim ⟨2, ![1, J]⟩ ![1] hb1 b)) := by
  funext j
  obtain ⟨r, c, rfl⟩ : ∃ (r : Fin R) (c : Fin J), j = ix2 r c := ⟨j 0, j 1, eq_ix2 j⟩
  rw [lin_apply, addf_apply]
  simp only [Host.dotGeneral]
  rw [dotGeneral_rows d none _ hr hs h1 h2 h3 h4, broadcastInDim_oneRow_apply, row_of_vector_apply,
    shapeCast_a_1a_apply]

/-- With a bias row that is zero everywhere the layer is the host's bare product. -/
theorem lin_zero_eq_host {R K J : Nat} (d : DotDims ⟨2, ![R, K]⟩ ⟨2, ![K, J]⟩ ⟨2, ![R, J]⟩)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (x : FVec Ideal ⟨2, ![R, K]⟩ .f32) (w : FVec Ideal ⟨2, ![K, J]⟩ .f32)
    (z : (⟨2, ![1, J]⟩ : Shape).Idx → EReal) (hz : ∀ i, z i = 0) :
    lin x w z = Host.dotGeneral d none x w := by
  funext j
  rw [lin_zero_bias x w z hz j]
  obtain ⟨r, c, rfl⟩ : ∃ (r : Fin R) (c : Fin J), j = ix2 r c := ⟨j 0, j 1, eq_ix2 j⟩
  simp only [Host.dotGeneral]
  rw [dotGeneral_rows d none _ hr hs h1 h2 h3 h4]
  rfl

/-- The zero vector made a row is zero everywhere: the bias the program builds for a layer without one. -/
theorem zero_row_apply {J : Nat} (hc : (⟨1, ![J]⟩ : Shape).ShapeCasts ⟨2, ![1, J]⟩)
    (hb : (⟨0, ![]⟩ : Shape).BroadcastsInDim ⟨1, ![J]⟩ ![]) (i : (⟨2, ![1, J]⟩ : Shape).Idx) :
    shapeCast ⟨2, ![1, J]⟩ (broadcastInDim ⟨1, ![J]⟩ ![] hb (constant (F := Ideal) ⟨0, ![]⟩ .f32 0x00000000#32)) hc i = 0 := by
  obtain ⟨u, c, rfl⟩ : ∃ (u : Fin 1) (c : Fin J), i = ix2 u c := ⟨i 0, i 1, eq_ix2 i⟩
  have hu : u = 0 := Subsingleton.elim _ _
  subst hu
  rw [shapeCast_a_1a_apply, broadcastInDim_scalar_apply, constant_apply]
  exact Ideal.ofBits_zero_f32

/-- The score matrix is the host's product with the second table transposed. -/
theorem score_eq_host {R K J : Nat} (d : DotDims ⟨2, ![R, K]⟩ ⟨2, ![K, J]⟩ ⟨2, ![R, J]⟩)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (a : FVec Ideal ⟨2, ![R, K]⟩ .f32) (b : FVec Ideal ⟨2, ![J, K]⟩ .f32)
    (ht : (⟨2, ![J, K]⟩ : Shape).Transposes [1, 0] ⟨2, ![K, J]⟩) :
    score a b = Host.dotGeneral d none a (transpose ⟨2, ![K, J]⟩ [1, 0] b ht) := by
  funext j
  obtain ⟨r, c, rfl⟩ : ∃ (r : Fin R) (c : Fin J), j = ix2 r c := ⟨j 0, j 1, eq_ix2 j⟩
  rw [score_apply]
  simp only [Host.dotGeneral]
  rw [dotGeneral_rows d none _ hr hs h1 h2 h3 h4]
  exact Finset.sum_congr rfl fun k _ => by rw [transpose_ix2_apply]

end Hetero

end
-- ==== Proof.WalkA.lean ====
/-
  The kernel program's buffers up to the first layer's linear maps are the reference's stages.  A Pallas call's result is
  `Hetero.lin` of the arrays the call found: its node table carried back to the piece that produced it (an argument,
  or an earlier call's result, already identified with the reference's stage), its weight matrix the transposed
  parameter, its bias the parameter reshaped into a row — or, for the two type embeddings, the zero row.  The host's
  `dot_general` plus twice-broadcast bias is the same function; with the zero row, the bare product.
-/
import proofs.«165804_j39522289058325_1_alg».proof.Proof.Keep
import proofs.«165804_j39522289058325_1_alg».proof.Proof.Lin0
import proofs.«165804_j39522289058325_1_alg».proof.Proof.Lin1
import proofs.«165804_j39522289058325_1_alg».proof.Proof.Lin2
import proofs.«165804_j39522289058325_1_alg».proof.Proof.Lin3
import proofs.«165804_j39522289058325_1_alg».proof.Proof.Lin4
import proofs.«165804_j39522289058325_1_alg».proof.Proof.Lin5
import proofs.«165804_j39522289058325_1_alg».proof.Proof.LinHost
import proofs.«165804_j39522289058325_1_alg».proof.Proof.ReadP

set_option maxRecDepth 16384
set_option maxHeartbeats 16000000

noncomputable section

namespace Cert.KernelIdeal.Walk

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg) (c : Dev nD)

/-- Pallas call 0's result is the reference's `%v1`. -/
theorem b_v3 : W2 m ρ c (Proc.devRef .tc main_v3) = Cert.ReferenceIdeal.ReadP.val_main_v1 (F := Ideal) (m ((c : Thread nD τ).loc main_arg0)) (m ((c : Thread nD τ).loc main_arg10)) := by
  have hx : (V1 m ρ c main_arg0 : S10000x2048.Idx → EReal) = (m ((c : Thread nD τ).loc main_arg0)) := by
    show W1 m ρ c (Proc.devRef .tc main_arg0) = _
    exact ((Keep.keep0 m ρ c main_arg0 (by decide)).trans rfl)
  have hw : (V1 m ρ c main_v0 : S2048x64.Idx → EReal) = transpose S2048x64 [1, 0] (m ((c : Thread nD τ).loc main_arg10)) transposes_S64x2048_S2048x64_1_0 := by
    show StableHlo.after hostOps0 (W0 m ρ c) (Proc.devRef .tc main_v0) = _
    after_results
    all_goals exact congrArg (fun x => transpose S2048x64 [1, 0] x transposes_S64x2048_S2048x64_1_0) rfl
  have hz : ∀ i, (V1 m ρ c main_v2 : S1x64.Idx → EReal) i = (0 : EReal) := by
    have e : (V1 m ρ c main_v2 : S1x64.Idx → EReal)
        = shapeCast S1x64 (broadcastInDim S64 ![] bcast_S_S64 (constant (F := Ideal) S_ .f32 0x00000000#32)) shapeCasts_S64_S1x64 := by
      show StableHlo.after hostOps0 (W0 m ρ c) (Proc.devRef .tc main_v2) = _
      after_results
      all_goals rfl
    intro i
    rw [e]
    exact Hetero.zero_row_apply _ _ i
  refine (W2_arr m ρ c 3).trans ((Lin0.arr_eq (V1 m ρ) c).trans ?_)
  rw [hx, hw]
  exact Hetero.lin_zero_eq_host Cert.ReferenceIdeal.dot_S10000x2048_S2048x64_S10000x64_1_0_0_1_n_n rfl rfl (fun _ _ => rfl) (fun _ _ => rfl)
    (fun _ _ => rfl) (fun _ _ => rfl) _ _ _ hz

/-- Pallas call 1's result is the reference's `%v3`. -/
theorem b_v7 : W4 m ρ c (Proc.devRef .tc main_v7) = Cert.ReferenceIdeal.ReadP.val_main_v3 (F := Ideal) (m ((c : Thread nD τ).loc main_arg1)) (m ((c : Thread nD τ).loc main_arg11)) := by
  have hx : (V3 m ρ c main_arg1 : S10000x1024.Idx → EReal) = (m ((c : Thread nD τ).loc main_arg1)) := by
    show W3 m ρ c (Proc.devRef .tc main_arg1) = _
    exact (((Keep.keep2 m ρ c main_arg1 (by decide)).trans ((Keep.keep1 m ρ c main_arg1 (by decide)).trans (Keep.keep0 m ρ c main_arg1 (by decide)))).trans rfl)
  have hw : (V3 m ρ c main_v4 : S1024x64.Idx → EReal) = transpose S1024x64 [1, 0] (m ((c : Thread nD τ).loc main_arg11)) transposes_S64x1024_S1024x64_1_0 := by
    show StableHlo.after hostOps1 (W2 m ρ c) (Proc.devRef .tc main_v4) = _
    after_results
    all_goals exact congrArg (fun x => transpose S1024x64 [1, 0] x transposes_S64x1024_S1024x64_1_0) (((Keep.keep1 m ρ c main_arg11 (by decide)).trans (Keep.keep0 m ρ c main_arg11 (by decide))).trans rfl)
  have hz : ∀ i, (V3 m ρ c main_v6 : S1x64.Idx → EReal) i = (0 : EReal) := by
    have e : (V3 m ρ c main_v6 : S1x64.Idx → EReal)
        = shapeCast S1x64 (broadcastInDim S64 ![] bcast_S_S64 (constant (F := Ideal) S_ .f32 0x00000000#32)) shapeCasts_S64_S1x64 := by
      show StableHlo.after hostOps1 (W2 m ρ c) (Proc.devRef .tc main_v6) = _
      after_results
      all_goals rfl
    intro i
    rw [e]
    exact Hetero.zero_row_apply _ _ i
  refine (W4_arr m ρ c 3).trans ((Lin1.arr_eq (V3 m ρ) c).trans ?_)
  rw [hx, hw]
  exact Hetero.lin_zero_eq_host Cert.ReferenceIdeal.dot_S10000x1024_S1024x64_S10000x64_1_0_0_1_n_n rfl rfl (fun _ _ => rfl) (fun _ _ => rfl)
    (fun _ _ => rfl) (fun _ _ => rfl) _ _ _ hz

/-- Pallas call 2's result is the reference's `%v8`. -/
theorem b_v10 : W6 m ρ c (Proc.devRef .tc main_v10) = Cert.ReferenceIdeal.ReadP.val_main_v8 (F := Ideal) (m ((c : Thread nD τ).loc main_arg0)) (m ((c : Thread nD τ).loc main_arg10)) (m ((c : Thread nD τ).loc main_arg13)) (m ((c : Thread nD τ).loc main_arg14)) := by
  have hx : (V5 m ρ c main_v3 : S10000x64.Idx → EReal) = Cert.ReferenceIdeal.ReadP.val_main_v1 (F := Ideal) (m ((c : Thread nD τ).loc main_arg0)) (m ((c : Thread nD τ).loc main_arg10)) := by
    show W5 m ρ c (Proc.devRef .tc main_v3) = _
    exact ((Keep.keep4 m ρ c main_v3 (by decide)).trans ((Keep.keep3 m ρ c main_v3 (by decide)).trans (Keep.keep2 m ρ c main_v3 (by decide)))).trans (b_v3 m ρ c)
  have hw : (V5 m ρ c main_v8 : S64x32.Idx → EReal) = transpose S64x32 [1, 0] (m ((c : Thread nD τ).loc main_arg13)) transposes_S32x64_S64x32_1_0 := by
    show StableHlo.after hostOps2 (W4 m ρ c) (Proc.devRef .tc main_v8) = _
    after_results
    all_goals exact congrArg (fun x => transpose S64x32 [1, 0] x transposes_S32x64_S64x32_1_0) (((Keep.keep3 m ρ c main_arg13 (by decide)).trans ((Keep.keep2 m ρ c main_arg13 (by decide)).trans ((Keep.keep1 m ρ c main_arg13 (by decide)).trans (Keep.keep0 m ρ c main_arg13 (by decide))))).trans rfl)
  have hb : (V5 m ρ c main_v9 : S1x32.Idx → EReal) = shapeCast S1x32 (m ((c : Thread nD τ).loc main_arg14)) shapeCasts_S32_S1x32 := by
    show StableHlo.after hostOps2 (W4 m ρ c) (Proc.devRef .tc main_v9) = _
    after_results
    all_goals exact congrArg (fun x => shapeCast S1x32 x shapeCasts_S32_S1x32) (((Keep.keep3 m ρ c main_arg14 (by decide)).trans ((Keep.keep2 m ρ c main_arg14 (by decide)).trans ((Keep.keep1 m ρ c main_arg14 (by decide)).trans (Keep.keep0 m ρ c main_arg14 (by decide))))).trans rfl)
  refine (W6_arr m ρ c 3).trans ((Lin2.arr_eq (V5 m ρ) c).trans ?_)
  rw [hx, hw, hb]
  exact Hetero.lin_eq_host Cert.ReferenceIdeal.dot_S10000x64_S64x32_S10000x32_1_0_0_1_n_n rfl rfl (fun _ _ => rfl) (fun _ _ => rfl)
    (fun _ _ => rfl) (fun _ _ => rfl) _ _ _ _ _ _

/-- Pallas call 3's result is the reference's `%v13`. -/
theorem b_v13 : W8 m ρ c (Proc.devRef .tc main_v13) = Cert.ReferenceIdeal.ReadP.val_main_v13 (F := Ideal) (m ((c : Thread nD τ).loc main_arg0)) (m ((c : Thread nD τ).loc main_arg10)) (m ((c : Thread nD τ).loc main_arg15)) (m ((c : Thread nD τ).loc main_arg16)) := by
  have hx : (V7 m ρ c main_v3 : S10000x64.Idx → EReal) = Cert.ReferenceIdeal.ReadP.val_main_v1 (F := Ideal) (m ((c : Thread nD τ).loc main_arg0)) (m ((c : Thread nD τ).loc main_arg10)) := by
    show W7 m ρ c (Proc.devRef .tc main_v3) = _
    exact ((Keep.keep6 m ρ c main_v3 (by decide)).trans ((Keep.keepin5_0 m ρ c).trans ((Keep.keep4 m ρ c main_v3 (by decide)).trans ((Keep.keep3 m ρ c main_v3 (by decide)).trans (Keep.keep2 m ρ c main_v3 (by decide)))))).trans (b_v3 m ρ c)
  have hw : (V7 m ρ c main_v11 : S64x32.Idx → EReal) = transpose S64x32 [1, 0] (m ((c : Thread nD τ).loc main_arg15)) transposes_S32x64_S64x32_1_0 := by
    show StableHlo.after hostOps3 (W6 m ρ c) (Proc.devRef .tc main_v11) = _
    after_results
    all_goals exact congrArg (fun x => transpose S64x32 [1, 0] x transposes_S32x64_S64x32_1_0) (((Keep.keep5 m ρ c main_arg15 (by decide)).trans ((Keep.keep4 m ρ c main_arg15 (by decide)).trans ((Keep.keep3 m ρ c main_arg15 (by decide)).trans ((Keep.keep2 m ρ c main_arg15 (by decide)).trans ((Keep.keep1 m ρ c main_arg15 (by decide)).trans (Keep.keep0 m ρ c main_arg15 (by decide))))))).trans rfl)
  have hb : (V7 m ρ c main_v12 : S1x32.Idx → EReal) = shapeCast S1x32 (m ((c : Thread nD τ).loc main_arg16)) shapeCasts_S32_S1x32 := by
    show StableHlo.after hostOps3 (W6 m ρ c) (Proc.devRef .tc main_v12) = _
    after_results
    all_goals exact congrArg (fun x => shapeCast S1x32 x shapeCasts_S32_S1x32) (((Keep.keep5 m ρ c main_arg16 (by decide)).trans ((Keep.keep4 m ρ c main_arg16 (by decide)).trans ((Keep.keep3 m ρ c main_arg16 (by decide)).trans ((Keep.keep2 m ρ c main_arg16 (by decide)).trans ((Keep.keep1 m ρ c main_arg16 (by decide)).trans (Keep.keep0 m ρ c main_arg16 (by decide))))))).trans rfl)
  refine (W8_arr m ρ c 3).trans ((Lin3.arr_eq (V7 m ρ) c).trans ?_)
  rw [hx, hw, hb]
  exact Hetero.lin_eq_host Cert.ReferenceIdeal.dot_S10000x64_S64x32_S10000x32_1_0_0_1_n_n rfl rfl (fun _ _ => rfl) (fun _ _ => rfl)
    (fun _ _ => rfl) (fun _ _ => rfl) _ _ _ _ _ _

/-- Pallas call 4's result is the reference's `%v18`. -/
theorem b_v16 : W10 m ρ c (Proc.devRef .tc main_v16) = Cert.ReferenceIdeal.ReadP.val_main_v18 (F := Ideal) (m ((c : Thread nD τ).loc main_arg1)) (m ((c : Thread nD τ).loc main_arg11)) (m ((c : Thread nD τ).loc main_arg17)) (m ((c : Thread nD τ).loc main_arg18)) := by
  have hx : (V9 m ρ c main_v7 : S10000x64.Idx → EReal) = Cert.ReferenceIdeal.ReadP.val_main_v3 (F := Ideal) (m ((c : Thread nD τ).loc main_arg1)) (m ((c : Thread nD τ).loc main_arg11)) := by
    show W9 m ρ c (Proc.devRef .tc main_v7) = _
    exact ((Keep.keep8 m ρ c main_v7 (by decide)).trans ((Keep.keep7 m ρ c main_v7 (by decide)).trans ((Keep.keep6 m ρ c main_v7 (by decide)).trans ((Keep.keep5 m ρ c main_v7 (by decide)).trans (Keep.keep4 m ρ c main_v7 (by decide)))))).trans (b_v7 m ρ c)
  have hw : (V9 m ρ c main_v14 : S64x32.Idx → EReal) = transpose S64x32 [1, 0] (m ((c : Thread nD τ).loc main_arg17)) transposes_S32x64_S64x32_1_0 := by
    show StableHlo.after hostOps4 (W8 m ρ c) (Proc.devRef .tc main_v14) = _
    after_results
    all_goals exact congrArg (fun x => transpose S64x32 [1, 0] x transposes_S32x64_S64x32_1_0) (((Keep.keep7 m ρ c main_arg17 (by decide)).trans ((Keep.keep6 m ρ c main_arg17 (by decide)).trans ((Keep.keep5 m ρ c main_arg17 (by decide)).trans ((Keep.keep4 m ρ c main_arg17 (by decide)).trans ((Keep.keep3 m ρ c main_arg17 (by decide)).trans ((Keep.keep2 m ρ c main_arg17 (by decide)).trans ((Keep.keep1 m ρ c main_arg17 (by decide)).trans (Keep.keep0 m ρ c main_arg17 (by decide))))))))).trans rfl)
  have hb : (V9 m ρ c main_v15 : S1x32.Idx → EReal) = shapeCast S1x32 (m ((c : Thread nD τ).loc main_arg18)) shapeCasts_S32_S1x32 := by
    show StableHlo.after hostOps4 (W8 m ρ c) (Proc.devRef .tc main_v15) = _
    after_results
    all_goals exact congrArg (fun x => shapeCast S1x32 x shapeCasts_S32_S1x32) (((Keep.keep7 m ρ c main_arg18 (by decide)).trans ((Keep.keep6 m ρ c main_arg18 (by decide)).trans ((Keep.keep5 m ρ c main_arg18 (by decide)).trans ((Keep.keep4 m ρ c main_arg18 (by decide)).trans ((Keep.keep3 m ρ c main_arg18 (by decide)).trans ((Keep.keep2 m ρ c main_arg18 (by decide)).trans ((Keep.keep1 m ρ c main_arg18 (by decide)).trans (Keep.keep0 m ρ c main_arg18 (by decide))))))))).trans rfl)
  refine (W10_arr m ρ c 3).trans ((Lin4.arr_eq (V9 m ρ) c).trans ?_)
  rw [hx, hw, hb]
  exact Hetero.lin_eq_host Cert.ReferenceIdeal.dot_S10000x64_S64x32_S10000x32_1_0_0_1_n_n rfl rfl (fun _ _ => rfl) (fun _ _ => rfl)
    (fun _ _ => rfl) (fun _ _ => rfl) _ _ _ _ _ _

/-- Pallas call 5's result is the reference's `%v23`. -/
theorem b_v19 : W12 m ρ c (Proc.devRef .tc main_v19) = Cert.ReferenceIdeal.ReadP.val_main_v23 (F := Ideal) (m ((c : Thread nD τ).loc main_arg1)) (m ((c : Thread nD τ).loc main_arg11)) (m ((c : Thread nD τ).loc main_arg19)) (m ((c : Thread nD τ).loc main_arg20)) := by
  have hx : (V11 m ρ c main_v7 : S10000x64.Idx → EReal) = Cert.ReferenceIdeal.ReadP.val_main_v3 (F := Ideal) (m ((c : Thread nD τ).loc main_arg1)) (m ((c : Thread nD τ).loc main_arg11)) := by
    show W11 m ρ c (Proc.devRef .tc main_v7) = _
    exact ((Keep.keep10 m ρ c main_v7 (by decide)).trans ((Keep.keepin9_0 m ρ c).trans ((Keep.keep8 m ρ c main_v7 (by decide)).trans ((Keep.keep7 m ρ c main_v7 (by decide)).trans ((Keep.keep6 m ρ c main_v7 (by decide)).trans ((Keep.keep5 m ρ c main_v7 (by decide)).trans (Keep.keep4 m ρ c main_v7 (by decide)))))))).trans (b_v7 m ρ c)
  have hw : (V11 m ρ c main_v17 : S64x32.Idx → EReal) = transpose S64x32 [1, 0] (m ((c : Thread nD τ).loc main_arg19)) transposes_S32x64_S64x32_1_0 := by
    show StableHlo.after hostOps5 (W10 m ρ c) (Proc.devRef .tc main_v17) = _
    after_results
    all_goals exact congrArg (fun x => transpose S64x32 [1, 0] x transposes_S32x64_S64x32_1_0) (((Keep.keep9 m ρ c main_arg19 (by decide)).trans ((Keep.keep8 m ρ c main_arg19 (by decide)).trans ((Keep.keep7 m ρ c main_arg19 (by decide)).trans ((Keep.keep6 m ρ c main_arg19 (by decide)).trans ((Keep.keep5 m ρ c main_arg19 (by decide)).trans ((Keep.keep4 m ρ c main_arg19 (by decide)).trans ((Keep.keep3 m ρ c main_arg19 (by decide)).trans ((Keep.keep2 m ρ c main_arg19 (by decide)).trans ((Keep.keep1 m ρ c main_arg19 (by decide)).trans (Keep.keep0 m ρ c main_arg19 (by decide))))))))))).trans rfl)
  have hb : (V11 m ρ c main_v18 : S1x32.Idx → EReal) = shapeCast S1x32 (m ((c : Thread nD τ).loc main_arg20)) shapeCasts_S32_S1x32 := by
    show StableHlo.after hostOps5 (W10 m ρ c) (Proc.devRef .tc main_v18) = _
    after_results
    all_goals exact congrArg (fun x => shapeCast S1x32 x shapeCasts_S32_S1x32) (((Keep.keep9 m ρ c main_arg20 (by decide)).trans ((Keep.keep8 m ρ c main_arg20 (by decide)).trans ((Keep.keep7 m ρ c main_arg20 (by decide)).trans ((Keep.keep6 m ρ c main_arg20 (by decide)).trans ((Keep.keep5 m ρ c main_arg20 (by decide)).trans ((Keep.keep4 m ρ c main_arg20 (by decide)).trans ((Keep.keep3 m ρ c main_arg20 (by decide)).trans ((Keep.keep2 m ρ c main_arg20 (by decide)).trans ((Keep.keep1 m ρ c main_arg20 (by decide)).trans (Keep.keep0 m ρ c main_arg20 (by decide))))))))))).trans rfl)
  refine (W12_arr m ρ c 3).trans ((Lin5.arr_eq (V11 m ρ) c).trans ?_)
  rw [hx, hw, hb]
  exact Hetero.lin_eq_host Cert.ReferenceIdeal.dot_S10000x64_S64x32_S10000x32_1_0_0_1_n_n rfl rfl (fun _ _ => rfl) (fun _ _ => rfl)
    (fun _ _ => rfl) (fun _ _ => rfl) _ _ _ _ _ _

end Cert.KernelIdeal.Walk

end
-- ==== Proof.WalkB1.lean ====
/-
  Between the linear layers both programs run the same host operations: for each edge type the messages are
  gathered by source index (negative indices wrapped), summed by destination index, divided by the number of
  incoming edges where there is one and set to zero where there is none; the two edge types ending in one node type
  are added and the sum is rectified.  Reading the kernel program's stretch in one pass gives that composition over
  the layer's linear results and the index arguments; the linear results are the reference's stages, the arguments
  are the launch contents, so the composition is the reference's stage.
  The operations of the inlined `_where` and `relu` calls carry their values through a change of type that is the
  identity once the buffer is a literal one; each such transport is removed by its own small fact before the two
  compositions are compared.
-/
import proofs.«165804_j39522289058325_1_alg».proof.Proof.WalkA

set_option maxRecDepth 16384
set_option maxHeartbeats 16000000

noncomputable section

namespace Cert.KernelIdeal.Walk

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg) (c : Dev nD)

set_option maxRecDepth 65536 in
/-- After the aggregation stretch: the same host operations as the reference's, on values that agree. -/
theorem b_v106 : W22 m ρ c (Proc.devRef .tc main_v106) = Cert.ReferenceIdeal.ReadP.val_main_v110 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg10)) (m ((c : Thread nD τ).loc main_arg11)) (m ((c : Thread nD τ).loc main_arg13)) (m ((c : Thread nD τ).loc main_arg14)) (m ((c : Thread nD τ).loc main_arg17)) (m ((c : Thread nD τ).loc main_arg18)) := by
  have l0 : W12 m ρ c (Proc.devRef .tc main_v10) = Cert.ReferenceIdeal.ReadP.val_main_v8 (F := Ideal) (m ((c : Thread nD τ).loc main_arg0)) (m ((c : Thread nD τ).loc main_arg10)) (m ((c : Thread nD τ).loc main_arg13)) (m ((c : Thread nD τ).loc main_arg14)) :=
    ((Keep.keep11 m ρ c main_v10 (by decide)).trans ((Keep.keep10 m ρ c main_v10 (by decide)).trans ((Keep.keep9 m ρ c main_v10 (by decide)).trans ((Keep.keep8 m ρ c main_v10 (by decide)).trans ((Keep.keep7 m ρ c main_v10 (by decide)).trans (Keep.keep6 m ρ c main_v10 (by decide))))))).trans (b_v10 m ρ c)
  have l1 : W12 m ρ c (Proc.devRef .tc main_v16) = Cert.ReferenceIdeal.ReadP.val_main_v18 (F := Ideal) (m ((c : Thread nD τ).loc main_arg1)) (m ((c : Thread nD τ).loc main_arg11)) (m ((c : Thread nD τ).loc main_arg17)) (m ((c : Thread nD τ).loc main_arg18)) :=
    ((Keep.keep11 m ρ c main_v16 (by decide)).trans (Keep.keep10 m ρ c main_v16 (by decide))).trans (b_v16 m ρ c)
  have a2 : W12 m ρ c (Proc.devRef .tc main_arg2) = (m ((c : Thread nD τ).loc main_arg2)) := (((Keep.keep11 m ρ c main_arg2 (by decide)).trans ((Keep.keep10 m ρ c main_arg2 (by decide)).trans ((Keep.keep9 m ρ c main_arg2 (by decide)).trans ((Keep.keep8 m ρ c main_arg2 (by decide)).trans ((Keep.keep7 m ρ c main_arg2 (by decide)).trans ((Keep.keep6 m ρ c main_arg2 (by decide)).trans ((Keep.keep5 m ρ c main_arg2 (by decide)).trans ((Keep.keep4 m ρ c main_arg2 (by decide)).trans ((Keep.keep3 m ρ c main_arg2 (by decide)).trans ((Keep.keep2 m ρ c main_arg2 (by decide)).trans ((Keep.keep1 m ρ c main_arg2 (by decide)).trans (Keep.keep0 m ρ c main_arg2 (by decide))))))))))))).trans rfl)
  have a3 : W12 m ρ c (Proc.devRef .tc main_arg3) = (m ((c : Thread nD τ).loc main_arg3)) := (((Keep.keep11 m ρ c main_arg3 (by decide)).trans ((Keep.keep10 m ρ c main_arg3 (by decide)).trans ((Keep.keep9 m ρ c main_arg3 (by decide)).trans ((Keep.keep8 m ρ c main_arg3 (by decide)).trans ((Keep.keep7 m ρ c main_arg3 (by decide)).trans ((Keep.keep6 m ρ c main_arg3 (by decide)).trans ((Keep.keep5 m ρ c main_arg3 (by decide)).trans ((Keep.keep4 m ρ c main_arg3 (by decide)).trans ((Keep.keep3 m ρ c main_arg3 (by decide)).trans ((Keep.keep2 m ρ c main_arg3 (by decide)).trans ((Keep.keep1 m ρ c main_arg3 (by decide)).trans (Keep.keep0 m ρ c main_arg3 (by decide))))))))))))).trans rfl)
  have a6 : W12 m ρ c (Proc.devRef .tc main_arg6) = (m ((c : Thread nD τ).loc main_arg6)) := (((Keep.keep11 m ρ c main_arg6 (by decide)).trans ((Keep.keep10 m ρ c main_arg6 (by decide)).trans ((Keep.keep9 m ρ c main_arg6 (by decide)).trans ((Keep.keep8 m ρ c main_arg6 (by decide)).trans ((Keep.keep7 m ρ c main_arg6 (by decide)).trans ((Keep.keep6 m ρ c main_arg6 (by decide)).trans ((Keep.keep5 m ρ c main_arg6 (by decide)).trans ((Keep.keep4 m ρ c main_arg6 (by decide)).trans ((Keep.keep3 m ρ c main_arg6 (by decide)).trans ((Keep.keep2 m ρ c main_arg6 (by decide)).trans ((Keep.keep1 m ρ c main_arg6 (by decide)).trans (Keep.keep0 m ρ c main_arg6 (by decide))))))))))))).trans rfl)
  have a7 : W12 m ρ c (Proc.devRef .tc main_arg7) = (m ((c : Thread nD τ).loc main_arg7)) := (((Keep.keep11 m ρ c main_arg7 (by decide)).trans ((Keep.keep10 m ρ c main_arg7 (by decide)).trans ((Keep.keep9 m ρ c main_arg7 (by decide)).trans ((Keep.keep8 m ρ c main_arg7 (by decide)).trans ((Keep.keep7 m ρ c main_arg7 (by decide)).trans ((Keep.keep6 m ρ c main_arg7 (by decide)).trans ((Keep.keep5 m ρ c main_arg7 (by decide)).trans ((Keep.keep4 m ρ c main_arg7 (by decide)).trans ((Keep.keep3 m ρ c main_arg7 (by decide)).trans ((Keep.keep2 m ρ c main_arg7 (by decide)).trans ((Keep.keep1 m ρ c main_arg7 (by decide)).trans (Keep.keep0 m ρ c main_arg7 (by decide))))))))))))).trans rfl)
  dsimp only [W22, W21, W20, W19, W18, W17, W16, W15, W14, W13]
  after_results_simp
  rw [l0, l1, a2, a3, a6, a7]
  have ct0 : ∀ v : (⟨S_, .f32⟩ : BufTy).Contents (Elt Ideal), (StableHlo.TRef.of (sig := sig) (T := ⟨S_, .f32⟩) main_cst_7).toBuf v = v := fun _ => rfl
  have co0 : ∀ v : (main_cst_7 : Ref sig .tc).ty.Contents (Elt Ideal), (StableHlo.TRef.of (sig := sig) (T := ⟨S_, .f32⟩) main_cst_7).ofBuf v = v := fun _ => rfl
  have ct1 : ∀ v : (⟨S_, .f32⟩ : BufTy).Contents (Elt Ideal), (StableHlo.TRef.of (sig := sig) (T := ⟨S_, .f32⟩) main_call0_v0).toBuf v = v := fun _ => rfl
  have co1 : ∀ v : (main_call0_v0 : Ref sig .tc).ty.Contents (Elt Ideal), (StableHlo.TRef.of (sig := sig) (T := ⟨S_, .f32⟩) main_call0_v0).ofBuf v = v := fun _ => rfl
  have ct2 : ∀ v : (⟨S10000x1, .i1⟩ : BufTy).Contents (Elt Ideal), (StableHlo.TRef.of (sig := sig) (T := ⟨S10000x1, .i1⟩) main_v35).toBuf v = v := fun _ => rfl
  have co2 : ∀ v : (main_v35 : Ref sig .tc).ty.Contents (Elt Ideal), (StableHlo.TRef.of (sig := sig) (T := ⟨S10000x1, .i1⟩) main_v35).ofBuf v = v := fun _ => rfl
  have ct3 : ∀ v : (⟨S10000x32, .i1⟩ : BufTy).Contents (Elt Ideal), (StableHlo.TRef.of (sig := sig) (T := ⟨S10000x32, .i1⟩) main_call0_v1).toBuf v = v := fun _ => rfl
  have co3 : ∀ v : (main_call0_v1 : Ref sig .tc).ty.Contents (Elt Ideal), (StableHlo.TRef.of (sig := sig) (T := ⟨S10000x32, .i1⟩) main_call0_v1).ofBuf v = v := fun _ => rfl
  have ct4 : ∀ v : (⟨S10000x32, .f32⟩ : BufTy).Contents (Elt Ideal), (StableHlo.TRef.of (sig := sig) (T := ⟨S10000x32, .f32⟩) main_call0_v2).toBuf v = v := fun _ => rfl
  have co4 : ∀ v : (main_call0_v2 : Ref sig .tc).ty.Contents (Elt Ideal), (StableHlo.TRef.of (sig := sig) (T := ⟨S10000x32, .f32⟩) main_call0_v2).ofBuf v = v := fun _ => rfl
  have ct5 : ∀ v : (⟨S10000x32, .f32⟩ : BufTy).Contents (Elt Ideal), (StableHlo.TRef.of (sig := sig) (T := ⟨S10000x32, .f32⟩) main_v39).toBuf v = v := fun _ => rfl
  have co5 : ∀ v : (main_v39 : Ref sig .tc).ty.Contents (Elt Ideal), (StableHlo.TRef.of (sig := sig) (T := ⟨S10000x32, .f32⟩) main_v39).ofBuf v = v := fun _ => rfl
  have ct6 : ∀ v : (⟨S10000x32, .f32⟩ : BufTy).Contents (Elt Ideal), (StableHlo.TRef.of (sig := sig) (T := ⟨S10000x32, .f32⟩) main_v40).toBuf v = v := fun _ => rfl
  have co6 : ∀ v : (main_v40 : Ref sig .tc).ty.Contents (Elt Ideal), (StableHlo.TRef.of (sig := sig) (T := ⟨S10000x32, .f32⟩) main_v40).ofBuf v = v := fun _ => rfl
  have ct7 : ∀ v : (⟨S_, .f32⟩ : BufTy).Contents (Elt Ideal), (StableHlo.TRef.of (sig := sig) (T := ⟨S_, .f32⟩) main_cst_15).toBuf v = v := fun _ => rfl
  have co7 : ∀ v : (main_cst_15 : Ref sig .tc).ty.Contents (Elt Ideal), (StableHlo.TRef.of (sig := sig) (T := ⟨S_, .f32⟩) main_cst_15).ofBuf v = v := fun _ => rfl
  have ct8 : ∀ v : (⟨S_, .f32⟩ : BufTy).Contents (Elt Ideal), (StableHlo.TRef.of (sig := sig) (T := ⟨S_, .f32⟩) main_call1_v0).toBuf v = v := fun _ => rfl
  have co8 : ∀ v : (main_call1_v0 : Ref sig .tc).ty.Contents (Elt Ideal), (StableHlo.TRef.of (sig := sig) (T := ⟨S_, .f32⟩) main_call1_v0).ofBuf v = v := fun _ => rfl
  have ct9 : ∀ v : (⟨S10000x1, .i1⟩ : BufTy).Contents (Elt Ideal), (StableHlo.TRef.of (sig := sig) (T := ⟨S10000x1, .i1⟩) main_v56).toBuf v = v := fun _ => rfl
  have co9 : ∀ v : (main_v56 : Ref sig .tc).ty.Contents (Elt Ideal), (StableHlo.TRef.of (sig := sig) (T := ⟨S10000x1, .i1⟩) main_v56).ofBuf v = v := fun _ => rfl
  have ct10 : ∀ v : (⟨S10000x32, .i1⟩ : BufTy).Contents (Elt Ideal), (StableHlo.TRef.of (sig := sig) (T := ⟨S10000x32, .i1⟩) main_call1_v1).toBuf v = v := fun _ => rfl
  have co10 : ∀ v : (main_call1_v1 : Ref sig .tc).ty.Contents (Elt Ideal), (StableHlo.TRef.of (sig := sig) (T := ⟨S10000x32, .i1⟩) main_call1_v1).ofBuf v = v := fun _ => rfl
  have ct11 : ∀ v : (⟨S10000x32, .f32⟩ : BufTy).Contents (Elt Ideal), (StableHlo.TRef.of (sig := sig) (T := ⟨S10000x32, .f32⟩) main_call1_v2).toBuf v = v := fun _ => rfl
  have co11 : ∀ v : (main_call1_v2 : Ref sig .tc).ty.Contents (Elt Ideal), (StableHlo.TRef.of (sig := sig) (T := ⟨S10000x32, .f32⟩) main_call1_v2).ofBuf v = v := fun _ => rfl
  have ct12 : ∀ v : (⟨S10000x32, .f32⟩ : BufTy).Contents (Elt Ideal), (StableHlo.TRef.of (sig := sig) (T := ⟨S10000x32, .f32⟩) main_v60).toBuf v = v := fun _ => rfl
  have co12 : ∀ v : (main_v60 : Ref sig .tc).ty.Contents (Elt Ideal), (StableHlo.TRef.of (sig := sig) (T := ⟨S10000x32, .f32⟩) main_v60).ofBuf v = v := fun _ => rfl
  have ct13 : ∀ v : (⟨S10000x32, .f32⟩ : BufTy).Contents (Elt Ideal), (StableHlo.TRef.of (sig := sig) (T := ⟨S10000x32, .f32⟩) main_v61).toBuf v = v := fun _ => rfl
  have co13 : ∀ v : (main_v61 : Ref sig .tc).ty.Contents (Elt Ideal), (StableHlo.TRef.of (sig := sig) (T := ⟨S10000x32, .f32⟩) main_v61).ofBuf v = v := fun _ => rfl
  have ct14 : ∀ v : (⟨S_, .f32⟩ : BufTy).Contents (Elt Ideal), (StableHlo.TRef.of (sig := sig) (T := ⟨S_, .f32⟩) main_cst_23).toBuf v = v := fun _ => rfl
  have co14 : ∀ v : (main_cst_23 : Ref sig .tc).ty.Contents (Elt Ideal), (StableHlo.TRef.of (sig := sig) (T := ⟨S_, .f32⟩) main_cst_23).ofBuf v = v := fun _ => rfl
  have ct15 : ∀ v : (⟨S_, .f32⟩ : BufTy).Contents (Elt Ideal), (StableHlo.TRef.of (sig := sig) (T := ⟨S_, .f32⟩) main_call2_v0).toBuf v = v := fun _ => rfl
  have co15 : ∀ v : (main_call2_v0 : Ref sig .tc).ty.Contents (Elt Ideal), (StableHlo.TRef.of (sig := sig) (T := ⟨S_, .f32⟩) main_call2_v0).ofBuf v = v := fun _ => rfl
  have ct16 : ∀ v : (⟨S10000x1, .i1⟩ : BufTy).Contents (Elt Ideal), (StableHlo.TRef.of (sig := sig) (T := ⟨S10000x1, .i1⟩) main_v78).toBuf v = v := fun _ => rfl
  have co16 : ∀ v : (main_v78 : Ref sig .tc).ty.Contents (Elt Ideal), (StableHlo.TRef.of (sig := sig) (T := ⟨S10000x1, .i1⟩) main_v78).ofBuf v = v := fun _ => rfl
  have ct17 : ∀ v : (⟨S10000x32, .i1⟩ : BufTy).Contents (Elt Ideal), (StableHlo.TRef.of (sig := sig) (T := ⟨S10000x32, .i1⟩) main_call2_v1).toBuf v = v := fun _ => rfl
  have co17 : ∀ v : (main_call2_v1 : Ref sig .tc).ty.Contents (Elt Ideal), (StableHlo.TRef.of (sig := sig) (T := ⟨S10000x32, .i1⟩) main_call2_v1).ofBuf v = v := fun _ => rfl
  have ct18 : ∀ v : (⟨S10000x32, .f32⟩ : BufTy).Contents (Elt Ideal), (StableHlo.TRef.of (sig := sig) (T := ⟨S10000x32, .f32⟩) main_call2_v2).toBuf v = v := fun _ => rfl
  have co18 : ∀ v : (main_call2_v2 : Ref sig .tc).ty.Contents (Elt Ideal), (StableHlo.TRef.of (sig := sig) (T := ⟨S10000x32, .f32⟩) main_call2_v2).ofBuf v = v := fun _ => rfl
  have ct19 : ∀ v : (⟨S10000x32, .f32⟩ : BufTy).Contents (Elt Ideal), (StableHlo.TRef.of (sig := sig) (T := ⟨S10000x32, .f32⟩) main_v82).toBuf v = v := fun _ => rfl
  have co19 : ∀ v : (main_v82 : Ref sig .tc).ty.Contents (Elt Ideal), (StableHlo.TRef.of (sig := sig) (T := ⟨S10000x32, .f32⟩) main_v82).ofBuf v = v := fun _ => rfl
  have ct20 : ∀ v : (⟨S10000x32, .f32⟩ : BufTy).Contents (Elt Ideal), (StableHlo.TRef.of (sig := sig) (T := ⟨S10000x32, .f32⟩) main_v83).toBuf v = v := fun _ => rfl
  have co20 : ∀ v : (main_v83 : Ref sig .tc).ty.Contents (Elt Ideal), (StableHlo.TRef.of (sig := sig) (T := ⟨S10000x32, .f32⟩) main_v83).ofBuf v = v := fun _ => rfl
  have ct21 : ∀ v : (⟨S_, .f32⟩ : BufTy).Contents (Elt Ideal), (StableHlo.TRef.of (sig := sig) (T := ⟨S_, .f32⟩) main_cst_31).toBuf v = v := fun _ => rfl
  have co21 : ∀ v : (main_cst_31 : Ref sig .tc).ty.Contents (Elt Ideal), (StableHlo.TRef.of (sig := sig) (T := ⟨S_, .f32⟩) main_cst_31).ofBuf v = v := fun _ => rfl
  have ct22 : ∀ v : (⟨S_, .f32⟩ : BufTy).Contents (Elt Ideal), (StableHlo.TRef.of (sig := sig) (T := ⟨S_, .f32⟩) main_call3_v0).toBuf v = v := fun _ => rfl
  have co22 : ∀ v : (main_call3_v0 : Ref sig .tc).ty.Contents (Elt Ideal), (StableHlo.TRef.of (sig := sig) (T := ⟨S_, .f32⟩) main_call3_v0).ofBuf v = v := fun _ => rfl
  have ct23 : ∀ v : (⟨S10000x1, .i1⟩ : BufTy).Contents (Elt Ideal), (StableHlo.TRef.of (sig := sig) (T := ⟨S10000x1, .i1⟩) main_v99).toBuf v = v := fun _ => rfl
  have co23 : ∀ v : (main_v99 : Ref sig .tc).ty.Contents (Elt Ideal), (StableHlo.TRef.of (sig := sig) (T := ⟨S10000x1, .i1⟩) main_v99).ofBuf v = v := fun _ => rfl
  have ct24 : ∀ v : (⟨S10000x32, .i1⟩ : BufTy).Contents (Elt Ideal), (StableHlo.TRef.of (sig := sig) (T := ⟨S10000x32, .i1⟩) main_call3_v1).toBuf v = v := fun _ => rfl
  have co24 : ∀ v : (main_call3_v1 : Ref sig .tc).ty.Contents (Elt Ideal), (StableHlo.TRef.of (sig := sig) (T := ⟨S10000x32, .i1⟩) main_call3_v1).ofBuf v = v := fun _ => rfl
  have ct25 : ∀ v : (⟨S10000x32, .f32⟩ : BufTy).Contents (Elt Ideal), (StableHlo.TRef.of (sig := sig) (T := ⟨S10000x32, .f32⟩) main_call3_v2).toBuf v = v := fun _ => rfl
  have co25 : ∀ v : (main_call3_v2 : Ref sig .tc).ty.Contents (Elt Ideal), (StableHlo.TRef.of (sig := sig) (T := ⟨S10000x32, .f32⟩) main_call3_v2).ofBuf v = v := fun _ => rfl
  have ct26 : ∀ v : (⟨S10000x32, .f32⟩ : BufTy).Contents (Elt Ideal), (StableHlo.TRef.of (sig := sig) (T := ⟨S10000x32, .f32⟩) main_v103).toBuf v = v := fun _ => rfl
  have co26 : ∀ v : (main_v103 : Ref sig .tc).ty.Contents (Elt Ideal), (StableHlo.TRef.of (sig := sig) (T := ⟨S10000x32, .f32⟩) main_v103).ofBuf v = v := fun _ => rfl
  have ct27 : ∀ v : (⟨S10000x32, .f32⟩ : BufTy).Contents (Elt Ideal), (StableHlo.TRef.of (sig := sig) (T := ⟨S10000x32, .f32⟩) main_v104).toBuf v = v := fun _ => rfl
  have co27 : ∀ v : (main_v104 : Ref sig .tc).ty.Contents (Elt Ideal), (StableHlo.TRef.of (sig := sig) (T := ⟨S10000x32, .f32⟩) main_v104).ofBuf v = v := fun _ => rfl
  have ct28 : ∀ v : (⟨S_, .f32⟩ : BufTy).Contents (Elt Ideal), (StableHlo.TRef.of (sig := sig) (T := ⟨S_, .f32⟩) main_call4_cst).toBuf v = v := fun _ => rfl
  have co28 : ∀ v : (main_call4_cst : Ref sig .tc).ty.Contents (Elt Ideal), (StableHlo.TRef.of (sig := sig) (T := ⟨S_, .f32⟩) main_call4_cst).ofBuf v = v := fun _ => rfl
  have ct29 : ∀ v : (⟨S10000x32, .f32⟩ : BufTy).Contents (Elt Ideal), (StableHlo.TRef.of (sig := sig) (T := ⟨S10000x32, .f32⟩) main_call4_v0).toBuf v = v := fun _ => rfl
  have co29 : ∀ v : (main_call4_v0 : Ref sig .tc).ty.Contents (Elt Ideal), (StableHlo.TRef.of (sig := sig) (T := ⟨S10000x32, .f32⟩) main_call4_v0).ofBuf v = v := fun _ => rfl
  have ct30 : ∀ v : (⟨S10000x32, .f32⟩ : BufTy).Contents (Elt Ideal), (StableHlo.TRef.of (sig := sig) (T := ⟨S10000x32, .f32⟩) main_v62).toBuf v = v := fun _ => rfl
  have co30 : ∀ v : (main_v62 : Ref sig .tc).ty.Contents (Elt Ideal), (StableHlo.TRef.of (sig := sig) (T := ⟨S10000x32, .f32⟩) main_v62).ofBuf v = v := fun _ => rfl
  have ct31 : ∀ v : (⟨S10000x32, .f32⟩ : BufTy).Contents (Elt Ideal), (StableHlo.TRef.of (sig := sig) (T := ⟨S10000x32, .f32⟩) main_v106).toBuf v = v := fun _ => rfl
  have co31 : ∀ v : (main_v106 : Ref sig .tc).ty.Contents (Elt Ideal), (StableHlo.TRef.of (sig := sig) (T := ⟨S10000x32, .f32⟩) main_v106).ofBuf v = v := fun _ => rfl
  simp only [ct0, co0, ct1, co1, ct2, co2, ct3, co3, ct4, co4, ct5, co5, ct6, co6, ct7, co7, ct8, co8, ct9, co9, ct10, co10, ct11, co11, ct12, co12, ct13, co13, ct14, co14, ct15, co15, ct16, co16, ct17, co17, ct18, co18, ct19, co19, ct20, co20, ct21, co21, ct22, co22, ct23, co23, ct24, co24, ct25, co25, ct26, co26, ct27, co27, ct28, co28, ct29, co29, ct30, co30, ct31, co31]
  simp only [Cert.ReferenceIdeal.ReadP.val_main_v110,
    Cert.ReferenceIdeal.ReadP.val_main_v66,
    Cert.ReferenceIdeal.ReadP.val_main_v44,
    Cert.ReferenceIdeal.ReadP.val_main_call0_v1,
    Cert.ReferenceIdeal.ReadP.val_main_v39,
    Cert.ReferenceIdeal.ReadP.val_main_v37,
    Cert.ReferenceIdeal.ReadP.val_main_v35,
    Cert.ReferenceIdeal.ReadP.val_main_cst_2,
    Cert.ReferenceIdeal.ReadP.val_main_v36,
    Cert.ReferenceIdeal.ReadP.val_main_v34,
    Cert.ReferenceIdeal.ReadP.val_main_cst_1,
    Cert.ReferenceIdeal.ReadP.val_main_v38,
    Cert.ReferenceIdeal.ReadP.val_main_cst_3,
    Cert.ReferenceIdeal.ReadP.val_main_v43,
    Cert.ReferenceIdeal.ReadP.val_main_v33,
    Cert.ReferenceIdeal.ReadP.val_main_v31,
    Cert.ReferenceIdeal.ReadP.val_main_cst,
    Cert.ReferenceIdeal.ReadP.val_main_v32,
    Cert.ReferenceIdeal.ReadP.val_main_v30,
    Cert.ReferenceIdeal.ReadP.val_main_v29,
    Cert.ReferenceIdeal.ReadP.val_main_v28,
    Cert.ReferenceIdeal.ReadP.val_main_v25,
    Cert.ReferenceIdeal.ReadP.val_main_v24,
    Cert.ReferenceIdeal.ReadP.val_main_c,
    Cert.ReferenceIdeal.ReadP.val_main_v27,
    Cert.ReferenceIdeal.ReadP.val_main_v26,
    Cert.ReferenceIdeal.ReadP.val_main_c_0,
    Cert.ReferenceIdeal.ReadP.val_main_v42,
    Cert.ReferenceIdeal.ReadP.val_main_v41,
    Cert.ReferenceIdeal.ReadP.val_main_v40,
    Cert.ReferenceIdeal.ReadP.val_main_cst_4,
    Cert.ReferenceIdeal.ReadP.val_main_call0_v2,
    Cert.ReferenceIdeal.ReadP.val_main_call0_v0,
    Cert.ReferenceIdeal.ReadP.val_main_cst_5,
    Cert.ReferenceIdeal.ReadP.val_main_v65,
    Cert.ReferenceIdeal.ReadP.val_main_call1_v1,
    Cert.ReferenceIdeal.ReadP.val_main_v60,
    Cert.ReferenceIdeal.ReadP.val_main_v58,
    Cert.ReferenceIdeal.ReadP.val_main_v56,
    Cert.ReferenceIdeal.ReadP.val_main_cst_10,
    Cert.ReferenceIdeal.ReadP.val_main_v57,
    Cert.ReferenceIdeal.ReadP.val_main_v55,
    Cert.ReferenceIdeal.ReadP.val_main_cst_9,
    Cert.ReferenceIdeal.ReadP.val_main_v59,
    Cert.ReferenceIdeal.ReadP.val_main_cst_11,
    Cert.ReferenceIdeal.ReadP.val_main_v64,
    Cert.ReferenceIdeal.ReadP.val_main_v54,
    Cert.ReferenceIdeal.ReadP.val_main_v52,
    Cert.ReferenceIdeal.ReadP.val_main_cst_8,
    Cert.ReferenceIdeal.ReadP.val_main_v53,
    Cert.ReferenceIdeal.ReadP.val_main_v51,
    Cert.ReferenceIdeal.ReadP.val_main_v50,
    Cert.ReferenceIdeal.ReadP.val_main_v49,
    Cert.ReferenceIdeal.ReadP.val_main_v46,
    Cert.ReferenceIdeal.ReadP.val_main_v45,
    Cert.ReferenceIdeal.ReadP.val_main_c_6,
    Cert.ReferenceIdeal.ReadP.val_main_v48,
    Cert.ReferenceIdeal.ReadP.val_main_v47,
    Cert.ReferenceIdeal.ReadP.val_main_c_7,
    Cert.ReferenceIdeal.ReadP.val_main_v63,
    Cert.ReferenceIdeal.ReadP.val_main_v62,
    Cert.ReferenceIdeal.ReadP.val_main_v61,
    Cert.ReferenceIdeal.ReadP.val_main_cst_12,
    Cert.ReferenceIdeal.ReadP.val_main_call1_v2,
    Cert.ReferenceIdeal.ReadP.val_main_call1_v0,
    Cert.ReferenceIdeal.ReadP.val_main_cst_13,
    Cert.ReferenceIdeal.ReadP.val_main_call4_v0,
    Cert.ReferenceIdeal.ReadP.val_main_call4_cst]
  rfl

end Cert.KernelIdeal.Walk

end
-- ==== Proof.WalkB2.lean ====
/-
  Between the linear layers both programs run the same host operations: for each edge type the messages are
  gathered by source index (negative indices wrapped), summed by destination index, divided by the number of
  incoming edges where there is one and set to zero where there is none; the two edge types ending in one node type
  are added and the sum is rectified.  Reading the kernel program's stretch in one pass gives that composition over
  the layer's linear results and the index arguments; the linear results are the reference's stages, the arguments
  are the launch contents, so the composition is the reference's stage.
  The operations of the inlined `_where` and `relu` calls carry their values through a change of type that is the
  identity once the buffer is a literal one; each such transport is removed by its own small fact before the two
  compositions are compared.
-/
import proofs.«165804_j39522289058325_1_alg».proof.Proof.WalkA

set_option maxRecDepth 16384
set_option maxHeartbeats 16000000

noncomputable section

namespace Cert.KernelIdeal.Walk

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg) (c : Dev nD)

set_option maxRecDepth 65536 in
/-- After the aggregation stretch: the same host operations as the reference's, on values that agree. -/
theorem b_v107 : W23 m ρ c (Proc.devRef .tc main_v107) = Cert.ReferenceIdeal.ReadP.val_main_v111 (F := Ideal) (m ((c : Thread nD τ).loc main_arg0)) (m ((c : Thread nD τ).loc main_arg1)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg15)) (m ((c : Thread nD τ).loc main_arg16)) (m ((c : Thread nD τ).loc main_arg19)) (m ((c : Thread nD τ).loc main_arg20)) := by
  have l0 : W12 m ρ c (Proc.devRef .tc main_v13) = Cert.ReferenceIdeal.ReadP.val_main_v13 (F := Ideal) (m ((c : Thread nD τ).loc main_arg0)) (m ((c : Thread nD τ).loc main_arg10)) (m ((c : Thread nD τ).loc main_arg15)) (m ((c : Thread nD τ).loc main_arg16)) :=
    ((Keep.keep11 m ρ c main_v13 (by decide)).trans ((Keep.keep10 m ρ c main_v13 (by decide)).trans ((Keep.keep9 m ρ c main_v13 (by decide)).trans (Keep.keep8 m ρ c main_v13 (by decide))))).trans (b_v13 m ρ c)
  have l1 : W12 m ρ c (Proc.devRef .tc main_v19) = Cert.ReferenceIdeal.ReadP.val_main_v23 (F := Ideal) (m ((c : Thread nD τ).loc main_arg1)) (m ((c : Thread nD τ).loc main_arg11)) (m ((c : Thread nD τ).loc main_arg19)) (m ((c : Thread nD τ).loc main_arg20)) :=
    b_v19 m ρ c
  have a4 : W12 m ρ c (Proc.devRef .tc main_arg4) = (m ((c : Thread nD τ).loc main_arg4)) := (((Keep.keep11 m ρ c main_arg4 (by decide)).trans ((Keep.keep10 m ρ c main_arg4 (by decide)).trans ((Keep.keep9 m ρ c main_arg4 (by decide)).trans ((Keep.keep8 m ρ c main_arg4 (by decide)).trans ((Keep.keep7 m ρ c main_arg4 (by decide)).trans ((Keep.keep6 m ρ c main_arg4 (by decide)).trans ((Keep.keep5 m ρ c main_arg4 (by decide)).trans ((Keep.keep4 m ρ c main_arg4 (by decide)).trans ((Keep.keep3 m ρ c main_arg4 (by decide)).trans ((Keep.keep2 m ρ c main_arg4 (by decide)).trans ((Keep.keep1 m ρ c main_arg4 (by decide)).trans (Keep.keep0 m ρ c main_arg4 (by decide))))))))))))).trans rfl)
  have a5 : W12 m ρ c (Proc.devRef .tc main_arg5) = (m ((c : Thread nD τ).loc main_arg5)) := (((Keep.keep11 m ρ c main_arg5 (by decide)).trans ((Keep.keep10 m ρ c main_arg5 (by decide)).trans ((Keep.keep9 m ρ c main_arg5 (by decide)).trans ((Keep.keep8 m ρ c main_arg5 (by decide)).trans ((Keep.keep7 m ρ c main_arg5 (by decide)).trans ((Keep.keep6 m ρ c main_arg5 (by decide)).trans ((Keep.keep5 m ρ c main_arg5 (by decide)).trans ((Keep.keep4 m ρ c main_arg5 (by decide)).trans ((Keep.keep3 m ρ c main_arg5 (by decide)).trans ((Keep.keep2 m ρ c main_arg5 (by decide)).trans ((Keep.keep1 m ρ c main_arg5 (by decide)).trans (Keep.keep0 m ρ c main_arg5 (by decide))))))))))))).trans rfl)
  have a8 : W12 m ρ c (Proc.devRef .tc main_arg8) = (m ((c : Thread nD τ).loc main_arg8)) := (((Keep.keep11 m ρ c main_arg8 (by decide)).trans ((Keep.keep10 m ρ c main_arg8 (by decide)).trans ((Keep.keep9 m ρ c main_arg8 (by decide)).trans ((Keep.keep8 m ρ c main_arg8 (by decide)).trans ((Keep.keep7 m ρ c main_arg8 (by decide)).trans ((Keep.keep6 m ρ c main_arg8 (by decide)).trans ((Keep.keep5 m ρ c main_arg8 (by decide)).trans ((Keep.keep4 m ρ c main_arg8 (by decide)).trans ((Keep.keep3 m ρ c main_arg8 (by decide)).trans ((Keep.keep2 m ρ c main_arg8 (by decide)).trans ((Keep.keep1 m ρ c main_arg8 (by decide)).trans (Keep.keep0 m ρ c main_arg8 (by decide))))))))))))).trans rfl)
  have a9 : W12 m ρ c (Proc.devRef .tc main_arg9) = (m ((c : Thread nD τ).loc main_arg9)) := (((Keep.keep11 m ρ c main_arg9 (by decide)).trans ((Keep.keep10 m ρ c main_arg9 (by decide)).trans ((Keep.keep9 m ρ c main_arg9 (by decide)).trans ((Keep.keep8 m ρ c main_arg9 (by decide)).trans ((Keep.keep7 m ρ c main_arg9 (by decide)).trans ((Keep.keep6 m ρ c main_arg9 (by decide)).trans ((Keep.keep5 m ρ c main_arg9 (by decide)).trans ((Keep.keep4 m ρ c main_arg9 (by decide)).trans ((Keep.keep3 m ρ c main_arg9 (by decide)).trans ((Keep.keep2 m ρ c main_arg9 (by decide)).trans ((Keep.keep1 m ρ c main_arg9 (by decide)).trans (Keep.keep0 m ρ c main_arg9 (by decide))))))))))))).trans rfl)
  dsimp only [W23, W22, W21, W20, W19, W18, W17, W16, W15, W14, W13]
  after_results_simp
  rw [l0, l1, a4, a5, a8, a9]
  have ct0 : ∀ v : (⟨S_, .f32⟩ : BufTy).Contents (Elt Ideal), (StableHlo.TRef.of (sig := sig) (T := ⟨S_, .f32⟩) main_cst_7).toBuf v = v := fun _ => rfl
  have co0 : ∀ v : (main_cst_7 : Ref sig .tc).ty.Contents (Elt Ideal), (StableHlo.TRef.of (sig := sig) (T := ⟨S_, .f32⟩) main_cst_7).ofBuf v = v := fun _ => rfl
  have ct1 : ∀ v : (⟨S_, .f32⟩ : BufTy).Contents (Elt Ideal), (StableHlo.TRef.of (sig := sig) (T := ⟨S_, .f32⟩) main_call0_v0).toBuf v = v := fun _ => rfl
  have co1 : ∀ v : (main_call0_v0 : Ref sig .tc).ty.Contents (Elt Ideal), (StableHlo.TRef.of (sig := sig) (T := ⟨S_, .f32⟩) main_call0_v0).ofBuf v = v := fun _ => rfl
  have ct2 : ∀ v : (⟨S10000x1, .i1⟩ : BufTy).Contents (Elt Ideal), (StableHlo.TRef.of (sig := sig) (T := ⟨S10000x1, .i1⟩) main_v35).toBuf v = v := fun _ => rfl
  have co2 : ∀ v : (main_v35 : Ref sig .tc).ty.Contents (Elt Ideal), (StableHlo.TRef.of (sig := sig) (T := ⟨S10000x1, .i1⟩) main_v35).ofBuf v = v := fun _ => rfl
  have ct3 : ∀ v : (⟨S10000x32, .i1⟩ : BufTy).Contents (Elt Ideal), (StableHlo.TRef.of (sig := sig) (T := ⟨S10000x32, .i1⟩) main_call0_v1).toBuf v = v := fun _ => rfl
  have co3 : ∀ v : (main_call0_v1 : Ref sig .tc).ty.Contents (Elt Ideal), (StableHlo.TRef.of (sig := sig) (T := ⟨S10000x32, .i1⟩) main_call0_v1).ofBuf v = v := fun _ => rfl
  have ct4 : ∀ v : (⟨S10000x32, .f32⟩ : BufTy).Contents (Elt Ideal), (StableHlo.TRef.of (sig := sig) (T := ⟨S10000x32, .f32⟩) main_call0_v2).toBuf v = v := fun _ => rfl
  have co4 : ∀ v : (main_call0_v2 : Ref sig .tc).ty.Contents (Elt Ideal), (StableHlo.TRef.of (sig := sig) (T := ⟨S10000x32, .f32⟩) main_call0_v2).ofBuf v = v := fun _ => rfl
  have ct5 : ∀ v : (⟨S10000x32, .f32⟩ : BufTy).Contents (Elt Ideal), (StableHlo.TRef.of (sig := sig) (T := ⟨S10000x32, .f32⟩) main_v39).toBuf v = v := fun _ => rfl
  have co5 : ∀ v : (main_v39 : Ref sig .tc).ty.Contents (Elt Ideal), (StableHlo.TRef.of (sig := sig) (T := ⟨S10000x32, .f32⟩) main_v39).ofBuf v = v := fun _ => rfl
  have ct6 : ∀ v : (⟨S10000x32, .f32⟩ : BufTy).Contents (Elt Ideal), (StableHlo.TRef.of (sig := sig) (T := ⟨S10000x32, .f32⟩) main_v40).toBuf v = v := fun _ => rfl
  have co6 : ∀ v : (main_v40 : Ref sig .tc).ty.Contents (Elt Ideal), (StableHlo.TRef.of (sig := sig) (T := ⟨S10000x32, .f32⟩) main_v40).ofBuf v = v := fun _ => rfl
  have ct7 : ∀ v : (⟨S_, .f32⟩ : BufTy).Contents (Elt Ideal), (StableHlo.TRef.of (sig := sig) (T := ⟨S_, .f32⟩) main_cst_15).toBuf v = v := fun _ => rfl
  have co7 : ∀ v : (main_cst_15 : Ref sig .tc).ty.Contents (Elt Ideal), (StableHlo.TRef.of (sig := sig) (T := ⟨S_, .f32⟩) main_cst_15).ofBuf v = v := fun _ => rfl
  have ct8 : ∀ v : (⟨S_, .f32⟩ : BufTy).Contents (Elt Ideal), (StableHlo.TRef.of (sig := sig) (T := ⟨S_, .f32⟩) main_call1_v0).toBuf v = v := fun _ => rfl
  have co8 : ∀ v : (main_call1_v0 : Ref sig .tc).ty.Contents (Elt Ideal), (StableHlo.TRef.of (sig := sig) (T := ⟨S_, .f32⟩) main_call1_v0).ofBuf v = v := fun _ => rfl
  have ct9 : ∀ v : (⟨S10000x1, .i1⟩ : BufTy).Contents (Elt Ideal), (StableHlo.TRef.of (sig := sig) (T := ⟨S10000x1, .i1⟩) main_v56).toBuf v = v := fun _ => rfl
  have co9 : ∀ v : (main_v56 : Ref sig .tc).ty.Contents (Elt Ideal), (StableHlo.TRef.of (sig := sig) (T := ⟨S10000x1, .i1⟩) main_v56).ofBuf v = v := fun _ => rfl
  have ct10 : ∀ v : (⟨S10000x32, .i1⟩ : BufTy).Contents (Elt Ideal), (StableHlo.TRef.of (sig := sig) (T := ⟨S10000x32, .i1⟩) main_call1_v1).toBuf v = v := fun _ => rfl
  have co10 : ∀ v : (main_call1_v1 : Ref sig .tc).ty.Contents (Elt Ideal), (StableHlo.TRef.of (sig := sig) (T := ⟨S10000x32, .i1⟩) main_call1_v1).ofBuf v = v := fun _ => rfl
  have ct11 : ∀ v : (⟨S10000x32, .f32⟩ : BufTy).Contents (Elt Ideal), (StableHlo.TRef.of (sig := sig) (T := ⟨S10000x32, .f32⟩) main_call1_v2).toBuf v = v := fun _ => rfl
  have co11 : ∀ v : (main_call1_v2 : Ref sig .tc).ty.Contents (Elt Ideal), (StableHlo.TRef.of (sig := sig) (T := ⟨S10000x32, .f32⟩) main_call1_v2).ofBuf v = v := fun _ => rfl
  have ct12 : ∀ v : (⟨S10000x32, .f32⟩ : BufTy).Contents (Elt Ideal), (StableHlo.TRef.of (sig := sig) (T := ⟨S10000x32, .f32⟩) main_v60).toBuf v = v := fun _ => rfl
  have co12 : ∀ v : (main_v60 : Ref sig .tc).ty.Contents (Elt Ideal), (StableHlo.TRef.of (sig := sig) (T := ⟨S10000x32, .f32⟩) main_v60).ofBuf v = v := fun _ => rfl
  have ct13 : ∀ v : (⟨S10000x32, .f32⟩ : BufTy).Contents (Elt Ideal), (StableHlo.TRef.of (sig := sig) (T := ⟨S10000x32, .f32⟩) main_v61).toBuf v = v := fun _ => rfl
  have co13 : ∀ v : (main_v61 : Ref sig .tc).ty.Contents (Elt Ideal), (StableHlo.TRef.of (sig := sig) (T := ⟨S10000x32, .f32⟩) main_v61).ofBuf v = v := fun _ => rfl
  have ct14 : ∀ v : (⟨S_, .f32⟩ : BufTy).Contents (Elt Ideal), (StableHlo.TRef.of (sig := sig) (T := ⟨S_, .f32⟩) main_cst_23).toBuf v = v := fun _ => rfl
  have co14 : ∀ v : (main_cst_23 : Ref sig .tc).ty.Contents (Elt Ideal), (StableHlo.TRef.of (sig := sig) (T := ⟨S_, .f32⟩) main_cst_23).ofBuf v = v := fun _ => rfl
  have ct15 : ∀ v : (⟨S_, .f32⟩ : BufTy).Contents (Elt Ideal), (StableHlo.TRef.of (sig := sig) (T := ⟨S_, .f32⟩) main_call2_v0).toBuf v = v := fun _ => rfl
  have co15 : ∀ v : (main_call2_v0 : Ref sig .tc).ty.Contents (Elt Ideal), (StableHlo.TRef.of (sig := sig) (T := ⟨S_, .f32⟩) main_call2_v0).ofBuf v = v := fun _ => rfl
  have ct16 : ∀ v : (⟨S10000x1, .i1⟩ : BufTy).Contents (Elt Ideal), (StableHlo.TRef.of (sig := sig) (T := ⟨S10000x1, .i1⟩) main_v78).toBuf v = v := fun _ => rfl
  have co16 : ∀ v : (main_v78 : Ref sig .tc).ty.Contents (Elt Ideal), (StableHlo.TRef.of (sig := sig) (T := ⟨S10000x1, .i1⟩) main_v78).ofBuf v = v := fun _ => rfl
  have ct17 : ∀ v : (⟨S10000x32, .i1⟩ : BufTy).Contents (Elt Ideal), (StableHlo.TRef.of (sig := sig) (T := ⟨S10000x32, .i1⟩) main_call2_v1).toBuf v = v := fun _ => rfl
  have co17 : ∀ v : (main_call2_v1 : Ref sig .tc).ty.Contents (Elt Ideal), (StableHlo.TRef.of (sig := sig) (T := ⟨S10000x32, .i1⟩) main_call2_v1).ofBuf v = v := fun _ => rfl
  have ct18 : ∀ v : (⟨S10000x32, .f32⟩ : BufTy).Contents (Elt Ideal), (StableHlo.TRef.of (sig := sig) (T := ⟨S10000x32, .f32⟩) main_call2_v2).toBuf v = v := fun _ => rfl
  have co18 : ∀ v : (main_call2_v2 : Ref sig .tc).ty.Contents (Elt Ideal), (StableHlo.TRef.of (sig := sig) (T := ⟨S10000x32, .f32⟩) main_call2_v2).ofBuf v = v := fun _ => rfl
  have ct19 : ∀ v : (⟨S10000x32, .f32⟩ : BufTy).Contents (Elt Ideal), (StableHlo.TRef.of (sig := sig) (T := ⟨S10000x32, .f32⟩) main_v82).toBuf v = v := fun _ => rfl
  have co19 : ∀ v : (main_v82 : Ref sig .tc).ty.Contents (Elt Ideal), (StableHlo.TRef.of (sig := sig) (T := ⟨S10000x32, .f32⟩) main_v82).ofBuf v = v := fun _ => rfl
  have ct20 : ∀ v : (⟨S10000x32, .f32⟩ : BufTy).Contents (Elt Ideal), (StableHlo.TRef.of (sig := sig) (T := ⟨S10000x32, .f32⟩) main_v83).toBuf v = v := fun _ => rfl
  have co20 : ∀ v : (main_v83 : Ref sig .tc).ty.Contents (Elt Ideal), (StableHlo.TRef.of (sig := sig) (T := ⟨S10000x32, .f32⟩) main_v83).ofBuf v = v := fun _ => rfl
  have ct21 : ∀ v : (⟨S_, .f32⟩ : BufTy).Contents (Elt Ideal), (StableHlo.TRef.of (sig := sig) (T := ⟨S_, .f32⟩) main_cst_31).toBuf v = v := fun _ => rfl
  have co21 : ∀ v : (main_cst_31 : Ref sig .tc).ty.Contents (Elt Ideal), (StableHlo.TRef.of (sig := sig) (T := ⟨S_, .f32⟩) main_cst_31).ofBuf v = v := fun _ => rfl
  have ct22 : ∀ v : (⟨S_, .f32⟩ : BufTy).Contents (Elt Ideal), (StableHlo.TRef.of (sig := sig) (T := ⟨S_, .f32⟩) main_call3_v0).toBuf v = v := fun _ => rfl
  have co22 : ∀ v : (main_call3_v0 : Ref sig .tc).ty.Contents (Elt Ideal), (StableHlo.TRef.of (sig := sig) (T := ⟨S_, .f32⟩) main_call3_v0).ofBuf v = v := fun _ => rfl
  have ct23 : ∀ v : (⟨S10000x1, .i1⟩ : BufTy).Contents (Elt Ideal), (StableHlo.TRef.of (sig := sig) (T := ⟨S10000x1, .i1⟩) main_v99).toBuf v = v := fun _ => rfl
  have co23 : ∀ v : (main_v99 : Ref sig .tc).ty.Contents (Elt Ideal), (StableHlo.TRef.of (sig := sig) (T := ⟨S10000x1, .i1⟩) main_v99).ofBuf v = v := fun _ => rfl
  have ct24 : ∀ v : (⟨S10000x32, .i1⟩ : BufTy).Contents (Elt Ideal), (StableHlo.TRef.of (sig := sig) (T := ⟨S10000x32, .i1⟩) main_call3_v1).toBuf v = v := fun _ => rfl
  have co24 : ∀ v : (main_call3_v1 : Ref sig .tc).ty.Contents (Elt Ideal), (StableHlo.TRef.of (sig := sig) (T := ⟨S10000x32, .i1⟩) main_call3_v1).ofBuf v = v := fun _ => rfl
  have ct25 : ∀ v : (⟨S10000x32, .f32⟩ : BufTy).Contents (Elt Ideal), (StableHlo.TRef.of (sig := sig) (T := ⟨S10000x32, .f32⟩) main_call3_v2).toBuf v = v := fun _ => rfl
  have co25 : ∀ v : (main_call3_v2 : Ref sig .tc).ty.Contents (Elt Ideal), (StableHlo.TRef.of (sig := sig) (T := ⟨S10000x32, .f32⟩) main_call3_v2).ofBuf v = v := fun _ => rfl
  have ct26 : ∀ v : (⟨S10000x32, .f32⟩ : BufTy).Contents (Elt Ideal), (StableHlo.TRef.of (sig := sig) (T := ⟨S10000x32, .f32⟩) main_v103).toBuf v = v := fun _ => rfl
  have co26 : ∀ v : (main_v103 : Ref sig .tc).ty.Contents (Elt Ideal), (StableHlo.TRef.of (sig := sig) (T := ⟨S10000x32, .f32⟩) main_v103).ofBuf v = v := fun _ => rfl
  have ct27 : ∀ v : (⟨S10000x32, .f32⟩ : BufTy).Contents (Elt Ideal), (StableHlo.TRef.of (sig := sig) (T := ⟨S10000x32, .f32⟩) main_v104).toBuf v = v := fun _ => rfl
  have co27 : ∀ v : (main_v104 : Ref sig .tc).ty.Contents (Elt Ideal), (StableHlo.TRef.of (sig := sig) (T := ⟨S10000x32, .f32⟩) main_v104).ofBuf v = v := fun _ => rfl
  have ct28 : ∀ v : (⟨S_, .f32⟩ : BufTy).Contents (Elt Ideal), (StableHlo.TRef.of (sig := sig) (T := ⟨S_, .f32⟩) main_call4_cst).toBuf v = v := fun _ => rfl
  have co28 : ∀ v : (main_call4_cst : Ref sig .tc).ty.Contents (Elt Ideal), (StableHlo.TRef.of (sig := sig) (T := ⟨S_, .f32⟩) main_call4_cst).ofBuf v = v := fun _ => rfl
  have ct29 : ∀ v : (⟨S10000x32, .f32⟩ : BufTy).Contents (Elt Ideal), (StableHlo.TRef.of (sig := sig) (T := ⟨S10000x32, .f32⟩) main_call4_v0).toBuf v = v := fun _ => rfl
  have co29 : ∀ v : (main_call4_v0 : Ref sig .tc).ty.Contents (Elt Ideal), (StableHlo.TRef.of (sig := sig) (T := ⟨S10000x32, .f32⟩) main_call4_v0).ofBuf v = v := fun _ => rfl
  have ct30 : ∀ v : (⟨S10000x32, .f32⟩ : BufTy).Contents (Elt Ideal), (StableHlo.TRef.of (sig := sig) (T := ⟨S10000x32, .f32⟩) main_v62).toBuf v = v := fun _ => rfl
  have co30 : ∀ v : (main_v62 : Ref sig .tc).ty.Contents (Elt Ideal), (StableHlo.TRef.of (sig := sig) (T := ⟨S10000x32, .f32⟩) main_v62).ofBuf v = v := fun _ => rfl
  have ct31 : ∀ v : (⟨S10000x32, .f32⟩ : BufTy).Contents (Elt Ideal), (StableHlo.TRef.of (sig := sig) (T := ⟨S10000x32, .f32⟩) main_v106).toBuf v = v := fun _ => rfl
  have co31 : ∀ v : (main_v106 : Ref sig .tc).ty.Contents (Elt Ideal), (StableHlo.TRef.of (sig := sig) (T := ⟨S10000x32, .f32⟩) main_v106).ofBuf v = v := fun _ => rfl
  have ct32 : ∀ v : (⟨S_, .f32⟩ : BufTy).Contents (Elt Ideal), (StableHlo.TRef.of (sig := sig) (T := ⟨S_, .f32⟩) main_call5_cst).toBuf v = v := fun _ => rfl
  have co32 : ∀ v : (main_call5_cst : Ref sig .tc).ty.Contents (Elt Ideal), (StableHlo.TRef.of (sig := sig) (T := ⟨S_, .f32⟩) main_call5_cst).ofBuf v = v := fun _ => rfl
  have ct33 : ∀ v : (⟨S10000x32, .f32⟩ : BufTy).Contents (Elt Ideal), (StableHlo.TRef.of (sig := sig) (T := ⟨S10000x32, .f32⟩) main_call5_v0).toBuf v = v := fun _ => rfl
  have co33 : ∀ v : (main_call5_v0 : Ref sig .tc).ty.Contents (Elt Ideal), (StableHlo.TRef.of (sig := sig) (T := ⟨S10000x32, .f32⟩) main_call5_v0).ofBuf v = v := fun _ => rfl
  have ct34 : ∀ v : (⟨S10000x32, .f32⟩ : BufTy).Contents (Elt Ideal), (StableHlo.TRef.of (sig := sig) (T := ⟨S10000x32, .f32⟩) main_v105).toBuf v = v := fun _ => rfl
  have co34 : ∀ v : (main_v105 : Ref sig .tc).ty.Contents (Elt Ideal), (StableHlo.TRef.of (sig := sig) (T := ⟨S10000x32, .f32⟩) main_v105).ofBuf v = v := fun _ => rfl
  have ct35 : ∀ v : (⟨S10000x32, .f32⟩ : BufTy).Contents (Elt Ideal), (StableHlo.TRef.of (sig := sig) (T := ⟨S10000x32, .f32⟩) main_v107).toBuf v = v := fun _ => rfl
  have co35 : ∀ v : (main_v107 : Ref sig .tc).ty.Contents (Elt Ideal), (StableHlo.TRef.of (sig := sig) (T := ⟨S10000x32, .f32⟩) main_v107).ofBuf v = v := fun _ => rfl
  simp only [ct0, co0, ct1, co1, ct2, co2, ct3, co3, ct4, co4, ct5, co5, ct6, co6, ct7, co7, ct8, co8, ct9, co9, ct10, co10, ct11, co11, ct12, co12, ct13, co13, ct14, co14, ct15, co15, ct16, co16, ct17, co17, ct18, co18, ct19, co19, ct20, co20, ct21, co21, ct22, co22, ct23, co23, ct24, co24, ct25, co25, ct26, co26, ct27, co27, ct28, co28, ct29, co29, ct30, co30, ct31, co31, ct32, co32, ct33, co33, ct34, co34, ct35, co35]
  simp only [Cert.ReferenceIdeal.ReadP.val_main_v111,
    Cert.ReferenceIdeal.ReadP.val_main_v109,
    Cert.ReferenceIdeal.ReadP.val_main_v87,
    Cert.ReferenceIdeal.ReadP.val_main_call2_v1,
    Cert.ReferenceIdeal.ReadP.val_main_v82,
    Cert.ReferenceIdeal.ReadP.val_main_v80,
    Cert.ReferenceIdeal.ReadP.val_main_v78,
    Cert.ReferenceIdeal.ReadP.val_main_cst_18,
    Cert.ReferenceIdeal.ReadP.val_main_v79,
    Cert.ReferenceIdeal.ReadP.val_main_v77,
    Cert.ReferenceIdeal.ReadP.val_main_cst_17,
    Cert.ReferenceIdeal.ReadP.val_main_v81,
    Cert.ReferenceIdeal.ReadP.val_main_cst_19,
    Cert.ReferenceIdeal.ReadP.val_main_v86,
    Cert.ReferenceIdeal.ReadP.val_main_v76,
    Cert.ReferenceIdeal.ReadP.val_main_v74,
    Cert.ReferenceIdeal.ReadP.val_main_cst_16,
    Cert.ReferenceIdeal.ReadP.val_main_v75,
    Cert.ReferenceIdeal.ReadP.val_main_v73,
    Cert.ReferenceIdeal.ReadP.val_main_v72,
    Cert.ReferenceIdeal.ReadP.val_main_v71,
    Cert.ReferenceIdeal.ReadP.val_main_v68,
    Cert.ReferenceIdeal.ReadP.val_main_v67,
    Cert.ReferenceIdeal.ReadP.val_main_c_14,
    Cert.ReferenceIdeal.ReadP.val_main_v70,
    Cert.ReferenceIdeal.ReadP.val_main_v69,
    Cert.ReferenceIdeal.ReadP.val_main_c_15,
    Cert.ReferenceIdeal.ReadP.val_main_v85,
    Cert.ReferenceIdeal.ReadP.val_main_v84,
    Cert.ReferenceIdeal.ReadP.val_main_v83,
    Cert.ReferenceIdeal.ReadP.val_main_cst_20,
    Cert.ReferenceIdeal.ReadP.val_main_call2_v2,
    Cert.ReferenceIdeal.ReadP.val_main_call2_v0,
    Cert.ReferenceIdeal.ReadP.val_main_cst_21,
    Cert.ReferenceIdeal.ReadP.val_main_v108,
    Cert.ReferenceIdeal.ReadP.val_main_call3_v1,
    Cert.ReferenceIdeal.ReadP.val_main_v103,
    Cert.ReferenceIdeal.ReadP.val_main_v101,
    Cert.ReferenceIdeal.ReadP.val_main_v99,
    Cert.ReferenceIdeal.ReadP.val_main_cst_26,
    Cert.ReferenceIdeal.ReadP.val_main_v100,
    Cert.ReferenceIdeal.ReadP.val_main_v98,
    Cert.ReferenceIdeal.ReadP.val_main_cst_25,
    Cert.ReferenceIdeal.ReadP.val_main_v102,
    Cert.ReferenceIdeal.ReadP.val_main_cst_27,
    Cert.ReferenceIdeal.ReadP.val_main_v107,
    Cert.ReferenceIdeal.ReadP.val_main_v97,
    Cert.ReferenceIdeal.ReadP.val_main_v95,
    Cert.ReferenceIdeal.ReadP.val_main_cst_24,
    Cert.ReferenceIdeal.ReadP.val_main_v96,
    Cert.ReferenceIdeal.ReadP.val_main_v94,
    Cert.ReferenceIdeal.ReadP.val_main_v93,
    Cert.ReferenceIdeal.ReadP.val_main_v92,
    Cert.ReferenceIdeal.ReadP.val_main_v89,
    Cert.ReferenceIdeal.ReadP.val_main_v88,
    Cert.ReferenceIdeal.ReadP.val_main_c_22,
    Cert.ReferenceIdeal.ReadP.val_main_v91,
    Cert.ReferenceIdeal.ReadP.val_main_v90,
    Cert.ReferenceIdeal.ReadP.val_main_c_23,
    Cert.ReferenceIdeal.ReadP.val_main_v106,
    Cert.ReferenceIdeal.ReadP.val_main_v105,
    Cert.ReferenceIdeal.ReadP.val_main_v104,
    Cert.ReferenceIdeal.ReadP.val_main_cst_28,
    Cert.ReferenceIdeal.ReadP.val_main_call3_v2,
    Cert.ReferenceIdeal.ReadP.val_main_call3_v0,
    Cert.ReferenceIdeal.ReadP.val_main_cst_29,
    Cert.ReferenceIdeal.ReadP.val_main_call5_v0,
    Cert.ReferenceIdeal.ReadP.val_main_call5_cst]
  rfl

end Cert.KernelIdeal.Walk

end
-- ==== Proof.Lin6.lean ====
/-
  Pallas call 6 of the program is a linear layer over a node table of 10000 rows, taken 1000 rows at a time.
  At grid point `t` the body sees rows `1000·t … 1000·t + 999` of the table (all 32 columns), the whole
  32 × 32 weight matrix and the whole 1 × 32 bias row, and stores `block · weight + bias`; the ten output
  blocks tile the 10000 × 32 result.  So after the call the result array is `Hetero.lin` of the three input
  arrays as the call found them: row `r` of the result depends on row `r` of the table only, and the row's block
  is the one numbered `r / 1000`.
-/
import proofs.«165804_j39522289058325_1_alg».proof.Proof.Gen.KernelIdeal.Frame
import proofs.«165804_j39522289058325_1_alg».proof.Proof.Spec

set_option maxRecDepth 16384

noncomputable section

namespace Cert.KernelIdeal.Lin6

open Cert.KernelIdeal Cert.KernelIdeal.Gen Idealize.ShloMosaic Idealize.ShloMosaic.TcCoe Idealize.ShloMosaic.ValueIdx
open Idealize.SL.Sem
open Idealize.ShloMosaic.Pipeline (Dat)

theorem hz : (![0, 0] : Fin 2 → Nat) = fun _ => 0 := funext fun a => by fin_cases a <;> rfl

/-- The body's value at row `r`, column `c` of its block: the casts are the identity on the extended reals, the
    product into the zero accumulator is the sum over the contraction, the bias row is read at its column. -/
theorem pay_apply (x0 : Vec Ideal S1000x32 .f32) (x1 : Vec Ideal S32x32 .f32) (x2 : Vec Ideal S1x32 .f32)
    (r : Fin 1000) (c : Fin 32) :
    k6_pay1 (F := Ideal) x0 x1 x2 (ix2 r c)
      = (∑ k : Fin 32, x0 (ix2 r k) * x1 (ix2 k c)) + x2 (ix2 (0 : Fin 1) c) := by
  unfold k6_pay1
  simp only [shapeCast_self]
  rw [addf_apply, broadcastTo_1b_ab_apply]
  exact congrArg (· + x2 (ix2 (0 : Fin 1) c))
    (matmul_zero_rows dot_S1000x32_S32x32_S1000x32_1_0_0_1_n_n none rfl rfl (fun _ _ => rfl) (fun _ _ => rfl) (fun _ _ => rfl) (fun _ _ => rfl)
      (truncf .bf16 x0 bitsLt_bf16_f32) (truncf .bf16 x1 bitsLt_bf16_f32) r c)

/-- A block's value at an entry is the layer's value at the array entry it stands for, once the block's row, the
    weight column and the bias column are the array's. -/
theorem pay_block (X : S10000x32.Idx → EReal) (W : S32x32.Idx → EReal) (B : S1x32.Idx → EReal)
    (x0 : Vec Ideal S1000x32 .f32) (x1 : Vec Ideal S32x32 .f32) (x2 : Vec Ideal S1x32 .f32)
    (i : S10000x32.Idx) (y : S1000x32.Idx)
    (h0 : ∀ k : Fin 32, x0 (ix2 (y 0) k) = X (ix2 (i 0) k))
    (h1 : ∀ k : Fin 32, x1 (ix2 k (y 1)) = W (ix2 k (i 1)))
    (h2 : x2 (ix2 (0 : Fin 1) (y 1)) = B (ix2 (0 : Fin 1) (i 1))) :
    k6_pay1 (F := Ideal) x0 x1 x2 y = Hetero.lin X W B i := by
  have e : k6_pay1 (F := Ideal) x0 x1 x2 y
      = (∑ k : Fin 32, x0 (ix2 (y 0) k) * x1 (ix2 k (y 1))) + x2 (ix2 (0 : Fin 1) (y 1)) :=
    (congrArg (k6_pay1 (F := Ideal) x0 x1 x2) (eq_ix2 y)).trans (pay_apply x0 x1 x2 (y 0) (y 1))
  rw [e]
  unfold Hetero.lin
  rw [h2]
  exact congrArg (· + B (ix2 (0 : Fin 1) (i 1))) (Finset.sum_congr rfl fun k _ => by rw [h0 k, h1 k])

/-- The printed index maps over the grid: the table's block and the result's block move together down the rows,
    the weight and bias blocks stay put, and no block moves along the columns. -/
theorem idx_facts : ∀ t : Fin cfg6.N, win6_0.index t (0 : Fin 2) = win6_3.index t (0 : Fin 2)
    ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (1 : Fin 2) = 0 :=
  (by decide +kernel : ∀ t : Fin grid6.N, _)

/-- Every one of the ten row blocks of the result is some point's. -/
theorem idx_onto : ∀ q : Fin 10, ∃ t : Fin cfg6.N, win6_3.index t = ![q.val, 0] :=
  (by decide +kernel : ∀ q : Fin 10, ∃ t : Fin grid6.N, win6_3.index t = ![q.val, 0])

section
variable (V : (c : Dev nD) → (b : Ref sig .tc) → Buf (Elt Ideal) ((c : Thread nD τ).loc b))

/-- What point `t` writes back is block `t` of the layer applied to the arrays as the call found them. -/
theorem flushed_eq (c : Dev nD) (t : Fin cfg6.N) :
    (dat6 V c).flushed 3 t = ((cfg6.win 3).blk t).view.read (Elt Ideal)
      (Hetero.lin (V c main_v106 : S10000x32.Idx → EReal) (V c main_v108 : S32x32.Idx → EReal) (V c main_v109 : S1x32.Idx → EReal)) := by
  show (cfg6.win 3).cut (grid6.coords t) ((dat6 V c).after 3 t) = _
  rw [after6_3]
  unfold out6_3
  rw [View.canon_unit_zero hz]
  simp only [View.ld_unit_zero (S := S1000x32) hz, View.ld_unit_zero (S := S32x32) hz, View.ld_unit_zero (S := S1x32) hz]
  obtain ⟨e0, e1, e2, e3, e4, e5, e6⟩ := idx_facts t
  funext j
  show k6_pay1 (F := Ideal) (iblk6 V c 0 t) (iblk6 V c 1 t) (iblk6 V c 2 t) j
    = Hetero.lin (V c main_v106 : S10000x32.Idx → EReal) (V c main_v108 : S32x32.Idx → EReal) (V c main_v109 : S1x32.Idx → EReal)
        (((cfg6.win 3).blk t).view.emb j)
  refine pay_block _ _ _ _ _ _ _ j (fun k => ?_) (fun k => ?_) ?_
  · show V c main_v106 (((cfg6.win 0).blk t).view.emb (ix2 (j 0) k)) = V c main_v106 (ix2 ((((cfg6.win 3).blk t).view.emb j) 0) k)
    refine congrArg (V c main_v106) (funext fun a => Fin.ext ?_)
    match a with
    | ⟨0, _⟩ => show win6_0.index t (0 : Fin 2) * 1000 + 1 * (j 0).val = win6_3.index t (0 : Fin 2) * 1000 + 1 * (j 0).val; omega
    | ⟨1, _⟩ => show win6_0.index t (1 : Fin 2) * 32 + 1 * k.val = k.val; omega
  · show V c main_v108 (((cfg6.win 1).blk t).view.emb (ix2 k (j 1))) = V c main_v108 (ix2 k ((((cfg6.win 3).blk t).view.emb j) 1))
    refine congrArg (V c main_v108) (funext fun a => Fin.ext ?_)
    match a with
    | ⟨0, _⟩ => show win6_1.index t (0 : Fin 2) * 32 + 1 * k.val = k.val; omega
    | ⟨1, _⟩ => show win6_1.index t (1 : Fin 2) * 32 + 1 * (j 1).val = win6_3.index t (1 : Fin 2) * 32 + 1 * (j 1).val; omega
  · show V c main_v109 (((cfg6.win 2).blk t).view.emb (ix2 (0 : Fin 1) (j 1))) = V c main_v109 (ix2 (0 : Fin 1) ((((cfg6.win 3).blk t).view.emb j) 1))
    refine congrArg (V c main_v109) (funext fun a => Fin.ext ?_)
    match a with
    | ⟨0, _⟩ => show win6_2.index t (0 : Fin 2) * 1 + 1 * 0 = 0; omega
    | ⟨1, _⟩ => show win6_2.index t (1 : Fin 2) * 32 + 1 * (j 1).val = win6_3.index t (1 : Fin 2) * 32 + 1 * (j 1).val; omega

/-- An index of the result is in point `t`'s block iff each coordinate is in the block's range on its axis. -/
theorem mem_blk (t : Fin cfg6.N) (i : S10000x32.Idx) :
    i ∈ ((cfg6.win 3).blk t).view.set ↔ ∀ a : Fin 2, win6_3.index t a * S1000x32.size a ≤ (i a).val
      ∧ (i a).val < win6_3.index t a * S1000x32.size a + S1000x32.size a := by
  show i ∈ ((View.whole main_v110).slice (win6_3.rect t)).set ↔ _
  rw [View.set_slice_whole, Rect.mem_set_unit]
  exact Iff.rfl

/-- Row `r` of the result lies in the block numbered `r / 1000`: the blocks tile the array. -/
theorem cover (i : S10000x32.Idx) :
    ∃ t : Fin cfg6.N, (cfg6.win 3).flush t = true ∧ i ∈ ((cfg6.win 3).blk t).view.set := by
  have hi0 : (i 0).val < 10000 := (i 0).isLt
  have hi1 : (i 1).val < 32 := (i 1).isLt
  obtain ⟨t, ht⟩ := idx_onto ⟨(i 0).val / 1000, by omega⟩
  have q0 : win6_3.index t (0 : Fin 2) = (i 0).val / 1000 := congrFun ht 0
  have q1 : win6_3.index t (1 : Fin 2) = 0 := congrFun ht 1
  refine ⟨t, flush6_3 t, ?_⟩
  rw [mem_blk]
  intro a
  match a with
  | ⟨0, _⟩ => show win6_3.index t (0 : Fin 2) * 1000 ≤ (i 0).val ∧ (i 0).val < win6_3.index t (0 : Fin 2) * 1000 + 1000; omega
  | ⟨1, _⟩ => show win6_3.index t (1 : Fin 2) * 32 ≤ (i 1).val ∧ (i 1).val < win6_3.index t (1 : Fin 2) * 32 + 32; omega

/-- The result array after the call is the layer of the three input arrays as the call found them. -/
theorem arr_eq (c : Dev nD) :
    (dat6 V c).arrAt 3 cfg6.N
      = Hetero.lin (V c main_v106 : S10000x32.Idx → EReal) (V c main_v108 : S32x32.Idx → EReal) (V c main_v109 : S1x32.Idx → EReal) :=
  (dat6 V c).arrAt_eq_of_cover 3 _ (fun t _ => flushed_eq V c t) cover

end

end Cert.KernelIdeal.Lin6

end
-- ==== Proof.Lin7.lean ====
/-
  Pallas call 7 of the program is a linear layer over a node table of 10000 rows, taken 1000 rows at a time.
  At grid point `t` the body sees rows `1000·t … 1000·t + 999` of the table (all 32 columns), the whole
  32 × 32 weight matrix and the whole 1 × 32 bias row, and stores `block · weight + bias`; the ten output
  blocks tile the 10000 × 32 result.  So after the call the result array is `Hetero.lin` of the three input
  arrays as the call found them: row `r` of the result depends on row `r` of the table only, and the row's block
  is the one numbered `r / 1000`.
-/
import proofs.«165804_j39522289058325_1_alg».proof.Proof.Gen.KernelIdeal.Frame
import proofs.«165804_j39522289058325_1_alg».proof.Proof.Spec

set_option maxRecDepth 16384

noncomputable section

namespace Cert.KernelIdeal.Lin7

open Cert.KernelIdeal Cert.KernelIdeal.Gen Idealize.ShloMosaic Idealize.ShloMosaic.TcCoe Idealize.ShloMosaic.ValueIdx
open Idealize.SL.Sem
open Idealize.ShloMosaic.Pipeline (Dat)

theorem hz : (![0, 0] : Fin 2 → Nat) = fun _ => 0 := funext fun a => by fin_cases a <;> rfl

/-- The body's value at row `r`, column `c` of its block: the casts are the identity on the extended reals, the
    product into the zero accumulator is the sum over the contraction, the bias row is read at its column. -/
theorem pay_apply (x0 : Vec Ideal S1000x32 .f32) (x1 : Vec Ideal S32x32 .f32) (x2 : Vec Ideal S1x32 .f32)
    (r : Fin 1000) (c : Fin 32) :
    k7_pay1 (F := Ideal) x0 x1 x2 (ix2 r c)
      = (∑ k : Fin 32, x0 (ix2 r k) * x1 (ix2 k c)) + x2 (ix2 (0 : Fin 1) c) := by
  unfold k7_pay1
  simp only [shapeCast_self]
  rw [addf_apply, broadcastTo_1b_ab_apply]
  exact congrArg (· + x2 (ix2 (0 : Fin 1) c))
    (matmul_zero_rows dot_S1000x32_S32x32_S1000x32_1_0_0_1_n_n none rfl rfl (fun _ _ => rfl) (fun _ _ => rfl) (fun _ _ => rfl) (fun _ _ => rfl)
      (truncf .bf16 x0 bitsLt_bf16_f32) (truncf .bf16 x1 bitsLt_bf16_f32) r c)

/-- A block's value at an entry is the layer's value at the array entry it stands for, once the block's row, the
    weight column and the bias column are the array's. -/
theorem pay_block (X : S10000x32.Idx → EReal) (W : S32x32.Idx → EReal) (B : S1x32.Idx → EReal)
    (x0 : Vec Ideal S1000x32 .f32) (x1 : Vec Ideal S32x32 .f32) (x2 : Vec Ideal S1x32 .f32)
    (i : S10000x32.Idx) (y : S1000x32.Idx)
    (h0 : ∀ k : Fin 32, x0 (ix2 (y 0) k) = X (ix2 (i 0) k))
    (h1 : ∀ k : Fin 32, x1 (ix2 k (y 1)) = W (ix2 k (i 1)))
    (h2 : x2 (ix2 (0 : Fin 1) (y 1)) = B (ix2 (0 : Fin 1) (i 1))) :
    k7_pay1 (F := Ideal) x0 x1 x2 y = Hetero.lin X W B i := by
  have e : k7_pay1 (F := Ideal) x0 x1 x2 y
      = (∑ k : Fin 32, x0 (ix2 (y 0) k) * x1 (ix2 k (y 1))) + x2 (ix2 (0 : Fin 1) (y 1)) :=
    (congrArg (k7_pay1 (F := Ideal) x0 x1 x2) (eq_ix2 y)).trans (pay_apply x0 x1 x2 (y 0) (y 1))
  rw [e]
  unfold Hetero.lin
  rw [h2]
  exact congrArg (· + B (ix2 (0 : Fin 1) (i 1))) (Finset.sum_congr rfl fun k _ => by rw [h0 k, h1 k])

/-- The printed index maps over the grid: the table's block and the result's block move together down the rows,
    the weight and bias blocks stay put, and no block moves along the columns. -/
theorem idx_facts : ∀ t : Fin cfg7.N, win7_0.index t (0 : Fin 2) = win7_3.index t (0 : Fin 2)
    ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (1 : Fin 2) = 0 :=
  (by decide +kernel : ∀ t : Fin grid7.N, _)

/-- Every one of the ten row blocks of the result is some point's. -/
theorem idx_onto : ∀ q : Fin 10, ∃ t : Fin cfg7.N, win7_3.index t = ![q.val, 0] :=
  (by decide +kernel : ∀ q : Fin 10, ∃ t : Fin grid7.N, win7_3.index t = ![q.val, 0])

section
variable (V : (c : Dev nD) → (b : Ref sig .tc) → Buf (Elt Ideal) ((c : Thread nD τ).loc b))

/-- What point `t` writes back is block `t` of the layer applied to the arrays as the call found them. -/
theorem flushed_eq (c : Dev nD) (t : Fin cfg7.N) :
    (dat7 V c).flushed 3 t = ((cfg7.win 3).blk t).view.read (Elt Ideal)
      (Hetero.lin (V c main_v106 : S10000x32.Idx → EReal) (V c main_v111 : S32x32.Idx → EReal) (V c main_v112 : S1x32.Idx → EReal)) := by
  show (cfg7.win 3).cut (grid7.coords t) ((dat7 V c).after 3 t) = _
  rw [after7_3]
  unfold out7_3
  rw [View.canon_unit_zero hz]
  simp only [View.ld_unit_zero (S := S1000x32) hz, View.ld_unit_zero (S := S32x32) hz, View.ld_unit_zero (S := S1x32) hz]
  obtain ⟨e0, e1, e2, e3, e4, e5, e6⟩ := idx_facts t
  funext j
  show k7_pay1 (F := Ideal) (iblk7 V c 0 t) (iblk7 V c 1 t) (iblk7 V c 2 t) j
    = Hetero.lin (V c main_v106 : S10000x32.Idx → EReal) (V c main_v111 : S32x32.Idx → EReal) (V c main_v112 : S1x32.Idx → EReal)
        (((cfg7.win 3).blk t).view.emb j)
  refine pay_block _ _ _ _ _ _ _ j (fun k => ?_) (fun k => ?_) ?_
  · show V c main_v106 (((cfg7.win 0).blk t).view.emb (ix2 (j 0) k)) = V c main_v106 (ix2 ((((cfg7.win 3).blk t).view.emb j) 0) k)
    refine congrArg (V c main_v106) (funext fun a => Fin.ext ?_)
    match a with
    | ⟨0, _⟩ => show win7_0.index t (0 : Fin 2) * 1000 + 1 * (j 0).val = win7_3.index t (0 : Fin 2) * 1000 + 1 * (j 0).val; omega
    | ⟨1, _⟩ => show win7_0.index t (1 : Fin 2) * 32 + 1 * k.val = k.val; omega
  · show V c main_v111 (((cfg7.win 1).blk t).view.emb (ix2 k (j 1))) = V c main_v111 (ix2 k ((((cfg7.win 3).blk t).view.emb j) 1))
    refine congrArg (V c main_v111) (funext fun a => Fin.ext ?_)
    match a with
    | ⟨0, _⟩ => show win7_1.index t (0 : Fin 2) * 32 + 1 * k.val = k.val; omega
    | ⟨1, _⟩ => show win7_1.index t (1 : Fin 2) * 32 + 1 * (j 1).val = win7_3.index t (1 : Fin 2) * 32 + 1 * (j 1).val; omega
  · show V c main_v112 (((cfg7.win 2).blk t).view.emb (ix2 (0 : Fin 1) (j 1))) = V c main_v112 (ix2 (0 : Fin 1) ((((cfg7.win 3).blk t).view.emb j) 1))
    refine congrArg (V c main_v112) (funext fun a => Fin.ext ?_)
    match a with
    | ⟨0, _⟩ => show win7_2.index t (0 : Fin 2) * 1 + 1 * 0 = 0; omega
    | ⟨1, _⟩ => show win7_2.index t (1 : Fin 2) * 32 + 1 * (j 1).val = win7_3.index t (1 : Fin 2) * 32 + 1 * (j 1).val; omega

/-- An index of the result is in point `t`'s block iff each coordinate is in the block's range on its axis. -/
theorem mem_blk (t : Fin cfg7.N) (i : S10000x32.Idx) :
    i ∈ ((cfg7.win 3).blk t).view.set ↔ ∀ a : Fin 2, win7_3.index t a * S1000x32.size a ≤ (i a).val
      ∧ (i a).val < win7_3.index t a * S1000x32.size a + S1000x32.size a := by
  show i ∈ ((View.whole main_v113).slice (win7_3.rect t)).set ↔ _
  rw [View.set_slice_whole, Rect.mem_set_unit]
  exact Iff.rfl

/-- Row `r` of the result lies in the block numbered `r / 1000`: the blocks tile the array. -/
theorem cover (i : S10000x32.Idx) :
    ∃ t : Fin cfg7.N, (cfg7.win 3).flush t = true ∧ i ∈ ((cfg7.win 3).blk t).view.set := by
  have hi0 : (i 0).val < 10000 := (i 0).isLt
  have hi1 : (i 1).val < 32 := (i 1).isLt
  obtain ⟨t, ht⟩ := idx_onto ⟨(i 0).val / 1000, by omega⟩
  have q0 : win7_3.index t (0 : Fin 2) = (i 0).val / 1000 := congrFun ht 0
  have q1 : win7_3.index t (1 : Fin 2) = 0 := congrFun ht 1
  refine ⟨t, flush7_3 t, ?_⟩
  rw [mem_blk]
  intro a
  match a with
  | ⟨0, _⟩ => show win7_3.index t (0 : Fin 2) * 1000 ≤ (i 0).val ∧ (i 0).val < win7_3.index t (0 : Fin 2) * 1000 + 1000; omega
  | ⟨1, _⟩ => show win7_3.index t (1 : Fin 2) * 32 ≤ (i 1).val ∧ (i 1).val < win7_3.index t (1 : Fin 2) * 32 + 32; omega

/-- The result array after the call is the layer of the three input arrays as the call found them. -/
theorem arr_eq (c : Dev nD) :
    (dat7 V c).arrAt 3 cfg7.N
      = Hetero.lin (V c main_v106 : S10000x32.Idx → EReal) (V c main_v111 : S32x32.Idx → EReal) (V c main_v112 : S1x32.Idx → EReal) :=
  (dat7 V c).arrAt_eq_of_cover 3 _ (fun t _ => flushed_eq V c t) cover

end

end Cert.KernelIdeal.Lin7

end
-- ==== Proof.Lin8.lean ====
/-
  Pallas call 8 of the program is a linear layer over a node table of 10000 rows, taken 1000 rows at a time.
  At grid point `t` the body sees rows `1000·t … 1000·t + 999` of the table (all 32 columns), the whole
  32 × 32 weight matrix and the whole 1 × 32 bias row, and stores `block · weight + bias`; the ten output
  blocks tile the 10000 × 32 result.  So after the call the result array is `Hetero.lin` of the three input
  arrays as the call found them: row `r` of the result depends on row `r` of the table only, and the row's block
  is the one numbered `r / 1000`.
-/
import proofs.«165804_j39522289058325_1_alg».proof.Proof.Gen.KernelIdeal.Frame
import proofs.«165804_j39522289058325_1_alg».proof.Proof.Spec

set_option maxRecDepth 16384

noncomputable section

namespace Cert.KernelIdeal.Lin8

open Cert.KernelIdeal Cert.KernelIdeal.Gen Idealize.ShloMosaic Idealize.ShloMosaic.TcCoe Idealize.ShloMosaic.ValueIdx
open Idealize.SL.Sem
open Idealize.ShloMosaic.Pipeline (Dat)

theorem hz : (![0, 0] : Fin 2 → Nat) = fun _ => 0 := funext fun a => by fin_cases a <;> rfl

/-- The body's value at row `r`, column `c` of its block: the casts are the identity on the extended reals, the
    product into the zero accumulator is the sum over the contraction, the bias row is read at its column. -/
theorem pay_apply (x0 : Vec Ideal S1000x32 .f32) (x1 : Vec Ideal S32x32 .f32) (x2 : Vec Ideal S1x32 .f32)
    (r : Fin 1000) (c : Fin 32) :
    k8_pay1 (F := Ideal) x0 x1 x2 (ix2 r c)
      = (∑ k : Fin 32, x0 (ix2 r k) * x1 (ix2 k c)) + x2 (ix2 (0 : Fin 1) c) := by
  unfold k8_pay1
  simp only [shapeCast_self]
  rw [addf_apply, broadcastTo_1b_ab_apply]
  exact congrArg (· + x2 (ix2 (0 : Fin 1) c))
    (matmul_zero_rows dot_S1000x32_S32x32_S1000x32_1_0_0_1_n_n none rfl rfl (fun _ _ => rfl) (fun _ _ => rfl) (fun _ _ => rfl) (fun _ _ => rfl)
      (truncf .bf16 x0 bitsLt_bf16_f32) (truncf .bf16 x1 bitsLt_bf16_f32) r c)

/-- A block's value at an entry is the layer's value at the array entry it stands for, once the block's row, the
    weight column and the bias column are the array's. -/
theorem pay_block (X : S10000x32.Idx → EReal) (W : S32x32.Idx → EReal) (B : S1x32.Idx → EReal)
    (x0 : Vec Ideal S1000x32 .f32) (x1 : Vec Ideal S32x32 .f32) (x2 : Vec Ideal S1x32 .f32)
    (i : S10000x32.Idx) (y : S1000x32.Idx)
    (h0 : ∀ k : Fin 32, x0 (ix2 (y 0) k) = X (ix2 (i 0) k))
    (h1 : ∀ k : Fin 32, x1 (ix2 k (y 1)) = W (ix2 k (i 1)))
    (h2 : x2 (ix2 (0 : Fin 1) (y 1)) = B (ix2 (0 : Fin 1) (i 1))) :
    k8_pay1 (F := Ideal) x0 x1 x2 y = Hetero.lin X W B i := by
  have e : k8_pay1 (F := Ideal) x0 x1 x2 y
      = (∑ k : Fin 32, x0 (ix2 (y 0) k) * x1 (ix2 k (y 1))) + x2 (ix2 (0 : Fin 1) (y 1)) :=
    (congrArg (k8_pay1 (F := Ideal) x0 x1 x2) (eq_ix2 y)).trans (pay_apply x0 x1 x2 (y 0) (y 1))
  rw [e]
  unfold Hetero.lin
  rw [h2]
  exact congrArg (· + B (ix2 (0 : Fin 1) (i 1))) (Finset.sum_congr rfl fun k _ => by rw [h0 k, h1 k])

/-- The printed index maps over the grid: the table's block and the result's block move together down the rows,
    the weight and bias blocks stay put, and no block moves along the columns. -/
theorem idx_facts : ∀ t : Fin cfg8.N, win8_0.index t (0 : Fin 2) = win8_3.index t (0 : Fin 2)
    ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (1 : Fin 2) = 0 :=
  (by decide +kernel : ∀ t : Fin grid8.N, _)

/-- Every one of the ten row blocks of the result is some point's. -/
theorem idx_onto : ∀ q : Fin 10, ∃ t : Fin cfg8.N, win8_3.index t = ![q.val, 0] :=
  (by decide +kernel : ∀ q : Fin 10, ∃ t : Fin grid8.N, win8_3.index t = ![q.val, 0])

section
variable (V : (c : Dev nD) → (b : Ref sig .tc) → Buf (Elt Ideal) ((c : Thread nD τ).loc b))

/-- What point `t` writes back is block `t` of the layer applied to the arrays as the call found them. -/
theorem flushed_eq (c : Dev nD) (t : Fin cfg8.N) :
    (dat8 V c).flushed 3 t = ((cfg8.win 3).blk t).view.read (Elt Ideal)
      (Hetero.lin (V c main_v107 : S10000x32.Idx → EReal) (V c main_v114 : S32x32.Idx → EReal) (V c main_v115 : S1x32.Idx → EReal)) := by
  show (cfg8.win 3).cut (grid8.coords t) ((dat8 V c).after 3 t) = _
  rw [after8_3]
  unfold out8_3
  rw [View.canon_unit_zero hz]
  simp only [View.ld_unit_zero (S := S1000x32) hz, View.ld_unit_zero (S := S32x32) hz, View.ld_unit_zero (S := S1x32) hz]
  obtain ⟨e0, e1, e2, e3, e4, e5, e6⟩ := idx_facts t
  funext j
  show k8_pay1 (F := Ideal) (iblk8 V c 0 t) (iblk8 V c 1 t) (iblk8 V c 2 t) j
    = Hetero.lin (V c main_v107 : S10000x32.Idx → EReal) (V c main_v114 : S32x32.Idx → EReal) (V c main_v115 : S1x32.Idx → EReal)
        (((cfg8.win 3).blk t).view.emb j)
  refine pay_block _ _ _ _ _ _ _ j (fun k => ?_) (fun k => ?_) ?_
  · show V c main_v107 (((cfg8.win 0).blk t).view.emb (ix2 (j 0) k)) = V c main_v107 (ix2 ((((cfg8.win 3).blk t).view.emb j) 0) k)
    refine congrArg (V c main_v107) (funext fun a => Fin.ext ?_)
    match a with
    | ⟨0, _⟩ => show win8_0.index t (0 : Fin 2) * 1000 + 1 * (j 0).val = win8_3.index t (0 : Fin 2) * 1000 + 1 * (j 0).val; omega
    | ⟨1, _⟩ => show win8_0.index t (1 : Fin 2) * 32 + 1 * k.val = k.val; omega
  · show V c main_v114 (((cfg8.win 1).blk t).view.emb (ix2 k (j 1))) = V c main_v114 (ix2 k ((((cfg8.win 3).blk t).view.emb j) 1))
    refine congrArg (V c main_v114) (funext fun a => Fin.ext ?_)
    match a with
    | ⟨0, _⟩ => show win8_1.index t (0 : Fin 2) * 32 + 1 * k.val = k.val; omega
    | ⟨1, _⟩ => show win8_1.index t (1 : Fin 2) * 32 + 1 * (j 1).val = win8_3.index t (1 : Fin 2) * 32 + 1 * (j 1).val; omega
  · show V c main_v115 (((cfg8.win 2).blk t).view.emb (ix2 (0 : Fin 1) (j 1))) = V c main_v115 (ix2 (0 : Fin 1) ((((cfg8.win 3).blk t).view.emb j) 1))
    refine congrArg (V c main_v115) (funext fun a => Fin.ext ?_)
    match a with
    | ⟨0, _⟩ => show win8_2.index t (0 : Fin 2) * 1 + 1 * 0 = 0; omega
    | ⟨1, _⟩ => show win8_2.index t (1 : Fin 2) * 32 + 1 * (j 1).val = win8_3.index t (1 : Fin 2) * 32 + 1 * (j 1).val; omega

/-- An index of the result is in point `t`'s block iff each coordinate is in the block's range on its axis. -/
theorem mem_blk (t : Fin cfg8.N) (i : S10000x32.Idx) :
    i ∈ ((cfg8.win 3).blk t).view.set ↔ ∀ a : Fin 2, win8_3.index t a * S1000x32.size a ≤ (i a).val
      ∧ (i a).val < win8_3.index t a * S1000x32.size a + S1000x32.size a := by
  show i ∈ ((View.whole main_v116).slice (win8_3.rect t)).set ↔ _
  rw [View.set_slice_whole, Rect.mem_set_unit]
  exact Iff.rfl

/-- Row `r` of the result lies in the block numbered `r / 1000`: the blocks tile the array. -/
theorem cover (i : S10000x32.Idx) :
    ∃ t : Fin cfg8.N, (cfg8.win 3).flush t = true ∧ i ∈ ((cfg8.win 3).blk t).view.set := by
  have hi0 : (i 0).val < 10000 := (i 0).isLt
  have hi1 : (i 1).val < 32 := (i 1).isLt
  obtain ⟨t, ht⟩ := idx_onto ⟨(i 0).val / 1000, by omega⟩
  have q0 : win8_3.index t (0 : Fin 2) = (i 0).val / 1000 := congrFun ht 0
  have q1 : win8_3.index t (1 : Fin 2) = 0 := congrFun ht 1
  refine ⟨t, flush8_3 t, ?_⟩
  rw [mem_blk]
  intro a
  match a with
  | ⟨0, _⟩ => show win8_3.index t (0 : Fin 2) * 1000 ≤ (i 0).val ∧ (i 0).val < win8_3.index t (0 : Fin 2) * 1000 + 1000; omega
  | ⟨1, _⟩ => show win8_3.index t (1 : Fin 2) * 32 ≤ (i 1).val ∧ (i 1).val < win8_3.index t (1 : Fin 2) * 32 + 32; omega

/-- The result array after the call is the layer of the three input arrays as the call found them. -/
theorem arr_eq (c : Dev nD) :
    (dat8 V c).arrAt 3 cfg8.N
      = Hetero.lin (V c main_v107 : S10000x32.Idx → EReal) (V c main_v114 : S32x32.Idx → EReal) (V c main_v115 : S1x32.Idx → EReal) :=
  (dat8 V c).arrAt_eq_of_cover 3 _ (fun t _ => flushed_eq V c t) cover

end

end Cert.KernelIdeal.Lin8

end
-- ==== Proof.Lin9.lean ====
/-
  Pallas call 9 of the program is a linear layer over a node table of 10000 rows, taken 1000 rows at a time.
  At grid point `t` the body sees rows `1000·t … 1000·t + 999` of the table (all 32 columns), the whole
  32 × 32 weight matrix and the whole 1 × 32 bias row, and stores `block · weight + bias`; the ten output
  blocks tile the 10000 × 32 result.  So after the call the result array is `Hetero.lin` of the three input
  arrays as the call found them: row `r` of the result depends on row `r` of the table only, and the row's block
  is the one numbered `r / 1000`.
-/
import proofs.«165804_j39522289058325_1_alg».proof.Proof.Gen.KernelIdeal.Frame
import proofs.«165804_j39522289058325_1_alg».proof.Proof.Spec

set_option maxRecDepth 16384

noncomputable section

namespace Cert.KernelIdeal.Lin9

open Cert.KernelIdeal Cert.KernelIdeal.Gen Idealize.ShloMosaic Idealize.ShloMosaic.TcCoe Idealize.ShloMosaic.ValueIdx
open Idealize.SL.Sem
open Idealize.ShloMosaic.Pipeline (Dat)

theorem hz : (![0, 0] : Fin 2 → Nat) = fun _ => 0 := funext fun a => by fin_cases a <;> rfl

/-- The body's value at row `r`, column `c` of its block: the casts are the identity on the extended reals, the
    product into the zero accumulator is the sum over the contraction, the bias row is read at its column. -/
theorem pay_apply (x0 : Vec Ideal S1000x32 .f32) (x1 : Vec Ideal S32x32 .f32) (x2 : Vec Ideal S1x32 .f32)
    (r : Fin 1000) (c : Fin 32) :
    k9_pay1 (F := Ideal) x0 x1 x2 (ix2 r c)
      = (∑ k : Fin 32, x0 (ix2 r k) * x1 (ix2 k c)) + x2 (ix2 (0 : Fin 1) c) := by
  unfold k9_pay1
  simp only [shapeCast_self]
  rw [addf_apply, broadcastTo_1b_ab_apply]
  exact congrArg (· + x2 (ix2 (0 : Fin 1) c))
    (matmul_zero_rows dot_S1000x32_S32x32_S1000x32_1_0_0_1_n_n none rfl rfl (fun _ _ => rfl) (fun _ _ => rfl) (fun _ _ => rfl) (fun _ _ => rfl)
      (truncf .bf16 x0 bitsLt_bf16_f32) (truncf .bf16 x1 bitsLt_bf16_f32) r c)

/-- A block's value at an entry is the layer's value at the array entry it stands for, once the block's row, the
    weight column and the bias column are the array's. -/
theorem pay_block (X : S10000x32.Idx → EReal) (W : S32x32.Idx → EReal) (B : S1x32.Idx → EReal)
    (x0 : Vec Ideal S1000x32 .f32) (x1 : Vec Ideal S32x32 .f32) (x2 : Vec Ideal S1x32 .f32)
    (i : S10000x32.Idx) (y : S1000x32.Idx)
    (h0 : ∀ k : Fin 32, x0 (ix2 (y 0) k) = X (ix2 (i 0) k))
    (h1 : ∀ k : Fin 32, x1 (ix2 k (y 1)) = W (ix2 k (i 1)))
    (h2 : x2 (ix2 (0 : Fin 1) (y 1)) = B (ix2 (0 : Fin 1) (i 1))) :
    k9_pay1 (F := Ideal) x0 x1 x2 y = Hetero.lin X W B i := by
  have e : k9_pay1 (F := Ideal) x0 x1 x2 y
      = (∑ k : Fin 32, x0 (ix2 (y 0) k) * x1 (ix2 k (y 1))) + x2 (ix2 (0 : Fin 1) (y 1)) :=
    (congrArg (k9_pay1 (F := Ideal) x0 x1 x2) (eq_ix2 y)).trans (pay_apply x0 x1 x2 (y 0) (y 1))
  rw [e]
  unfold Hetero.lin
  rw [h2]
  exact congrArg (· + B (ix2 (0 : Fin 1) (i 1))) (Finset.sum_congr rfl fun k _ => by rw [h0 k, h1 k])

/-- The printed index maps over the grid: the table's block and the result's block move together down the rows,
    the weight and bias blocks stay put, and no block moves along the columns. -/
theorem idx_facts : ∀ t : Fin cfg9.N, win9_0.index t (0 : Fin 2) = win9_3.index t (0 : Fin 2)
    ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (1 : Fin 2) = 0 :=
  (by decide +kernel : ∀ t : Fin grid9.N, _)

/-- Every one of the ten row blocks of the result is some point's. -/
theorem idx_onto : ∀ q : Fin 10, ∃ t : Fin cfg9.N, win9_3.index t = ![q.val, 0] :=
  (by decide +kernel : ∀ q : Fin 10, ∃ t : Fin grid9.N, win9_3.index t = ![q.val, 0])

section
variable (V : (c : Dev nD) → (b : Ref sig .tc) → Buf (Elt Ideal) ((c : Thread nD τ).loc b))

/-- What point `t` writes back is block `t` of the layer applied to the arrays as the call found them. -/
theorem flushed_eq (c : Dev nD) (t : Fin cfg9.N) :
    (dat9 V c).flushed 3 t = ((cfg9.win 3).blk t).view.read (Elt Ideal)
      (Hetero.lin (V c main_v107 : S10000x32.Idx → EReal) (V c main_v117 : S32x32.Idx → EReal) (V c main_v118 : S1x32.Idx → EReal)) := by
  show (cfg9.win 3).cut (grid9.coords t) ((dat9 V c).after 3 t) = _
  rw [after9_3]
  unfold out9_3
  rw [View.canon_unit_zero hz]
  simp only [View.ld_unit_zero (S := S1000x32) hz, View.ld_unit_zero (S := S32x32) hz, View.ld_unit_zero (S := S1x32) hz]
  obtain ⟨e0, e1, e2, e3, e4, e5, e6⟩ := idx_facts t
  funext j
  show k9_pay1 (F := Ideal) (iblk9 V c 0 t) (iblk9 V c 1 t) (iblk9 V c 2 t) j
    = Hetero.lin (V c main_v107 : S10000x32.Idx → EReal) (V c main_v117 : S32x32.Idx → EReal) (V c main_v118 : S1x32.Idx → EReal)
        (((cfg9.win 3).blk t).view.emb j)
  refine pay_block _ _ _ _ _ _ _ j (fun k => ?_) (fun k => ?_) ?_
  · show V c main_v107 (((cfg9.win 0).blk t).view.emb (ix2 (j 0) k)) = V c main_v107 (ix2 ((((cfg9.win 3).blk t).view.emb j) 0) k)
    refine congrArg (V c main_v107) (funext fun a => Fin.ext ?_)
    match a with
    | ⟨0, _⟩ => show win9_0.index t (0 : Fin 2) * 1000 + 1 * (j 0).val = win9_3.index t (0 : Fin 2) * 1000 + 1 * (j 0).val; omega
    | ⟨1, _⟩ => show win9_0.index t (1 : Fin 2) * 32 + 1 * k.val = k.val; omega
  · show V c main_v117 (((cfg9.win 1).blk t).view.emb (ix2 k (j 1))) = V c main_v117 (ix2 k ((((cfg9.win 3).blk t).view.emb j) 1))
    refine congrArg (V c main_v117) (funext fun a => Fin.ext ?_)
    match a with
    | ⟨0, _⟩ => show win9_1.index t (0 : Fin 2) * 32 + 1 * k.val = k.val; omega
    | ⟨1, _⟩ => show win9_1.index t (1 : Fin 2) * 32 + 1 * (j 1).val = win9_3.index t (1 : Fin 2) * 32 + 1 * (j 1).val; omega
  · show V c main_v118 (((cfg9.win 2).blk t).view.emb (ix2 (0 : Fin 1) (j 1))) = V c main_v118 (ix2 (0 : Fin 1) ((((cfg9.win 3).blk t).view.emb j) 1))
    refine congrArg (V c main_v118) (funext fun a => Fin.ext ?_)
    match a with
    | ⟨0, _⟩ => show win9_2.index t (0 : Fin 2) * 1 + 1 * 0 = 0; omega
    | ⟨1, _⟩ => show win9_2.index t (1 : Fin 2) * 32 + 1 * (j 1).val = win9_3.index t (1 : Fin 2) * 32 + 1 * (j 1).val; omega

/-- An index of the result is in point `t`'s block iff each coordinate is in the block's range on its axis. -/
theorem mem_blk (t : Fin cfg9.N) (i : S10000x32.Idx) :
    i ∈ ((cfg9.win 3).blk t).view.set ↔ ∀ a : Fin 2, win9_3.index t a * S1000x32.size a ≤ (i a).val
      ∧ (i a).val < win9_3.index t a * S1000x32.size a + S1000x32.size a := by
  show i ∈ ((View.whole main_v119).slice (win9_3.rect t)).set ↔ _
  rw [View.set_slice_whole, Rect.mem_set_unit]
  exact Iff.rfl

/-- Row `r` of the result lies in the block numbered `r / 1000`: the blocks tile the array. -/
theorem cover (i : S10000x32.Idx) :
    ∃ t : Fin cfg9.N, (cfg9.win 3).flush t = true ∧ i ∈ ((cfg9.win 3).blk t).view.set := by
  have hi0 : (i 0).val < 10000 := (i 0).isLt
  have hi1 : (i 1).val < 32 := (i 1).isLt
  obtain ⟨t, ht⟩ := idx_onto ⟨(i 0).val / 1000, by omega⟩
  have q0 : win9_3.index t (0 : Fin 2) = (i 0).val / 1000 := congrFun ht 0
  have q1 : win9_3.index t (1 : Fin 2) = 0 := congrFun ht 1
  refine ⟨t, flush9_3 t, ?_⟩
  rw [mem_blk]
  intro a
  match a with
  | ⟨0, _⟩ => show win9_3.index t (0 : Fin 2) * 1000 ≤ (i 0).val ∧ (i 0).val < win9_3.index t (0 : Fin 2) * 1000 + 1000; omega
  | ⟨1, _⟩ => show win9_3.index t (1 : Fin 2) * 32 ≤ (i 1).val ∧ (i 1).val < win9_3.index t (1 : Fin 2) * 32 + 32; omega

/-- The result array after the call is the layer of the three input arrays as the call found them. -/
theorem arr_eq (c : Dev nD) :
    (dat9 V c).arrAt 3 cfg9.N
      = Hetero.lin (V c main_v107 : S10000x32.Idx → EReal) (V c main_v117 : S32x32.Idx → EReal) (V c main_v118 : S1x32.Idx → EReal) :=
  (dat9 V c).arrAt_eq_of_cover 3 _ (fun t _ => flushed_eq V c t) cover

end

end Cert.KernelIdeal.Lin9

end
-- ==== Proof.WalkC.lean ====
/-
  The second layer's four linear maps.  Each Pallas call's result is `Hetero.lin` of the first layer's rectified
  table (carried back to the stretch that produced it, where it is the reference's stage), the transposed weight
  parameter and the bias parameter reshaped into a row; that is the host's `dot_general` plus twice-broadcast bias.
-/
import proofs.«165804_j39522289058325_1_alg».proof.Proof.WalkB1
import proofs.«165804_j39522289058325_1_alg».proof.Proof.WalkB2
import proofs.«165804_j39522289058325_1_alg».proof.Proof.Lin6
import proofs.«165804_j39522289058325_1_alg».proof.Proof.Lin7
import proofs.«165804_j39522289058325_1_alg».proof.Proof.Lin8
import proofs.«165804_j39522289058325_1_alg».proof.Proof.Lin9

set_option maxRecDepth 16384
set_option maxHeartbeats 16000000

noncomputable section

namespace Cert.KernelIdeal.Walk

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg) (c : Dev nD)

/-- Pallas call 6's result is the reference's `%v116`. -/
theorem b_v110 : W25 m ρ c (Proc.devRef .tc main_v110) = Cert.ReferenceIdeal.ReadP.val_main_v116 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg10)) (m ((c : Thread nD τ).loc main_arg11)) (m ((c : Thread nD τ).loc main_arg13)) (m ((c : Thread nD τ).loc main_arg14)) (m ((c : Thread nD τ).loc main_arg17)) (m ((c : Thread nD τ).loc main_arg18)) (m ((c : Thread nD τ).loc main_arg21)) (m ((c : Thread nD τ).loc main_arg22)) := by
  have hx : (V24 m ρ c main_v106 : S10000x32.Idx → EReal) = Cert.ReferenceIdeal.ReadP.val_main_v110 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg10)) (m ((c : Thread nD τ).loc main_arg11)) (m ((c : Thread nD τ).loc main_arg13)) (m ((c : Thread nD τ).loc main_arg14)) (m ((c : Thread nD τ).loc main_arg17)) (m ((c : Thread nD τ).loc main_arg18)) := by
    show W24 m ρ c (Proc.devRef .tc main_v106) = _
    exact ((Keep.keep23 m ρ c main_v106 (by decide)).trans (Keep.keep22 m ρ c main_v106 (by decide))).trans (b_v106 m ρ c)
  have hw : (V24 m ρ c main_v108 : S32x32.Idx → EReal) = transpose S32x32 [1, 0] (m ((c : Thread nD τ).loc main_arg21)) transposes_S32x32_S32x32_1_0 := by
    show StableHlo.after hostOps6_11 (W23 m ρ c) (Proc.devRef .tc main_v108) = _
    after_results
    all_goals exact congrArg (fun x => transpose S32x32 [1, 0] x transposes_S32x32_S32x32_1_0) (((Keep.keep22 m ρ c main_arg21 (by decide)).trans ((Keep.keep21 m ρ c main_arg21 (by decide)).trans ((Keep.keep20 m ρ c main_arg21 (by decide)).trans ((Keep.keep19 m ρ c main_arg21 (by decide)).trans ((Keep.keep18 m ρ c main_arg21 (by decide)).trans ((Keep.keep17 m ρ c main_arg21 (by decide)).trans ((Keep.keep16 m ρ c main_arg21 (by decide)).trans ((Keep.keep15 m ρ c main_arg21 (by decide)).trans ((Keep.keep14 m ρ c main_arg21 (by decide)).trans ((Keep.keep13 m ρ c main_arg21 (by decide)).trans ((Keep.keep12 m ρ c main_arg21 (by decide)).trans ((Keep.keep11 m ρ c main_arg21 (by decide)).trans ((Keep.keep10 m ρ c main_arg21 (by decide)).trans ((Keep.keep9 m ρ c main_arg21 (by decide)).trans ((Keep.keep8 m ρ c main_arg21 (by decide)).trans ((Keep.keep7 m ρ c main_arg21 (by decide)).trans ((Keep.keep6 m ρ c main_arg21 (by decide)).trans ((Keep.keep5 m ρ c main_arg21 (by decide)).trans ((Keep.keep4 m ρ c main_arg21 (by decide)).trans ((Keep.keep3 m ρ c main_arg21 (by decide)).trans ((Keep.keep2 m ρ c main_arg21 (by decide)).trans ((Keep.keep1 m ρ c main_arg21 (by decide)).trans (Keep.keep0 m ρ c main_arg21 (by decide)))))))))))))))))))))))).trans rfl)
  have hb : (V24 m ρ c main_v109 : S1x32.Idx → EReal) = shapeCast S1x32 (m ((c : Thread nD τ).loc main_arg22)) shapeCasts_S32_S1x32 := by
    show StableHlo.after hostOps6_11 (W23 m ρ c) (Proc.devRef .tc main_v109) = _
    after_results
    all_goals exact congrArg (fun x => shapeCast S1x32 x shapeCasts_S32_S1x32) (((Keep.keep22 m ρ c main_arg22 (by decide)).trans ((Keep.keep21 m ρ c main_arg22 (by decide)).trans ((Keep.keep20 m ρ c main_arg22 (by decide)).trans ((Keep.keep19 m ρ c main_arg22 (by decide)).trans ((Keep.keep18 m ρ c main_arg22 (by decide)).trans ((Keep.keep17 m ρ c main_arg22 (by decide)).trans ((Keep.keep16 m ρ c main_arg22 (by decide)).trans ((Keep.keep15 m ρ c main_arg22 (by decide)).trans ((Keep.keep14 m ρ c main_arg22 (by decide)).trans ((Keep.keep13 m ρ c main_arg22 (by decide)).trans ((Keep.keep12 m ρ c main_arg22 (by decide)).trans ((Keep.keep11 m ρ c main_arg22 (by decide)).trans ((Keep.keep10 m ρ c main_arg22 (by decide)).trans ((Keep.keep9 m ρ c main_arg22 (by decide)).trans ((Keep.keep8 m ρ c main_arg22 (by decide)).trans ((Keep.keep7 m ρ c main_arg22 (by decide)).trans ((Keep.keep6 m ρ c main_arg22 (by decide)).trans ((Keep.keep5 m ρ c main_arg22 (by decide)).trans ((Keep.keep4 m ρ c main_arg22 (by decide)).trans ((Keep.keep3 m ρ c main_arg22 (by decide)).trans ((Keep.keep2 m ρ c main_arg22 (by decide)).trans ((Keep.keep1 m ρ c main_arg22 (by decide)).trans (Keep.keep0 m ρ c main_arg22 (by decide)))))))))))))))))))))))).trans rfl)
  refine (W25_arr m ρ c 3).trans ((Lin6.arr_eq (V24 m ρ) c).trans ?_)
  rw [hx, hw, hb]
  exact Hetero.lin_eq_host Cert.ReferenceIdeal.dot_S10000x32_S32x32_S10000x32_1_0_0_1_n_n rfl rfl (fun _ _ => rfl) (fun _ _ => rfl)
    (fun _ _ => rfl) (fun _ _ => rfl) _ _ _ _ _ _

/-- Pallas call 7's result is the reference's `%v121`. -/
theorem b_v113 : W27 m ρ c (Proc.devRef .tc main_v113) = Cert.ReferenceIdeal.ReadP.val_main_v121 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg10)) (m ((c : Thread nD τ).loc main_arg11)) (m ((c : Thread nD τ).loc main_arg13)) (m ((c : Thread nD τ).loc main_arg14)) (m ((c : Thread nD τ).loc main_arg17)) (m ((c : Thread nD τ).loc main_arg18)) (m ((c : Thread nD τ).loc main_arg23)) (m ((c : Thread nD τ).loc main_arg24)) := by
  have hx : (V26 m ρ c main_v106 : S10000x32.Idx → EReal) = Cert.ReferenceIdeal.ReadP.val_main_v110 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg10)) (m ((c : Thread nD τ).loc main_arg11)) (m ((c : Thread nD τ).loc main_arg13)) (m ((c : Thread nD τ).loc main_arg14)) (m ((c : Thread nD τ).loc main_arg17)) (m ((c : Thread nD τ).loc main_arg18)) := by
    show W26 m ρ c (Proc.devRef .tc main_v106) = _
    exact ((Keep.keep25 m ρ c main_v106 (by decide)).trans ((Keep.keepin24_0 m ρ c).trans ((Keep.keep23 m ρ c main_v106 (by decide)).trans (Keep.keep22 m ρ c main_v106 (by decide))))).trans (b_v106 m ρ c)
  have hw : (V26 m ρ c main_v111 : S32x32.Idx → EReal) = transpose S32x32 [1, 0] (m ((c : Thread nD τ).loc main_arg23)) transposes_S32x32_S32x32_1_0 := by
    show StableHlo.after hostOps7 (W25 m ρ c) (Proc.devRef .tc main_v111) = _
    after_results
    all_goals exact congrArg (fun x => transpose S32x32 [1, 0] x transposes_S32x32_S32x32_1_0) (((Keep.keep24 m ρ c main_arg23 (by decide)).trans ((Keep.keep23 m ρ c main_arg23 (by decide)).trans ((Keep.keep22 m ρ c main_arg23 (by decide)).trans ((Keep.keep21 m ρ c main_arg23 (by decide)).trans ((Keep.keep20 m ρ c main_arg23 (by decide)).trans ((Keep.keep19 m ρ c main_arg23 (by decide)).trans ((Keep.keep18 m ρ c main_arg23 (by decide)).trans ((Keep.keep17 m ρ c main_arg23 (by decide)).trans ((Keep.keep16 m ρ c main_arg23 (by decide)).trans ((Keep.keep15 m ρ c main_arg23 (by decide)).trans ((Keep.keep14 m ρ c main_arg23 (by decide)).trans ((Keep.keep13 m ρ c main_arg23 (by decide)).trans ((Keep.keep12 m ρ c main_arg23 (by decide)).trans ((Keep.keep11 m ρ c main_arg23 (by decide)).trans ((Keep.keep10 m ρ c main_arg23 (by decide)).trans ((Keep.keep9 m ρ c main_arg23 (by decide)).trans ((Keep.keep8 m ρ c main_arg23 (by decide)).trans ((Keep.keep7 m ρ c main_arg23 (by decide)).trans ((Keep.keep6 m ρ c main_arg23 (by decide)).trans ((Keep.keep5 m ρ c main_arg23 (by decide)).trans ((Keep.keep4 m ρ c main_arg23 (by decide)).trans ((Keep.keep3 m ρ c main_arg23 (by decide)).trans ((Keep.keep2 m ρ c main_arg23 (by decide)).trans ((Keep.keep1 m ρ c main_arg23 (by decide)).trans (Keep.keep0 m ρ c main_arg23 (by decide)))))))))))))))))))))))))).trans rfl)
  have hb : (V26 m ρ c main_v112 : S1x32.Idx → EReal) = shapeCast S1x32 (m ((c : Thread nD τ).loc main_arg24)) shapeCasts_S32_S1x32 := by
    show StableHlo.after hostOps7 (W25 m ρ c) (Proc.devRef .tc main_v112) = _
    after_results
    all_goals exact congrArg (fun x => shapeCast S1x32 x shapeCasts_S32_S1x32) (((Keep.keep24 m ρ c main_arg24 (by decide)).trans ((Keep.keep23 m ρ c main_arg24 (by decide)).trans ((Keep.keep22 m ρ c main_arg24 (by decide)).trans ((Keep.keep21 m ρ c main_arg24 (by decide)).trans ((Keep.keep20 m ρ c main_arg24 (by decide)).trans ((Keep.keep19 m ρ c main_arg24 (by decide)).trans ((Keep.keep18 m ρ c main_arg24 (by decide)).trans ((Keep.keep17 m ρ c main_arg24 (by decide)).trans ((Keep.keep16 m ρ c main_arg24 (by decide)).trans ((Keep.keep15 m ρ c main_arg24 (by decide)).trans ((Keep.keep14 m ρ c main_arg24 (by decide)).trans ((Keep.keep13 m ρ c main_arg24 (by decide)).trans ((Keep.keep12 m ρ c main_arg24 (by decide)).trans ((Keep.keep11 m ρ c main_arg24 (by decide)).trans ((Keep.keep10 m ρ c main_arg24 (by decide)).trans ((Keep.keep9 m ρ c main_arg24 (by decide)).trans ((Keep.keep8 m ρ c main_arg24 (by decide)).trans ((Keep.keep7 m ρ c main_arg24 (by decide)).trans ((Keep.keep6 m ρ c main_arg24 (by decide)).trans ((Keep.keep5 m ρ c main_arg24 (by decide)).trans ((Keep.keep4 m ρ c main_arg24 (by decide)).trans ((Keep.keep3 m ρ c main_arg24 (by decide)).trans ((Keep.keep2 m ρ c main_arg24 (by decide)).trans ((Keep.keep1 m ρ c main_arg24 (by decide)).trans (Keep.keep0 m ρ c main_arg24 (by decide)))))))))))))))))))))))))).trans rfl)
  refine (W27_arr m ρ c 3).trans ((Lin7.arr_eq (V26 m ρ) c).trans ?_)
  rw [hx, hw, hb]
  exact Hetero.lin_eq_host Cert.ReferenceIdeal.dot_S10000x32_S32x32_S10000x32_1_0_0_1_n_n rfl rfl (fun _ _ => rfl) (fun _ _ => rfl)
    (fun _ _ => rfl) (fun _ _ => rfl) _ _ _ _ _ _

/-- Pallas call 8's result is the reference's `%v126`. -/
theorem b_v116 : W29 m ρ c (Proc.devRef .tc main_v116) = Cert.ReferenceIdeal.ReadP.val_main_v126 (F := Ideal) (m ((c : Thread nD τ).loc main_arg0)) (m ((c : Thread nD τ).loc main_arg1)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg15)) (m ((c : Thread nD τ).loc main_arg16)) (m ((c : Thread nD τ).loc main_arg19)) (m ((c : Thread nD τ).loc main_arg20)) (m ((c : Thread nD τ).loc main_arg25)) (m ((c : Thread nD τ).loc main_arg26)) := by
  have hx : (V28 m ρ c main_v107 : S10000x32.Idx → EReal) = Cert.ReferenceIdeal.ReadP.val_main_v111 (F := Ideal) (m ((c : Thread nD τ).loc main_arg0)) (m ((c : Thread nD τ).loc main_arg1)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg15)) (m ((c : Thread nD τ).loc main_arg16)) (m ((c : Thread nD τ).loc main_arg19)) (m ((c : Thread nD τ).loc main_arg20)) := by
    show W28 m ρ c (Proc.devRef .tc main_v107) = _
    exact ((Keep.keep27 m ρ c main_v107 (by decide)).trans ((Keep.keep26 m ρ c main_v107 (by decide)).trans ((Keep.keep25 m ρ c main_v107 (by decide)).trans ((Keep.keep24 m ρ c main_v107 (by decide)).trans (Keep.keep23 m ρ c main_v107 (by decide)))))).trans (b_v107 m ρ c)
  have hw : (V28 m ρ c main_v114 : S32x32.Idx → EReal) = transpose S32x32 [1, 0] (m ((c : Thread nD τ).loc main_arg25)) transposes_S32x32_S32x32_1_0 := by
    show StableHlo.after hostOps8 (W27 m ρ c) (Proc.devRef .tc main_v114) = _
    after_results
    all_goals exact congrArg (fun x => transpose S32x32 [1, 0] x transposes_S32x32_S32x32_1_0) (((Keep.keep26 m ρ c main_arg25 (by decide)).trans ((Keep.keep25 m ρ c main_arg25 (by decide)).trans ((Keep.keep24 m ρ c main_arg25 (by decide)).trans ((Keep.keep23 m ρ c main_arg25 (by decide)).trans ((Keep.keep22 m ρ c main_arg25 (by decide)).trans ((Keep.keep21 m ρ c main_arg25 (by decide)).trans ((Keep.keep20 m ρ c main_arg25 (by decide)).trans ((Keep.keep19 m ρ c main_arg25 (by decide)).trans ((Keep.keep18 m ρ c main_arg25 (by decide)).trans ((Keep.keep17 m ρ c main_arg25 (by decide)).trans ((Keep.keep16 m ρ c main_arg25 (by decide)).trans ((Keep.keep15 m ρ c main_arg25 (by decide)).trans ((Keep.keep14 m ρ c main_arg25 (by decide)).trans ((Keep.keep13 m ρ c main_arg25 (by decide)).trans ((Keep.keep12 m ρ c main_arg25 (by decide)).trans ((Keep.keep11 m ρ c main_arg25 (by decide)).trans ((Keep.keep10 m ρ c main_arg25 (by decide)).trans ((Keep.keep9 m ρ c main_arg25 (by decide)).trans ((Keep.keep8 m ρ c main_arg25 (by decide)).trans ((Keep.keep7 m ρ c main_arg25 (by decide)).trans ((Keep.keep6 m ρ c main_arg25 (by decide)).trans ((Keep.keep5 m ρ c main_arg25 (by decide)).trans ((Keep.keep4 m ρ c main_arg25 (by decide)).trans ((Keep.keep3 m ρ c main_arg25 (by decide)).trans ((Keep.keep2 m ρ c main_arg25 (by decide)).trans ((Keep.keep1 m ρ c main_arg25 (by decide)).trans (Keep.keep0 m ρ c main_arg25 (by decide)))))))))))))))))))))))))))).trans rfl)
  have hb : (V28 m ρ c main_v115 : S1x32.Idx → EReal) = shapeCast S1x32 (m ((c : Thread nD τ).loc main_arg26)) shapeCasts_S32_S1x32 := by
    show StableHlo.after hostOps8 (W27 m ρ c) (Proc.devRef .tc main_v115) = _
    after_results
    all_goals exact congrArg (fun x => shapeCast S1x32 x shapeCasts_S32_S1x32) (((Keep.keep26 m ρ c main_arg26 (by decide)).trans ((Keep.keep25 m ρ c main_arg26 (by decide)).trans ((Keep.keep24 m ρ c main_arg26 (by decide)).trans ((Keep.keep23 m ρ c main_arg26 (by decide)).trans ((Keep.keep22 m ρ c main_arg26 (by decide)).trans ((Keep.keep21 m ρ c main_arg26 (by decide)).trans ((Keep.keep20 m ρ c main_arg26 (by decide)).trans ((Keep.keep19 m ρ c main_arg26 (by decide)).trans ((Keep.keep18 m ρ c main_arg26 (by decide)).trans ((Keep.keep17 m ρ c main_arg26 (by decide)).trans ((Keep.keep16 m ρ c main_arg26 (by decide)).trans ((Keep.keep15 m ρ c main_arg26 (by decide)).trans ((Keep.keep14 m ρ c main_arg26 (by decide)).trans ((Keep.keep13 m ρ c main_arg26 (by decide)).trans ((Keep.keep12 m ρ c main_arg26 (by decide)).trans ((Keep.keep11 m ρ c main_arg26 (by decide)).trans ((Keep.keep10 m ρ c main_arg26 (by decide)).trans ((Keep.keep9 m ρ c main_arg26 (by decide)).trans ((Keep.keep8 m ρ c main_arg26 (by decide)).trans ((Keep.keep7 m ρ c main_arg26 (by decide)).trans ((Keep.keep6 m ρ c main_arg26 (by decide)).trans ((Keep.keep5 m ρ c main_arg26 (by decide)).trans ((Keep.keep4 m ρ c main_arg26 (by decide)).trans ((Keep.keep3 m ρ c main_arg26 (by decide)).trans ((Keep.keep2 m ρ c main_arg26 (by decide)).trans ((Keep.keep1 m ρ c main_arg26 (by decide)).trans (Keep.keep0 m ρ c main_arg26 (by decide)))))))))))))))))))))))))))).trans rfl)
  refine (W29_arr m ρ c 3).trans ((Lin8.arr_eq (V28 m ρ) c).trans ?_)
  rw [hx, hw, hb]
  exact Hetero.lin_eq_host Cert.ReferenceIdeal.dot_S10000x32_S32x32_S10000x32_1_0_0_1_n_n rfl rfl (fun _ _ => rfl) (fun _ _ => rfl)
    (fun _ _ => rfl) (fun _ _ => rfl) _ _ _ _ _ _

/-- Pallas call 9's result is the reference's `%v131`. -/
theorem b_v119 : W31 m ρ c (Proc.devRef .tc main_v119) = Cert.ReferenceIdeal.ReadP.val_main_v131 (F := Ideal) (m ((c : Thread nD τ).loc main_arg0)) (m ((c : Thread nD τ).loc main_arg1)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg15)) (m ((c : Thread nD τ).loc main_arg16)) (m ((c : Thread nD τ).loc main_arg19)) (m ((c : Thread nD τ).loc main_arg20)) (m ((c : Thread nD τ).loc main_arg27)) (m ((c : Thread nD τ).loc main_arg28)) := by
  have hx : (V30 m ρ c main_v107 : S10000x32.Idx → EReal) = Cert.ReferenceIdeal.ReadP.val_main_v111 (F := Ideal) (m ((c : Thread nD τ).loc main_arg0)) (m ((c : Thread nD τ).loc main_arg1)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg15)) (m ((c : Thread nD τ).loc main_arg16)) (m ((c : Thread nD τ).loc main_arg19)) (m ((c : Thread nD τ).loc main_arg20)) := by
    show W30 m ρ c (Proc.devRef .tc main_v107) = _
    exact ((Keep.keep29 m ρ c main_v107 (by decide)).trans ((Keep.keepin28_0 m ρ c).trans ((Keep.keep27 m ρ c main_v107 (by decide)).trans ((Keep.keep26 m ρ c main_v107 (by decide)).trans ((Keep.keep25 m ρ c main_v107 (by decide)).trans ((Keep.keep24 m ρ c main_v107 (by decide)).trans (Keep.keep23 m ρ c main_v107 (by decide)))))))).trans (b_v107 m ρ c)
  have hw : (V30 m ρ c main_v117 : S32x32.Idx → EReal) = transpose S32x32 [1, 0] (m ((c : Thread nD τ).loc main_arg27)) transposes_S32x32_S32x32_1_0 := by
    show StableHlo.after hostOps9 (W29 m ρ c) (Proc.devRef .tc main_v117) = _
    after_results
    all_goals exact congrArg (fun x => transpose S32x32 [1, 0] x transposes_S32x32_S32x32_1_0) (((Keep.keep28 m ρ c main_arg27 (by decide)).trans ((Keep.keep27 m ρ c main_arg27 (by decide)).trans ((Keep.keep26 m ρ c main_arg27 (by decide)).trans ((Keep.keep25 m ρ c main_arg27 (by decide)).trans ((Keep.keep24 m ρ c main_arg27 (by decide)).trans ((Keep.keep23 m ρ c main_arg27 (by decide)).trans ((Keep.keep22 m ρ c main_arg27 (by decide)).trans ((Keep.keep21 m ρ c main_arg27 (by decide)).trans ((Keep.keep20 m ρ c main_arg27 (by decide)).trans ((Keep.keep19 m ρ c main_arg27 (by decide)).trans ((Keep.keep18 m ρ c main_arg27 (by decide)).trans ((Keep.keep17 m ρ c main_arg27 (by decide)).trans ((Keep.keep16 m ρ c main_arg27 (by decide)).trans ((Keep.keep15 m ρ c main_arg27 (by decide)).trans ((Keep.keep14 m ρ c main_arg27 (by decide)).trans ((Keep.keep13 m ρ c main_arg27 (by decide)).trans ((Keep.keep12 m ρ c main_arg27 (by decide)).trans ((Keep.keep11 m ρ c main_arg27 (by decide)).trans ((Keep.keep10 m ρ c main_arg27 (by decide)).trans ((Keep.keep9 m ρ c main_arg27 (by decide)).trans ((Keep.keep8 m ρ c main_arg27 (by decide)).trans ((Keep.keep7 m ρ c main_arg27 (by decide)).trans ((Keep.keep6 m ρ c main_arg27 (by decide)).trans ((Keep.keep5 m ρ c main_arg27 (by decide)).trans ((Keep.keep4 m ρ c main_arg27 (by decide)).trans ((Keep.keep3 m ρ c main_arg27 (by decide)).trans ((Keep.keep2 m ρ c main_arg27 (by decide)).trans ((Keep.keep1 m ρ c main_arg27 (by decide)).trans (Keep.keep0 m ρ c main_arg27 (by decide)))))))))))))))))))))))))))))).trans rfl)
  have hb : (V30 m ρ c main_v118 : S1x32.Idx → EReal) = shapeCast S1x32 (m ((c : Thread nD τ).loc main_arg28)) shapeCasts_S32_S1x32 := by
    show StableHlo.after hostOps9 (W29 m ρ c) (Proc.devRef .tc main_v118) = _
    after_results
    all_goals exact congrArg (fun x => shapeCast S1x32 x shapeCasts_S32_S1x32) (((Keep.keep28 m ρ c main_arg28 (by decide)).trans ((Keep.keep27 m ρ c main_arg28 (by decide)).trans ((Keep.keep26 m ρ c main_arg28 (by decide)).trans ((Keep.keep25 m ρ c main_arg28 (by decide)).trans ((Keep.keep24 m ρ c main_arg28 (by decide)).trans ((Keep.keep23 m ρ c main_arg28 (by decide)).trans ((Keep.keep22 m ρ c main_arg28 (by decide)).trans ((Keep.keep21 m ρ c main_arg28 (by decide)).trans ((Keep.keep20 m ρ c main_arg28 (by decide)).trans ((Keep.keep19 m ρ c main_arg28 (by decide)).trans ((Keep.keep18 m ρ c main_arg28 (by decide)).trans ((Keep.keep17 m ρ c main_arg28 (by decide)).trans ((Keep.keep16 m ρ c main_arg28 (by decide)).trans ((Keep.keep15 m ρ c main_arg28 (by decide)).trans ((Keep.keep14 m ρ c main_arg28 (by decide)).trans ((Keep.keep13 m ρ c main_arg28 (by decide)).trans ((Keep.keep12 m ρ c main_arg28 (by decide)).trans ((Keep.keep11 m ρ c main_arg28 (by decide)).trans ((Keep.keep10 m ρ c main_arg28 (by decide)).trans ((Keep.keep9 m ρ c main_arg28 (by decide)).trans ((Keep.keep8 m ρ c main_arg28 (by decide)).trans ((Keep.keep7 m ρ c main_arg28 (by decide)).trans ((Keep.keep6 m ρ c main_arg28 (by decide)).trans ((Keep.keep5 m ρ c main_arg28 (by decide)).trans ((Keep.keep4 m ρ c main_arg28 (by decide)).trans ((Keep.keep3 m ρ c main_arg28 (by decide)).trans ((Keep.keep2 m ρ c main_arg28 (by decide)).trans ((Keep.keep1 m ρ c main_arg28 (by decide)).trans (Keep.keep0 m ρ c main_arg28 (by decide)))))))))))))))))))))))))))))).trans rfl)
  refine (W31_arr m ρ c 3).trans ((Lin9.arr_eq (V30 m ρ) c).trans ?_)
  rw [hx, hw, hb]
  exact Hetero.lin_eq_host Cert.ReferenceIdeal.dot_S10000x32_S32x32_S10000x32_1_0_0_1_n_n rfl rfl (fun _ _ => rfl) (fun _ _ => rfl)
    (fun _ _ => rfl) (fun _ _ => rfl) _ _ _ _ _ _

end Cert.KernelIdeal.Walk

end
-- ==== Proof.WalkD1.lean ====
/-
  Between the linear layers both programs run the same host operations: for each edge type the messages are
  gathered by source index (negative indices wrapped), summed by destination index, divided by the number of
  incoming edges where there is one and set to zero where there is none; the two edge types ending in one node type
  are added and the sum is rectified.  Reading the kernel program's stretch in one pass gives that composition over
  the layer's linear results and the index arguments; the linear results are the reference's stages, the arguments
  are the launch contents, so the composition is the reference's stage.
  The operations of the inlined `_where` and `relu` calls carry their values through a change of type that is the
  identity once the buffer is a literal one; each such transport is removed by its own small fact before the two
  compositions are compared.
-/
import proofs.«165804_j39522289058325_1_alg».proof.Proof.WalkC

set_option maxRecDepth 16384
set_option maxHeartbeats 16000000

noncomputable section

namespace Cert.KernelIdeal.Walk

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg) (c : Dev nD)

set_option maxRecDepth 65536 in
/-- After the aggregation stretch: the same host operations as the reference's, on values that agree. -/
theorem b_v206 : W41 m ρ c (Proc.devRef .tc main_v206) = Cert.ReferenceIdeal.ReadP.val_main_v218 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg25)) (m ((c : Thread nD τ).loc main_arg26)) := by
  have l0 : W31 m ρ c (Proc.devRef .tc main_v110) = Cert.ReferenceIdeal.ReadP.val_main_v116 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg10)) (m ((c : Thread nD τ).loc main_arg11)) (m ((c : Thread nD τ).loc main_arg13)) (m ((c : Thread nD τ).loc main_arg14)) (m ((c : Thread nD τ).loc main_arg17)) (m ((c : Thread nD τ).loc main_arg18)) (m ((c : Thread nD τ).loc main_arg21)) (m ((c : Thread nD τ).loc main_arg22)) :=
    ((Keep.keep30 m ρ c main_v110 (by decide)).trans ((Keep.keep29 m ρ c main_v110 (by decide)).trans ((Keep.keep28 m ρ c main_v110 (by decide)).trans ((Keep.keep27 m ρ c main_v110 (by decide)).trans ((Keep.keep26 m ρ c main_v110 (by decide)).trans (Keep.keep25 m ρ c main_v110 (by decide))))))).trans (b_v110 m ρ c)
  have l1 : W31 m ρ c (Proc.devRef .tc main_v116) = Cert.ReferenceIdeal.ReadP.val_main_v126 (F := Ideal) (m ((c : Thread nD τ).loc main_arg0)) (m ((c : Thread nD τ).loc main_arg1)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg15)) (m ((c : Thread nD τ).loc main_arg16)) (m ((c : Thread nD τ).loc main_arg19)) (m ((c : Thread nD τ).loc main_arg20)) (m ((c : Thread nD τ).loc main_arg25)) (m ((c : Thread nD τ).loc main_arg26)) :=
    ((Keep.keep30 m ρ c main_v116 (by decide)).trans (Keep.keep29 m ρ c main_v116 (by decide))).trans (b_v116 m ρ c)
  have a2 : W31 m ρ c (Proc.devRef .tc main_arg2) = (m ((c : Thread nD τ).loc main_arg2)) := (((Keep.keep30 m ρ c main_arg2 (by decide)).trans ((Keep.keep29 m ρ c main_arg2 (by decide)).trans ((Keep.keep28 m ρ c main_arg2 (by decide)).trans ((Keep.keep27 m ρ c main_arg2 (by decide)).trans ((Keep.keep26 m ρ c main_arg2 (by decide)).trans ((Keep.keep25 m ρ c main_arg2 (by decide)).trans ((Keep.keep24 m ρ c main_arg2 (by decide)).trans ((Keep.keep23 m ρ c main_arg2 (by decide)).trans ((Keep.keep22 m ρ c main_arg2 (by decide)).trans ((Keep.keep21 m ρ c main_arg2 (by decide)).trans ((Keep.keep20 m ρ c main_arg2 (by decide)).trans ((Keep.keep19 m ρ c main_arg2 (by decide)).trans ((Keep.keep18 m ρ c main_arg2 (by decide)).trans ((Keep.keep17 m ρ c main_arg2 (by decide)).trans ((Keep.keep16 m ρ c main_arg2 (by decide)).trans ((Keep.keep15 m ρ c main_arg2 (by decide)).trans ((Keep.keep14 m ρ c main_arg2 (by decide)).trans ((Keep.keep13 m ρ c main_arg2 (by decide)).trans ((Keep.keep12 m ρ c main_arg2 (by decide)).trans ((Keep.keep11 m ρ c main_arg2 (by decide)).trans ((Keep.keep10 m ρ c main_arg2 (by decide)).trans ((Keep.keep9 m ρ c main_arg2 (by decide)).trans ((Keep.keep8 m ρ c main_arg2 (by decide)).trans ((Keep.keep7 m ρ c main_arg2 (by decide)).trans ((Keep.keep6 m ρ c main_arg2 (by decide)).trans ((Keep.keep5 m ρ c main_arg2 (by decide)).trans ((Keep.keep4 m ρ c main_arg2 (by decide)).trans ((Keep.keep3 m ρ c main_arg2 (by decide)).trans ((Keep.keep2 m ρ c main_arg2 (by decide)).trans ((Keep.keep1 m ρ c main_arg2 (by decide)).trans (Keep.keep0 m ρ c main_arg2 (by decide)))))))))))))))))))))))))))))))).trans rfl)
  have a3 : W31 m ρ c (Proc.devRef .tc main_arg3) = (m ((c : Thread nD τ).loc main_arg3)) := (((Keep.keep30 m ρ c main_arg3 (by decide)).trans ((Keep.keep29 m ρ c main_arg3 (by decide)).trans ((Keep.keep28 m ρ c main_arg3 (by decide)).trans ((Keep.keep27 m ρ c main_arg3 (by decide)).trans ((Keep.keep26 m ρ c main_arg3 (by decide)).trans ((Keep.keep25 m ρ c main_arg3 (by decide)).trans ((Keep.keep24 m ρ c main_arg3 (by decide)).trans ((Keep.keep23 m ρ c main_arg3 (by decide)).trans ((Keep.keep22 m ρ c main_arg3 (by decide)).trans ((Keep.keep21 m ρ c main_arg3 (by decide)).trans ((Keep.keep20 m ρ c main_arg3 (by decide)).trans ((Keep.keep19 m ρ c main_arg3 (by decide)).trans ((Keep.keep18 m ρ c main_arg3 (by decide)).trans ((Keep.keep17 m ρ c main_arg3 (by decide)).trans ((Keep.keep16 m ρ c main_arg3 (by decide)).trans ((Keep.keep15 m ρ c main_arg3 (by decide)).trans ((Keep.keep14 m ρ c main_arg3 (by decide)).trans ((Keep.keep13 m ρ c main_arg3 (by decide)).trans ((Keep.keep12 m ρ c main_arg3 (by decide)).trans ((Keep.keep11 m ρ c main_arg3 (by decide)).trans ((Keep.keep10 m ρ c main_arg3 (by decide)).trans ((Keep.keep9 m ρ c main_arg3 (by decide)).trans ((Keep.keep8 m ρ c main_arg3 (by decide)).trans ((Keep.keep7 m ρ c main_arg3 (by decide)).trans ((Keep.keep6 m ρ c main_arg3 (by decide)).trans ((Keep.keep5 m ρ c main_arg3 (by decide)).trans ((Keep.keep4 m ρ c main_arg3 (by decide)).trans ((Keep.keep3 m ρ c main_arg3 (by decide)).trans ((Keep.keep2 m ρ c main_arg3 (by decide)).trans ((Keep.keep1 m ρ c main_arg3 (by decide)).trans (Keep.keep0 m ρ c main_arg3 (by decide)))))))))))))))))))))))))))))))).trans rfl)
  have a6 : W31 m ρ c (Proc.devRef .tc main_arg6) = (m ((c : Thread nD τ).loc main_arg6)) := (((Keep.keep30 m ρ c main_arg6 (by decide)).trans ((Keep.keep29 m ρ c main_arg6 (by decide)).trans ((Keep.keep28 m ρ c main_arg6 (by decide)).trans ((Keep.keep27 m ρ c main_arg6 (by decide)).trans ((Keep.keep26 m ρ c main_arg6 (by decide)).trans ((Keep.keep25 m ρ c main_arg6 (by decide)).trans ((Keep.keep24 m ρ c main_arg6 (by decide)).trans ((Keep.keep23 m ρ c main_arg6 (by decide)).trans ((Keep.keep22 m ρ c main_arg6 (by decide)).trans ((Keep.keep21 m ρ c main_arg6 (by decide)).trans ((Keep.keep20 m ρ c main_arg6 (by decide)).trans ((Keep.keep19 m ρ c main_arg6 (by decide)).trans ((Keep.keep18 m ρ c main_arg6 (by decide)).trans ((Keep.keep17 m ρ c main_arg6 (by decide)).trans ((Keep.keep16 m ρ c main_arg6 (by decide)).trans ((Keep.keep15 m ρ c main_arg6 (by decide)).trans ((Keep.keep14 m ρ c main_arg6 (by decide)).trans ((Keep.keep13 m ρ c main_arg6 (by decide)).trans ((Keep.keep12 m ρ c main_arg6 (by decide)).trans ((Keep.keep11 m ρ c main_arg6 (by decide)).trans ((Keep.keep10 m ρ c main_arg6 (by decide)).trans ((Keep.keep9 m ρ c main_arg6 (by decide)).trans ((Keep.keep8 m ρ c main_arg6 (by decide)).trans ((Keep.keep7 m ρ c main_arg6 (by decide)).trans ((Keep.keep6 m ρ c main_arg6 (by decide)).trans ((Keep.keep5 m ρ c main_arg6 (by decide)).trans ((Keep.keep4 m ρ c main_arg6 (by decide)).trans ((Keep.keep3 m ρ c main_arg6 (by decide)).trans ((Keep.keep2 m ρ c main_arg6 (by decide)).trans ((Keep.keep1 m ρ c main_arg6 (by decide)).trans (Keep.keep0 m ρ c main_arg6 (by decide)))))))))))))))))))))))))))))))).trans rfl)
  have a7 : W31 m ρ c (Proc.devRef .tc main_arg7) = (m ((c : Thread nD τ).loc main_arg7)) := (((Keep.keep30 m ρ c main_arg7 (by decide)).trans ((Keep.keep29 m ρ c main_arg7 (by decide)).trans ((Keep.keep28 m ρ c main_arg7 (by decide)).trans ((Keep.keep27 m ρ c main_arg7 (by decide)).trans ((Keep.keep26 m ρ c main_arg7 (by decide)).trans ((Keep.keep25 m ρ c main_arg7 (by decide)).trans ((Keep.keep24 m ρ c main_arg7 (by decide)).trans ((Keep.keep23 m ρ c main_arg7 (by decide)).trans ((Keep.keep22 m ρ c main_arg7 (by decide)).trans ((Keep.keep21 m ρ c main_arg7 (by decide)).trans ((Keep.keep20 m ρ c main_arg7 (by decide)).trans ((Keep.keep19 m ρ c main_arg7 (by decide)).trans ((Keep.keep18 m ρ c main_arg7 (by decide)).trans ((Keep.keep17 m ρ c main_arg7 (by decide)).trans ((Keep.keep16 m ρ c main_arg7 (by decide)).trans ((Keep.keep15 m ρ c main_arg7 (by decide)).trans ((Keep.keep14 m ρ c main_arg7 (by decide)).trans ((Keep.keep13 m ρ c main_arg7 (by decide)).trans ((Keep.keep12 m ρ c main_arg7 (by decide)).trans ((Keep.keep11 m ρ c main_arg7 (by decide)).trans ((Keep.keep10 m ρ c main_arg7 (by decide)).trans ((Keep.keep9 m ρ c main_arg7 (by decide)).trans ((Keep.keep8 m ρ c main_arg7 (by decide)).trans ((Keep.keep7 m ρ c main_arg7 (by decide)).trans ((Keep.keep6 m ρ c main_arg7 (by decide)).trans ((Keep.keep5 m ρ c main_arg7 (by decide)).trans ((Keep.keep4 m ρ c main_arg7 (by decide)).trans ((Keep.keep3 m ρ c main_arg7 (by decide)).trans ((Keep.keep2 m ρ c main_arg7 (by decide)).trans ((Keep.keep1 m ρ c main_arg7 (by decide)).trans (Keep.keep0 m ρ c main_arg7 (by decide)))))))))))))))))))))))))))))))).trans rfl)
  dsimp only [W41, W40, W39, W38, W37, W36, W35, W34, W33, W32]
  after_results_simp
  rw [l0, l1, a2, a3, a6, a7]
  have ct0 : ∀ v : (⟨S_, .f32⟩ : BufTy).Contents (Elt Ideal), (StableHlo.TRef.of (sig := sig) (T := ⟨S_, .f32⟩) main_cst_39).toBuf v = v := fun _ => rfl
  have co0 : ∀ v : (main_cst_39 : Ref sig .tc).ty.Contents (Elt Ideal), (StableHlo.TRef.of (sig := sig) (T := ⟨S_, .f32⟩) main_cst_39).ofBuf v = v := fun _ => rfl
  have ct1 : ∀ v : (⟨S_, .f32⟩ : BufTy).Contents (Elt Ideal), (StableHlo.TRef.of (sig := sig) (T := ⟨S_, .f32⟩) main_call6_v0).toBuf v = v := fun _ => rfl
  have co1 : ∀ v : (main_call6_v0 : Ref sig .tc).ty.Contents (Elt Ideal), (StableHlo.TRef.of (sig := sig) (T := ⟨S_, .f32⟩) main_call6_v0).ofBuf v = v := fun _ => rfl
  have ct2 : ∀ v : (⟨S10000x1, .i1⟩ : BufTy).Contents (Elt Ideal), (StableHlo.TRef.of (sig := sig) (T := ⟨S10000x1, .i1⟩) main_v135).toBuf v = v := fun _ => rfl
  have co2 : ∀ v : (main_v135 : Ref sig .tc).ty.Contents (Elt Ideal), (StableHlo.TRef.of (sig := sig) (T := ⟨S10000x1, .i1⟩) main_v135).ofBuf v = v := fun _ => rfl
  have ct3 : ∀ v : (⟨S10000x32, .i1⟩ : BufTy).Contents (Elt Ideal), (StableHlo.TRef.of (sig := sig) (T := ⟨S10000x32, .i1⟩) main_call6_v1).toBuf v = v := fun _ => rfl
  have co3 : ∀ v : (main_call6_v1 : Ref sig .tc).ty.Contents (Elt Ideal), (StableHlo.TRef.of (sig := sig) (T := ⟨S10000x32, .i1⟩) main_call6_v1).ofBuf v = v := fun _ => rfl
  have ct4 : ∀ v : (⟨S10000x32, .f32⟩ : BufTy).Contents (Elt Ideal), (StableHlo.TRef.of (sig := sig) (T := ⟨S10000x32, .f32⟩) main_call6_v2).toBuf v = v := fun _ => rfl
  have co4 : ∀ v : (main_call6_v2 : Ref sig .tc).ty.Contents (Elt Ideal), (StableHlo.TRef.of (sig := sig) (T := ⟨S10000x32, .f32⟩) main_call6_v2).ofBuf v = v := fun _ => rfl
  have ct5 : ∀ v : (⟨S10000x32, .f32⟩ : BufTy).Contents (Elt Ideal), (StableHlo.TRef.of (sig := sig) (T := ⟨S10000x32, .f32⟩) main_v139).toBuf v = v := fun _ => rfl
  have co5 : ∀ v : (main_v139 : Ref sig .tc).ty.Contents (Elt Ideal), (StableHlo.TRef.of (sig := sig) (T := ⟨S10000x32, .f32⟩) main_v139).ofBuf v = v := fun _ => rfl
  have ct6 : ∀ v : (⟨S10000x32, .f32⟩ : BufTy).Contents (Elt Ideal), (StableHlo.TRef.of (sig := sig) (T := ⟨S10000x32, .f32⟩) main_v140).toBuf v = v := fun _ => rfl
  have co6 : ∀ v : (main_v140 : Ref sig .tc).ty.Contents (Elt Ideal), (StableHlo.TRef.of (sig := sig) (T := ⟨S10000x32, .f32⟩) main_v140).ofBuf v = v := fun _ => rfl
  have ct7 : ∀ v : (⟨S_, .f32⟩ : BufTy).Contents (Elt Ideal), (StableHlo.TRef.of (sig := sig) (T := ⟨S_, .f32⟩) main_cst_47).toBuf v = v := fun _ => rfl
  have co7 : ∀ v : (main_cst_47 : Ref sig .tc).ty.Contents (Elt Ideal), (StableHlo.TRef.of (sig := sig) (T := ⟨S_, .f32⟩) main_cst_47).ofBuf v = v := fun _ => rfl
  have ct8 : ∀ v : (⟨S_, .f32⟩ : BufTy).Contents (Elt Ideal), (StableHlo.TRef.of (sig := sig) (T := ⟨S_, .f32⟩) main_call7_v0).toBuf v = v := fun _ => rfl
  have co8 : ∀ v : (main_call7_v0 : Ref sig .tc).ty.Contents (Elt Ideal), (StableHlo.TRef.of (sig := sig) (T := ⟨S_, .f32⟩) main_call7_v0).ofBuf v = v := fun _ => rfl
  have ct9 : ∀ v : (⟨S10000x1, .i1⟩ : BufTy).Contents (Elt Ideal), (StableHlo.TRef.of (sig := sig) (T := ⟨S10000x1, .i1⟩) main_v156).toBuf v = v := fun _ => rfl
  have co9 : ∀ v : (main_v156 : Ref sig .tc).ty.Contents (Elt Ideal), (StableHlo.TRef.of (sig := sig) (T := ⟨S10000x1, .i1⟩) main_v156).ofBuf v = v := fun _ => rfl
  have ct10 : ∀ v : (⟨S10000x32, .i1⟩ : BufTy).Contents (Elt Ideal), (StableHlo.TRef.of (sig := sig) (T := ⟨S10000x32, .i1⟩) main_call7_v1).toBuf v = v := fun _ => rfl
  have co10 : ∀ v : (main_call7_v1 : Ref sig .tc).ty.Contents (Elt Ideal), (StableHlo.TRef.of (sig := sig) (T := ⟨S10000x32, .i1⟩) main_call7_v1).ofBuf v = v := fun _ => rfl
  have ct11 : ∀ v : (⟨S10000x32, .f32⟩ : BufTy).Contents (Elt Ideal), (StableHlo.TRef.of (sig := sig) (T := ⟨S10000x32, .f32⟩) main_call7_v2).toBuf v = v := fun _ => rfl
  have co11 : ∀ v : (main_call7_v2 : Ref sig .tc).ty.Contents (Elt Ideal), (StableHlo.TRef.of (sig := sig) (T := ⟨S10000x32, .f32⟩) main_call7_v2).ofBuf v = v := fun _ => rfl
  have ct12 : ∀ v : (⟨S10000x32, .f32⟩ : BufTy).Contents (Elt Ideal), (StableHlo.TRef.of (sig := sig) (T := ⟨S10000x32, .f32⟩) main_v160).toBuf v = v := fun _ => rfl
  have co12 : ∀ v : (main_v160 : Ref sig .tc).ty.Contents (Elt Ideal), (StableHlo.TRef.of (sig := sig) (T := ⟨S10000x32, .f32⟩) main_v160).ofBuf v = v := fun _ => rfl
  have ct13 : ∀ v : (⟨S10000x32, .f32⟩ : BufTy).Contents (Elt Ideal), (StableHlo.TRef.of (sig := sig) (T := ⟨S10000x32, .f32⟩) main_v161).toBuf v = v := fun _ => rfl
  have co13 : ∀ v : (main_v161 : Ref sig .tc).ty.Contents (Elt Ideal), (StableHlo.TRef.of (sig := sig) (T := ⟨S10000x32, .f32⟩) main_v161).ofBuf v = v := fun _ => rfl
  have ct14 : ∀ v : (⟨S_, .f32⟩ : BufTy).Contents (Elt Ideal), (StableHlo.TRef.of (sig := sig) (T := ⟨S_, .f32⟩) main_cst_55).toBuf v = v := fun _ => rfl
  have co14 : ∀ v : (main_cst_55 : Ref sig .tc).ty.Contents (Elt Ideal), (StableHlo.TRef.of (sig := sig) (T := ⟨S_, .f32⟩) main_cst_55).ofBuf v = v := fun _ => rfl
  have ct15 : ∀ v : (⟨S_, .f32⟩ : BufTy).Contents (Elt Ideal), (StableHlo.TRef.of (sig := sig) (T := ⟨S_, .f32⟩) main_call8_v0).toBuf v = v := fun _ => rfl
  have co15 : ∀ v : (main_call8_v0 : Ref sig .tc).ty.Contents (Elt Ideal), (StableHlo.TRef.of (sig := sig) (T := ⟨S_, .f32⟩) main_call8_v0).ofBuf v = v := fun _ => rfl
  have ct16 : ∀ v : (⟨S10000x1, .i1⟩ : BufTy).Contents (Elt Ideal), (StableHlo.TRef.of (sig := sig) (T := ⟨S10000x1, .i1⟩) main_v178).toBuf v = v := fun _ => rfl
  have co16 : ∀ v : (main_v178 : Ref sig .tc).ty.Contents (Elt Ideal), (StableHlo.TRef.of (sig := sig) (T := ⟨S10000x1, .i1⟩) main_v178).ofBuf v = v := fun _ => rfl
  have ct17 : ∀ v : (⟨S10000x32, .i1⟩ : BufTy).Contents (Elt Ideal), (StableHlo.TRef.of (sig := sig) (T := ⟨S10000x32, .i1⟩) main_call8_v1).toBuf v = v := fun _ => rfl
  have co17 : ∀ v : (main_call8_v1 : Ref sig .tc).ty.Contents (Elt Ideal), (StableHlo.TRef.of (sig := sig) (T := ⟨S10000x32, .i1⟩) main_call8_v1).ofBuf v = v := fun _ => rfl
  have ct18 : ∀ v : (⟨S10000x32, .f32⟩ : BufTy).Contents (Elt Ideal), (StableHlo.TRef.of (sig := sig) (T := ⟨S10000x32, .f32⟩) main_call8_v2).toBuf v = v := fun _ => rfl
  have co18 : ∀ v : (main_call8_v2 : Ref sig .tc).ty.Contents (Elt Ideal), (StableHlo.TRef.of (sig := sig) (T := ⟨S10000x32, .f32⟩) main_call8_v2).ofBuf v = v := fun _ => rfl
  have ct19 : ∀ v : (⟨S10000x32, .f32⟩ : BufTy).Contents (Elt Ideal), (StableHlo.TRef.of (sig := sig) (T := ⟨S10000x32, .f32⟩) main_v182).toBuf v = v := fun _ => rfl
  have co19 : ∀ v : (main_v182 : Ref sig .tc).ty.Contents (Elt Ideal), (StableHlo.TRef.of (sig := sig) (T := ⟨S10000x32, .f32⟩) main_v182).ofBuf v = v := fun _ => rfl
  have ct20 : ∀ v : (⟨S10000x32, .f32⟩ : BufTy).Contents (Elt Ideal), (StableHlo.TRef.of (sig := sig) (T := ⟨S10000x32, .f32⟩) main_v183).toBuf v = v := fun _ => rfl
  have co20 : ∀ v : (main_v183 : Ref sig .tc).ty.Contents (Elt Ideal), (StableHlo.TRef.of (sig := sig) (T := ⟨S10000x32, .f32⟩) main_v183).ofBuf v = v := fun _ => rfl
  have ct21 : ∀ v : (⟨S_, .f32⟩ : BufTy).Contents (Elt Ideal), (StableHlo.TRef.of (sig := sig) (T := ⟨S_, .f32⟩) main_cst_63).toBuf v = v := fun _ => rfl
  have co21 : ∀ v : (main_cst_63 : Ref sig .tc).ty.Contents (Elt Ideal), (StableHlo.TRef.of (sig := sig) (T := ⟨S_, .f32⟩) main_cst_63).ofBuf v = v := fun _ => rfl
  have ct22 : ∀ v : (⟨S_, .f32⟩ : BufTy).Contents (Elt Ideal), (StableHlo.TRef.of (sig := sig) (T := ⟨S_, .f32⟩) main_call9_v0).toBuf v = v := fun _ => rfl
  have co22 : ∀ v : (main_call9_v0 : Ref sig .tc).ty.Contents (Elt Ideal), (StableHlo.TRef.of (sig := sig) (T := ⟨S_, .f32⟩) main_call9_v0).ofBuf v = v := fun _ => rfl
  have ct23 : ∀ v : (⟨S10000x1, .i1⟩ : BufTy).Contents (Elt Ideal), (StableHlo.TRef.of (sig := sig) (T := ⟨S10000x1, .i1⟩) main_v199).toBuf v = v := fun _ => rfl
  have co23 : ∀ v : (main_v199 : Ref sig .tc).ty.Contents (Elt Ideal), (StableHlo.TRef.of (sig := sig) (T := ⟨S10000x1, .i1⟩) main_v199).ofBuf v = v := fun _ => rfl
  have ct24 : ∀ v : (⟨S10000x32, .i1⟩ : BufTy).Contents (Elt Ideal), (StableHlo.TRef.of (sig := sig) (T := ⟨S10000x32, .i1⟩) main_call9_v1).toBuf v = v := fun _ => rfl
  have co24 : ∀ v : (main_call9_v1 : Ref sig .tc).ty.Contents (Elt Ideal), (StableHlo.TRef.of (sig := sig) (T := ⟨S10000x32, .i1⟩) main_call9_v1).ofBuf v = v := fun _ => rfl
  have ct25 : ∀ v : (⟨S10000x32, .f32⟩ : BufTy).Contents (Elt Ideal), (StableHlo.TRef.of (sig := sig) (T := ⟨S10000x32, .f32⟩) main_call9_v2).toBuf v = v := fun _ => rfl
  have co25 : ∀ v : (main_call9_v2 : Ref sig .tc).ty.Contents (Elt Ideal), (StableHlo.TRef.of (sig := sig) (T := ⟨S10000x32, .f32⟩) main_call9_v2).ofBuf v = v := fun _ => rfl
  have ct26 : ∀ v : (⟨S10000x32, .f32⟩ : BufTy).Contents (Elt Ideal), (StableHlo.TRef.of (sig := sig) (T := ⟨S10000x32, .f32⟩) main_v203).toBuf v = v := fun _ => rfl
  have co26 : ∀ v : (main_v203 : Ref sig .tc).ty.Contents (Elt Ideal), (StableHlo.TRef.of (sig := sig) (T := ⟨S10000x32, .f32⟩) main_v203).ofBuf v = v := fun _ => rfl
  have ct27 : ∀ v : (⟨S10000x32, .f32⟩ : BufTy).Contents (Elt Ideal), (StableHlo.TRef.of (sig := sig) (T := ⟨S10000x32, .f32⟩) main_v204).toBuf v = v := fun _ => rfl
  have co27 : ∀ v : (main_v204 : Ref sig .tc).ty.Contents (Elt Ideal), (StableHlo.TRef.of (sig := sig) (T := ⟨S10000x32, .f32⟩) main_v204).ofBuf v = v := fun _ => rfl
  have ct28 : ∀ v : (⟨S_, .f32⟩ : BufTy).Contents (Elt Ideal), (StableHlo.TRef.of (sig := sig) (T := ⟨S_, .f32⟩) main_call10_cst).toBuf v = v := fun _ => rfl
  have co28 : ∀ v : (main_call10_cst : Ref sig .tc).ty.Contents (Elt Ideal), (StableHlo.TRef.of (sig := sig) (T := ⟨S_, .f32⟩) main_call10_cst).ofBuf v = v := fun _ => rfl
  have ct29 : ∀ v : (⟨S10000x32, .f32⟩ : BufTy).Contents (Elt Ideal), (StableHlo.TRef.of (sig := sig) (T := ⟨S10000x32, .f32⟩) main_call10_v0).toBuf v = v := fun _ => rfl
  have co29 : ∀ v : (main_call10_v0 : Ref sig .tc).ty.Contents (Elt Ideal), (StableHlo.TRef.of (sig := sig) (T := ⟨S10000x32, .f32⟩) main_call10_v0).ofBuf v = v := fun _ => rfl
  have ct30 : ∀ v : (⟨S10000x32, .f32⟩ : BufTy).Contents (Elt Ideal), (StableHlo.TRef.of (sig := sig) (T := ⟨S10000x32, .f32⟩) main_v162).toBuf v = v := fun _ => rfl
  have co30 : ∀ v : (main_v162 : Ref sig .tc).ty.Contents (Elt Ideal), (StableHlo.TRef.of (sig := sig) (T := ⟨S10000x32, .f32⟩) main_v162).ofBuf v = v := fun _ => rfl
  have ct31 : ∀ v : (⟨S10000x32, .f32⟩ : BufTy).Contents (Elt Ideal), (StableHlo.TRef.of (sig := sig) (T := ⟨S10000x32, .f32⟩) main_v206).toBuf v = v := fun _ => rfl
  have co31 : ∀ v : (main_v206 : Ref sig .tc).ty.Contents (Elt Ideal), (StableHlo.TRef.of (sig := sig) (T := ⟨S10000x32, .f32⟩) main_v206).ofBuf v = v := fun _ => rfl
  simp only [ct0, co0, ct1, co1, ct2, co2, ct3, co3, ct4, co4, ct5, co5, ct6, co6, ct7, co7, ct8, co8, ct9, co9, ct10, co10, ct11, co11, ct12, co12, ct13, co13, ct14, co14, ct15, co15, ct16, co16, ct17, co17, ct18, co18, ct19, co19, ct20, co20, ct21, co21, ct22, co22, ct23, co23, ct24, co24, ct25, co25, ct26, co26, ct27, co27, ct28, co28, ct29, co29, ct30, co30, ct31, co31]
  simp only [Cert.ReferenceIdeal.ReadP.val_main_v218,
    Cert.ReferenceIdeal.ReadP.val_main_v174,
    Cert.ReferenceIdeal.ReadP.val_main_v152,
    Cert.ReferenceIdeal.ReadP.val_main_call6_v1,
    Cert.ReferenceIdeal.ReadP.val_main_v147,
    Cert.ReferenceIdeal.ReadP.val_main_v145,
    Cert.ReferenceIdeal.ReadP.val_main_v143,
    Cert.ReferenceIdeal.ReadP.val_main_cst_34,
    Cert.ReferenceIdeal.ReadP.val_main_v144,
    Cert.ReferenceIdeal.ReadP.val_main_v142,
    Cert.ReferenceIdeal.ReadP.val_main_cst_33,
    Cert.ReferenceIdeal.ReadP.val_main_v146,
    Cert.ReferenceIdeal.ReadP.val_main_cst_35,
    Cert.ReferenceIdeal.ReadP.val_main_v151,
    Cert.ReferenceIdeal.ReadP.val_main_v141,
    Cert.ReferenceIdeal.ReadP.val_main_v139,
    Cert.ReferenceIdeal.ReadP.val_main_cst_32,
    Cert.ReferenceIdeal.ReadP.val_main_v140,
    Cert.ReferenceIdeal.ReadP.val_main_v138,
    Cert.ReferenceIdeal.ReadP.val_main_v137,
    Cert.ReferenceIdeal.ReadP.val_main_v136,
    Cert.ReferenceIdeal.ReadP.val_main_v133,
    Cert.ReferenceIdeal.ReadP.val_main_v132,
    Cert.ReferenceIdeal.ReadP.val_main_c_30,
    Cert.ReferenceIdeal.ReadP.val_main_v135,
    Cert.ReferenceIdeal.ReadP.val_main_v134,
    Cert.ReferenceIdeal.ReadP.val_main_c_31,
    Cert.ReferenceIdeal.ReadP.val_main_v150,
    Cert.ReferenceIdeal.ReadP.val_main_v149,
    Cert.ReferenceIdeal.ReadP.val_main_v148,
    Cert.ReferenceIdeal.ReadP.val_main_cst_36,
    Cert.ReferenceIdeal.ReadP.val_main_call6_v2,
    Cert.ReferenceIdeal.ReadP.val_main_call6_v0,
    Cert.ReferenceIdeal.ReadP.val_main_cst_37,
    Cert.ReferenceIdeal.ReadP.val_main_v173,
    Cert.ReferenceIdeal.ReadP.val_main_call7_v1,
    Cert.ReferenceIdeal.ReadP.val_main_v168,
    Cert.ReferenceIdeal.ReadP.val_main_v166,
    Cert.ReferenceIdeal.ReadP.val_main_v164,
    Cert.ReferenceIdeal.ReadP.val_main_cst_42,
    Cert.ReferenceIdeal.ReadP.val_main_v165,
    Cert.ReferenceIdeal.ReadP.val_main_v163,
    Cert.ReferenceIdeal.ReadP.val_main_cst_41,
    Cert.ReferenceIdeal.ReadP.val_main_v167,
    Cert.ReferenceIdeal.ReadP.val_main_cst_43,
    Cert.ReferenceIdeal.ReadP.val_main_v172,
    Cert.ReferenceIdeal.ReadP.val_main_v162,
    Cert.ReferenceIdeal.ReadP.val_main_v160,
    Cert.ReferenceIdeal.ReadP.val_main_cst_40,
    Cert.ReferenceIdeal.ReadP.val_main_v161,
    Cert.ReferenceIdeal.ReadP.val_main_v159,
    Cert.ReferenceIdeal.ReadP.val_main_v158,
    Cert.ReferenceIdeal.ReadP.val_main_v157,
    Cert.ReferenceIdeal.ReadP.val_main_v154,
    Cert.ReferenceIdeal.ReadP.val_main_v153,
    Cert.ReferenceIdeal.ReadP.val_main_c_38,
    Cert.ReferenceIdeal.ReadP.val_main_v156,
    Cert.ReferenceIdeal.ReadP.val_main_v155,
    Cert.ReferenceIdeal.ReadP.val_main_c_39,
    Cert.ReferenceIdeal.ReadP.val_main_v171,
    Cert.ReferenceIdeal.ReadP.val_main_v170,
    Cert.ReferenceIdeal.ReadP.val_main_v169,
    Cert.ReferenceIdeal.ReadP.val_main_cst_44,
    Cert.ReferenceIdeal.ReadP.val_main_call7_v2,
    Cert.ReferenceIdeal.ReadP.val_main_call7_v0,
    Cert.ReferenceIdeal.ReadP.val_main_cst_45,
    Cert.ReferenceIdeal.ReadP.val_main_call10_v0,
    Cert.ReferenceIdeal.ReadP.val_main_call10_cst]
  rfl

end Cert.KernelIdeal.Walk

end
-- ==== Proof.WalkD2.lean ====
/-
  Between the linear layers both programs run the same host operations: for each edge type the messages are
  gathered by source index (negative indices wrapped), summed by destination index, divided by the number of
  incoming edges where there is one and set to zero where there is none; the two edge types ending in one node type
  are added and the sum is rectified.  Reading the kernel program's stretch in one pass gives that composition over
  the layer's linear results and the index arguments; the linear results are the reference's stages, the arguments
  are the launch contents, so the composition is the reference's stage.
  The operations of the inlined `_where` and `relu` calls carry their values through a change of type that is the
  identity once the buffer is a literal one; each such transport is removed by its own small fact before the two
  compositions are compared.
-/
import proofs.«165804_j39522289058325_1_alg».proof.Proof.WalkC

set_option maxRecDepth 16384
set_option maxHeartbeats 16000000

noncomputable section

namespace Cert.KernelIdeal.Walk

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg) (c : Dev nD)

set_option maxRecDepth 65536 in
/-- After the aggregation stretch: the same host operations as the reference's, on values that agree. -/
theorem b_v207 : W42 m ρ c (Proc.devRef .tc main_v207) = Cert.ReferenceIdeal.ReadP.val_main_v219 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg23)) (m ((c : Thread nD τ).loc main_arg24)) (m ((c : Thread nD τ).loc main_arg27)) (m ((c : Thread nD τ).loc main_arg28)) := by
  have l0 : W31 m ρ c (Proc.devRef .tc main_v113) = Cert.ReferenceIdeal.ReadP.val_main_v121 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg10)) (m ((c : Thread nD τ).loc main_arg11)) (m ((c : Thread nD τ).loc main_arg13)) (m ((c : Thread nD τ).loc main_arg14)) (m ((c : Thread nD τ).loc main_arg17)) (m ((c : Thread nD τ).loc main_arg18)) (m ((c : Thread nD τ).loc main_arg23)) (m ((c : Thread nD τ).loc main_arg24)) :=
    ((Keep.keep30 m ρ c main_v113 (by decide)).trans ((Keep.keep29 m ρ c main_v113 (by decide)).trans ((Keep.keep28 m ρ c main_v113 (by decide)).trans (Keep.keep27 m ρ c main_v113 (by decide))))).trans (b_v113 m ρ c)
  have l1 : W31 m ρ c (Proc.devRef .tc main_v119) = Cert.ReferenceIdeal.ReadP.val_main_v131 (F := Ideal) (m ((c : Thread nD τ).loc main_arg0)) (m ((c : Thread nD τ).loc main_arg1)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg15)) (m ((c : Thread nD τ).loc main_arg16)) (m ((c : Thread nD τ).loc main_arg19)) (m ((c : Thread nD τ).loc main_arg20)) (m ((c : Thread nD τ).loc main_arg27)) (m ((c : Thread nD τ).loc main_arg28)) :=
    b_v119 m ρ c
  have a4 : W31 m ρ c (Proc.devRef .tc main_arg4) = (m ((c : Thread nD τ).loc main_arg4)) := (((Keep.keep30 m ρ c main_arg4 (by decide)).trans ((Keep.keep29 m ρ c main_arg4 (by decide)).trans ((Keep.keep28 m ρ c main_arg4 (by decide)).trans ((Keep.keep27 m ρ c main_arg4 (by decide)).trans ((Keep.keep26 m ρ c main_arg4 (by decide)).trans ((Keep.keep25 m ρ c main_arg4 (by decide)).trans ((Keep.keep24 m ρ c main_arg4 (by decide)).trans ((Keep.keep23 m ρ c main_arg4 (by decide)).trans ((Keep.keep22 m ρ c main_arg4 (by decide)).trans ((Keep.keep21 m ρ c main_arg4 (by decide)).trans ((Keep.keep20 m ρ c main_arg4 (by decide)).trans ((Keep.keep19 m ρ c main_arg4 (by decide)).trans ((Keep.keep18 m ρ c main_arg4 (by decide)).trans ((Keep.keep17 m ρ c main_arg4 (by decide)).trans ((Keep.keep16 m ρ c main_arg4 (by decide)).trans ((Keep.keep15 m ρ c main_arg4 (by decide)).trans ((Keep.keep14 m ρ c main_arg4 (by decide)).trans ((Keep.keep13 m ρ c main_arg4 (by decide)).trans ((Keep.keep12 m ρ c main_arg4 (by decide)).trans ((Keep.keep11 m ρ c main_arg4 (by decide)).trans ((Keep.keep10 m ρ c main_arg4 (by decide)).trans ((Keep.keep9 m ρ c main_arg4 (by decide)).trans ((Keep.keep8 m ρ c main_arg4 (by decide)).trans ((Keep.keep7 m ρ c main_arg4 (by decide)).trans ((Keep.keep6 m ρ c main_arg4 (by decide)).trans ((Keep.keep5 m ρ c main_arg4 (by decide)).trans ((Keep.keep4 m ρ c main_arg4 (by decide)).trans ((Keep.keep3 m ρ c main_arg4 (by decide)).trans ((Keep.keep2 m ρ c main_arg4 (by decide)).trans ((Keep.keep1 m ρ c main_arg4 (by decide)).trans (Keep.keep0 m ρ c main_arg4 (by decide)))))))))))))))))))))))))))))))).trans rfl)
  have a5 : W31 m ρ c (Proc.devRef .tc main_arg5) = (m ((c : Thread nD τ).loc main_arg5)) := (((Keep.keep30 m ρ c main_arg5 (by decide)).trans ((Keep.keep29 m ρ c main_arg5 (by decide)).trans ((Keep.keep28 m ρ c main_arg5 (by decide)).trans ((Keep.keep27 m ρ c main_arg5 (by decide)).trans ((Keep.keep26 m ρ c main_arg5 (by decide)).trans ((Keep.keep25 m ρ c main_arg5 (by decide)).trans ((Keep.keep24 m ρ c main_arg5 (by decide)).trans ((Keep.keep23 m ρ c main_arg5 (by decide)).trans ((Keep.keep22 m ρ c main_arg5 (by decide)).trans ((Keep.keep21 m ρ c main_arg5 (by decide)).trans ((Keep.keep20 m ρ c main_arg5 (by decide)).trans ((Keep.keep19 m ρ c main_arg5 (by decide)).trans ((Keep.keep18 m ρ c main_arg5 (by decide)).trans ((Keep.keep17 m ρ c main_arg5 (by decide)).trans ((Keep.keep16 m ρ c main_arg5 (by decide)).trans ((Keep.keep15 m ρ c main_arg5 (by decide)).trans ((Keep.keep14 m ρ c main_arg5 (by decide)).trans ((Keep.keep13 m ρ c main_arg5 (by decide)).trans ((Keep.keep12 m ρ c main_arg5 (by decide)).trans ((Keep.keep11 m ρ c main_arg5 (by decide)).trans ((Keep.keep10 m ρ c main_arg5 (by decide)).trans ((Keep.keep9 m ρ c main_arg5 (by decide)).trans ((Keep.keep8 m ρ c main_arg5 (by decide)).trans ((Keep.keep7 m ρ c main_arg5 (by decide)).trans ((Keep.keep6 m ρ c main_arg5 (by decide)).trans ((Keep.keep5 m ρ c main_arg5 (by decide)).trans ((Keep.keep4 m ρ c main_arg5 (by decide)).trans ((Keep.keep3 m ρ c main_arg5 (by decide)).trans ((Keep.keep2 m ρ c main_arg5 (by decide)).trans ((Keep.keep1 m ρ c main_arg5 (by decide)).trans (Keep.keep0 m ρ c main_arg5 (by decide)))))))))))))))))))))))))))))))).trans rfl)
  have a8 : W31 m ρ c (Proc.devRef .tc main_arg8) = (m ((c : Thread nD τ).loc main_arg8)) := (((Keep.keep30 m ρ c main_arg8 (by decide)).trans ((Keep.keep29 m ρ c main_arg8 (by decide)).trans ((Keep.keep28 m ρ c main_arg8 (by decide)).trans ((Keep.keep27 m ρ c main_arg8 (by decide)).trans ((Keep.keep26 m ρ c main_arg8 (by decide)).trans ((Keep.keep25 m ρ c main_arg8 (by decide)).trans ((Keep.keep24 m ρ c main_arg8 (by decide)).trans ((Keep.keep23 m ρ c main_arg8 (by decide)).trans ((Keep.keep22 m ρ c main_arg8 (by decide)).trans ((Keep.keep21 m ρ c main_arg8 (by decide)).trans ((Keep.keep20 m ρ c main_arg8 (by decide)).trans ((Keep.keep19 m ρ c main_arg8 (by decide)).trans ((Keep.keep18 m ρ c main_arg8 (by decide)).trans ((Keep.keep17 m ρ c main_arg8 (by decide)).trans ((Keep.keep16 m ρ c main_arg8 (by decide)).trans ((Keep.keep15 m ρ c main_arg8 (by decide)).trans ((Keep.keep14 m ρ c main_arg8 (by decide)).trans ((Keep.keep13 m ρ c main_arg8 (by decide)).trans ((Keep.keep12 m ρ c main_arg8 (by decide)).trans ((Keep.keep11 m ρ c main_arg8 (by decide)).trans ((Keep.keep10 m ρ c main_arg8 (by decide)).trans ((Keep.keep9 m ρ c main_arg8 (by decide)).trans ((Keep.keep8 m ρ c main_arg8 (by decide)).trans ((Keep.keep7 m ρ c main_arg8 (by decide)).trans ((Keep.keep6 m ρ c main_arg8 (by decide)).trans ((Keep.keep5 m ρ c main_arg8 (by decide)).trans ((Keep.keep4 m ρ c main_arg8 (by decide)).trans ((Keep.keep3 m ρ c main_arg8 (by decide)).trans ((Keep.keep2 m ρ c main_arg8 (by decide)).trans ((Keep.keep1 m ρ c main_arg8 (by decide)).trans (Keep.keep0 m ρ c main_arg8 (by decide)))))))))))))))))))))))))))))))).trans rfl)
  have a9 : W31 m ρ c (Proc.devRef .tc main_arg9) = (m ((c : Thread nD τ).loc main_arg9)) := (((Keep.keep30 m ρ c main_arg9 (by decide)).trans ((Keep.keep29 m ρ c main_arg9 (by decide)).trans ((Keep.keep28 m ρ c main_arg9 (by decide)).trans ((Keep.keep27 m ρ c main_arg9 (by decide)).trans ((Keep.keep26 m ρ c main_arg9 (by decide)).trans ((Keep.keep25 m ρ c main_arg9 (by decide)).trans ((Keep.keep24 m ρ c main_arg9 (by decide)).trans ((Keep.keep23 m ρ c main_arg9 (by decide)).trans ((Keep.keep22 m ρ c main_arg9 (by decide)).trans ((Keep.keep21 m ρ c main_arg9 (by decide)).trans ((Keep.keep20 m ρ c main_arg9 (by decide)).trans ((Keep.keep19 m ρ c main_arg9 (by decide)).trans ((Keep.keep18 m ρ c main_arg9 (by decide)).trans ((Keep.keep17 m ρ c main_arg9 (by decide)).trans ((Keep.keep16 m ρ c main_arg9 (by decide)).trans ((Keep.keep15 m ρ c main_arg9 (by decide)).trans ((Keep.keep14 m ρ c main_arg9 (by decide)).trans ((Keep.keep13 m ρ c main_arg9 (by decide)).trans ((Keep.keep12 m ρ c main_arg9 (by decide)).trans ((Keep.keep11 m ρ c main_arg9 (by decide)).trans ((Keep.keep10 m ρ c main_arg9 (by decide)).trans ((Keep.keep9 m ρ c main_arg9 (by decide)).trans ((Keep.keep8 m ρ c main_arg9 (by decide)).trans ((Keep.keep7 m ρ c main_arg9 (by decide)).trans ((Keep.keep6 m ρ c main_arg9 (by decide)).trans ((Keep.keep5 m ρ c main_arg9 (by decide)).trans ((Keep.keep4 m ρ c main_arg9 (by decide)).trans ((Keep.keep3 m ρ c main_arg9 (by decide)).trans ((Keep.keep2 m ρ c main_arg9 (by decide)).trans ((Keep.keep1 m ρ c main_arg9 (by decide)).trans (Keep.keep0 m ρ c main_arg9 (by decide)))))))))))))))))))))))))))))))).trans rfl)
  dsimp only [W42, W41, W40, W39, W38, W37, W36, W35, W34, W33, W32]
  after_results_simp
  rw [l0, l1, a4, a5, a8, a9]
  have ct0 : ∀ v : (⟨S_, .f32⟩ : BufTy).Contents (Elt Ideal), (StableHlo.TRef.of (sig := sig) (T := ⟨S_, .f32⟩) main_cst_39).toBuf v = v := fun _ => rfl
  have co0 : ∀ v : (main_cst_39 : Ref sig .tc).ty.Contents (Elt Ideal), (StableHlo.TRef.of (sig := sig) (T := ⟨S_, .f32⟩) main_cst_39).ofBuf v = v := fun _ => rfl
  have ct1 : ∀ v : (⟨S_, .f32⟩ : BufTy).Contents (Elt Ideal), (StableHlo.TRef.of (sig := sig) (T := ⟨S_, .f32⟩) main_call6_v0).toBuf v = v := fun _ => rfl
  have co1 : ∀ v : (main_call6_v0 : Ref sig .tc).ty.Contents (Elt Ideal), (StableHlo.TRef.of (sig := sig) (T := ⟨S_, .f32⟩) main_call6_v0).ofBuf v = v := fun _ => rfl
  have ct2 : ∀ v : (⟨S10000x1, .i1⟩ : BufTy).Contents (Elt Ideal), (StableHlo.TRef.of (sig := sig) (T := ⟨S10000x1, .i1⟩) main_v135).toBuf v = v := fun _ => rfl
  have co2 : ∀ v : (main_v135 : Ref sig .tc).ty.Contents (Elt Ideal), (StableHlo.TRef.of (sig := sig) (T := ⟨S10000x1, .i1⟩) main_v135).ofBuf v = v := fun _ => rfl
  have ct3 : ∀ v : (⟨S10000x32, .i1⟩ : BufTy).Contents (Elt Ideal), (StableHlo.TRef.of (sig := sig) (T := ⟨S10000x32, .i1⟩) main_call6_v1).toBuf v = v := fun _ => rfl
  have co3 : ∀ v : (main_call6_v1 : Ref sig .tc).ty.Contents (Elt Ideal), (StableHlo.TRef.of (sig := sig) (T := ⟨S10000x32, .i1⟩) main_call6_v1).ofBuf v = v := fun _ => rfl
  have ct4 : ∀ v : (⟨S10000x32, .f32⟩ : BufTy).Contents (Elt Ideal), (StableHlo.TRef.of (sig := sig) (T := ⟨S10000x32, .f32⟩) main_call6_v2).toBuf v = v := fun _ => rfl
  have co4 : ∀ v : (main_call6_v2 : Ref sig .tc).ty.Contents (Elt Ideal), (StableHlo.TRef.of (sig := sig) (T := ⟨S10000x32, .f32⟩) main_call6_v2).ofBuf v = v := fun _ => rfl
  have ct5 : ∀ v : (⟨S10000x32, .f32⟩ : BufTy).Contents (Elt Ideal), (StableHlo.TRef.of (sig := sig) (T := ⟨S10000x32, .f32⟩) main_v139).toBuf v = v := fun _ => rfl
  have co5 : ∀ v : (main_v139 : Ref sig .tc).ty.Contents (Elt Ideal), (StableHlo.TRef.of (sig := sig) (T := ⟨S10000x32, .f32⟩) main_v139).ofBuf v = v := fun _ => rfl
  have ct6 : ∀ v : (⟨S10000x32, .f32⟩ : BufTy).Contents (Elt Ideal), (StableHlo.TRef.of (sig := sig) (T := ⟨S10000x32, .f32⟩) main_v140).toBuf v = v := fun _ => rfl
  have co6 : ∀ v : (main_v140 : Ref sig .tc).ty.Contents (Elt Ideal), (StableHlo.TRef.of (sig := sig) (T := ⟨S10000x32, .f32⟩) main_v140).ofBuf v = v := fun _ => rfl
  have ct7 : ∀ v : (⟨S_, .f32⟩ : BufTy).Contents (Elt Ideal), (StableHlo.TRef.of (sig := sig) (T := ⟨S_, .f32⟩) main_cst_47).toBuf v = v := fun _ => rfl
  have co7 : ∀ v : (main_cst_47 : Ref sig .tc).ty.Contents (Elt Ideal), (StableHlo.TRef.of (sig := sig) (T := ⟨S_, .f32⟩) main_cst_47).ofBuf v = v := fun _ => rfl
  have ct8 : ∀ v : (⟨S_, .f32⟩ : BufTy).Contents (Elt Ideal), (StableHlo.TRef.of (sig := sig) (T := ⟨S_, .f32⟩) main_call7_v0).toBuf v = v := fun _ => rfl
  have co8 : ∀ v : (main_call7_v0 : Ref sig .tc).ty.Contents (Elt Ideal), (StableHlo.TRef.of (sig := sig) (T := ⟨S_, .f32⟩) main_call7_v0).ofBuf v = v := fun _ => rfl
  have ct9 : ∀ v : (⟨S10000x1, .i1⟩ : BufTy).Contents (Elt Ideal), (StableHlo.TRef.of (sig := sig) (T := ⟨S10000x1, .i1⟩) main_v156).toBuf v = v := fun _ => rfl
  have co9 : ∀ v : (main_v156 : Ref sig .tc).ty.Contents (Elt Ideal), (StableHlo.TRef.of (sig := sig) (T := ⟨S10000x1, .i1⟩) main_v156).ofBuf v = v := fun _ => rfl
  have ct10 : ∀ v : (⟨S10000x32, .i1⟩ : BufTy).Contents (Elt Ideal), (StableHlo.TRef.of (sig := sig) (T := ⟨S10000x32, .i1⟩) main_call7_v1).toBuf v = v := fun _ => rfl
  have co10 : ∀ v : (main_call7_v1 : Ref sig .tc).ty.Contents (Elt Ideal), (StableHlo.TRef.of (sig := sig) (T := ⟨S10000x32, .i1⟩) main_call7_v1).ofBuf v = v := fun _ => rfl
  have ct11 : ∀ v : (⟨S10000x32, .f32⟩ : BufTy).Contents (Elt Ideal), (StableHlo.TRef.of (sig := sig) (T := ⟨S10000x32, .f32⟩) main_call7_v2).toBuf v = v := fun _ => rfl
  have co11 : ∀ v : (main_call7_v2 : Ref sig .tc).ty.Contents (Elt Ideal), (StableHlo.TRef.of (sig := sig) (T := ⟨S10000x32, .f32⟩) main_call7_v2).ofBuf v = v := fun _ => rfl
  have ct12 : ∀ v : (⟨S10000x32, .f32⟩ : BufTy).Contents (Elt Ideal), (StableHlo.TRef.of (sig := sig) (T := ⟨S10000x32, .f32⟩) main_v160).toBuf v = v := fun _ => rfl
  have co12 : ∀ v : (main_v160 : Ref sig .tc).ty.Contents (Elt Ideal), (StableHlo.TRef.of (sig := sig) (T := ⟨S10000x32, .f32⟩) main_v160).ofBuf v = v := fun _ => rfl
  have ct13 : ∀ v : (⟨S10000x32, .f32⟩ : BufTy).Contents (Elt Ideal), (StableHlo.TRef.of (sig := sig) (T := ⟨S10000x32, .f32⟩) main_v161).toBuf v = v := fun _ => rfl
  have co13 : ∀ v : (main_v161 : Ref sig .tc).ty.Contents (Elt Ideal), (StableHlo.TRef.of (sig := sig) (T := ⟨S10000x32, .f32⟩) main_v161).ofBuf v = v := fun _ => rfl
  have ct14 : ∀ v : (⟨S_, .f32⟩ : BufTy).Contents (Elt Ideal), (StableHlo.TRef.of (sig := sig) (T := ⟨S_, .f32⟩) main_cst_55).toBuf v = v := fun _ => rfl
  have co14 : ∀ v : (main_cst_55 : Ref sig .tc).ty.Contents (Elt Ideal), (StableHlo.TRef.of (sig := sig) (T := ⟨S_, .f32⟩) main_cst_55).ofBuf v = v := fun _ => rfl
  have ct15 : ∀ v : (⟨S_, .f32⟩ : BufTy).Contents (Elt Ideal), (StableHlo.TRef.of (sig := sig) (T := ⟨S_, .f32⟩) main_call8_v0).toBuf v = v := fun _ => rfl
  have co15 : ∀ v : (main_call8_v0 : Ref sig .tc).ty.Contents (Elt Ideal), (StableHlo.TRef.of (sig := sig) (T := ⟨S_, .f32⟩) main_call8_v0).ofBuf v = v := fun _ => rfl
  have ct16 : ∀ v : (⟨S10000x1, .i1⟩ : BufTy).Contents (Elt Ideal), (StableHlo.TRef.of (sig := sig) (T := ⟨S10000x1, .i1⟩) main_v178).toBuf v = v := fun _ => rfl
  have co16 : ∀ v : (main_v178 : Ref sig .tc).ty.Contents (Elt Ideal), (StableHlo.TRef.of (sig := sig) (T := ⟨S10000x1, .i1⟩) main_v178).ofBuf v = v := fun _ => rfl
  have ct17 : ∀ v : (⟨S10000x32, .i1⟩ : BufTy).Contents (Elt Ideal), (StableHlo.TRef.of (sig := sig) (T := ⟨S10000x32, .i1⟩) main_call8_v1).toBuf v = v := fun _ => rfl
  have co17 : ∀ v : (main_call8_v1 : Ref sig .tc).ty.Contents (Elt Ideal), (StableHlo.TRef.of (sig := sig) (T := ⟨S10000x32, .i1⟩) main_call8_v1).ofBuf v = v := fun _ => rfl
  have ct18 : ∀ v : (⟨S10000x32, .f32⟩ : BufTy).Contents (Elt Ideal), (StableHlo.TRef.of (sig := sig) (T := ⟨S10000x32, .f32⟩) main_call8_v2).toBuf v = v := fun _ => rfl
  have co18 : ∀ v : (main_call8_v2 : Ref sig .tc).ty.Contents (Elt Ideal), (StableHlo.TRef.of (sig := sig) (T := ⟨S10000x32, .f32⟩) main_call8_v2).ofBuf v = v := fun _ => rfl
  have ct19 : ∀ v : (⟨S10000x32, .f32⟩ : BufTy).Contents (Elt Ideal), (StableHlo.TRef.of (sig := sig) (T := ⟨S10000x32, .f32⟩) main_v182).toBuf v = v := fun _ => rfl
  have co19 : ∀ v : (main_v182 : Ref sig .tc).ty.Contents (Elt Ideal), (StableHlo.TRef.of (sig := sig) (T := ⟨S10000x32, .f32⟩) main_v182).ofBuf v = v := fun _ => rfl
  have ct20 : ∀ v : (⟨S10000x32, .f32⟩ : BufTy).Contents (Elt Ideal), (StableHlo.TRef.of (sig := sig) (T := ⟨S10000x32, .f32⟩) main_v183).toBuf v = v := fun _ => rfl
  have co20 : ∀ v : (main_v183 : Ref sig .tc).ty.Contents (Elt Ideal), (StableHlo.TRef.of (sig := sig) (T := ⟨S10000x32, .f32⟩) main_v183).ofBuf v = v := fun _ => rfl
  have ct21 : ∀ v : (⟨S_, .f32⟩ : BufTy).Contents (Elt Ideal), (StableHlo.TRef.of (sig := sig) (T := ⟨S_, .f32⟩) main_cst_63).toBuf v = v := fun _ => rfl
  have co21 : ∀ v : (main_cst_63 : Ref sig .tc).ty.Contents (Elt Ideal), (StableHlo.TRef.of (sig := sig) (T := ⟨S_, .f32⟩) main_cst_63).ofBuf v = v := fun _ => rfl
  have ct22 : ∀ v : (⟨S_, .f32⟩ : BufTy).Contents (Elt Ideal), (StableHlo.TRef.of (sig := sig) (T := ⟨S_, .f32⟩) main_call9_v0).toBuf v = v := fun _ => rfl
  have co22 : ∀ v : (main_call9_v0 : Ref sig .tc).ty.Contents (Elt Ideal), (StableHlo.TRef.of (sig := sig) (T := ⟨S_, .f32⟩) main_call9_v0).ofBuf v = v := fun _ => rfl
  have ct23 : ∀ v : (⟨S10000x1, .i1⟩ : BufTy).Contents (Elt Ideal), (StableHlo.TRef.of (sig := sig) (T := ⟨S10000x1, .i1⟩) main_v199).toBuf v = v := fun _ => rfl
  have co23 : ∀ v : (main_v199 : Ref sig .tc).ty.Contents (Elt Ideal), (StableHlo.TRef.of (sig := sig) (T := ⟨S10000x1, .i1⟩) main_v199).ofBuf v = v := fun _ => rfl
  have ct24 : ∀ v : (⟨S10000x32, .i1⟩ : BufTy).Contents (Elt Ideal), (StableHlo.TRef.of (sig := sig) (T := ⟨S10000x32, .i1⟩) main_call9_v1).toBuf v = v := fun _ => rfl
  have co24 : ∀ v : (main_call9_v1 : Ref sig .tc).ty.Contents (Elt Ideal), (StableHlo.TRef.of (sig := sig) (T := ⟨S10000x32, .i1⟩) main_call9_v1).ofBuf v = v := fun _ => rfl
  have ct25 : ∀ v : (⟨S10000x32, .f32⟩ : BufTy).Contents (Elt Ideal), (StableHlo.TRef.of (sig := sig) (T := ⟨S10000x32, .f32⟩) main_call9_v2).toBuf v = v := fun _ => rfl
  have co25 : ∀ v : (main_call9_v2 : Ref sig .tc).ty.Contents (Elt Ideal), (StableHlo.TRef.of (sig := sig) (T := ⟨S10000x32, .f32⟩) main_call9_v2).ofBuf v = v := fun _ => rfl
  have ct26 : ∀ v : (⟨S10000x32, .f32⟩ : BufTy).Contents (Elt Ideal), (StableHlo.TRef.of (sig := sig) (T := ⟨S10000x32, .f32⟩) main_v203).toBuf v = v := fun _ => rfl
  have co26 : ∀ v : (main_v203 : Ref sig .tc).ty.Contents (Elt Ideal), (StableHlo.TRef.of (sig := sig) (T := ⟨S10000x32, .f32⟩) main_v203).ofBuf v = v := fun _ => rfl
  have ct27 : ∀ v : (⟨S10000x32, .f32⟩ : BufTy).Contents (Elt Ideal), (StableHlo.TRef.of (sig := sig) (T := ⟨S10000x32, .f32⟩) main_v204).toBuf v = v := fun _ => rfl
  have co27 : ∀ v : (main_v204 : Ref sig .tc).ty.Contents (Elt Ideal), (StableHlo.TRef.of (sig := sig) (T := ⟨S10000x32, .f32⟩) main_v204).ofBuf v = v := fun _ => rfl
  have ct28 : ∀ v : (⟨S_, .f32⟩ : BufTy).Contents (Elt Ideal), (StableHlo.TRef.of (sig := sig) (T := ⟨S_, .f32⟩) main_call10_cst).toBuf v = v := fun _ => rfl
  have co28 : ∀ v : (main_call10_cst : Ref sig .tc).ty.Contents (Elt Ideal), (StableHlo.TRef.of (sig := sig) (T := ⟨S_, .f32⟩) main_call10_cst).ofBuf v = v := fun _ => rfl
  have ct29 : ∀ v : (⟨S10000x32, .f32⟩ : BufTy).Contents (Elt Ideal), (StableHlo.TRef.of (sig := sig) (T := ⟨S10000x32, .f32⟩) main_call10_v0).toBuf v = v := fun _ => rfl
  have co29 : ∀ v : (main_call10_v0 : Ref sig .tc).ty.Contents (Elt Ideal), (StableHlo.TRef.of (sig := sig) (T := ⟨S10000x32, .f32⟩) main_call10_v0).ofBuf v = v := fun _ => rfl
  have ct30 : ∀ v : (⟨S10000x32, .f32⟩ : BufTy).Contents (Elt Ideal), (StableHlo.TRef.of (sig := sig) (T := ⟨S10000x32, .f32⟩) main_v162).toBuf v = v := fun _ => rfl
  have co30 : ∀ v : (main_v162 : Ref sig .tc).ty.Contents (Elt Ideal), (StableHlo.TRef.of (sig := sig) (T := ⟨S10000x32, .f32⟩) main_v162).ofBuf v = v := fun _ => rfl
  have ct31 : ∀ v : (⟨S10000x32, .f32⟩ : BufTy).Contents (Elt Ideal), (StableHlo.TRef.of (sig := sig) (T := ⟨S10000x32, .f32⟩) main_v206).toBuf v = v := fun _ => rfl
  have co31 : ∀ v : (main_v206 : Ref sig .tc).ty.Contents (Elt Ideal), (StableHlo.TRef.of (sig := sig) (T := ⟨S10000x32, .f32⟩) main_v206).ofBuf v = v := fun _ => rfl
  have ct32 : ∀ v : (⟨S_, .f32⟩ : BufTy).Contents (Elt Ideal), (StableHlo.TRef.of (sig := sig) (T := ⟨S_, .f32⟩) main_call11_cst).toBuf v = v := fun _ => rfl
  have co32 : ∀ v : (main_call11_cst : Ref sig .tc).ty.Contents (Elt Ideal), (StableHlo.TRef.of (sig := sig) (T := ⟨S_, .f32⟩) main_call11_cst).ofBuf v = v := fun _ => rfl
  have ct33 : ∀ v : (⟨S10000x32, .f32⟩ : BufTy).Contents (Elt Ideal), (StableHlo.TRef.of (sig := sig) (T := ⟨S10000x32, .f32⟩) main_call11_v0).toBuf v = v := fun _ => rfl
  have co33 : ∀ v : (main_call11_v0 : Ref sig .tc).ty.Contents (Elt Ideal), (StableHlo.TRef.of (sig := sig) (T := ⟨S10000x32, .f32⟩) main_call11_v0).ofBuf v = v := fun _ => rfl
  have ct34 : ∀ v : (⟨S10000x32, .f32⟩ : BufTy).Contents (Elt Ideal), (StableHlo.TRef.of (sig := sig) (T := ⟨S10000x32, .f32⟩) main_v205).toBuf v = v := fun _ => rfl
  have co34 : ∀ v : (main_v205 : Ref sig .tc).ty.Contents (Elt Ideal), (StableHlo.TRef.of (sig := sig) (T := ⟨S10000x32, .f32⟩) main_v205).ofBuf v = v := fun _ => rfl
  have ct35 : ∀ v : (⟨S10000x32, .f32⟩ : BufTy).Contents (Elt Ideal), (StableHlo.TRef.of (sig := sig) (T := ⟨S10000x32, .f32⟩) main_v207).toBuf v = v := fun _ => rfl
  have co35 : ∀ v : (main_v207 : Ref sig .tc).ty.Contents (Elt Ideal), (StableHlo.TRef.of (sig := sig) (T := ⟨S10000x32, .f32⟩) main_v207).ofBuf v = v := fun _ => rfl
  simp only [ct0, co0, ct1, co1, ct2, co2, ct3, co3, ct4, co4, ct5, co5, ct6, co6, ct7, co7, ct8, co8, ct9, co9, ct10, co10, ct11, co11, ct12, co12, ct13, co13, ct14, co14, ct15, co15, ct16, co16, ct17, co17, ct18, co18, ct19, co19, ct20, co20, ct21, co21, ct22, co22, ct23, co23, ct24, co24, ct25, co25, ct26, co26, ct27, co27, ct28, co28, ct29, co29, ct30, co30, ct31, co31, ct32, co32, ct33, co33, ct34, co34, ct35, co35]
  simp only [Cert.ReferenceIdeal.ReadP.val_main_v219,
    Cert.ReferenceIdeal.ReadP.val_main_v217,
    Cert.ReferenceIdeal.ReadP.val_main_v195,
    Cert.ReferenceIdeal.ReadP.val_main_call8_v1,
    Cert.ReferenceIdeal.ReadP.val_main_v190,
    Cert.ReferenceIdeal.ReadP.val_main_v188,
    Cert.ReferenceIdeal.ReadP.val_main_v186,
    Cert.ReferenceIdeal.ReadP.val_main_cst_50,
    Cert.ReferenceIdeal.ReadP.val_main_v187,
    Cert.ReferenceIdeal.ReadP.val_main_v185,
    Cert.ReferenceIdeal.ReadP.val_main_cst_49,
    Cert.ReferenceIdeal.ReadP.val_main_v189,
    Cert.ReferenceIdeal.ReadP.val_main_cst_51,
    Cert.ReferenceIdeal.ReadP.val_main_v194,
    Cert.ReferenceIdeal.ReadP.val_main_v184,
    Cert.ReferenceIdeal.ReadP.val_main_v182,
    Cert.ReferenceIdeal.ReadP.val_main_cst_48,
    Cert.ReferenceIdeal.ReadP.val_main_v183,
    Cert.ReferenceIdeal.ReadP.val_main_v181,
    Cert.ReferenceIdeal.ReadP.val_main_v180,
    Cert.ReferenceIdeal.ReadP.val_main_v179,
    Cert.ReferenceIdeal.ReadP.val_main_v176,
    Cert.ReferenceIdeal.ReadP.val_main_v175,
    Cert.ReferenceIdeal.ReadP.val_main_c_46,
    Cert.ReferenceIdeal.ReadP.val_main_v178,
    Cert.ReferenceIdeal.ReadP.val_main_v177,
    Cert.ReferenceIdeal.ReadP.val_main_c_47,
    Cert.ReferenceIdeal.ReadP.val_main_v193,
    Cert.ReferenceIdeal.ReadP.val_main_v192,
    Cert.ReferenceIdeal.ReadP.val_main_v191,
    Cert.ReferenceIdeal.ReadP.val_main_cst_52,
    Cert.ReferenceIdeal.ReadP.val_main_call8_v2,
    Cert.ReferenceIdeal.ReadP.val_main_call8_v0,
    Cert.ReferenceIdeal.ReadP.val_main_cst_53,
    Cert.ReferenceIdeal.ReadP.val_main_v216,
    Cert.ReferenceIdeal.ReadP.val_main_call9_v1,
    Cert.ReferenceIdeal.ReadP.val_main_v211,
    Cert.ReferenceIdeal.ReadP.val_main_v209,
    Cert.ReferenceIdeal.ReadP.val_main_v207,
    Cert.ReferenceIdeal.ReadP.val_main_cst_58,
    Cert.ReferenceIdeal.ReadP.val_main_v208,
    Cert.ReferenceIdeal.ReadP.val_main_v206,
    Cert.ReferenceIdeal.ReadP.val_main_cst_57,
    Cert.ReferenceIdeal.ReadP.val_main_v210,
    Cert.ReferenceIdeal.ReadP.val_main_cst_59,
    Cert.ReferenceIdeal.ReadP.val_main_v215,
    Cert.ReferenceIdeal.ReadP.val_main_v205,
    Cert.ReferenceIdeal.ReadP.val_main_v203,
    Cert.ReferenceIdeal.ReadP.val_main_cst_56,
    Cert.ReferenceIdeal.ReadP.val_main_v204,
    Cert.ReferenceIdeal.ReadP.val_main_v202,
    Cert.ReferenceIdeal.ReadP.val_main_v201,
    Cert.ReferenceIdeal.ReadP.val_main_v200,
    Cert.ReferenceIdeal.ReadP.val_main_v197,
    Cert.ReferenceIdeal.ReadP.val_main_v196,
    Cert.ReferenceIdeal.ReadP.val_main_c_54,
    Cert.ReferenceIdeal.ReadP.val_main_v199,
    Cert.ReferenceIdeal.ReadP.val_main_v198,
    Cert.ReferenceIdeal.ReadP.val_main_c_55,
    Cert.ReferenceIdeal.ReadP.val_main_v214,
    Cert.ReferenceIdeal.ReadP.val_main_v213,
    Cert.ReferenceIdeal.ReadP.val_main_v212,
    Cert.ReferenceIdeal.ReadP.val_main_cst_60,
    Cert.ReferenceIdeal.ReadP.val_main_call9_v2,
    Cert.ReferenceIdeal.ReadP.val_main_call9_v0,
    Cert.ReferenceIdeal.ReadP.val_main_cst_61,
    Cert.ReferenceIdeal.ReadP.val_main_call11_v0,
    Cert.ReferenceIdeal.ReadP.val_main_call11_cst]
  rfl

end Cert.KernelIdeal.Walk

end
-- ==== Proof.Lin10.lean ====
/-
  Pallas call 10 of the program is a linear layer over a node table of 10000 rows, taken 1000 rows at a time.
  At grid point `t` the body sees rows `1000·t … 1000·t + 999` of the table (all 32 columns), the whole
  32 × 32 weight matrix and the whole 1 × 32 bias row, and stores `block · weight + bias`; the ten output
  blocks tile the 10000 × 32 result.  So after the call the result array is `Hetero.lin` of the three input
  arrays as the call found them: row `r` of the result depends on row `r` of the table only, and the row's block
  is the one numbered `r / 1000`.
-/
import proofs.«165804_j39522289058325_1_alg».proof.Proof.Gen.KernelIdeal.Frame
import proofs.«165804_j39522289058325_1_alg».proof.Proof.Spec

set_option maxRecDepth 16384

noncomputable section

namespace Cert.KernelIdeal.Lin10

open Cert.KernelIdeal Cert.KernelIdeal.Gen Idealize.ShloMosaic Idealize.ShloMosaic.TcCoe Idealize.ShloMosaic.ValueIdx
open Idealize.SL.Sem
open Idealize.ShloMosaic.Pipeline (Dat)

theorem hz : (![0, 0] : Fin 2 → Nat) = fun _ => 0 := funext fun a => by fin_cases a <;> rfl

/-- The body's value at row `r`, column `c` of its block: the casts are the identity on the extended reals, the
    product into the zero accumulator is the sum over the contraction, the bias row is read at its column. -/
theorem pay_apply (x0 : Vec Ideal S1000x32 .f32) (x1 : Vec Ideal S32x32 .f32) (x2 : Vec Ideal S1x32 .f32)
    (r : Fin 1000) (c : Fin 32) :
    k10_pay1 (F := Ideal) x0 x1 x2 (ix2 r c)
      = (∑ k : Fin 32, x0 (ix2 r k) * x1 (ix2 k c)) + x2 (ix2 (0 : Fin 1) c) := by
  unfold k10_pay1
  simp only [shapeCast_self]
  rw [addf_apply, broadcastTo_1b_ab_apply]
  exact congrArg (· + x2 (ix2 (0 : Fin 1) c))
    (matmul_zero_rows dot_S1000x32_S32x32_S1000x32_1_0_0_1_n_n none rfl rfl (fun _ _ => rfl) (fun _ _ => rfl) (fun _ _ => rfl) (fun _ _ => rfl)
      (truncf .bf16 x0 bitsLt_bf16_f32) (truncf .bf16 x1 bitsLt_bf16_f32) r c)

/-- A block's value at an entry is the layer's value at the array entry it stands for, once the block's row, the
    weight column and the bias column are the array's. -/
theorem pay_block (X : S10000x32.Idx → EReal) (W : S32x32.Idx → EReal) (B : S1x32.Idx → EReal)
    (x0 : Vec Ideal S1000x32 .f32) (x1 : Vec Ideal S32x32 .f32) (x2 : Vec Ideal S1x32 .f32)
    (i : S10000x32.Idx) (y : S1000x32.Idx)
    (h0 : ∀ k : Fin 32, x0 (ix2 (y 0) k) = X (ix2 (i 0) k))
    (h1 : ∀ k : Fin 32, x1 (ix2 k (y 1)) = W (ix2 k (i 1)))
    (h2 : x2 (ix2 (0 : Fin 1) (y 1)) = B (ix2 (0 : Fin 1) (i 1))) :
    k10_pay1 (F := Ideal) x0 x1 x2 y = Hetero.lin X W B i := by
  have e : k10_pay1 (F := Ideal) x0 x1 x2 y
      = (∑ k : Fin 32, x0 (ix2 (y 0) k) * x1 (ix2 k (y 1))) + x2 (ix2 (0 : Fin 1) (y 1)) :=
    (congrArg (k10_pay1 (F := Ideal) x0 x1 x2) (eq_ix2 y)).trans (pay_apply x0 x1 x2 (y 0) (y 1))
  rw [e]
  unfold Hetero.lin
  rw [h2]
  exact congrArg (· + B (ix2 (0 : Fin 1) (i 1))) (Finset.sum_congr rfl fun k _ => by rw [h0 k, h1 k])

/-- The printed index maps over the grid: the table's block and the result's block move together down the rows,
    the weight and bias blocks stay put, and no block moves along the columns. -/
theorem idx_facts : ∀ t : Fin cfg10.N, win10_0.index t (0 : Fin 2) = win10_3.index t (0 : Fin 2)
    ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (1 : Fin 2) = 0 :=
  (by decide +kernel : ∀ t : Fin grid10.N, _)

/-- Every one of the ten row blocks of the result is some point's. -/
theorem idx_onto : ∀ q : Fin 10, ∃ t : Fin cfg10.N, win10_3.index t = ![q.val, 0] :=
  (by decide +kernel : ∀ q : Fin 10, ∃ t : Fin grid10.N, win10_3.index t = ![q.val, 0])

section
variable (V : (c : Dev nD) → (b : Ref sig .tc) → Buf (Elt Ideal) ((c : Thread nD τ).loc b))

/-- What point `t` writes back is block `t` of the layer applied to the arrays as the call found them. -/
theorem flushed_eq (c : Dev nD) (t : Fin cfg10.N) :
    (dat10 V c).flushed 3 t = ((cfg10.win 3).blk t).view.read (Elt Ideal)
      (Hetero.lin (V c main_v206 : S10000x32.Idx → EReal) (V c main_v208 : S32x32.Idx → EReal) (V c main_v210 : S1x32.Idx → EReal)) := by
  show (cfg10.win 3).cut (grid10.coords t) ((dat10 V c).after 3 t) = _
  rw [after10_3]
  unfold out10_3
  rw [View.canon_unit_zero hz]
  simp only [View.ld_unit_zero (S := S1000x32) hz, View.ld_unit_zero (S := S32x32) hz, View.ld_unit_zero (S := S1x32) hz]
  obtain ⟨e0, e1, e2, e3, e4, e5, e6⟩ := idx_facts t
  funext j
  show k10_pay1 (F := Ideal) (iblk10 V c 0 t) (iblk10 V c 1 t) (iblk10 V c 2 t) j
    = Hetero.lin (V c main_v206 : S10000x32.Idx → EReal) (V c main_v208 : S32x32.Idx → EReal) (V c main_v210 : S1x32.Idx → EReal)
        (((cfg10.win 3).blk t).view.emb j)
  refine pay_block _ _ _ _ _ _ _ j (fun k => ?_) (fun k => ?_) ?_
  · show V c main_v206 (((cfg10.win 0).blk t).view.emb (ix2 (j 0) k)) = V c main_v206 (ix2 ((((cfg10.win 3).blk t).view.emb j) 0) k)
    refine congrArg (V c main_v206) (funext fun a => Fin.ext ?_)
    match a with
    | ⟨0, _⟩ => show win10_0.index t (0 : Fin 2) * 1000 + 1 * (j 0).val = win10_3.index t (0 : Fin 2) * 1000 + 1 * (j 0).val; omega
    | ⟨1, _⟩ => show win10_0.index t (1 : Fin 2) * 32 + 1 * k.val = k.val; omega
  · show V c main_v208 (((cfg10.win 1).blk t).view.emb (ix2 k (j 1))) = V c main_v208 (ix2 k ((((cfg10.win 3).blk t).view.emb j) 1))
    refine congrArg (V c main_v208) (funext fun a => Fin.ext ?_)
    match a with
    | ⟨0, _⟩ => show win10_1.index t (0 : Fin 2) * 32 + 1 * k.val = k.val; omega
    | ⟨1, _⟩ => show win10_1.index t (1 : Fin 2) * 32 + 1 * (j 1).val = win10_3.index t (1 : Fin 2) * 32 + 1 * (j 1).val; omega
  · show V c main_v210 (((cfg10.win 2).blk t).view.emb (ix2 (0 : Fin 1) (j 1))) = V c main_v210 (ix2 (0 : Fin 1) ((((cfg10.win 3).blk t).view.emb j) 1))
    refine congrArg (V c main_v210) (funext fun a => Fin.ext ?_)
    match a with
    | ⟨0, _⟩ => show win10_2.index t (0 : Fin 2) * 1 + 1 * 0 = 0; omega
    | ⟨1, _⟩ => show win10_2.index t (1 : Fin 2) * 32 + 1 * (j 1).val = win10_3.index t (1 : Fin 2) * 32 + 1 * (j 1).val; omega

/-- An index of the result is in point `t`'s block iff each coordinate is in the block's range on its axis. -/
theorem mem_blk (t : Fin cfg10.N) (i : S10000x32.Idx) :
    i ∈ ((cfg10.win 3).blk t).view.set ↔ ∀ a : Fin 2, win10_3.index t a * S1000x32.size a ≤ (i a).val
      ∧ (i a).val < win10_3.index t a * S1000x32.size a + S1000x32.size a := by
  show i ∈ ((View.whole main_v211).slice (win10_3.rect t)).set ↔ _
  rw [View.set_slice_whole, Rect.mem_set_unit]
  exact Iff.rfl

/-- Row `r` of the result lies in the block numbered `r / 1000`: the blocks tile the array. -/
theorem cover (i : S10000x32.Idx) :
    ∃ t : Fin cfg10.N, (cfg10.win 3).flush t = true ∧ i ∈ ((cfg10.win 3).blk t).view.set := by
  have hi0 : (i 0).val < 10000 := (i 0).isLt
  have hi1 : (i 1).val < 32 := (i 1).isLt
  obtain ⟨t, ht⟩ := idx_onto ⟨(i 0).val / 1000, by omega⟩
  have q0 : win10_3.index t (0 : Fin 2) = (i 0).val / 1000 := congrFun ht 0
  have q1 : win10_3.index t (1 : Fin 2) = 0 := congrFun ht 1
  refine ⟨t, flush10_3 t, ?_⟩
  rw [mem_blk]
  intro a
  match a with
  | ⟨0, _⟩ => show win10_3.index t (0 : Fin 2) * 1000 ≤ (i 0).val ∧ (i 0).val < win10_3.index t (0 : Fin 2) * 1000 + 1000; omega
  | ⟨1, _⟩ => show win10_3.index t (1 : Fin 2) * 32 ≤ (i 1).val ∧ (i 1).val < win10_3.index t (1 : Fin 2) * 32 + 32; omega

/-- The result array after the call is the layer of the three input arrays as the call found them. -/
theorem arr_eq (c : Dev nD) :
    (dat10 V c).arrAt 3 cfg10.N
      = Hetero.lin (V c main_v206 : S10000x32.Idx → EReal) (V c main_v208 : S32x32.Idx → EReal) (V c main_v210 : S1x32.Idx → EReal) :=
  (dat10 V c).arrAt_eq_of_cover 3 _ (fun t _ => flushed_eq V c t) cover

end

end Cert.KernelIdeal.Lin10

end
-- ==== Proof.Score11.lean ====
/-
  The last Pallas call of the program is the score matrix of the two final node tables, 400 rows of the drug
  table at a time.  At grid point `t` the body sees rows `400·t … 400·t + 399` of the first table (32 columns) and
  the whole second table (10000 × 32); it transposes the second table and multiplies, so its entry `(r, c)` is the
  inner product of row `r` of the block with row `c` of the second table.  The 25 output blocks tile the
  10000 × 10000 result, so after the call the result array is `Hetero.score` of the two tables as the call found
  them: row `r` of the result lies in the block numbered `r / 400`.
-/
import proofs.«165804_j39522289058325_1_alg».proof.Proof.Gen.KernelIdeal.Frame
import proofs.«165804_j39522289058325_1_alg».proof.Proof.Spec

set_option maxRecDepth 16384

noncomputable section

namespace Cert.KernelIdeal.Score11

open Cert.KernelIdeal Cert.KernelIdeal.Gen Idealize.ShloMosaic Idealize.ShloMosaic.TcCoe Idealize.ShloMosaic.ValueIdx
open Idealize.SL.Sem
open Idealize.ShloMosaic.Pipeline (Dat)

theorem hz : (![0, 0] : Fin 2 → Nat) = fun _ => 0 := funext fun a => by fin_cases a <;> rfl

/-- The body's value at row `r`, column `c` of its block: the casts are the identity on the extended reals, the
    transposed table read at `(k, c)` is the table at `(c, k)`, and the product into the zero accumulator is the
    sum over the 32 features. -/
theorem pay_apply (x0 : Vec Ideal S400x32 .f32) (x1 : Vec Ideal S10000x32 .f32) (r : Fin 400) (c : Fin 10000) :
    k11_pay1 (F := Ideal) x0 x1 (ix2 r c) = ∑ k : Fin 32, x0 (ix2 r k) * x1 (ix2 c k) := by
  unfold k11_pay1
  simp only [shapeCast_self]
  refine (matmul_zero_rows dot_S400x32_S32x10000_S400x10000_1_0_0_1_n_n none rfl rfl (fun _ _ => rfl) (fun _ _ => rfl)
    (fun _ _ => rfl) (fun _ _ => rfl) (truncf .bf16 x0 bitsLt_bf16_f32)
    (transpose S32x10000 [1, 0] (truncf .bf16 x1 bitsLt_bf16_f32) transposes_S10000x32_p1_0_S32x10000) r c).trans ?_
  refine Finset.sum_congr rfl fun k _ => ?_
  rw [transpose_ix2_apply]
  rfl

/-- A block's value at an entry is the score at the array entry it stands for, once the block's row and the second
    table's row are the arrays'. -/
theorem pay_block (A : S10000x32.Idx → EReal) (B : S10000x32.Idx → EReal)
    (x0 : Vec Ideal S400x32 .f32) (x1 : Vec Ideal S10000x32 .f32) (i : S10000x10000.Idx) (y : S400x10000.Idx)
    (h0 : ∀ k : Fin 32, x0 (ix2 (y 0) k) = A (ix2 (i 0) k))
    (h1 : ∀ k : Fin 32, x1 (ix2 (y 1) k) = B (ix2 (i 1) k)) :
    k11_pay1 (F := Ideal) x0 x1 y = Hetero.score A B i := by
  have e : k11_pay1 (F := Ideal) x0 x1 y = ∑ k : Fin 32, x0 (ix2 (y 0) k) * x1 (ix2 (y 1) k) :=
    (congrArg (k11_pay1 (F := Ideal) x0 x1) (eq_ix2 y)).trans (pay_apply x0 x1 (y 0) (y 1))
  rw [e]
  unfold Hetero.score
  exact Finset.sum_congr rfl fun k _ => by rw [h0 k, h1 k]

/-- The printed index maps over the grid: the first table's block and the result's block move together down the
    rows, the second table's block stays put, and no block moves along the columns. -/
theorem idx_facts : ∀ t : Fin cfg11.N, win11_0.index t (0 : Fin 2) = win11_2.index t (0 : Fin 2)
    ∧ win11_0.index t (1 : Fin 2) = 0
    ∧ win11_1.index t (0 : Fin 2) = 0 ∧ win11_1.index t (1 : Fin 2) = 0
    ∧ win11_2.index t (1 : Fin 2) = 0 :=
  (by decide +kernel : ∀ t : Fin grid11.N, _)

/-- Every one of the 25 row blocks of the result is some point's. -/
theorem idx_onto : ∀ q : Fin 25, ∃ t : Fin cfg11.N, win11_2.index t = ![q.val, 0] :=
  (by decide +kernel : ∀ q : Fin 25, ∃ t : Fin grid11.N, win11_2.index t = ![q.val, 0])

section
variable (V : (c : Dev nD) → (b : Ref sig .tc) → Buf (Elt Ideal) ((c : Thread nD τ).loc b))

/-- What point `t` writes back is block `t` of the score matrix of the two tables as the call found them. -/
theorem flushed_eq (c : Dev nD) (t : Fin cfg11.N) :
    (dat11 V c).flushed 2 t = ((cfg11.win 2).blk t).view.read (Elt Ideal)
      (Hetero.score (V c main_v211 : S10000x32.Idx → EReal) (V c main_v207 : S10000x32.Idx → EReal)) := by
  show (cfg11.win 2).cut (grid11.coords t) ((dat11 V c).after 2 t) = _
  rw [after11_2]
  unfold out11_2
  rw [View.canon_unit_zero hz]
  simp only [View.ld_unit_zero (S := S400x32) hz, View.ld_unit_zero (S := S10000x32) hz]
  obtain ⟨e0, e1, e2, e3, e4⟩ := idx_facts t
  funext j
  show k11_pay1 (F := Ideal) (iblk11 V c 0 t) (iblk11 V c 1 t) j
    = Hetero.score (V c main_v211 : S10000x32.Idx → EReal) (V c main_v207 : S10000x32.Idx → EReal)
        (((cfg11.win 2).blk t).view.emb j)
  refine pay_block _ _ _ _ _ j (fun k => ?_) (fun k => ?_)
  · show V c main_v211 (((cfg11.win 0).blk t).view.emb (ix2 (j 0) k)) = V c main_v211 (ix2 ((((cfg11.win 2).blk t).view.emb j) 0) k)
    refine congrArg (V c main_v211) (funext fun a => Fin.ext ?_)
    match a with
    | ⟨0, _⟩ => show win11_0.index t (0 : Fin 2) * 400 + 1 * (j 0).val = win11_2.index t (0 : Fin 2) * 400 + 1 * (j 0).val; omega
    | ⟨1, _⟩ => show win11_0.index t (1 : Fin 2) * 32 + 1 * k.val = k.val; omega
  · show V c main_v207 (((cfg11.win 1).blk t).view.emb (ix2 (j 1) k)) = V c main_v207 (ix2 ((((cfg11.win 2).blk t).view.emb j) 1) k)
    refine congrArg (V c main_v207) (funext fun a => Fin.ext ?_)
    match a with
    | ⟨0, _⟩ => show win11_1.index t (0 : Fin 2) * 10000 + 1 * (j 1).val = win11_2.index t (1 : Fin 2) * 10000 + 1 * (j 1).val; omega
    | ⟨1, _⟩ => show win11_1.index t (1 : Fin 2) * 32 + 1 * k.val = k.val; omega

/-- An index of the result is in point `t`'s block iff each coordinate is in the block's range on its axis. -/
theorem mem_blk (t : Fin cfg11.N) (i : S10000x10000.Idx) :
    i ∈ ((cfg11.win 2).blk t).view.set ↔ ∀ a : Fin 2, win11_2.index t a * S400x10000.size a ≤ (i a).val
      ∧ (i a).val < win11_2.index t a * S400x10000.size a + S400x10000.size a := by
  show i ∈ ((View.whole main_v212).slice (win11_2.rect t)).set ↔ _
  rw [View.set_slice_whole, Rect.mem_set_unit]
  exact Iff.rfl

/-- Row `r` of the result lies in the block numbered `r / 400`: the blocks tile the array. -/
theorem cover (i : S10000x10000.Idx) :
    ∃ t : Fin cfg11.N, (cfg11.win 2).flush t = true ∧ i ∈ ((cfg11.win 2).blk t).view.set := by
  have hi0 : (i 0).val < 10000 := (i 0).isLt
  have hi1 : (i 1).val < 10000 := (i 1).isLt
  obtain ⟨t, ht⟩ := idx_onto ⟨(i 0).val / 400, by omega⟩
  have q0 : win11_2.index t (0 : Fin 2) = (i 0).val / 400 := congrFun ht 0
  have q1 : win11_2.index t (1 : Fin 2) = 0 := congrFun ht 1
  refine ⟨t, flush11_2 t, ?_⟩
  rw [mem_blk]
  intro a
  match a with
  | ⟨0, _⟩ => show win11_2.index t (0 : Fin 2) * 400 ≤ (i 0).val ∧ (i 0).val < win11_2.index t (0 : Fin 2) * 400 + 400; omega
  | ⟨1, _⟩ => show win11_2.index t (1 : Fin 2) * 10000 ≤ (i 1).val ∧ (i 1).val < win11_2.index t (1 : Fin 2) * 10000 + 10000; omega

/-- The result array after the call is the score matrix of the two tables as the call found them. -/
theorem arr_eq (c : Dev nD) :
    (dat11 V c).arrAt 2 cfg11.N
      = Hetero.score (V c main_v211 : S10000x32.Idx → EReal) (V c main_v207 : S10000x32.Idx → EReal) :=
  (dat11 V c).arrAt_eq_of_cover 2 _ (fun t _ => flushed_eq V c t) cover

end

end Cert.KernelIdeal.Score11

end
-- ==== Proof.WalkE.lean ====
/-
  The last two Pallas calls.  The final projection of the drug table has no bias: its bias row is zero and adds
  nothing, so the call's result is the host's bare product.  The score call's result is `Hetero.score` of the
  projected drug table and the disease table, which is the host's product with the disease table transposed: the
  reference's result.
-/
import proofs.«165804_j39522289058325_1_alg».proof.Proof.WalkD1
import proofs.«165804_j39522289058325_1_alg».proof.Proof.WalkD2
import proofs.«165804_j39522289058325_1_alg».proof.Proof.Lin10
import proofs.«165804_j39522289058325_1_alg».proof.Proof.Score11

set_option maxRecDepth 16384
set_option maxHeartbeats 16000000

noncomputable section

namespace Cert.KernelIdeal.Walk

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg) (c : Dev nD)

/-- Pallas call 10's result is the reference's `%v221`. -/
theorem b_v211 : W44 m ρ c (Proc.devRef .tc main_v211) = Cert.ReferenceIdeal.ReadP.val_main_v221 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg25)) (m ((c : Thread nD τ).loc main_arg26)) := by
  have hx : (V43 m ρ c main_v206 : S10000x32.Idx → EReal) = Cert.ReferenceIdeal.ReadP.val_main_v218 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg25)) (m ((c : Thread nD τ).loc main_arg26)) := by
    show W43 m ρ c (Proc.devRef .tc main_v206) = _
    exact ((Keep.keep42 m ρ c main_v206 (by decide)).trans (Keep.keep41 m ρ c main_v206 (by decide))).trans (b_v206 m ρ c)
  have hw : (V43 m ρ c main_v208 : S32x32.Idx → EReal) = transpose S32x32 [1, 0] (m ((c : Thread nD τ).loc main_arg12)) transposes_S32x32_S32x32_1_0 := by
    show StableHlo.after hostOps10_11 (W42 m ρ c) (Proc.devRef .tc main_v208) = _
    after_results
    all_goals exact congrArg (fun x => transpose S32x32 [1, 0] x transposes_S32x32_S32x32_1_0) (((Keep.keep41 m ρ c main_arg12 (by decide)).trans ((Keep.keep40 m ρ c main_arg12 (by decide)).trans ((Keep.keep39 m ρ c main_arg12 (by decide)).trans ((Keep.keep38 m ρ c main_arg12 (by decide)).trans ((Keep.keep37 m ρ c main_arg12 (by decide)).trans ((Keep.keep36 m ρ c main_arg12 (by decide)).trans ((Keep.keep35 m ρ c main_arg12 (by decide)).trans ((Keep.keep34 m ρ c main_arg12 (by decide)).trans ((Keep.keep33 m ρ c main_arg12 (by decide)).trans ((Keep.keep32 m ρ c main_arg12 (by decide)).trans ((Keep.keep31 m ρ c main_arg12 (by decide)).trans ((Keep.keep30 m ρ c main_arg12 (by decide)).trans ((Keep.keep29 m ρ c main_arg12 (by decide)).trans ((Keep.keep28 m ρ c main_arg12 (by decide)).trans ((Keep.keep27 m ρ c main_arg12 (by decide)).trans ((Keep.keep26 m ρ c main_arg12 (by decide)).trans ((Keep.keep25 m ρ c main_arg12 (by decide)).trans ((Keep.keep24 m ρ c main_arg12 (by decide)).trans ((Keep.keep23 m ρ c main_arg12 (by decide)).trans ((Keep.keep22 m ρ c main_arg12 (by decide)).trans ((Keep.keep21 m ρ c main_arg12 (by decide)).trans ((Keep.keep20 m ρ c main_arg12 (by decide)).trans ((Keep.keep19 m ρ c main_arg12 (by decide)).trans ((Keep.keep18 m ρ c main_arg12 (by decide)).trans ((Keep.keep17 m ρ c main_arg12 (by decide)).trans ((Keep.keep16 m ρ c main_arg12 (by decide)).trans ((Keep.keep15 m ρ c main_arg12 (by decide)).trans ((Keep.keep14 m ρ c main_arg12 (by decide)).trans ((Keep.keep13 m ρ c main_arg12 (by decide)).trans ((Keep.keep12 m ρ c main_arg12 (by decide)).trans ((Keep.keep11 m ρ c main_arg12 (by decide)).trans ((Keep.keep10 m ρ c main_arg12 (by decide)).trans ((Keep.keep9 m ρ c main_arg12 (by decide)).trans ((Keep.keep8 m ρ c main_arg12 (by decide)).trans ((Keep.keep7 m ρ c main_arg12 (by decide)).trans ((Keep.keep6 m ρ c main_arg12 (by decide)).trans ((Keep.keep5 m ρ c main_arg12 (by decide)).trans ((Keep.keep4 m ρ c main_arg12 (by decide)).trans ((Keep.keep3 m ρ c main_arg12 (by decide)).trans ((Keep.keep2 m ρ c main_arg12 (by decide)).trans ((Keep.keep1 m ρ c main_arg12 (by decide)).trans (Keep.keep0 m ρ c main_arg12 (by decide))))))))))))))))))))))))))))))))))))))))))).trans rfl)
  have hz : ∀ i, (V43 m ρ c main_v210 : S1x32.Idx → EReal) i = (0 : EReal) := by
    have e : (V43 m ρ c main_v210 : S1x32.Idx → EReal)
        = shapeCast S1x32 (broadcastInDim S32 ![] bcast_S_S32 (constant (F := Ideal) S_ .f32 0x00000000#32)) shapeCasts_S32_S1x32 := by
      show StableHlo.after hostOps10_11 (W42 m ρ c) (Proc.devRef .tc main_v210) = _
      after_results
      all_goals rfl
    intro i
    rw [e]
    exact Hetero.zero_row_apply _ _ i
  refine (W44_arr m ρ c 3).trans ((Lin10.arr_eq (V43 m ρ) c).trans ?_)
  rw [hx, hw]
  exact Hetero.lin_zero_eq_host Cert.ReferenceIdeal.dot_S10000x32_S32x32_S10000x32_1_0_0_1_n_n rfl rfl (fun _ _ => rfl) (fun _ _ => rfl)
    (fun _ _ => rfl) (fun _ _ => rfl) _ _ _ hz

/-- The last call's result is the reference's result. -/
theorem b_v212 : W45 m ρ c (Proc.devRef .tc main_v212) = Cert.ReferenceIdeal.ReadP.val_main_v223 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) := by
  have ha : (V44 m ρ c main_v211 : S10000x32.Idx → EReal) = Cert.ReferenceIdeal.ReadP.val_main_v221 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg25)) (m ((c : Thread nD τ).loc main_arg26)) := by
    show W44 m ρ c (Proc.devRef .tc main_v211) = _
    exact b_v211 m ρ c
  have hb : (V44 m ρ c main_v207 : S10000x32.Idx → EReal) = Cert.ReferenceIdeal.ReadP.val_main_v219 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg23)) (m ((c : Thread nD τ).loc main_arg24)) (m ((c : Thread nD τ).loc main_arg27)) (m ((c : Thread nD τ).loc main_arg28)) := by
    show W44 m ρ c (Proc.devRef .tc main_v207) = _
    exact ((Keep.keep43 m ρ c main_v207 (by decide)).trans (Keep.keep42 m ρ c main_v207 (by decide))).trans (b_v207 m ρ c)
  refine (W45_arr m ρ c 2).trans ((Score11.arr_eq (V44 m ρ) c).trans ?_)
  rw [ha, hb]
  exact Hetero.score_eq_host Cert.ReferenceIdeal.dot_S10000x32_S32x10000_S10000x10000_1_0_0_1_n_n rfl rfl (fun _ _ => rfl)
    (fun _ _ => rfl) (fun _ _ => rfl) (fun _ _ => rfl) _ _ _

end Cert.KernelIdeal.Walk

end
-- ==== Proof.RefResult.lean ====
/-
  The reference's run ends with its result buffer at one long composed term of the arguments' launch contents;
  the reference read one operation at a time names the same value stage by stage, ending in `val_main_v223`.
  The two are one term: unfolding every stage's definition gives the composed term back.
-/
import proofs.«165804_j39522289058325_1_alg».proof.Proof.RunP
import proofs.«165804_j39522289058325_1_alg».proof.Proof.ReadP

set_option maxRecDepth 16384

noncomputable section

namespace Cert.ReferenceIdeal.RefResult

open Cert.ReferenceIdeal Cert.ReferenceIdeal.Gen Idealize.ShloMosaic Idealize.ShloMosaic.TcCoe Idealize.SL.Sem

variable {F : FTy → Type} [FloatOps F]

/-- The run's result term is the last stage's value. -/
theorem res_eq (m : (ℓ : Loc nD τ sig) → Buf (Elt F) ℓ) (c : Dev nD) :
    Cert.ReferenceIdeal.ValueP.res_main_v223 m c = Cert.ReferenceIdeal.ReadP.val_main_v223 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) := by
  unfold Cert.ReferenceIdeal.ValueP.res_main_v223; rfl

end Cert.ReferenceIdeal.RefResult

end
-- ==== Proof.lean ====
/-
  A two-layer heterogeneous graph network over drug and disease nodes, scored against each other.

  Both programs compute the same network.  Each node type is embedded by a linear map of its features (no bias);
  each of two layers applies, per edge type, a linear map with bias to the source table, averages the messages
  arriving at each destination node (a gather by source index, a sum by destination index, divided by the number of
  incoming edges where there are any and zero where there are none), adds the two edge types that end in the same
  node type, and rectifies; finally the drug table is mapped linearly once more and multiplied against the
  transposed disease table, giving the 10000 × 10000 score matrix.

  The kernel program computes the twelve dense products in Pallas calls — eleven linear layers taken 1000 rows at a
  time, with the operands cast to a narrower float format before the product, and the score matrix taken 400 rows
  at a time — and everything between them with the same host operations as the reference.  On the extended reals a
  change of float format is the identity, a product into a zero accumulator is the plain sum over the contraction, a
  row's result depends on that row only (so the blocks of rows tile the result), and a bias row of zeros adds
  nothing (`y + 0 = y` for every extended real, infinite ones included).  No law used needs the inputs to be
  finite: the precondition is never opened.

  Proof/Spec.lean states a linear layer and the score matrix index by index; Proof/Lin0 … Lin10 and Proof/Score11
  show that each Pallas call leaves exactly that function of the arrays it found; Proof/LinHost.lean shows the host's
  spelling is the same function; Proof/Keep.lean says which buffers each piece of the program leaves alone;
  Proof/RunAll.lean runs the kernel program with every buffer named at the last boundary; Proof/WalkA … WalkE go
  through the program in order and identify each buffer that matters with the reference's value for that stage;
  Proof/RefResult.lean identifies the reference run's result term with its last stage.  Here the five claims are
  assembled: the three frames, the (empty) idealization ledger, and the equality of the two results.
-/
import proofs.«165804_j39522289058325_1_alg».proof.Defs
import proofs.«165804_j39522289058325_1_alg».proof.Proof.Gen.Kernel
import proofs.«165804_j39522289058325_1_alg».proof.Proof.Gen.Kernel.Skeleton
import proofs.«165804_j39522289058325_1_alg».proof.Proof.Gen.Kernel.Launch
import proofs.«165804_j39522289058325_1_alg».proof.Proof.Gen.Kernel.Points
import proofs.«165804_j39522289058325_1_alg».proof.Proof.Gen.Kernel.Frame
import proofs.«165804_j39522289058325_1_alg».proof.Proof.Gen.KernelIdeal
import proofs.«165804_j39522289058325_1_alg».proof.Proof.Gen.KernelIdeal.Skeleton
import proofs.«165804_j39522289058325_1_alg».proof.Proof.Gen.KernelIdeal.Launch
import proofs.«165804_j39522289058325_1_alg».proof.Proof.Gen.KernelIdeal.Points
import proofs.«165804_j39522289058325_1_alg».proof.Proof.Gen.KernelIdeal.Frame
import proofs.«165804_j39522289058325_1_alg».proof.Proof.Gen.ReferenceIdeal
import proofs.«165804_j39522289058325_1_alg».proof.Proof.Gen.Pre_finite_inputs
import proofs.«165804_j39522289058325_1_alg».proof.Proof.RunAll
import proofs.«165804_j39522289058325_1_alg».proof.Proof.WalkE
import proofs.«165804_j39522289058325_1_alg».proof.Proof.RefResult
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs to the end without a fault and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its run, with the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization pass rewrote nothing in this kernel: there is nothing to preserve. -/
theorem preserves : Cert.preserves_Kernel_KernelIdeal := trivial

/-- From memories that agree on the arguments both idealized programs end with the score matrix
    `(relu h_drug · W_finalᵀ) · (relu h_dis)ᵀ` of the same two-layer network: the kernel's result buffer holds, at
    the last boundary, the reference's last stage of the kernel's own arguments, and the reference's arguments are
    the kernel's. -/
theorem algebraic : Cert.algebraic_KernelIdeal_ReferenceIdeal := by
  intro m ρ m' ρ' _ hagree
  refine ⟨fun c => Cert.KernelIdeal.Gen.W45 m ρ c (Proc.devRef .tc Cert.KernelIdeal.main_v212), ?_, ?_⟩
  · exact (θ_run Cert.KernelIdeal.defs _ _).mono (fun r h c =>
      ⟨h c _ (Cert.KernelIdeal.Gen.mem_uc Cert.KernelIdeal.main_v212 (by decide)),
       (h c _ (Cert.KernelIdeal.Gen.mem_uc Cert.KernelIdeal.main_arg0 (by decide))).trans (Cert.KernelIdeal.Gen.W45_main_arg0 m ρ c),
       (h c _ (Cert.KernelIdeal.Gen.mem_uc Cert.KernelIdeal.main_arg1 (by decide))).trans (Cert.KernelIdeal.Gen.W45_main_arg1 m ρ c),
       (h c _ (Cert.KernelIdeal.Gen.mem_uc Cert.KernelIdeal.main_arg2 (by decide))).trans (Cert.KernelIdeal.Gen.W45_main_arg2 m ρ c),
       (h c _ (Cert.KernelIdeal.Gen.mem_uc Cert.KernelIdeal.main_arg3 (by decide))).trans (Cert.KernelIdeal.Gen.W45_main_arg3 m ρ c),
       (h c _ (Cert.KernelIdeal.Gen.mem_uc Cert.KernelIdeal.main_arg4 (by decide))).trans (Cert.KernelIdeal.Gen.W45_main_arg4 m ρ c),
       (h c _ (Cert.KernelIdeal.Gen.mem_uc Cert.KernelIdeal.main_arg5 (by decide))).trans (Cert.KernelIdeal.Gen.W45_main_arg5 m ρ c),
       (h c _ (Cert.KernelIdeal.Gen.mem_uc Cert.KernelIdeal.main_arg6 (by decide))).trans (Cert.KernelIdeal.Gen.W45_main_arg6 m ρ c),
       (h c _ (Cert.KernelIdeal.Gen.mem_uc Cert.KernelIdeal.main_arg7 (by decide))).trans (Cert.KernelIdeal.Gen.W45_main_arg7 m ρ c),
       (h c _ (Cert.KernelIdeal.Gen.mem_uc Cert.KernelIdeal.main_arg8 (by decide))).trans (Cert.KernelIdeal.Gen.W45_main_arg8 m ρ c),
       (h c _ (Cert.KernelIdeal.Gen.mem_uc Cert.KernelIdeal.main_arg9 (by decide))).trans (Cert.KernelIdeal.Gen.W45_main_arg9 m ρ c),
       (h c _ (Cert.KernelIdeal.Gen.mem_uc Cert.KernelIdeal.main_arg10 (by decide))).trans (Cert.KernelIdeal.Gen.W45_main_arg10 m ρ c),
       (h c _ (Cert.KernelIdeal.Gen.mem_uc Cert.KernelIdeal.main_arg11 (by decide))).trans (Cert.KernelIdeal.Gen.W45_main_arg11 m ρ c),
       (h c _ (Cert.KernelIdeal.Gen.mem_uc Cert.KernelIdeal.main_arg12 (by decide))).trans (Cert.KernelIdeal.Gen.W45_main_arg12 m ρ c),
       (h c _ (Cert.KernelIdeal.Gen.mem_uc Cert.KernelIdeal.main_arg13 (by decide))).trans (Cert.KernelIdeal.Gen.W45_main_arg13 m ρ c),
       (h c _ (Cert.KernelIdeal.Gen.mem_uc Cert.KernelIdeal.main_arg14 (by decide))).trans (Cert.KernelIdeal.Gen.W45_main_arg14 m ρ c),
       (h c _ (Cert.KernelIdeal.Gen.mem_uc Cert.KernelIdeal.main_arg15 (by decide))).trans (Cert.KernelIdeal.Gen.W45_main_arg15 m ρ c),
       (h c _ (Cert.KernelIdeal.Gen.mem_uc Cert.KernelIdeal.main_arg16 (by decide))).trans (Cert.KernelIdeal.Gen.W45_main_arg16 m ρ c),
       (h c _ (Cert.KernelIdeal.Gen.mem_uc Cert.KernelIdeal.main_arg17 (by decide))).trans (Cert.KernelIdeal.Gen.W45_main_arg17 m ρ c),
       (h c _ (Cert.KernelIdeal.Gen.mem_uc Cert.KernelIdeal.main_arg18 (by decide))).trans (Cert.KernelIdeal.Gen.W45_main_arg18 m ρ c),
       (h c _ (Cert.KernelIdeal.Gen.mem_uc Cert.KernelIdeal.main_arg19 (by decide))).trans (Cert.KernelIdeal.Gen.W45_main_arg19 m ρ c),
       (h c _ (Cert.KernelIdeal.Gen.mem_uc Cert.KernelIdeal.main_arg20 (by decide))).trans (Cert.KernelIdeal.Gen.W45_main_arg20 m ρ c),
       (h c _ (Cert.KernelIdeal.Gen.mem_uc Cert.KernelIdeal.main_arg21 (by decide))).trans (Cert.KernelIdeal.Gen.W45_main_arg21 m ρ c),
       (h c _ (Cert.KernelIdeal.Gen.mem_uc Cert.KernelIdeal.main_arg22 (by decide))).trans (Cert.KernelIdeal.Gen.W45_main_arg22 m ρ c),
       (h c _ (Cert.KernelIdeal.Gen.mem_uc Cert.KernelIdeal.main_arg23 (by decide))).trans (Cert.KernelIdeal.Gen.W45_main_arg23 m ρ c),
       (h c _ (Cert.KernelIdeal.Gen.mem_uc Cert.KernelIdeal.main_arg24 (by decide))).trans (Cert.KernelIdeal.Gen.W45_main_arg24 m ρ c),
       (h c _ (Cert.KernelIdeal.Gen.mem_uc Cert.KernelIdeal.main_arg25 (by decide))).trans (Cert.KernelIdeal.Gen.W45_main_arg25 m ρ c),
       (h c _ (Cert.KernelIdeal.Gen.mem_uc Cert.KernelIdeal.main_arg26 (by decide))).trans (Cert.KernelIdeal.Gen.W45_main_arg26 m ρ c),
       (h c _ (Cert.KernelIdeal.Gen.mem_uc Cert.KernelIdeal.main_arg27 (by decide))).trans (Cert.KernelIdeal.Gen.W45_main_arg27 m ρ c),
       (h c _ (Cert.KernelIdeal.Gen.mem_uc Cert.KernelIdeal.main_arg28 (by decide))).trans (Cert.KernelIdeal.Gen.W45_main_arg28 m ρ c)⟩)
      (Cert.KernelIdeal.RunAll.run_all m ρ)
  · refine (θ_run Cert.ReferenceIdeal.defs _ _).mono (fun _ h c => ⟨(h c).1.trans ?_, (h c).2⟩)
      (Cert.ReferenceIdeal.ValueP.run (F := Ideal) m' ρ')
    obtain ⟨h0, h1, h2, h3, h4, h5, h6, h7, h8, h9, h10, h11, h12, h13, h14, h15, h16, h17, h18, h19, h20, h21, h22, h23, h24, h25, h26, h27, h28⟩ := hagree c
    rw [Cert.ReferenceIdeal.RefResult.res_eq, h0, h1, h2, h3, h4, h5, h6, h7, h8, h9, h10, h11, h12, h13, h14, h15, h16, h17, h18, h19, h20, h21, h22, h23, h24, h25, h26, h27, h28]
    exact (Cert.KernelIdeal.Walk.b_v212 m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
